-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v114_1)) (v1 : (c : Dev Cert.KernelIdeal.nD) → Buf (Elt Ideal) ((c.tc : Thread Cert.KernelIdeal.nD Cert.KernelIdeal.τ).loc Cert.KernelIdeal.main_v115_1)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114_1) = v0 c
          ∧ r.2.mem ((c.tc : Thread Cert.KernelIdeal.nD Cert.KernelIdeal.τ).loc Cert.KernelIdeal.main_v115_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S4x64 : Shape := ⟨2, ![4, 64]⟩
abbrev S9x64 : Shape := ⟨2, ![9, 64]⟩
abbrev S4x9 : Shape := ⟨2, ![4, 9]⟩
abbrev S1000000 : Shape := ⟨1, ![1000000]⟩
abbrev S2000000 : Shape := ⟨1, ![2000000]⟩
abbrev S_ : Shape := ⟨0, ![]⟩
abbrev S2000000x1 : Shape := ⟨2, ![2000000, 1]⟩
abbrev S4 : Shape := ⟨1, ![4]⟩
abbrev S4x1 : Shape := ⟨2, ![4, 1]⟩
abbrev S2000000x64 : Shape := ⟨2, ![2000000, 64]⟩
abbrev S200000x1 : Shape := ⟨2, ![200000, 1]⟩
abbrev S64x4 : Shape := ⟨2, ![64, 4]⟩
abbrev S100000x4 : Shape := ⟨2, ![100000, 4]⟩
abbrev S100000 : Shape := ⟨1, ![100000]⟩
abbrev S100000x1 : Shape := ⟨2, ![100000, 1]⟩
abbrev S1000000x1 : Shape := ⟨2, ![1000000, 1]⟩
abbrev S1000000x64 : Shape := ⟨2, ![1000000, 64]⟩

class Facts : Prop where
  bcast_S_S2000000x1 : S_.BroadcastsInDim S2000000x1 (![] : Fin 0 → Fin S2000000x1.rank)
  reducesTo_S4x9_S4_d1 : S4x9.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x9_0_1 : S4x1.BroadcastsInDim S4x9 (![0, 1] : Fin 2 → Fin S4x9.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  transposes_S4x64_S64x4_1_0 : S4x64.Transposes [1, 0] S64x4
  reducesTo_S100000x4_S100000_d1 : S100000x4.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  reducesTo_S200000x64_S_d0_1 : S200000x64.ReducesTo [0, 1] S_
  reducesTo_S100000x64_S_d0_1 : S100000x64.ReducesTo [0, 1] S_
  bcast_S_S4x64 : S_.BroadcastsInDim S4x64 (![] : Fin 0 → Fin S4x64.rank)
  reducesTo_S4x64_S_d0_1 : S4x64.ReducesTo [0, 1] S_
  bcast_S_S9x64 : S_.BroadcastsInDim S9x64 (![] : Fin 0 → Fin S9x64.rank)
  reducesTo_S9x64_S_d0_1 : S9x64.ReducesTo [0, 1] S_
  bcast_S_S4x9 : S_.BroadcastsInDim S4x9 (![] : Fin 0 → Fin S4x9.rank)
  reducesTo_S4x9_S_d0_1 : S4x9.ReducesTo [0, 1] S_
  reducesTo_S1000000_S_d0 : S1000000.ReducesTo [0] S_
  dot_S4x9_S9x64_S4x64_1_0_0_1_n_n_wf : DotDims.WF S4x9 S9x64 S4x64 [1] [0] [0] [1] [] []
  gather_S9x64_S2000000x1_S2000000x64_1_0_n_n_0_1_164_wf : GatherDims.WF S9x64 S2000000x1 S2000000x64 [1] [0] [] [0] [] 1 ![1, 64]
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  dot_S100000x64_S64x4_S100000x4_1_0_0_1_n_n_wf : DotDims.WF S100000x64 S64x4 S100000x4 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x4_S4x64_S100000x64_1_0_0_1_n_n_wf : DotDims.WF S100000x4 S4x64 S100000x64 [1] [0] [0] [1] [] []

variable [Facts]

def dot_S4x9_S9x64_S4x64_1_0_0_1_n_n : DotDims S4x9 S9x64 S4x64 where
  lhsContracting := [1]
  rhsContracting := [0]
  lhsNonContracting := [0]
  rhsNonContracting := [1]
  lhsBatch := []
  rhsBatch := []
  wf := dot_S4x9_S9x64_S4x64_1_0_0_1_n_n_wf
def gather_S9x64_S2000000x1_S2000000x64_1_0_n_n_0_1_164 : GatherDims S9x64 S2000000x1 S2000000x64 where
  offsetDims := [1]
  collapsedSliceDims := [0]
  operandBatchingDims := []
  startIndicesBatchingDims := []
  startIndexMap := [0]
  indexVectorDim := 1
  sliceSizes := ![1, 64]
  wf := gather_S9x64_S2000000x1_S2000000x64_1_0_n_n_0_1_164_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def fn_part9 {F : FTy → Type} [FloatOps F] (main_v71 : FVec F S_ .f32) (main_v76 : FVec F S_ .f32) (main_v137 : FVec F S_ .f32) (main_v140 : FVec F S_ .f32) (main_v164 : IVec S_ 1) (main_v167 : IVec S1000000 1) (main_c_45 : IVec S_ 1) : IVec S_ 1 :=
  let main_v168 : IVec S_ 1 := (fun x v => Host.reduce IntOp.andi x v reducesTo_S1000000_S_d0 h_S_) main_v167 main_c_45
  let main_v169 : IVec S_ 1 := andi main_v164 main_v168
  let main_cst_46 : FVec F S_ .f32 := constant S_ .f32 0x00000000#32
  let main_v170 : IVec S_ 1 := cmpf .une main_v71 main_cst_46
  let main_v171 : IVec S_ 1 := andi main_v169 main_v170
  let main_cst_47 : FVec F S_ .f32 := constant S_ .f32 0x00000000#32
  let main_v172 : IVec S_ 1 := cmpf .une main_v76 main_cst_47
  let main_v173 : IVec S_ 1 := andi main_v171 main_v172
  let main_cst_48 : FVec F S_ .f32 := constant S_ .f32 0x00000000#32
  let main_v174 : IVec S_ 1 := cmpf .une main_v137 main_cst_48
  let main_v175 : IVec S_ 1 := andi main_v173 main_v174
  let main_cst_49 : FVec F S_ .f32 := constant S_ .f32 0x00000000#32
  let main_v176 : IVec S_ 1 := cmpf .une main_v140 main_cst_49
  let main_v177 : IVec S_ 1 := andi main_v175 main_v176
  main_v177

def fn_part8 {F : FTy → Type} [FloatOps F] (main_arg3 : FVec F S9x64 .f32) (main_arg4 : FVec F S4x9 .f32) (main_arg5 : FVec F S1000000 .f32) (main_v71 : FVec F S_ .f32) (main_v76 : FVec F S_ .f32) (main_v137 : FVec F S_ .f32) (main_v140 : FVec F S_ .f32) (main_v149 : IVec S_ 1) (main_v150 : FVec F S4x64 .f32) (main_cst_38 : FVec F S_ .f32) : IVec S_ 1 :=
  let main_v151 : FVec F S4x64 .f32 := broadcastInDim S4x64 ![] bcast_S_S4x64 main_cst_38
  let main_v152 : IVec S4x64 1 := cmpf .olt main_v150 main_v151
  let main_c_39 : IVec S_ 1 := constantI S_ 1 1#1
  let main_v153 : IVec S_ 1 := (fun x v => Host.reduce IntOp.andi x v reducesTo_S4x64_S_d0_1 h_S_) main_v152 main_c_39
  let main_v154 : IVec S_ 1 := andi main_v149 main_v153
  let main_v155 : FVec F S9x64 .f32 := Host.absf main_arg3
  let main_cst_40 : FVec F S_ .f32 := constant S_ .f32 0x7F800000#32
  let main_v156 : FVec F S9x64 .f32 := broadcastInDim S9x64 ![] bcast_S_S9x64 main_cst_40
  let main_v157 : IVec S9x64 1 := cmpf .olt main_v155 main_v156
  let main_c_41 : IVec S_ 1 := constantI S_ 1 1#1
  let main_v158 : IVec S_ 1 := (fun x v => Host.reduce IntOp.andi x v reducesTo_S9x64_S_d0_1 h_S_) main_v157 main_c_41
  let main_v159 : IVec S_ 1 := andi main_v154 main_v158
  let main_v160 : FVec F S4x9 .f32 := Host.absf main_arg4
  let main_cst_42 : FVec F S_ .f32 := constant S_ .f32 0x7F800000#32
  let main_v161 : FVec F S4x9 .f32 := broadcastInDim S4x9 ![] bcast_S_S4x9 main_cst_42
  let main_v162 : IVec S4x9 1 := cmpf .olt main_v160 main_v161
  let main_c_43 : IVec S_ 1 := constantI S_ 1 1#1
  let main_v163 : IVec S_ 1 := (fun x v => Host.reduce IntOp.andi x v reducesTo_S4x9_S_d0_1 h_S_) main_v162 main_c_43
  let main_v164 : IVec S_ 1 := andi main_v159 main_v163
  let main_v165 : FVec F S1000000 .f32 := Host.absf main_arg5
  let main_cst_44 : FVec F S_ .f32 := constant S_ .f32 0x7F800000#32
  let main_v166 : FVec F S1000000 .f32 := broadcastInDim S1000000 ![] bcast_S_S1000000 main_cst_44
  let main_v167 : IVec S1000000 1 := cmpf .olt main_v165 main_v166
  let main_c_45 : IVec S_ 1 := constantI S_ 1 1#1
  fn_part9 (F := F) main_v71 main_v76 main_v137 main_v140 main_v164 main_v167 main_c_45

def fn_part7 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_v71 : FVec F S_ .f32) (main_v76 : FVec F S_ .f32) (main_v105 : FVec F S200000x64 .f32) (main_v131 : FVec F S100000x64 .f32) (main_v133 : FVec F S100000x64 .f32) : IVec S_ 1 :=
  let main_v134 : FVec F S100000x64 .f32 := addf main_v133 main_v131
  let main_v135 : FVec F S200000x64 .f32 := mulf main_v105 main_v105
  let main_cst_32 : FVec F S_ .f32 := constant S_ .f32 0x00000000#32
  let main_v136 : FVec F S_ .f32 := (fun x v => Host.reduceAdd x v reducesTo_S200000x64_S_d0_1 h_S_) main_v135 main_cst_32
  let main_v137 : FVec F S_ .f32 := Host.sqrt main_v136
  let main_v138 : FVec F S100000x64 .f32 := mulf main_v134 main_v134
  let main_cst_33 : FVec F S_ .f32 := constant S_ .f32 0x00000000#32
  let main_v139 : FVec F S_ .f32 := (fun x v => Host.reduceAdd x v reducesTo_S100000x64_S_d0_1 h_S_) main_v138 main_cst_33
  let main_v140 : FVec F S_ .f32 := Host.sqrt main_v139
  let main_v141 : FVec F S100000x64 .f32 := Host.absf main_arg0
  let main_cst_34 : FVec F S_ .f32 := constant S_ .f32 0x7F800000#32
  let main_v142 : FVec F S100000x64 .f32 := broadcastInDim S100000x64 ![] bcast_S_S100000x64 main_cst_34
  let main_v143 : IVec S100000x64 1 := cmpf .olt main_v141 main_v142
  let main_c_35 : IVec S_ 1 := constantI S_ 1 1#1
  let main_v144 : IVec S_ 1 := (fun x v => Host.reduce IntOp.andi x v reducesTo_S100000x64_S_d0_1 h_S_) main_v143 main_c_35
  let main_v145 : FVec F S200000x64 .f32 := Host.absf main_arg1
  let main_cst_36 : FVec F S_ .f32 := constant S_ .f32 0x7F800000#32
  let main_v146 : FVec F S200000x64 .f32 := broadcastInDim S200000x64 ![] bcast_S_S200000x64 main_cst_36
  let main_v147 : IVec S200000x64 1 := cmpf .olt main_v145 main_v146
  let main_c_37 : IVec S_ 1 := constantI S_ 1 1#1
  let main_v148 : IVec S_ 1 := (fun x v => Host.reduce IntOp.andi x v reducesTo_S200000x64_S_d0_1 h_S_) main_v147 main_c_37
  let main_v149 : IVec S_ 1 := andi main_v144 main_v148
  let main_v150 : FVec F S4x64 .f32 := Host.absf main_arg2
  let main_cst_38 : FVec F S_ .f32 := constant S_ .f32 0x7F800000#32
  fn_part8 (F := F) main_arg3 main_arg4 main_arg5 main_v71 main_v76 main_v137 main_v140 main_v149 main_v150 main_cst_38

def fn_part6 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg9 : IVec S1000000 32) (main_arg10 : IVec S1000000 32) (main_v12 : FVec F S4x64 .f32) (main_v71 : FVec F S_ .f32) (main_v73 : FVec F S200000x64 .f32) (main_v76 : FVec F S_ .f32) (main_v105 : FVec F S200000x64 .f32) (main_v113 : FVec F S100000x4 .f32) : IVec S_ 1 :=
  let main_v114 : FVec F S100000x4 .f32 := Host.exp main_v113
  let main_cst_28 : FVec F S_ .f32 := constant S_ .f32 0x00000000#32
  let main_v115 : FVec F S100000 .f32 := (fun x v => Host.reduceAdd x v reducesTo_S100000x4_S100000_d1 h_S_) main_v114 main_cst_28
  let main_v116 : FVec F S100000x1 .f32 := broadcastInDim S100000x1 ![0] bcast_S100000_S100000x1_0 main_v115
  let main_v117 : FVec F S100000x4 .f32 := broadcastInDim S100000x4 ![0, 1] bcast_S100000x1_S100000x4_0_1 main_v116
  let main_v118 : FVec F S100000x4 .f32 := Host.divf main_v114 main_v117
  let main_cst_29 : FVec F S_ .f32 := constant S_ .f32 0x00000000#32
  let main_v119 : FVec F S100000x64 .f32 := broadcastInDim S100000x64 ![] bcast_S_S100000x64 main_cst_29
  let main_v120 : IVec S1000000x1 32 := broadcastInDim S1000000x1 ![0] bcast_S1000000_S1000000x1_0 main_arg9
  let main_v121 : FVec F S1000000x1 .f32 := broadcastInDim S1000000x1 ![0] bcast_S1000000_S1000000x1_0 main_arg5
  let main_c_30 : IVec S_ 32 := constantI S_ 32 0#32
  let main_v122 : IVec S1000000 32 := broadcastInDim S1000000 ![] bcast_S_S1000000 main_c_30
  let main_v123 : IVec S1000000 1 := cmpi .slt main_arg10 main_v122
  let main_c_31 : IVec S_ 32 := constantI S_ 32 200000#32
  let main_v124 : IVec S1000000 32 := broadcastInDim S1000000 ![] bcast_S_S1000000 main_c_31
  let main_v125 : IVec S1000000 32 := addi main_arg10 main_v124
  let main_v126 : IVec S1000000 32 := select main_v123 main_v125 main_arg10
  let main_v127 : IVec S1000000x1 32 := broadcastInDim S1000000x1 ![0] bcast_S1000000_S1000000x1_0 main_v126
  let main_v128 : FVec F S1000000x64 .f32 := (fun x i => Host.gather gather_S200000x64_S1000000x1_S1000000x64_1_0_n_n_0_1_164 x i) main_v73 main_v127
  let main_v129 : FVec F S1000000x64 .f32 := broadcastInDim S1000000x64 ![0, 1] bcast_S1000000x1_S1000000x64_0_1 main_v121
  let main_v130 : FVec F S1000000x64 .f32 := mulf main_v129 main_v128
  let main_v131 : FVec F S100000x64 .f32 := (fun x i u => Host.scatterAdd scatter_S100000x64_S1000000x1_S1000000x64_1_0_0_1 x i u) main_v119 main_v120 main_v130
  let main_v132 : FVec F S100000x64 .f32 := (fun l r => Host.dotGeneral dot_S100000x4_S4x64_S100000x64_1_0_0_1_n_n none l r) main_v118 main_v12
  let main_v133 : FVec F S100000x64 .f32 := mulf main_v131 main_v132
  fn_part7 (F := F) main_arg0 main_arg1 main_arg2 main_arg3 main_arg4 main_arg5 main_v71 main_v76 main_v105 main_v131 main_v133

def fn_part5 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg6 : IVec S2000000 32) (main_arg9 : IVec S1000000 32) (main_arg10 : IVec S1000000 32) (main_v0 : FVec F S2000000x1 .f32) (main_v12 : FVec F S4x64 .f32) (main_v71 : FVec F S_ .f32) (main_v73 : FVec F S200000x64 .f32) (main_v76 : FVec F S_ .f32) (main_v78 : FVec F S100000x64 .f32) (main_v87 : FVec F S2000000x64 .f32) (main_v94 : FVec F S2000000x64 .f32) : IVec S_ 1 :=
  let main_v95 : FVec F S2000000x64 .f32 := mulf main_v94 main_v87
  let main_cst_23 : FVec F S_ .f32 := constant S_ .f32 0x00000000#32
  let main_v96 : FVec F S200000x64 .f32 := broadcastInDim S200000x64 ![] bcast_S_S200000x64 main_cst_23
  let main_v97 : IVec S2000000x1 32 := broadcastInDim S2000000x1 ![0] bcast_S2000000_S2000000x1_0 main_arg6
  let main_v98 : FVec F S200000x64 .f32 := (fun x i u => Host.scatterAdd scatter_S200000x64_S2000000x1_S2000000x64_1_0_0_1 x i u) main_v96 main_v97 main_v95
  let main_cst_24 : FVec F S_ .f32 := constant S_ .f32 0x00000000#32
  let main_v99 : FVec F S200000x1 .f32 := broadcastInDim S200000x1 ![] bcast_S_S200000x1 main_cst_24
  let main_v100 : IVec S2000000x1 32 := broadcastInDim S2000000x1 ![0] bcast_S2000000_S2000000x1_0 main_arg6
  let main_v101 : FVec F S200000x1 .f32 := (fun x i u => Host.scatterAdd scatter_S200000x1_S2000000x1_S2000000x1_1_0_0_1 x i u) main_v99 main_v100 main_v0
  let main_cst_25 : FVec F S_ .f32 := constant S_ .f32 0x3F800000#32
  let main_v102 : FVec F S200000x1 .f32 := broadcastInDim S200000x1 ![] bcast_S_S200000x1 main_cst_25
  let main_v103 : FVec F S200000x1 .f32 := maximumf main_v101 main_v102
  let main_v104 : FVec F S200000x64 .f32 := broadcastInDim S200000x64 ![0, 1] bcast_S200000x1_S200000x64_0_1 main_v103
  let main_v105 : FVec F S200000x64 .f32 := Host.divf main_v98 main_v104
  let main_v106 : FVec F S64x4 .f32 := (transpose S64x4 [1, 0] · transposes_S4x64_S64x4_1_0) main_arg2
  let main_v107 : FVec F S100000x4 .f32 := (fun l r => Host.dotGeneral dot_S100000x64_S64x4_S100000x4_1_0_0_1_n_n none l r) main_v78 main_v106
  let main_cst_26 : FVec F S_ .f32 := constant S_ .f32 0xFF800000#32
  let main_v108 : FVec F S100000 .f32 := (fun x v => Host.reduce FloatOps.maximumf x v reducesTo_S100000x4_S100000_d1 h_S_) main_v107 main_cst_26
  let main_cst_27 : FVec F S_ .f32 := constant S_ .f32 0xFF800000#32
  let main_v109 : FVec F S100000 .f32 := broadcastInDim S100000 ![] bcast_S_S100000 main_cst_27
  let main_v110 : FVec F S100000 .f32 := maximumf main_v109 main_v108
  let main_v111 : FVec F S100000x1 .f32 := broadcastInDim S100000x1 ![0] bcast_S100000_S100000x1_0 main_v110
  let main_v112 : FVec F S100000x4 .f32 := broadcastInDim S100000x4 ![0, 1] bcast_S100000x1_S100000x4_0_1 main_v111
  let main_v113 : FVec F S100000x4 .f32 := subf main_v107 main_v112
  fn_part6 (F := F) main_arg0 main_arg1 main_arg2 main_arg3 main_arg4 main_arg5 main_arg9 main_arg10 main_v12 main_v71 main_v73 main_v76 main_v105 main_v113

def fn_part4 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg6 : IVec S2000000 32) (main_arg7 : IVec S2000000 32) (main_arg8 : IVec S2000000 32) (main_arg9 : IVec S1000000 32) (main_arg10 : IVec S1000000 32) (main_v0 : FVec F S2000000x1 .f32) (main_v12 : FVec F S4x64 .f32) (main_v68 : FVec F S100000x64 .f32) (main_v71 : FVec F S_ .f32) (main_v73 : FVec F S200000x64 .f32) (main_v75 : FVec F S_ .f32) : IVec S_ 1 :=
  let main_v76 : FVec F S_ .f32 := Host.sqrt main_v75
  let main_v77 : FVec F S100000x64 .f32 := broadcastInDim S100000x64 ![] bcast_S_S100000x64 main_v76
  let main_v78 : FVec F S100000x64 .f32 := Host.divf main_v68 main_v77
  let main_c_18 : IVec S_ 32 := constantI S_ 32 1#32
  let main_v79 : IVec S2000000 32 := broadcastInDim S2000000 ![] bcast_S_S2000000 main_c_18
  let main_v80 : IVec S2000000 32 := subi main_arg8 main_v79
  let main_c_19 : IVec S_ 32 := constantI S_ 32 0#32
  let main_v81 : IVec S2000000 32 := broadcastInDim S2000000 ![] bcast_S_S2000000 main_c_19
  let main_v82 : IVec S2000000 1 := cmpi .slt main_v80 main_v81
  let main_c_20 : IVec S_ 32 := constantI S_ 32 9#32
  let main_v83 : IVec S2000000 32 := broadcastInDim S2000000 ![] bcast_S_S2000000 main_c_20
  let main_v84 : IVec S2000000 32 := addi main_v80 main_v83
  let main_v85 : IVec S2000000 32 := select main_v82 main_v84 main_v80
  let main_v86 : IVec S2000000x1 32 := broadcastInDim S2000000x1 ![0] bcast_S2000000_S2000000x1_0 main_v85
  let main_v87 : FVec F S2000000x64 .f32 := (fun x i => Host.gather gather_S9x64_S2000000x1_S2000000x64_1_0_n_n_0_1_164 x i) main_arg3 main_v86
  let main_c_21 : IVec S_ 32 := constantI S_ 32 0#32
  let main_v88 : IVec S2000000 32 := broadcastInDim S2000000 ![] bcast_S_S2000000 main_c_21
  let main_v89 : IVec S2000000 1 := cmpi .slt main_arg7 main_v88
  let main_c_22 : IVec S_ 32 := constantI S_ 32 200000#32
  let main_v90 : IVec S2000000 32 := broadcastInDim S2000000 ![] bcast_S_S2000000 main_c_22
  let main_v91 : IVec S2000000 32 := addi main_arg7 main_v90
  let main_v92 : IVec S2000000 32 := select main_v89 main_v91 main_arg7
  let main_v93 : IVec S2000000x1 32 := broadcastInDim S2000000x1 ![0] bcast_S2000000_S2000000x1_0 main_v92
  let main_v94 : FVec F S2000000x64 .f32 := (fun x i => Host.gather gather_S200000x64_S2000000x1_S2000000x64_1_0_n_n_0_1_164 x i) main_v73 main_v93
  fn_part5 (F := F) main_arg0 main_arg1 main_arg2 main_arg3 main_arg4 main_arg5 main_arg6 main_arg9 main_arg10 main_v0 main_v12 main_v71 main_v73 main_v76 main_v78 main_v87 main_v94

def fn_part3 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg6 : IVec S2000000 32) (main_arg7 : IVec S2000000 32) (main_arg8 : IVec S2000000 32) (main_arg9 : IVec S1000000 32) (main_arg10 : IVec S1000000 32) (main_v0 : FVec F S2000000x1 .f32) (main_v12 : FVec F S4x64 .f32) (main_v39 : FVec F S200000x64 .f32) (main_v52 : FVec F S100000x4 .f32) (main_v53 : FVec F S100000x64 .f32) (main_v54 : IVec S1000000x1 32) (main_v55 : FVec F S1000000x1 .f32) : IVec S_ 1 :=
  let main_c_14 : IVec S_ 32 := constantI S_ 32 0#32
  let main_v56 : IVec S1000000 32 := broadcastInDim S1000000 ![] bcast_S_S1000000 main_c_14
  let main_v57 : IVec S1000000 1 := cmpi .slt main_arg10 main_v56
  let main_c_15 : IVec S_ 32 := constantI S_ 32 200000#32
  let main_v58 : IVec S1000000 32 := broadcastInDim S1000000 ![] bcast_S_S1000000 main_c_15
  let main_v59 : IVec S1000000 32 := addi main_arg10 main_v58
  let main_v60 : IVec S1000000 32 := select main_v57 main_v59 main_arg10
  let main_v61 : IVec S1000000x1 32 := broadcastInDim S1000000x1 ![0] bcast_S1000000_S1000000x1_0 main_v60
  let main_v62 : FVec F S1000000x64 .f32 := (fun x i => Host.gather gather_S200000x64_S1000000x1_S1000000x64_1_0_n_n_0_1_164 x i) main_arg1 main_v61
  let main_v63 : FVec F S1000000x64 .f32 := broadcastInDim S1000000x64 ![0, 1] bcast_S1000000x1_S1000000x64_0_1 main_v55
  let main_v64 : FVec F S1000000x64 .f32 := mulf main_v63 main_v62
  let main_v65 : FVec F S100000x64 .f32 := (fun x i u => Host.scatterAdd scatter_S100000x64_S1000000x1_S1000000x64_1_0_0_1 x i u) main_v53 main_v54 main_v64
  let main_v66 : FVec F S100000x64 .f32 := (fun l r => Host.dotGeneral dot_S100000x4_S4x64_S100000x64_1_0_0_1_n_n none l r) main_v52 main_v12
  let main_v67 : FVec F S100000x64 .f32 := mulf main_v65 main_v66
  let main_v68 : FVec F S100000x64 .f32 := addf main_v67 main_v65
  let main_v69 : FVec F S200000x64 .f32 := mulf main_v39 main_v39
  let main_cst_16 : FVec F S_ .f32 := constant S_ .f32 0x00000000#32
  let main_v70 : FVec F S_ .f32 := (fun x v => Host.reduceAdd x v reducesTo_S200000x64_S_d0_1 h_S_) main_v69 main_cst_16
  let main_v71 : FVec F S_ .f32 := Host.sqrt main_v70
  let main_v72 : FVec F S200000x64 .f32 := broadcastInDim S200000x64 ![] bcast_S_S200000x64 main_v71
  let main_v73 : FVec F S200000x64 .f32 := Host.divf main_v39 main_v72
  let main_v74 : FVec F S100000x64 .f32 := mulf main_v68 main_v68
  let main_cst_17 : FVec F S_ .f32 := constant S_ .f32 0x00000000#32
  let main_v75 : FVec F S_ .f32 := (fun x v => Host.reduceAdd x v reducesTo_S100000x64_S_d0_1 h_S_) main_v74 main_cst_17
  fn_part4 (F := F) main_arg0 main_arg1 main_arg2 main_arg3 main_arg4 main_arg5 main_arg6 main_arg7 main_arg8 main_arg9 main_arg10 main_v0 main_v12 main_v68 main_v71 main_v73 main_v75

def fn_part2 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg6 : IVec S2000000 32) (main_arg7 : IVec S2000000 32) (main_arg8 : IVec S2000000 32) (main_arg9 : IVec S1000000 32) (main_arg10 : IVec S1000000 32) (main_v0 : FVec F S2000000x1 .f32) (main_v12 : FVec F S4x64 .f32) (main_v32 : FVec F S200000x64 .f32) (main_v35 : FVec F S200000x1 .f32) (main_cst_9 : FVec F S_ .f32) : IVec S_ 1 :=
  let main_v36 : FVec F S200000x1 .f32 := broadcastInDim S200000x1 ![] bcast_S_S200000x1 main_cst_9
  let main_v37 : FVec F S200000x1 .f32 := maximumf main_v35 main_v36
  let main_v38 : FVec F S200000x64 .f32 := broadcastInDim S200000x64 ![0, 1] bcast_S200000x1_S200000x64_0_1 main_v37
  let main_v39 : FVec F S200000x64 .f32 := Host.divf main_v32 main_v38
  let main_v40 : FVec F S64x4 .f32 := (transpose S64x4 [1, 0] · transposes_S4x64_S64x4_1_0) main_arg2
  let main_v41 : FVec F S100000x4 .f32 := (fun l r => Host.dotGeneral dot_S100000x64_S64x4_S100000x4_1_0_0_1_n_n none l r) main_arg0 main_v40
  let main_cst_10 : FVec F S_ .f32 := constant S_ .f32 0xFF800000#32
  let main_v42 : FVec F S100000 .f32 := (fun x v => Host.reduce FloatOps.maximumf x v reducesTo_S100000x4_S100000_d1 h_S_) main_v41 main_cst_10
  let main_cst_11 : FVec F S_ .f32 := constant S_ .f32 0xFF800000#32
  let main_v43 : FVec F S100000 .f32 := broadcastInDim S100000 ![] bcast_S_S100000 main_cst_11
  let main_v44 : FVec F S100000 .f32 := maximumf main_v43 main_v42
  let main_v45 : FVec F S100000x1 .f32 := broadcastInDim S100000x1 ![0] bcast_S100000_S100000x1_0 main_v44
  let main_v46 : FVec F S100000x4 .f32 := broadcastInDim S100000x4 ![0, 1] bcast_S100000x1_S100000x4_0_1 main_v45
  let main_v47 : FVec F S100000x4 .f32 := subf main_v41 main_v46
  let main_v48 : FVec F S100000x4 .f32 := Host.exp main_v47
  let main_cst_12 : FVec F S_ .f32 := constant S_ .f32 0x00000000#32
  let main_v49 : FVec F S100000 .f32 := (fun x v => Host.reduceAdd x v reducesTo_S100000x4_S100000_d1 h_S_) main_v48 main_cst_12
  let main_v50 : FVec F S100000x1 .f32 := broadcastInDim S100000x1 ![0] bcast_S100000_S100000x1_0 main_v49
  let main_v51 : FVec F S100000x4 .f32 := broadcastInDim S100000x4 ![0, 1] bcast_S100000x1_S100000x4_0_1 main_v50
  let main_v52 : FVec F S100000x4 .f32 := Host.divf main_v48 main_v51
  let main_cst_13 : FVec F S_ .f32 := constant S_ .f32 0x00000000#32
  let main_v53 : FVec F S100000x64 .f32 := broadcastInDim S100000x64 ![] bcast_S_S100000x64 main_cst_13
  let main_v54 : IVec S1000000x1 32 := broadcastInDim S1000000x1 ![0] bcast_S1000000_S1000000x1_0 main_arg9
  let main_v55 : FVec F S1000000x1 .f32 := broadcastInDim S1000000x1 ![0] bcast_S1000000_S1000000x1_0 main_arg5
  fn_part3 (F := F) main_arg0 main_arg1 main_arg2 main_arg3 main_arg4 main_arg5 main_arg6 main_arg7 main_arg8 main_arg9 main_arg10 main_v0 main_v12 main_v39 main_v52 main_v53 main_v54 main_v55

def fn_part1 {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg6 : IVec S2000000 32) (main_arg7 : IVec S2000000 32) (main_arg8 : IVec S2000000 32) (main_arg9 : IVec S1000000 32) (main_arg10 : IVec S1000000 32) (main_v0 : FVec F S2000000x1 .f32) (main_v12 : FVec F S4x64 .f32) (main_v14 : IVec S2000000 32) (main_v16 : IVec S2000000 1) (main_c_4 : IVec S_ 32) : IVec S_ 1 :=
  let main_v17 : IVec S2000000 32 := broadcastInDim S2000000 ![] bcast_S_S2000000 main_c_4
  let main_v18 : IVec S2000000 32 := addi main_v14 main_v17
  let main_v19 : IVec S2000000 32 := select main_v16 main_v18 main_v14
  let main_v20 : IVec S2000000x1 32 := broadcastInDim S2000000x1 ![0] bcast_S2000000_S2000000x1_0 main_v19
  let main_v21 : FVec F S2000000x64 .f32 := (fun x i => Host.gather gather_S9x64_S2000000x1_S2000000x64_1_0_n_n_0_1_164 x i) main_arg3 main_v20
  let main_c_5 : IVec S_ 32 := constantI S_ 32 0#32
  let main_v22 : IVec S2000000 32 := broadcastInDim S2000000 ![] bcast_S_S2000000 main_c_5
  let main_v23 : IVec S2000000 1 := cmpi .slt main_arg7 main_v22
  let main_c_6 : IVec S_ 32 := constantI S_ 32 200000#32
  let main_v24 : IVec S2000000 32 := broadcastInDim S2000000 ![] bcast_S_S2000000 main_c_6
  let main_v25 : IVec S2000000 32 := addi main_arg7 main_v24
  let main_v26 : IVec S2000000 32 := select main_v23 main_v25 main_arg7
  let main_v27 : IVec S2000000x1 32 := broadcastInDim S2000000x1 ![0] bcast_S2000000_S2000000x1_0 main_v26
  let main_v28 : FVec F S2000000x64 .f32 := (fun x i => Host.gather gather_S200000x64_S2000000x1_S2000000x64_1_0_n_n_0_1_164 x i) main_arg1 main_v27
  let main_v29 : FVec F S2000000x64 .f32 := mulf main_v28 main_v21
  let main_cst_7 : FVec F S_ .f32 := constant S_ .f32 0x00000000#32
  let main_v30 : FVec F S200000x64 .f32 := broadcastInDim S200000x64 ![] bcast_S_S200000x64 main_cst_7
  let main_v31 : IVec S2000000x1 32 := broadcastInDim S2000000x1 ![0] bcast_S2000000_S2000000x1_0 main_arg6
  let main_v32 : FVec F S200000x64 .f32 := (fun x i u => Host.scatterAdd scatter_S200000x64_S2000000x1_S2000000x64_1_0_0_1 x i u) main_v30 main_v31 main_v29
  let main_cst_8 : FVec F S_ .f32 := constant S_ .f32 0x00000000#32
  let main_v33 : FVec F S200000x1 .f32 := broadcastInDim S200000x1 ![] bcast_S_S200000x1 main_cst_8
  let main_v34 : IVec S2000000x1 32 := broadcastInDim S2000000x1 ![0] bcast_S2000000_S2000000x1_0 main_arg6
  let main_v35 : FVec F S200000x1 .f32 := (fun x i u => Host.scatterAdd scatter_S200000x1_S2000000x1_S2000000x1_1_0_0_1 x i u) main_v33 main_v34 main_v0
  let main_cst_9 : FVec F S_ .f32 := constant S_ .f32 0x3F800000#32
  fn_part2 (F := F) main_arg0 main_arg1 main_arg2 main_arg3 main_arg4 main_arg5 main_arg6 main_arg7 main_arg8 main_arg9 main_arg10 main_v0 main_v12 main_v32 main_v35 main_cst_9

def fn {F : FTy → Type} [FloatOps F] (main_arg0 : FVec F S100000x64 .f32) (main_arg1 : FVec F S200000x64 .f32) (main_arg2 : FVec F S4x64 .f32) (main_arg3 : FVec F S9x64 .f32) (main_arg4 : FVec F S4x9 .f32) (main_arg5 : FVec F S1000000 .f32) (main_arg6 : IVec S2000000 32) (main_arg7 : IVec S2000000 32) (main_arg8 : IVec S2000000 32) (main_arg9 : IVec S1000000 32) (main_arg10 : IVec S1000000 32) : IVec S_ 1 :=
  let main_cst : FVec F S_ .f32 := constant S_ .f32 0x3F800000#32
  let main_v0 : FVec F S2000000x1 .f32 := broadcastInDim S2000000x1 ![] bcast_S_S2000000x1 main_cst
  let main_cst_0 : FVec F S_ .f32 := constant S_ .f32 0xFF800000#32
  let main_v1 : FVec F S4 .f32 := (fun x v => Host.reduce FloatOps.maximumf x v reducesTo_S4x9_S4_d1 h_S_) main_arg4 main_cst_0
  let main_cst_1 : FVec F S_ .f32 := constant S_ .f32 0xFF800000#32
  let main_v2 : FVec F S4 .f32 := broadcastInDim S4 ![] bcast_S_S4 main_cst_1
  let main_v3 : FVec F S4 .f32 := maximumf main_v2 main_v1
  let main_v4 : FVec F S4x1 .f32 := broadcastInDim S4x1 ![0] bcast_S4_S4x1_0 main_v3
  let main_v5 : FVec F S4x9 .f32 := broadcastInDim S4x9 ![0, 1] bcast_S4x1_S4x9_0_1 main_v4
  let main_v6 : FVec F S4x9 .f32 := subf main_arg4 main_v5
  let main_v7 : FVec F S4x9 .f32 := Host.exp main_v6
  let main_cst_2 : FVec F S_ .f32 := constant S_ .f32 0x00000000#32
  let main_v8 : FVec F S4 .f32 := (fun x v => Host.reduceAdd x v reducesTo_S4x9_S4_d1 h_S_) main_v7 main_cst_2
  let main_v9 : FVec F S4x1 .f32 := broadcastInDim S4x1 ![0] bcast_S4_S4x1_0 main_v8
  let main_v10 : FVec F S4x9 .f32 := broadcastInDim S4x9 ![0, 1] bcast_S4x1_S4x9_0_1 main_v9
  let main_v11 : FVec F S4x9 .f32 := Host.divf main_v7 main_v10
  let main_v12 : FVec F S4x64 .f32 := (fun l r => Host.dotGeneral dot_S4x9_S9x64_S4x64_1_0_0_1_n_n none l r) main_v11 main_arg3
  let main_c : IVec S_ 32 := constantI S_ 32 1#32
  let main_v13 : IVec S2000000 32 := broadcastInDim S2000000 ![] bcast_S_S2000000 main_c
  let main_v14 : IVec S2000000 32 := subi main_arg8 main_v13
  let main_c_3 : IVec S_ 32 := constantI S_ 32 0#32
  let main_v15 : IVec S2000000 32 := broadcastInDim S2000000 ![] bcast_S_S2000000 main_c_3
  let main_v16 : IVec S2000000 1 := cmpi .slt main_v14 main_v15
  let main_c_4 : IVec S_ 32 := constantI S_ 32 9#32
  fn_part1 (F := F) main_arg0 main_arg1 main_arg2 main_arg3 main_arg4 main_arg5 main_arg6 main_arg7 main_arg8 main_arg9 main_arg10 main_v0 main_v12 main_v14 main_v16 main_c_4
-- ==== Kernel.lean ====
abbrev S100000x64 : Shape := ⟨2, ![100000, 64]⟩
abbrev S200000x64 : Shape := ⟨2, ![200000, 64]⟩
abbrev S4x64 : Shape := ⟨2, ![4, 64]⟩
abbrev S9x64 : Shape := ⟨2, ![9, 64]⟩
abbrev S4x9 : Shape := ⟨2, ![4, 9]⟩
abbrev S1000000 : Shape := ⟨1, ![1000000]⟩
abbrev S2000000 : Shape := ⟨1, ![2000000]⟩
abbrev S_ : Shape := ⟨0, ![]⟩
abbrev S4 : Shape := ⟨1, ![4]⟩
abbrev S4x1 : Shape := ⟨2, ![4, 1]⟩
abbrev S9x4 : Shape := ⟨2, ![9, 4]⟩
abbrev S4x4 : Shape := ⟨2, ![4, 4]⟩
abbrev S2000000x1 : Shape := ⟨2, ![2000000, 1]⟩
abbrev S64x4 : Shape := ⟨2, ![64, 4]⟩
abbrev S2000000x64 : Shape := ⟨2, ![2000000, 64]⟩
abbrev S4000x64 : Shape := ⟨2, ![4000, 64]⟩
abbrev S200000x1 : Shape := ⟨2, ![200000, 1]⟩
abbrev S1000000x1 : Shape := ⟨2, ![1000000, 1]⟩
abbrev S1000000x64 : Shape := ⟨2, ![1000000, 64]⟩
abbrev S4000x1 : Shape := ⟨2, ![4000, 1]⟩
abbrev S4000x4 : Shape := ⟨2, ![4000, 4]⟩
abbrev S4000 : Shape := ⟨1, ![4000]⟩
abbrev S1x1 : Shape := ⟨2, ![1, 1]⟩
abbrev S1 : Shape := ⟨1, ![1]⟩

abbrev nBuf : Space → Nat
  | .hbm => 171
  | .vmem => 88
  | .smem => 0
  | _ => 0

abbrev hbmTy0_0 (i : Nat) : BufTy := match i % 128 with
  | 0 => ⟨S100000x64, .f32⟩
  | 1 => ⟨S200000x64, .f32⟩
  | 2 => ⟨S4x64, .f32⟩
  | 3 => ⟨S9x64, .f32⟩
  | 4 => ⟨S4x9, .f32⟩
  | 5 => ⟨S1000000, .f32⟩
  | 6 => ⟨S2000000, .i32⟩
  | 7 => ⟨S2000000, .i32⟩
  | 8 => ⟨S2000000, .i32⟩
  | 9 => ⟨S1000000, .i32⟩
  | 10 => ⟨S1000000, .i32⟩
  | 11 => ⟨S4x9, .f32⟩
  | 12 => ⟨S_, .f32⟩
  | 13 => ⟨S4, .f32⟩
  | 14 => ⟨S4x1, .f32⟩
  | 15 => ⟨S4x1, .f32⟩
  | 16 => ⟨S4x9, .f32⟩
  | 17 => ⟨S4x9, .f32⟩
  | 18 => ⟨S9x4, .f32⟩
  | 19 => ⟨S4x4, .f32⟩
  | 20 => ⟨S4x4, .f32⟩
  | 21 => ⟨S_, .f32⟩
  | 22 => ⟨S4x4, .f32⟩
  | 23 => ⟨S4x4, .i32⟩
  | 24 => ⟨S_, .i32⟩
  | 25 => ⟨S4x4, .i32⟩
  | 26 => ⟨S4x4, .i32⟩
  | 27 => ⟨S4x4, .i32⟩
  | 28 => ⟨S4x4, .i1⟩
  | 29 => ⟨S_, .f32⟩
  | 30 => ⟨S4x4, .f32⟩
  | 31 => ⟨S4x4, .f32⟩
  | 32 => ⟨S4x4, .f32⟩
  | 33 => ⟨S_, .f32⟩
  | 34 => ⟨S_, .f32⟩
  | 35 => ⟨S_, .f32⟩
  | 36 => ⟨S2000000x1, .f32⟩
  | 37 => ⟨S_, .f32⟩
  | 38 => ⟨S4, .f32⟩
  | 39 => ⟨S_, .f32⟩
  | 40 => ⟨S4, .f32⟩
  | 41 => ⟨S4, .f32⟩
  | 42 => ⟨S4x1, .f32⟩
  | 43 => ⟨S4x9, .f32⟩
  | 44 => ⟨S4x9, .f32⟩
  | 45 => ⟨S4x9, .f32⟩
  | 46 => ⟨S_, .f32⟩
  | 47 => ⟨S4, .f32⟩
  | 48 => ⟨S4x1, .f32⟩
  | 49 => ⟨S4x9, .f32⟩
  | 50 => ⟨S4x9, .f32⟩
  | 51 => ⟨S4x64, .f32⟩
  | 52 => ⟨S64x4, .f32⟩
  | 53 => ⟨S_, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x64, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S2000000x64, .f32⟩
  | 75 => ⟨S_, .f32⟩
  | 76 => ⟨S200000x64, .f32⟩
  | 77 => ⟨S2000000x1, .i32⟩
  | 78 => ⟨S200000x64, .f32⟩
  | 79 => ⟨S_, .f32⟩
  | 80 => ⟨S200000x1, .f32⟩
  | 81 => ⟨S2000000x1, .i32⟩
  | 82 => ⟨S200000x1, .f32⟩
  | 83 => ⟨S_, .f32⟩
  | 84 => ⟨S200000x1, .f32⟩
  | 85 => ⟨S200000x1, .f32⟩
  | 86 => ⟨S200000x64, .f32⟩
  | 87 => ⟨S200000x64, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x64, .f32⟩
  | 97 => ⟨S1000000x1, .f32⟩
  | 98 => ⟨S1000000x64, .f32⟩
  | 99 => ⟨S_, .f32⟩
  | 100 => ⟨S100000x64, .f32⟩
  | 101 => ⟨S1000000x1, .i32⟩
  | 102 => ⟨S100000x64, .f32⟩
  | 103 => ⟨S100000x64, .f32⟩
  | 104 => ⟨S1x1, .f32⟩
  | 105 => ⟨S1x1, .f32⟩
  | 106 => ⟨S1x1, .f32⟩
  | 107 => ⟨S1x1, .f32⟩
  | 108 => ⟨S200000x64, .f32⟩
  | 109 => ⟨S200000x64, .f32⟩
  | 110 => ⟨S100000x64, .f32⟩
  | 111 => ⟨S100000x64, .f32⟩
  | 112 => ⟨S_, .i32⟩
  | 113 => ⟨S2000000, .i32⟩
  | 114 => ⟨S2000000, .i32⟩
  | 115 => ⟨S_, .i32⟩
  | 116 => ⟨S2000000, .i32⟩
  | 117 => ⟨S2000000, .i1⟩
  | 118 => ⟨S_, .i32⟩
  | 119 => ⟨S2000000, .i32⟩
  | 120 => ⟨S2000000, .i32⟩
  | 121 => ⟨S2000000, .i32⟩
  | 122 => ⟨S2000000x1, .i32⟩
  | 123 => ⟨S2000000x64, .f32⟩
  | 124 => ⟨S_, .i32⟩
  | 125 => ⟨S2000000, .i32⟩
  | 126 => ⟨S2000000, .i1⟩
  | 127 => ⟨S_, .i32⟩
  | _ => ⟨S100000x64, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x64, .f32⟩
  | 5 => ⟨S2000000x64, .f32⟩
  | 6 => ⟨S_, .f32⟩
  | 7 => ⟨S200000x64, .f32⟩
  | 8 => ⟨S2000000x1, .i32⟩
  | 9 => ⟨S200000x64, .f32⟩
  | 10 => ⟨S_, .f32⟩
  | 11 => ⟨S200000x1, .f32⟩
  | 12 => ⟨S2000000x1, .i32⟩
  | 13 => ⟨S200000x1, .f32⟩
  | 14 => ⟨S_, .f32⟩
  | 15 => ⟨S200000x1, .f32⟩
  | 16 => ⟨S200000x1, .f32⟩
  | 17 => ⟨S200000x64, .f32⟩
  | 18 => ⟨S200000x64, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S1000000x1, .f32⟩
  | 29 => ⟨S1000000x64, .f32⟩
  | 30 => ⟨S_, .f32⟩
  | 31 => ⟨S100000x64, .f32⟩
  | 32 => ⟨S1000000x1, .i32⟩
  | 33 => ⟨S100000x64, .f32⟩
  | 34 => ⟨S100000x64, .f32⟩
  | 35 => ⟨S1x1, .f32⟩
  | 36 => ⟨S1x1, .f32⟩
  | 37 => ⟨S1x1, .f32⟩
  | 38 => ⟨S1x1, .f32⟩
  | 39 => ⟨S200000x64, .f32⟩
  | 40 => ⟨S200000x64, .f32⟩
  | 41 => ⟨S100000x64, .f32⟩
  | 42 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x4, .f32⟩
  | .local _ .vmem, ⟨15, _⟩ => ⟨S4x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S1x1, .f32⟩
  | .local _ .vmem, ⟨23, _⟩ => ⟨S4000x64, .f32⟩
  | .local _ .vmem, ⟨24, _⟩ => ⟨S4000x64, .f32⟩
  | .local _ .vmem, ⟨25, _⟩ => ⟨S1x1, .f32⟩
  | .local _ .vmem, ⟨26, _⟩ => ⟨S4000x64, .f32⟩
  | .local _ .vmem, ⟨27, _⟩ => ⟨S4000x64, .f32⟩
  | .local _ .vmem, ⟨28, _⟩ => ⟨S1x1, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S1x1, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x1, .f32⟩
  | .local _ .vmem, ⟨53, _⟩ => ⟨S4000x1, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S64x4, .f32⟩
  | .local _ .vmem, ⟨59, _⟩ => ⟨S4x64, .f32⟩
  | .local _ .vmem, ⟨60, _⟩ => ⟨S4000x64, .f32⟩
  | .local _ .vmem, ⟨61, _⟩ => ⟨S4000x64, .f32⟩
  | .local _ .vmem, ⟨62, _⟩ => ⟨S4000x64, .f32⟩
  | .local _ .vmem, ⟨63, _⟩ => ⟨S4000x64, .f32⟩
  | .local _ .vmem, ⟨64, _⟩ => ⟨S4000x64, .f32⟩
  | .local _ .vmem, ⟨65, _⟩ => ⟨S4000x64, .f32⟩
  | .local _ .vmem, ⟨66, _⟩ => ⟨S1x1, .f32⟩
  | .local _ .vmem, ⟨67, _⟩ => ⟨S4000x64, .f32⟩
  | .local _ .vmem, ⟨68, _⟩ => ⟨S4000x64, .f32⟩
  | .local _ .vmem, ⟨69, _⟩ => ⟨S1x1, .f32⟩
  | .local _ .vmem, ⟨70, _⟩ => ⟨S4000x64, .f32⟩
  | .local _ .vmem, ⟨71, _⟩ => ⟨S4000x64, .f32⟩
  | .local _ .vmem, ⟨72, _⟩ => ⟨S1x1, .f32⟩
  | .local _ .vmem, ⟨73, _⟩ => ⟨S4000x64, .f32⟩
  | .local _ .vmem, ⟨74, _⟩ => ⟨S4000x64, .f32⟩
  | .local _ .vmem, ⟨75, _⟩ => ⟨S4000x64, .f32⟩
  | .local _ .vmem, ⟨76, _⟩ => ⟨S4000x64, .f32⟩
  | .local _ .vmem, ⟨77, _⟩ => ⟨S4000x64, .f32⟩
  | .local _ .vmem, ⟨78, _⟩ => ⟨S4000x64, .f32⟩
  | .local _ .vmem, ⟨79, _⟩ => ⟨S4000x64, .f32⟩
  | .local _ .vmem, ⟨80, _⟩ => ⟨S4000x64, .f32⟩
  | .local _ .vmem, ⟨81, _⟩ => ⟨S1x1, .f32⟩
  | .local _ .vmem, ⟨82, _⟩ => ⟨S4000x64, .f32⟩
  | .local _ .vmem, ⟨83, _⟩ => ⟨S4000x64, .f32⟩
  | .local _ .vmem, ⟨84, _⟩ => ⟨S4000x64, .f32⟩
  | .local _ .vmem, ⟨85, _⟩ => ⟨S4000x64, .f32⟩
  | .local _ .vmem, ⟨86, _⟩ => ⟨S4000x64, .f32⟩
  | .local _ .vmem, ⟨87, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_cst : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_9 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_10 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_11 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_12 : Ref sig .tc := ⟨.hbm, 88, rfl⟩
abbrev main_v51 : Ref sig .tc := ⟨.hbm, 89, rfl⟩
abbrev main_v52 : Ref sig .tc := ⟨.hbm, 90, rfl⟩
abbrev main_c_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_14 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68_0 : Ref sig .tc := ⟨.hbm, 108, rfl⟩
abbrev main_v68_1 : Ref sig .tc := ⟨.hbm, 109, rfl⟩
abbrev main_v69_0 : Ref sig .tc := ⟨.hbm, 110, rfl⟩
abbrev main_v69_1 : Ref sig .tc := ⟨.hbm, 111, rfl⟩
abbrev main_c_15 : Ref sig .tc := ⟨.hbm, 112, rfl⟩
abbrev main_v70 : Ref sig .tc := ⟨.hbm, 113, rfl⟩
abbrev main_v71 : Ref sig .tc := ⟨.hbm, 114, rfl⟩
abbrev main_c_16 : Ref sig .tc := ⟨.hbm, 115, rfl⟩
abbrev main_v72 : Ref sig .tc := ⟨.hbm, 116, rfl⟩
abbrev main_v73 : Ref sig .tc := ⟨.hbm, 117, rfl⟩
abbrev main_c_17 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_18 : Ref sig .tc := ⟨.hbm, 124, rfl⟩
abbrev main_v79 : Ref sig .tc := ⟨.hbm, 125, rfl⟩
abbrev main_v80 : Ref sig .tc := ⟨.hbm, 126, rfl⟩
abbrev main_c_19 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_20 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_21 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_22 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c_23 : Ref sig .tc := ⟨.hbm, 147, rfl⟩
abbrev main_v97 : Ref sig .tc := ⟨.hbm, 148, rfl⟩
abbrev main_v98 : Ref sig .tc := ⟨.hbm, 149, rfl⟩
abbrev main_c_24 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114_0 : Ref sig .tc := ⟨.hbm, 167, rfl⟩
abbrev main_v114_1 : Ref sig .tc := ⟨.hbm, 168, rfl⟩
abbrev main_v115_0 : Ref sig .tc := ⟨.hbm, 169, rfl⟩
abbrev main_v115_1 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc6_stg3_0 : Ref sig .tc := ⟨.vmem, 40, rfl⟩
abbrev cc6_stg3_1 : Ref sig .tc := ⟨.vmem, 41, rfl⟩
abbrev cc6_stg4_0 : Ref sig .tc := ⟨.vmem, 42, rfl⟩
abbrev cc6_stg4_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg3_1 : Ref sig .tc := ⟨.vmem, 61, rfl⟩
abbrev cc9_stg4_0 : Ref sig .tc := ⟨.vmem, 62, rfl⟩
abbrev cc9_stg4_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc12_stg0_0 : Ref sig .tc := ⟨.vmem, 70, rfl⟩
abbrev cc12_stg0_1 : Ref sig .tc := ⟨.vmem, 71, rfl⟩
abbrev cc12_stg1_0 : Ref sig .tc := ⟨.vmem, 72, rfl⟩
abbrev cc12_stg2_0 : Ref sig .tc := ⟨.vmem, 73, rfl⟩
abbrev cc12_stg2_1 : Ref sig .tc := ⟨.vmem, 74, rfl⟩
abbrev cc12_stg3_0 : Ref sig .tc := ⟨.vmem, 75, rfl⟩
abbrev cc12_stg3_1 : Ref sig .tc := ⟨.vmem, 76, rfl⟩
abbrev cc12_stg4_0 : Ref sig .tc := ⟨.vmem, 77, rfl⟩
abbrev cc12_stg4_1 : Ref sig .tc := ⟨.vmem, 78, rfl⟩
abbrev cc13_stg0_0 : Ref sig .tc := ⟨.vmem, 79, rfl⟩
abbrev cc13_stg0_1 : Ref sig .tc := ⟨.vmem, 80, rfl⟩
abbrev cc13_stg1_0 : Ref sig .tc := ⟨.vmem, 81, rfl⟩
abbrev cc13_stg2_0 : Ref sig .tc := ⟨.vmem, 82, rfl⟩
abbrev cc13_stg2_1 : Ref sig .tc := ⟨.vmem, 83, rfl⟩
abbrev cc13_stg3_0 : Ref sig .tc := ⟨.vmem, 84, rfl⟩
abbrev cc13_stg3_1 : Ref sig .tc := ⟨.vmem, 85, rfl⟩
abbrev cc13_stg4_0 : Ref sig .tc := ⟨.vmem, 86, rfl⟩
abbrev cc13_stg4_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc4_sem0_0 : DmaSem sig := 23
abbrev cc4_sem0_1 : DmaSem sig := 24
abbrev cc4_sem1_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc5_sem3_0 : DmaSem sig := 31
abbrev cc5_sem3_1 : DmaSem sig := 32
abbrev cc5_sem4_0 : DmaSem sig := 33
abbrev cc5_sem4_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc6_sem3_0 : DmaSem sig := 40
abbrev cc6_sem3_1 : DmaSem sig := 41
abbrev cc6_sem4_0 : DmaSem sig := 42
abbrev cc6_sem4_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem3_0 : DmaSem sig := 60
abbrev cc9_sem3_1 : DmaSem sig := 61
abbrev cc9_sem4_0 : DmaSem sig := 62
abbrev cc9_sem4_1 : DmaSem sig := 63
abbrev cc10_sem0_0 : DmaSem sig := 64
abbrev cc10_sem0_1 : DmaSem sig := 65
abbrev cc10_sem1_0 : DmaSem sig := 66
abbrev cc11_sem0_0 : DmaSem sig := 67
abbrev cc11_sem0_1 : DmaSem sig := 68
abbrev cc11_sem1_0 : DmaSem sig := 69
abbrev cc12_sem0_0 : DmaSem sig := 70
abbrev cc12_sem0_1 : DmaSem sig := 71
abbrev cc12_sem1_0 : DmaSem sig := 72
abbrev cc12_sem2_0 : DmaSem sig := 73
abbrev cc12_sem2_1 : DmaSem sig := 74
abbrev cc12_sem3_0 : DmaSem sig := 75
abbrev cc12_sem3_1 : DmaSem sig := 76
abbrev cc12_sem4_0 : DmaSem sig := 77
abbrev cc12_sem4_1 : DmaSem sig := 78
abbrev cc13_sem0_0 : DmaSem sig := 79
abbrev cc13_sem0_1 : DmaSem sig := 80
abbrev cc13_sem1_0 : DmaSem sig := 81
abbrev cc13_sem2_0 : DmaSem sig := 82
abbrev cc13_sem2_1 : DmaSem sig := 83
abbrev cc13_sem3_0 : DmaSem sig := 84
abbrev cc13_sem3_1 : DmaSem sig := 85
abbrev cc13_sem4_0 : DmaSem sig := 86
abbrev cc13_sem4_1 : DmaSem sig := 87

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![500], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![250], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x4 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S4x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S4000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S4000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S4000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S4000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x1 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S4000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S4000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S4000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

class Facts₀ : Prop where
  reducesTo_S4x9_S4_d1 : S4x9.ReducesTo [1] S4
  h_S_ : 0 < S_.numel
  bcast_S4_S4x1_0 : S4.BroadcastsInDim S4x1 (![0] : Fin 1 → Fin S4x1.rank)
  bcast_S4x1_S4x9_0_1 : S4x1.BroadcastsInDim S4x9 (![0, 1] : Fin 2 → Fin S4x9.rank)
  transposes_S4x9_S9x4_1_0 : S4x9.Transposes [1, 0] S9x4
  bcast_S_S4x4 : S_.BroadcastsInDim S4x4 (![] : Fin 0 → Fin S4x4.rank)
  reducesTo_S4x4_S_d0_1 : S4x4.ReducesTo [0, 1] S_
  bcast_S_S2000000x1 : S_.BroadcastsInDim S2000000x1 (![] : Fin 0 → Fin S2000000x1.rank)
  bcast_S_S4 : S_.BroadcastsInDim S4 (![] : Fin 0 → Fin S4.rank)
  transposes_S4x64_S64x4_1_0 : S4x64.Transposes [1, 0] S64x4
  bcast_S_S2000000 : S_.BroadcastsInDim S2000000 (![] : Fin 0 → Fin S2000000.rank)
  bcast_S2000000_S2000000x1_0 : S2000000.BroadcastsInDim S2000000x1 (![0] : Fin 1 → Fin S2000000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  shapeCasts_S64x4_S64x4 : S64x4.ShapeCasts S64x4
  reduces_S4000x4_S4000 : S4000x4.Reduces [1] S4000
  shapeCasts_S4000_S4000x1 : S4000.ShapeCasts S4000x1
  broadcasts_S4000x1_S4000x4 : S4000x1.Broadcasts S4000x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x1_S1x1_0_0 : ∀ a, (![0, 0] : Fin 2 → Nat) a + S1x1.size a ≤ S1x1.size a
  h_S1x1 : 0 < S1x1.numel
  reduces_S4000x64_S4000 : S4000x64.Reduces [1] S4000
  reduces_S4000x1_S1 : S4000x1.Reduces [0] S1
  shapeCasts_S1_S1x1 : S1.ShapeCasts S1x1
  shapeCasts_S1x1_S1x1 : S1x1.ShapeCasts S1x1
  broadcasts_S1x1_S4000x64 : S1x1.Broadcasts S4000x64
  dot_S4x9_S9x4_S4x4_1_0_0_1_n_n_wf : DotDims.WF S4x9 S9x4 S4x4 [1] [0] [0] [1] [] []
  dot_S4x9_S9x64_S4x64_1_0_0_1_n_n_wf : DotDims.WF S4x9 S9x64 S4x64 [1] [0] [0] [1] [] []
  gather_S9x64_S2000000x1_S2000000x64_1_0_n_n_0_1_164_wf : GatherDims.WF S9x64 S2000000x1 S2000000x64 [1] [0] [] [0] [] 1 ![1, 64]
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x64_S64x4_S4000x4_1_0_0_1_n_n_wf : DotDims.WF S4000x64 S64x4 S4000x4 [1] [0] [0] [1] [] []
  dot_S4000x4_S4x64_S4000x64_1_0_0_1_n_n_wf : DotDims.WF S4000x4 S4x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S2000000x64.size a
  hwx0_0 : ∀ i : grid0.Coords, EltTy.bits .f32 = 32 ∨ (Rect.block (s := S2000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S2000000x64.size a
  hwx0_1 : ∀ i : grid0.Coords, EltTy.bits .f32 = 32 ∨ (Rect.block (s := S2000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S2000000x64.size a
  hwx0_2 : ∀ i : grid0.Coords, EltTy.bits .f32 = 32 ∨ (Rect.block (s := S2000000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1000000x64.size a
  hwx1_0 : ∀ i : grid1.Coords, EltTy.bits .f32 = 32 ∨ (Rect.block (s := S1000000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .f32 = 32 ∨ (Rect.block (s := S1000000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4.size a ≤ S64x4.size a
  hwx2_1 : ∀ i : grid2.Coords, EltTy.bits .f32 = 32 ∨ (Rect.block (s := S64x4) S64x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S200000x64.size a
  hwx3_0 : ∀ i : grid3.Coords, EltTy.bits .f32 = 32 ∨ (Rect.block (s := S200000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S200000x64.size a
  hwx5_0 : ∀ i : grid5.Coords, EltTy.bits .f32 = 32 ∨ (Rect.block (s := S200000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S200000x64.size a
  hwx5_2 : ∀ i : grid5.Coords, EltTy.bits .f32 = 32 ∨ (Rect.block (s := S200000x64) S4000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S200000x64.size a
  hwx5_3 : ∀ i : grid5.Coords, EltTy.bits .f32 = 32 ∨ (Rect.block (s := S200000x64) S4000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S200000x64.size a
  hwx5_4 : ∀ i : grid5.Coords, EltTy.bits .f32 = 32 ∨ (Rect.block (s := S200000x64) S4000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x1.size a ≤ S1x1.size a
  hwx6_1 : ∀ i : grid6.Coords, EltTy.bits .f32 = 32 ∨ (Rect.block (s := S1x1) S1x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S100000x64.size a
  hwx6_3 : ∀ i : grid6.Coords, EltTy.bits .f32 = 32 ∨ (Rect.block (s := S100000x64) S4000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S100000x64.size a
  hwx6_4 : ∀ i : grid6.Coords, EltTy.bits .f32 = 32 ∨ (Rect.block (s := S100000x64) S4000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S2000000x64.size a
  hwx7_0 : ∀ i : grid7.Coords, EltTy.bits .f32 = 32 ∨ (Rect.block (s := S2000000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S2000000x64.size a
  hwx7_1 : ∀ i : grid7.Coords, EltTy.bits .f32 = 32 ∨ (Rect.block (s := S2000000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x64.size a ≤ S2000000x64.size a
  hwx7_2 : ∀ i : grid7.Coords, EltTy.bits .f32 = 32 ∨ (Rect.block (s := S2000000x64) S4000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S1000000x64.size a
  hwx8_0 : ∀ i : grid8.Coords, EltTy.bits .f32 = 32 ∨ (Rect.block (s := S1000000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x1.size a ≤ S1000000x1.size a
  hwx8_1 : ∀ i : grid8.Coords, EltTy.bits .f32 = 32 ∨ (Rect.block (s := S1000000x1) S4000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S1000000x64.size a
  hwx8_2 : ∀ i : grid8.Coords, EltTy.bits .f32 = 32 ∨ (Rect.block (s := S1000000x64) S4000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S100000x64.size a
  hwx9_0 : ∀ i : grid9.Coords, EltTy.bits .f32 = 32 ∨ (Rect.block (s := S100000x64) S4000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x4.size a ≤ S64x4.size a
  hwx9_1 : ∀ i : grid9.Coords, EltTy.bits .f32 = 32 ∨ (Rect.block (s := S64x4) S64x4.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S4x64.size a ≤ S4x64.size a
  hwx9_2 : ∀ i : grid9.Coords, EltTy.bits .f32 = 32 ∨ (Rect.block (s := S4x64) S4x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x64.size a ≤ S100000x64.size a
  hwx9_3 : ∀ i : grid9.Coords, EltTy.bits .f32 = 32 ∨ (Rect.block (s := S100000x64) S4000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x64.size a ≤ S100000x64.size a
  hwx9_4 : ∀ i : grid9.Coords, EltTy.bits .f32 = 32 ∨ (Rect.block (s := S100000x64) S4000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S200000x64.size a
  hwx10_0 : ∀ i : grid10.Coords, EltTy.bits .f32 = 32 ∨ (Rect.block (s := S200000x64) S4000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x1.size a ≤ S1x1.size a
  hwx10_1 : ∀ i : grid10.Coords, EltTy.bits .f32 = 32 ∨ (Rect.block (s := S1x1) S1x1.size (cc10_transform_1 i) (hinb10_1 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x64.size a ≤ S100000x64.size a
  hwx11_0 : ∀ i : grid11.Coords, EltTy.bits .f32 = 32 ∨ (Rect.block (s := S100000x64) S4000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x1.size a ≤ S1x1.size a
  hwx11_1 : ∀ i : grid11.Coords, EltTy.bits .f32 = 32 ∨ (Rect.block (s := S1x1) S1x1.size (cc11_transform_1 i) (hinb11_1 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x64.size a ≤ S200000x64.size a
  hwx12_0 : ∀ i : grid12.Coords, EltTy.bits .f32 = 32 ∨ (Rect.block (s := S200000x64) S4000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x1.size a ≤ S1x1.size a
  hwx12_1 : ∀ i : grid12.Coords, EltTy.bits .f32 = 32 ∨ (Rect.block (s := S1x1) S1x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x64.size a ≤ S200000x64.size a
  hwx12_2 : ∀ i : grid12.Coords, EltTy.bits .f32 = 32 ∨ (Rect.block (s := S200000x64) S4000x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S4000x64.size a ≤ S200000x64.size a
  hwx12_3 : ∀ i : grid12.Coords, EltTy.bits .f32 = 32 ∨ (Rect.block (s := S200000x64) S4000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S4000x64.size a ≤ S200000x64.size a
  hwx12_4 : ∀ i : grid12.Coords, EltTy.bits .f32 = 32 ∨ (Rect.block (s := S200000x64) S4000x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x64.size a ≤ S100000x64.size a
  hwx13_0 : ∀ i : grid13.Coords, EltTy.bits .f32 = 32 ∨ (Rect.block (s := S100000x64) S4000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x1.size a ≤ S1x1.size a
  hwx13_1 : ∀ i : grid13.Coords, EltTy.bits .f32 = 32 ∨ (Rect.block (s := S1x1) S1x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4000x64.size a ≤ S100000x64.size a
  hwx13_2 : ∀ i : grid13.Coords, EltTy.bits .f32 = 32 ∨ (Rect.block (s := S100000x64) S4000x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4000x64.size a ≤ S100000x64.size a
  hwx13_3 : ∀ i : grid13.Coords, EltTy.bits .f32 = 32 ∨ (Rect.block (s := S100000x64) S4000x64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S4000x64.size a ≤ S100000x64.size a
  hwx13_4 : ∀ i : grid13.Coords, EltTy.bits .f32 = 32 ∨ (Rect.block (s := S100000x64) S4000x64.size (cc13_transform_4 i) (hinb13_4 i)).WholeWords (EltTy.packing .f32)

variable [Facts₀]

def dot_S4x9_S9x4_S4x4_1_0_0_1_n_n : DotDims S4x9 S9x4 S4x4 where
  lhsContracting := [1]
  rhsContracting := [0]
  lhsNonContracting := [0]
  rhsNonContracting := [1]
  lhsBatch := []
  rhsBatch := []
  wf := dot_S4x9_S9x4_S4x4_1_0_0_1_n_n_wf
def dot_S4x9_S9x64_S4x64_1_0_0_1_n_n : DotDims S4x9 S9x64 S4x64 where
  lhsContracting := [1]
  rhsContracting := [0]
  lhsNonContracting := [0]
  rhsNonContracting := [1]
  lhsBatch := []
  rhsBatch := []
  wf := dot_S4x9_S9x64_S4x64_1_0_0_1_n_n_wf
def gather_S9x64_S2000000x1_S2000000x64_1_0_n_n_0_1_164 : GatherDims S9x64 S2000000x1 S2000000x64 where
  offsetDims := [1]
  collapsedSliceDims := [0]
  operandBatchingDims := []
  startIndicesBatchingDims := []
  startIndexMap := [0]
  indexVectorDim := 1
  sliceSizes := ![1, 64]
  wf := gather_S9x64_S2000000x1_S2000000x64_1_0_n_n_0_1_164_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x64_S64x4_S4000x4_1_0_0_1_n_n : DotDims S4000x64 S64x4 S4000x4 where
  lhsContracting := [1]
  rhsContracting := [0]
  lhsNonContracting := [0]
  rhsNonContracting := [1]
  lhsBatch := []
  rhsBatch := []
  wf := dot_S4000x64_S64x4_S4000x4_1_0_0_1_n_n_wf
def dot_S4000x4_S4x64_S4000x64_1_0_0_1_n_n : DotDims S4000x4 S4x64 S4000x64 where
  lhsContracting := [1]
  rhsContracting := [0]
  lhsNonContracting := [0]
  rhsNonContracting := [1]
  lhsBatch := []
  rhsBatch := []
  wf := dot_S4000x4_S4x64_S4000x64_1_0_0_1_n_n_wf

abbrev win0_0 : Pipeline.Window sig grid0 :=
  Pipeline.Window.ofSpec (Memref.whole main_v39) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S64x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v63) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x1.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v63) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x1.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v50) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v68_0) S4000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v68_1) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v63) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v67) S1x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg0) S4000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v69_0) S4000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v69_1) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v85) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v86) S4000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v103) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S4000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105) S4000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v69_0) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v23) S64x4.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v22) S4x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v108) S4000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v109) S4000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v96) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v110) S1x1.size cc10_transform_1 reads10_1 true true 1 stage10_1 sem10_1
    hrank10 hreads10_1 hinb10_1 nbuf10_1 (Memref.isWhole_whole _) hwx10_1 hstage10_1

abbrev win10 : Fin 2 → Pipeline.Window sig grid10 := fun | 0 => win10_0 | 1 => win10_1 | ⟨_ + 2, h⟩ => absurd h (Nat.not_lt.2 (Nat.le_add_left _ _))
abbrev spec10 : Fin 2 → Pipeline.WinSpec sig grid10.rank := fun w => (win10 w).toWinSpec

abbrev win11_0 : Pipeline.Window sig grid11 :=
  Pipeline.Window.ofSpec (Memref.whole main_v109) S4000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v112) S1x1.size cc11_transform_1 reads11_1 true true 1 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

abbrev win12_0 : Pipeline.Window sig grid12 :=
  Pipeline.Window.ofSpec (Memref.whole main_v96) S4000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v111) S1x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v68_1) S4000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v114_0) S4000x64.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v114_1) S4000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v109) S4000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v113) S1x1.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v69_1) S4000x64.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v115_0) S4000x64.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v115_1) S4000x64.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S4x64 : Shape := ⟨2, ![4, 64]⟩
abbrev S9x64 : Shape := ⟨2, ![9, 64]⟩
abbrev S4x9 : Shape := ⟨2, ![4, 9]⟩
abbrev S1000000 : Shape := ⟨1, ![1000000]⟩
abbrev S2000000 : Shape := ⟨1, ![2000000]⟩
abbrev S_ : Shape := ⟨0, ![]⟩
abbrev S4 : Shape := ⟨1, ![4]⟩
abbrev S4x1 : Shape := ⟨2, ![4, 1]⟩
abbrev S9x4 : Shape := ⟨2, ![9, 4]⟩
abbrev S4x4 : Shape := ⟨2, ![4, 4]⟩
abbrev S2000000x1 : Shape := ⟨2, ![2000000, 1]⟩
abbrev S2000000x64 : Shape := ⟨2, ![2000000, 64]⟩
abbrev S200000x1 : Shape := ⟨2, ![200000, 1]⟩
abbrev S64x4 : Shape := ⟨2, ![64, 4]⟩
abbrev S100000x4 : Shape := ⟨2, ![100000, 4]⟩
abbrev S100000 : Shape := ⟨1, ![100000]⟩
abbrev S100000x1 : Shape := ⟨2, ![100000, 1]⟩
abbrev S1000000x1 : Shape := ⟨2, ![1000000, 1]⟩
abbrev S1000000x64 : Shape := ⟨2, ![1000000, 64]⟩

abbrev nBuf : Space → Nat
  | .hbm => 220
  | .vmem => 0
  | .smem => 0
  | _ => 0

abbrev hbmTy0_0 (i : Nat) : BufTy := match i % 128 with
  | 0 => ⟨S100000x64, .f32⟩
  | 1 => ⟨S200000x64, .f32⟩
  | 2 => ⟨S4x64, .f32⟩
  | 3 => ⟨S9x64, .f32⟩
  | 4 => ⟨S4x9, .f32⟩
  | 5 => ⟨S1000000, .f32⟩
  | 6 => ⟨S2000000, .i32⟩
  | 7 => ⟨S2000000, .i32⟩
  | 8 => ⟨S2000000, .i32⟩
  | 9 => ⟨S1000000, .i32⟩
  | 10 => ⟨S1000000, .i32⟩
  | 11 => ⟨S4x9, .f32⟩
  | 12 => ⟨S_, .f32⟩
  | 13 => ⟨S4, .f32⟩
  | 14 => ⟨S4x1, .f32⟩
  | 15 => ⟨S4x1, .f32⟩
  | 16 => ⟨S4x9, .f32⟩
  | 17 => ⟨S4x9, .f32⟩
  | 18 => ⟨S9x4, .f32⟩
  | 19 => ⟨S4x4, .f32⟩
  | 20 => ⟨S4x4, .f32⟩
  | 21 => ⟨S_, .f32⟩
  | 22 => ⟨S4x4, .f32⟩
  | 23 => ⟨S4x4, .i32⟩
  | 24 => ⟨S_, .i32⟩
  | 25 => ⟨S4x4, .i32⟩
  | 26 => ⟨S4x4, .i32⟩
  | 27 => ⟨S4x4, .i32⟩
  | 28 => ⟨S4x4, .i1⟩
  | 29 => ⟨S_, .f32⟩
  | 30 => ⟨S4x4, .f32⟩
  | 31 => ⟨S4x4, .f32⟩
  | 32 => ⟨S4x4, .f32⟩
  | 33 => ⟨S_, .f32⟩
  | 34 => ⟨S_, .f32⟩
  | 35 => ⟨S_, .f32⟩
  | 36 => ⟨S2000000x1, .f32⟩
  | 37 => ⟨S_, .f32⟩
  | 38 => ⟨S4, .f32⟩
  | 39 => ⟨S_, .f32⟩
  | 40 => ⟨S4, .f32⟩
  | 41 => ⟨S4, .f32⟩
  | 42 => ⟨S4x1, .f32⟩
  | 43 => ⟨S4x9, .f32⟩
  | 44 => ⟨S4x9, .f32⟩
  | 45 => ⟨S4x9, .f32⟩
  | 46 => ⟨S_, .f32⟩
  | 47 => ⟨S4, .f32⟩
  | 48 => ⟨S4x1, .f32⟩
  | 49 => ⟨S4x9, .f32⟩
  | 50 => ⟨S4x9, .f32⟩
  | 51 => ⟨S4x64, .f32⟩
  | 52 => ⟨S_, .i32⟩
  | 53 => ⟨S2000000, .i32⟩
  | 54 => ⟨S2000000, .i32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x64, .f32⟩
  | 73 => ⟨S2000000x64, .f32⟩
  | 74 => ⟨S_, .f32⟩
  | 75 => ⟨S200000x64, .f32⟩
  | 76 => ⟨S2000000x1, .i32⟩
  | 77 => ⟨S200000x64, .f32⟩
  | 78 => ⟨S_, .f32⟩
  | 79 => ⟨S200000x1, .f32⟩
  | 80 => ⟨S2000000x1, .i32⟩
  | 81 => ⟨S200000x1, .f32⟩
  | 82 => ⟨S_, .f32⟩
  | 83 => ⟨S200000x1, .f32⟩
  | 84 => ⟨S200000x1, .f32⟩
  | 85 => ⟨S200000x64, .f32⟩
  | 86 => ⟨S200000x64, .f32⟩
  | 87 => ⟨S64x4, .f32⟩
  | 88 => ⟨S100000x4, .f32⟩
  | 89 => ⟨S_, .f32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x4, .f32⟩
  | 96 => ⟨S100000x4, .f32⟩
  | 97 => ⟨S100000x4, .f32⟩
  | 98 => ⟨S_, .f32⟩
  | 99 => ⟨S100000, .f32⟩
  | 100 => ⟨S100000x1, .f32⟩
  | 101 => ⟨S100000x4, .f32⟩
  | 102 => ⟨S100000x4, .f32⟩
  | 103 => ⟨S1000000x1, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x64, .f32⟩
  | 113 => ⟨S1000000x64, .f32⟩
  | 114 => ⟨S1000000x64, .f32⟩
  | 115 => ⟨S_, .f32⟩
  | 116 => ⟨S100000x64, .f32⟩
  | 117 => ⟨S1000000x1, .i32⟩
  | 118 => ⟨S100000x64, .f32⟩
  | 119 => ⟨S100000x64, .f32⟩
  | 120 => ⟨S100000x64, .f32⟩
  | 121 => ⟨S100000x64, .f32⟩
  | 122 => ⟨S200000x64, .f32⟩
  | 123 => ⟨S_, .f32⟩
  | 124 => ⟨S_, .f32⟩
  | 125 => ⟨S_, .f32⟩
  | 126 => ⟨S200000x64, .f32⟩
  | 127 => ⟨S200000x64, .f32⟩
  | _ => ⟨S100000x64, .f32⟩

abbrev hbmTy0_1 (i : Nat) : BufTy := match i % 128 with
  | 0 => ⟨S100000x64, .f32⟩
  | 1 => ⟨S_, .f32⟩
  | 2 => ⟨S_, .f32⟩
  | 3 => ⟨S_, .f32⟩
  | 4 => ⟨S100000x64, .f32⟩
  | 5 => ⟨S100000x64, .f32⟩
  | 6 => ⟨S200000x64, .f32⟩
  | 7 => ⟨S100000x64, .f32⟩
  | 8 => ⟨S_, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x64, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x64, .f32⟩
  | 29 => ⟨S2000000x64, .f32⟩
  | 30 => ⟨S_, .f32⟩
  | 31 => ⟨S200000x64, .f32⟩
  | 32 => ⟨S2000000x1, .i32⟩
  | 33 => ⟨S200000x64, .f32⟩
  | 34 => ⟨S_, .f32⟩
  | 35 => ⟨S200000x1, .f32⟩
  | 36 => ⟨S2000000x1, .i32⟩
  | 37 => ⟨S200000x1, .f32⟩
  | 38 => ⟨S_, .f32⟩
  | 39 => ⟨S200000x1, .f32⟩
  | 40 => ⟨S200000x1, .f32⟩
  | 41 => ⟨S200000x64, .f32⟩
  | 42 => ⟨S200000x64, .f32⟩
  | 43 => ⟨S64x4, .f32⟩
  | 44 => ⟨S100000x4, .f32⟩
  | 45 => ⟨S_, .f32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x4, .f32⟩
  | 52 => ⟨S100000x4, .f32⟩
  | 53 => ⟨S100000x4, .f32⟩
  | 54 => ⟨S_, .f32⟩
  | 55 => ⟨S100000, .f32⟩
  | 56 => ⟨S100000x1, .f32⟩
  | 57 => ⟨S100000x4, .f32⟩
  | 58 => ⟨S100000x4, .f32⟩
  | 59 => ⟨S1000000x1, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S1000000x64, .f32⟩
  | 70 => ⟨S1000000x64, .f32⟩
  | 71 => ⟨S_, .f32⟩
  | 72 => ⟨S100000x64, .f32⟩
  | 73 => ⟨S1000000x1, .i32⟩
  | 74 => ⟨S100000x64, .f32⟩
  | 75 => ⟨S100000x64, .f32⟩
  | 76 => ⟨S100000x64, .f32⟩
  | 77 => ⟨S100000x64, .f32⟩
  | 78 => ⟨S200000x64, .f32⟩
  | 79 => ⟨S_, .f32⟩
  | 80 => ⟨S_, .f32⟩
  | 81 => ⟨S_, .f32⟩
  | 82 => ⟨S200000x64, .f32⟩
  | 83 => ⟨S200000x64, .f32⟩
  | 84 => ⟨S100000x64, .f32⟩
  | 85 => ⟨S_, .f32⟩
  | 86 => ⟨S_, .f32⟩
  | 87 => ⟨S_, .f32⟩
  | 88 => ⟨S100000x64, .f32⟩
  | 89 => ⟨S100000x64, .f32⟩
  | 90 => ⟨S200000x64, .f32⟩
  | 91 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_cst : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c : Ref sig .tc := ⟨.hbm, 52, rfl⟩
abbrev main_v23 : Ref sig .tc := ⟨.hbm, 53, rfl⟩
abbrev main_v24 : Ref sig .tc := ⟨.hbm, 54, rfl⟩
abbrev main_c_5 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_7 : Ref sig .tc := ⟨.hbm, 64, rfl⟩
abbrev main_v32 : Ref sig .tc := ⟨.hbm, 65, rfl⟩
abbrev main_v33 : Ref sig .tc := ⟨.hbm, 66, rfl⟩
abbrev main_c_8 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_11 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_12 : Ref sig .tc := ⟨.hbm, 89, rfl⟩
abbrev main_v52 : Ref sig .tc := ⟨.hbm, 90, rfl⟩
abbrev main_cst_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_15 : Ref sig .tc := ⟨.hbm, 104, rfl⟩
abbrev main_v64 : Ref sig .tc := ⟨.hbm, 105, rfl⟩
abbrev main_v65 : Ref sig .tc := ⟨.hbm, 106, rfl⟩
abbrev main_c_16 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_17 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_19 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_20 : Ref sig .tc := ⟨.hbm, 136, rfl⟩
abbrev main_v91 : Ref sig .tc := ⟨.hbm, 137, rfl⟩
abbrev main_v92 : Ref sig .tc := ⟨.hbm, 138, rfl⟩
abbrev main_c_21 : Ref sig .tc := ⟨.hbm, 139, rfl⟩
abbrev main_v93 : Ref sig .tc := ⟨.hbm, 140, rfl⟩
abbrev main_v94 : Ref sig .tc := ⟨.hbm, 141, rfl⟩
abbrev main_c_22 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_23 : Ref sig .tc := ⟨.hbm, 148, rfl⟩
abbrev main_v100 : Ref sig .tc := ⟨.hbm, 149, rfl⟩
abbrev main_v101 : Ref sig .tc := ⟨.hbm, 150, rfl⟩
abbrev main_c_24 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_25 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_26 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_27 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_28 : Ref sig .tc := ⟨.hbm, 173, rfl⟩
abbrev main_v120 : Ref sig .tc := ⟨.hbm, 174, rfl⟩
abbrev main_cst_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_30 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_c_31 : Ref sig .tc := ⟨.hbm, 188, rfl⟩
abbrev main_v132 : Ref sig .tc := ⟨.hbm, 189, rfl⟩
abbrev main_v133 : Ref sig .tc := ⟨.hbm, 190, rfl⟩
abbrev main_c_32 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_33 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_34 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_35 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩

abbrev nD : Nat := 1
abbrev τ : Topo := Topo.v7x

variable {F : FTy → Type} [FloatOps F]

class Facts₀ : Prop where
  reducesTo_S4x9_S4_d1 : S4x9.ReducesTo [1] S4
  h_S_ : 0 < S_.numel
  bcast_S4_S4x1_0 : S4.BroadcastsInDim S4x1 (![0] : Fin 1 → Fin S4x1.rank)
  bcast_S4x1_S4x9_0_1 : S4x1.BroadcastsInDim S4x9 (![0, 1] : Fin 2 → Fin S4x9.rank)
  transposes_S4x9_S9x4_1_0 : S4x9.Transposes [1, 0] S9x4
  bcast_S_S4x4 : S_.BroadcastsInDim S4x4 (![] : Fin 0 → Fin S4x4.rank)
  reducesTo_S4x4_S_d0_1 : S4x4.ReducesTo [0, 1] S_
  bcast_S_S2000000x1 : S_.BroadcastsInDim S2000000x1 (![] : Fin 0 → Fin S2000000x1.rank)
  bcast_S_S4 : S_.BroadcastsInDim S4 (![] : Fin 0 → Fin S4.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  transposes_S4x64_S64x4_1_0 : S4x64.Transposes [1, 0] S64x4
  reducesTo_S100000x4_S100000_d1 : S100000x4.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S200000x64_S_d0_1 : S200000x64.ReducesTo [0, 1] S_
  reducesTo_S100000x64_S_d0_1 : S100000x64.ReducesTo [0, 1] S_
  dot_S4x9_S9x4_S4x4_1_0_0_1_n_n_wf : DotDims.WF S4x9 S9x4 S4x4 [1] [0] [0] [1] [] []
  dot_S4x9_S9x64_S4x64_1_0_0_1_n_n_wf : DotDims.WF S4x9 S9x64 S4x64 [1] [0] [0] [1] [] []
  gather_S9x64_S2000000x1_S2000000x64_1_0_n_n_0_1_164_wf : GatherDims.WF S9x64 S2000000x1 S2000000x64 [1] [0] [] [0] [] 1 ![1, 64]
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  dot_S100000x64_S64x4_S100000x4_1_0_0_1_n_n_wf : DotDims.WF S100000x64 S64x4 S100000x4 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x4_S4x64_S100000x64_1_0_0_1_n_n_wf : DotDims.WF S100000x4 S4x64 S100000x64 [1] [0] [0] [1] [] []

variable [Facts₀]

def dot_S4x9_S9x4_S4x4_1_0_0_1_n_n : DotDims S4x9 S9x4 S4x4 where
  lhsContracting := [1]
  rhsContracting := [0]
  lhsNonContracting := [0]
  rhsNonContracting := [1]
  lhsBatch := []
  rhsBatch := []
  wf := dot_S4x9_S9x4_S4x4_1_0_0_1_n_n_wf
def dot_S4x9_S9x64_S4x64_1_0_0_1_n_n : DotDims S4x9 S9x64 S4x64 where
  lhsContracting := [1]
  rhsContracting := [0]
  lhsNonContracting := [0]
  rhsNonContracting := [1]
  lhsBatch := []
  rhsBatch := []
  wf := dot_S4x9_S9x64_S4x64_1_0_0_1_n_n_wf
def gather_S9x64_S2000000x1_S2000000x64_1_0_n_n_0_1_164 : GatherDims S9x64 S2000000x1 S2000000x64 where
  offsetDims := [1]
  collapsedSliceDims := [0]
  operandBatchingDims := []
  startIndicesBatchingDims := []
  startIndexMap := [0]
  indexVectorDim := 1
  sliceSizes := ![1, 64]
  wf := gather_S9x64_S2000000x1_S2000000x64_1_0_n_n_0_1_164_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf

class Facts : Prop extends Facts₀ where

variable [Facts]
-- ==== Proof.KRun.lean ====
/-
  The idealized kernel's run with its three results NAMED: every weakly fair execution of @main terminates, nothing
  faulting, with each result buffer holding the last boundary's contents `W27` (the fold of the host stretches and of the
  fourteen regions' write-backs from the launch memory) and every argument array as launched. It is the launch over the
  27 segments; the final thread state owns every unscoped buffer at `W27`, and here the three result buffers are read off
  it beside the eleven arguments.
-/
import proofs.«149916_j40106404610266_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main at any `F`, results at the last boundary's contents, arguments unchanged. -/
theorem run : θ_run defs (onTc (τ := τ) (main (F := F))) ⟨m, fun _ => 0, ρ⟩ (fun r => ∀ c : Dev nD,
      r.2.mem ((c.tc : Thread nD τ).loc main_v114_1) = W27 m ρ c (Proc.devRef .tc main_v114_1)
      ∧ r.2.mem ((c.tc : Thread nD τ).loc main_v115_1) = W27 m ρ c (Proc.devRef .tc main_v115_1)
      ∧ r.2.mem ((c.tc : Thread nD τ).loc main_v9) = W27 m ρ c (Proc.devRef .tc main_v9)
      ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v114_1 (by decide)),
       h c _ (mem_uc main_v115_1 (by decide)),
       h c _ (mem_uc main_v9 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c)⟩)

end Cert.KernelIdeal.KRun

end
-- ==== Proof.PreNorms.lean ====
/-
  The claim's precondition is one one-bit word, the conjunction ("and") of ten words: six say that every entry of
  a float input is finite, and the last four say that a norm is not zero. The four norms are the square roots of
  the sums of squares that the reference divides by (its operations 81, 86, 149 and 154): the precondition
  computes them by the same operations, in the same order, from the same arguments, so the two terms are equal
  by unfolding definitions. Here the conjunction is split, the last four words are read as "this extended real is
  not zero" (at the ideal instance a float comparison "not equal" is the inequality of the two extended reals, and
  the constant with the all-zero pattern is the extended real zero), and the norms are restated as the
  reference's values.
-/
import proofs.«149916_j40106404610266_2_alg».proof.Defs
import proofs.«149916_j40106404610266_2_alg».proof.Proof.Gen.Pre_finite_inputs
import proofs.«149916_j40106404610266_2_alg».proof.Proof.Gen.ReferenceIdeal.Read

set_option maxRecDepth 16384

noncomputable section

namespace Cert.PreNorms

open Idealize.ShloMosaic Idealize.SL.Sem
open Cert.ReferenceIdeal

/-! ## The precondition's norms are the reference's

The precondition and the reference compute the four norms by the same operations, in the same order, from the
same arguments; only the names of the shape abbreviations and the proofs of the side conditions differ, and any
two proofs of a proposition are equal. So the precondition's chain of operations, unfolded up to its last part
(the part that forms the conjunction), is that last part applied to the reference's four norms. The three other
names live at that point (the conjunction of the first five finiteness words, the array of the sixth float
input's finiteness words, and the one-bit constant one) are not needed and stay existentially quantified. -/

section Terms

variable [hPre : Cert.Pre_finite_inputs.Facts]
variable (x0 : FVec Ideal Cert.Pre_finite_inputs.S100000x64 .f32) (x1 : FVec Ideal Cert.Pre_finite_inputs.S200000x64 .f32)
  (x2 : FVec Ideal Cert.Pre_finite_inputs.S4x64 .f32) (x3 : FVec Ideal Cert.Pre_finite_inputs.S9x64 .f32)
  (x4 : FVec Ideal Cert.Pre_finite_inputs.S4x9 .f32) (x5 : FVec Ideal Cert.Pre_finite_inputs.S1000000 .f32)
  (x6 x7 x8 : IVec Cert.Pre_finite_inputs.S2000000 32) (x9 x10 : IVec Cert.Pre_finite_inputs.S1000000 32)

/-- The precondition is its last part, the conjunction, applied to the reference's four norms. -/
theorem fn_eq : ∃ (w164 : IVec Cert.Pre_finite_inputs.S_ 1) (w167 : IVec Cert.Pre_finite_inputs.S1000000 1)
    (w45 : IVec Cert.Pre_finite_inputs.S_ 1),
    Cert.Pre_finite_inputs.fn (F := Ideal) x0 x1 x2 x3 x4 x5 x6 x7 x8 x9 x10
      = Cert.Pre_finite_inputs.fn_part9 (F := Ideal)
          (Read.val_main_v81 (F := Ideal) x1 x3 x6 x7 x8)
          (Read.val_main_v86 (F := Ideal) x0 x1 x2 x3 x4 x5 x9 x10)
          (Read.val_main_v149 (F := Ideal) x1 x3 x6 x7 x8)
          (Read.val_main_v154 (F := Ideal) x0 x1 x2 x3 x4 x5 x6 x7 x8 x9 x10) w164 w167 w45 :=
  ⟨_, _, _, rfl⟩

end Terms

/-! ## The conjunction, split -/

/-- At the ideal instance the comparison "not equal" against the constant with the all-zero pattern answers one
    only if the extended real is not zero: the comparison is the inequality of the two extended reals, and the
    all-zero pattern denotes zero. -/
theorem ne_zero_of_une {x : EReal} (h : Ideal.cmp .une x (Ideal.ofBits .f32 0x00000000#32) = 1#1) : x ≠ 0 := by
  intro hx
  rw [Ideal.ofBits_zero_f32, hx] at h
  simp [Ideal.cmp] at h

/-- If the last part of the precondition, the conjunction of its ten words, is one, then each of the four norms it
    was given is not zero: a conjunction of one-bit words is one only if both words are, and the last four words
    are the comparisons of the norms with zero. -/
theorem part9_norms [hPre : Cert.Pre_finite_inputs.Facts]
    (n1 n2 n3 n4 : FVec Ideal Cert.Pre_finite_inputs.S_ .f32) (w164 : IVec Cert.Pre_finite_inputs.S_ 1)
    (w167 : IVec Cert.Pre_finite_inputs.S1000000 1) (w45 : IVec Cert.Pre_finite_inputs.S_ 1)
    (h : Cert.Pre_finite_inputs.fn_part9 (F := Ideal) n1 n2 n3 n4 w164 w167 w45 = fun _ => 1#1) :
    (n1 ValueIdx.ix0 : EReal) ≠ 0 ∧ (n2 ValueIdx.ix0 : EReal) ≠ 0
      ∧ (n3 ValueIdx.ix0 : EReal) ≠ 0 ∧ (n4 ValueIdx.ix0 : EReal) ≠ 0 := by
  have h0 := congrFun h ValueIdx.ix0
  dsimp only [Cert.Pre_finite_inputs.fn_part9] at h0
  obtain ⟨h0, e4⟩ := IntOp.andi_eq_one.1 (h0 : IntOp.andi _ _ = 1#1)
  obtain ⟨h0, e3⟩ := IntOp.andi_eq_one.1 (h0 : IntOp.andi _ _ = 1#1)
  obtain ⟨h0, e2⟩ := IntOp.andi_eq_one.1 (h0 : IntOp.andi _ _ = 1#1)
  obtain ⟨_, e1⟩ := IntOp.andi_eq_one.1 (h0 : IntOp.andi _ _ = 1#1)
  exact ⟨ne_zero_of_une e1, ne_zero_of_une e2, ne_zero_of_une e3, ne_zero_of_une e4⟩

/-! ## The four facts -/

/-- On every device the four norms the reference divides by are not zero. Each norm is a rank-0 array of
    extended reals, read at its one index `ValueIdx.ix0`. -/
theorem norms_ne [hPre_finite_inputs : Cert.Pre_finite_inputs.Facts] [hReferenceIdeal : Cert.ReferenceIdeal.Facts]
    [hKernelIdeal : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Read.val_main_v81 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) ValueIdx.ix0 : EReal) ≠ 0
    ∧ (Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) ValueIdx.ix0 : EReal) ≠ 0
    ∧ (Read.val_main_v149 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) ValueIdx.ix0 : EReal) ≠ 0
    ∧ (Read.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) ValueIdx.ix0 : EReal) ≠ 0 := by
  obtain ⟨w164, w167, w45, e⟩ := fn_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  exact part9_norms _ _ _ _ w164 w167 w45 (e.symm.trans (h c))

/-- The same four facts at any index of the rank-0 shape (it has one index, so every index is that one): the form
    that meets a read of a norm through a broadcast, whose index is computed from the reader's. -/
theorem norms_ne_at [hPre_finite_inputs : Cert.Pre_finite_inputs.Facts] [hReferenceIdeal : Cert.ReferenceIdeal.Facts]
    [hKernelIdeal : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.ReferenceIdeal.S_.Idx, (Read.val_main_v81 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i : EReal) ≠ 0)
    ∧ (∀ i : Cert.ReferenceIdeal.S_.Idx, (Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) i : EReal) ≠ 0)
    ∧ (∀ i : Cert.ReferenceIdeal.S_.Idx, (Read.val_main_v149 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i : EReal) ≠ 0)
    ∧ (∀ i : Cert.ReferenceIdeal.S_.Idx, (Read.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) i : EReal) ≠ 0) := by
  obtain ⟨h1, h2, h3, h4⟩ := norms_ne m h c
  exact ⟨fun i => by rw [ValueIdx.eq_ix0 i]; exact h1, fun i => by rw [ValueIdx.eq_ix0 i]; exact h2,
    fun i => by rw [ValueIdx.eq_ix0 i]; exact h3, fun i => by rw [ValueIdx.eq_ix0 i]; exact h4⟩

end Cert.PreNorms

end
-- ==== Proof.ChainA0.lean ====
/-
  Hop 1 of the kernel's run read as values: what is claimed at the hand-over boundaries.

  The kernel's run is a fold over boundaries: the launch memory, then alternately a stretch of host operations and
  a pipelined region. At each boundary named here the claim is that every buffer a later step reads holds the
  value the reference program computes for the corresponding stage, as a function of the eleven launch
  arguments alone: the arguments themselves are unchanged, the host-side tables (the factor similarity scalar,
  the column of ones, the relation-factor matrix product, the transposed factor embedding) are the reference's,
  and the arrays the regions produce (the masked message products scattered and averaged, the attention-mixed
  item aggregate, the two global norms as one-entry arrays, the normalized embeddings and the residual sums) are
  the reference's stages of the same name. Boundary 6 is the entry of the second region, boundary 9 the entry of
  the first sum of squares, boundary 13 the entry of the first normalize-and-add region, boundary 15 the end of
  the first hop. The two norms are carried as constant one-entry arrays: the kernel keeps each in a 1x1 buffer,
  the reference as a scalar.
-/
import proofs.«149916_j40106404610266_2_alg».proof.Proof.Gen.KernelIdeal.Frame
import proofs.«149916_j40106404610266_2_alg».proof.Proof.Gen.ReferenceIdeal.Read

set_option maxRecDepth 16384

noncomputable section

namespace Cert.ChainA

open Idealize.ShloMosaic Idealize.ShloMosaic.TcCoe Idealize.SL.Sem
open Cert.KernelIdeal

variable (m : (ℓ : Loc nD τ sig) → Buf (Elt Ideal) ℓ) (ρ : Dev nD → PrngReg) (c : Dev nD)

/-- The kernel's buffers at boundary 6 hold the reference's stages of the launch arguments. -/
structure At6 : Prop where
  arg0 : Gen.W6 (F := Ideal) m ρ c (Proc.devRef .tc main_arg0) = (m ((c.tc : Thread nD τ).loc main_arg0))
  arg1 : Gen.W6 (F := Ideal) m ρ c (Proc.devRef .tc main_arg1) = (m ((c.tc : Thread nD τ).loc main_arg1))
  arg2 : Gen.W6 (F := Ideal) m ρ c (Proc.devRef .tc main_arg2) = (m ((c.tc : Thread nD τ).loc main_arg2))
  arg3 : Gen.W6 (F := Ideal) m ρ c (Proc.devRef .tc main_arg3) = (m ((c.tc : Thread nD τ).loc main_arg3))
  arg4 : Gen.W6 (F := Ideal) m ρ c (Proc.devRef .tc main_arg4) = (m ((c.tc : Thread nD τ).loc main_arg4))
  arg5 : Gen.W6 (F := Ideal) m ρ c (Proc.devRef .tc main_arg5) = (m ((c.tc : Thread nD τ).loc main_arg5))
  arg6 : Gen.W6 (F := Ideal) m ρ c (Proc.devRef .tc main_arg6) = (m ((c.tc : Thread nD τ).loc main_arg6))
  arg7 : Gen.W6 (F := Ideal) m ρ c (Proc.devRef .tc main_arg7) = (m ((c.tc : Thread nD τ).loc main_arg7))
  arg8 : Gen.W6 (F := Ideal) m ρ c (Proc.devRef .tc main_arg8) = (m ((c.tc : Thread nD τ).loc main_arg8))
  arg9 : Gen.W6 (F := Ideal) m ρ c (Proc.devRef .tc main_arg9) = (m ((c.tc : Thread nD τ).loc main_arg9))
  arg10 : Gen.W6 (F := Ideal) m ρ c (Proc.devRef .tc main_arg10) = (m ((c.tc : Thread nD τ).loc main_arg10))
  v9 : Gen.W6 (F := Ideal) m ρ c (Proc.devRef .tc main_v9) = (Cert.ReferenceIdeal.Read.val_main_v9 (F := Ideal) (m ((c.tc : Thread nD τ).loc main_arg4)))
  v10 : Gen.W6 (F := Ideal) m ρ c (Proc.devRef .tc main_v10) = (Cert.ReferenceIdeal.Read.val_main_v10 (F := Ideal))
  v22 : Gen.W6 (F := Ideal) m ρ c (Proc.devRef .tc main_v22) = (Cert.ReferenceIdeal.Read.val_main_v22 (F := Ideal) (m ((c.tc : Thread nD τ).loc main_arg3)) (m ((c.tc : Thread nD τ).loc main_arg4)))
  v23 : Gen.W6 (F := Ideal) m ρ c (Proc.devRef .tc main_v23) = (Cert.ReferenceIdeal.Read.val_main_v50 (F := Ideal) (m ((c.tc : Thread nD τ).loc main_arg2)))
  v50 : Gen.W6 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v57 : Gen.W6 (F := Ideal) m ρ c (Proc.devRef .tc main_v57) = (Cert.ReferenceIdeal.Read.val_main_v70 (F := Ideal) (m ((c.tc : Thread nD τ).loc main_arg1)) (m ((c.tc : Thread nD τ).loc main_arg10)))
  v58 : Gen.W6 (F := Ideal) m ρ c (Proc.devRef .tc main_v58) = (Cert.ReferenceIdeal.Read.val_main_v63 (F := Ideal) (m ((c.tc : Thread nD τ).loc main_arg5)))

/-- The kernel's buffers at boundary 9 hold the reference's stages of the launch arguments. -/
structure At9 : Prop where
  arg0 : Gen.W9 (F := Ideal) m ρ c (Proc.devRef .tc main_arg0) = (m ((c.tc : Thread nD τ).loc main_arg0))
  arg1 : Gen.W9 (F := Ideal) m ρ c (Proc.devRef .tc main_arg1) = (m ((c.tc : Thread nD τ).loc main_arg1))
  arg2 : Gen.W9 (F := Ideal) m ρ c (Proc.devRef .tc main_arg2) = (m ((c.tc : Thread nD τ).loc main_arg2))
  arg3 : Gen.W9 (F := Ideal) m ρ c (Proc.devRef .tc main_arg3) = (m ((c.tc : Thread nD τ).loc main_arg3))
  arg4 : Gen.W9 (F := Ideal) m ρ c (Proc.devRef .tc main_arg4) = (m ((c.tc : Thread nD τ).loc main_arg4))
  arg5 : Gen.W9 (F := Ideal) m ρ c (Proc.devRef .tc main_arg5) = (m ((c.tc : Thread nD τ).loc main_arg5))
  arg6 : Gen.W9 (F := Ideal) m ρ c (Proc.devRef .tc main_arg6) = (m ((c.tc : Thread nD τ).loc main_arg6))
  arg7 : Gen.W9 (F := Ideal) m ρ c (Proc.devRef .tc main_arg7) = (m ((c.tc : Thread nD τ).loc main_arg7))
  arg8 : Gen.W9 (F := Ideal) m ρ c (Proc.devRef .tc main_arg8) = (m ((c.tc : Thread nD τ).loc main_arg8))
  arg9 : Gen.W9 (F := Ideal) m ρ c (Proc.devRef .tc main_arg9) = (m ((c.tc : Thread nD τ).loc main_arg9))
  arg10 : Gen.W9 (F := Ideal) m ρ c (Proc.devRef .tc main_arg10) = (m ((c.tc : Thread nD τ).loc main_arg10))
  v9 : Gen.W9 (F := Ideal) m ρ c (Proc.devRef .tc main_v9) = (Cert.ReferenceIdeal.Read.val_main_v9 (F := Ideal) (m ((c.tc : Thread nD τ).loc main_arg4)))
  v10 : Gen.W9 (F := Ideal) m ρ c (Proc.devRef .tc main_v10) = (Cert.ReferenceIdeal.Read.val_main_v10 (F := Ideal))
  v22 : Gen.W9 (F := Ideal) m ρ c (Proc.devRef .tc main_v22) = (Cert.ReferenceIdeal.Read.val_main_v22 (F := Ideal) (m ((c.tc : Thread nD τ).loc main_arg3)) (m ((c.tc : Thread nD τ).loc main_arg4)))
  v23 : Gen.W9 (F := Ideal) m ρ c (Proc.devRef .tc main_v23) = (Cert.ReferenceIdeal.Read.val_main_v50 (F := Ideal) (m ((c.tc : Thread nD τ).loc main_arg2)))
  v50 : Gen.W9 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v63 : Gen.W9 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))

/-- The kernel's buffers at boundary 13 hold the reference's stages of the launch arguments. -/
structure At13 : Prop where
  arg0 : Gen.W13 (F := Ideal) m ρ c (Proc.devRef .tc main_arg0) = (m ((c.tc : Thread nD τ).loc main_arg0))
  arg1 : Gen.W13 (F := Ideal) m ρ c (Proc.devRef .tc main_arg1) = (m ((c.tc : Thread nD τ).loc main_arg1))
  arg2 : Gen.W13 (F := Ideal) m ρ c (Proc.devRef .tc main_arg2) = (m ((c.tc : Thread nD τ).loc main_arg2))
  arg3 : Gen.W13 (F := Ideal) m ρ c (Proc.devRef .tc main_arg3) = (m ((c.tc : Thread nD τ).loc main_arg3))
  arg4 : Gen.W13 (F := Ideal) m ρ c (Proc.devRef .tc main_arg4) = (m ((c.tc : Thread nD τ).loc main_arg4))
  arg5 : Gen.W13 (F := Ideal) m ρ c (Proc.devRef .tc main_arg5) = (m ((c.tc : Thread nD τ).loc main_arg5))
  arg6 : Gen.W13 (F := Ideal) m ρ c (Proc.devRef .tc main_arg6) = (m ((c.tc : Thread nD τ).loc main_arg6))
  arg7 : Gen.W13 (F := Ideal) m ρ c (Proc.devRef .tc main_arg7) = (m ((c.tc : Thread nD τ).loc main_arg7))
  arg8 : Gen.W13 (F := Ideal) m ρ c (Proc.devRef .tc main_arg8) = (m ((c.tc : Thread nD τ).loc main_arg8))
  arg9 : Gen.W13 (F := Ideal) m ρ c (Proc.devRef .tc main_arg9) = (m ((c.tc : Thread nD τ).loc main_arg9))
  arg10 : Gen.W13 (F := Ideal) m ρ c (Proc.devRef .tc main_arg10) = (m ((c.tc : Thread nD τ).loc main_arg10))
  v9 : Gen.W13 (F := Ideal) m ρ c (Proc.devRef .tc main_v9) = (Cert.ReferenceIdeal.Read.val_main_v9 (F := Ideal) (m ((c.tc : Thread nD τ).loc main_arg4)))
  v10 : Gen.W13 (F := Ideal) m ρ c (Proc.devRef .tc main_v10) = (Cert.ReferenceIdeal.Read.val_main_v10 (F := Ideal))
  v22 : Gen.W13 (F := Ideal) m ρ c (Proc.devRef .tc main_v22) = (Cert.ReferenceIdeal.Read.val_main_v22 (F := Ideal) (m ((c.tc : Thread nD τ).loc main_arg3)) (m ((c.tc : Thread nD τ).loc main_arg4)))
  v23 : Gen.W13 (F := Ideal) m ρ c (Proc.devRef .tc main_v23) = (Cert.ReferenceIdeal.Read.val_main_v50 (F := Ideal) (m ((c.tc : Thread nD τ).loc main_arg2)))
  v50 : Gen.W13 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v63 : Gen.W13 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
  v65 : Gen.W13 (F := Ideal) m ρ c (Proc.devRef .tc main_v65) = (fun (_ : S1x1.Idx) => ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal))
  v67 : Gen.W13 (F := Ideal) m ρ c (Proc.devRef .tc main_v67) = (fun (_ : S1x1.Idx) => ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal))

/-- The kernel's buffers at boundary 15 hold the reference's stages of the launch arguments. -/
structure At15 : Prop where
  arg0 : Gen.W15 (F := Ideal) m ρ c (Proc.devRef .tc main_arg0) = (m ((c.tc : Thread nD τ).loc main_arg0))
  arg1 : Gen.W15 (F := Ideal) m ρ c (Proc.devRef .tc main_arg1) = (m ((c.tc : Thread nD τ).loc main_arg1))
  arg2 : Gen.W15 (F := Ideal) m ρ c (Proc.devRef .tc main_arg2) = (m ((c.tc : Thread nD τ).loc main_arg2))
  arg3 : Gen.W15 (F := Ideal) m ρ c (Proc.devRef .tc main_arg3) = (m ((c.tc : Thread nD τ).loc main_arg3))
  arg4 : Gen.W15 (F := Ideal) m ρ c (Proc.devRef .tc main_arg4) = (m ((c.tc : Thread nD τ).loc main_arg4))
  arg5 : Gen.W15 (F := Ideal) m ρ c (Proc.devRef .tc main_arg5) = (m ((c.tc : Thread nD τ).loc main_arg5))
  arg6 : Gen.W15 (F := Ideal) m ρ c (Proc.devRef .tc main_arg6) = (m ((c.tc : Thread nD τ).loc main_arg6))
  arg7 : Gen.W15 (F := Ideal) m ρ c (Proc.devRef .tc main_arg7) = (m ((c.tc : Thread nD τ).loc main_arg7))
  arg8 : Gen.W15 (F := Ideal) m ρ c (Proc.devRef .tc main_arg8) = (m ((c.tc : Thread nD τ).loc main_arg8))
  arg9 : Gen.W15 (F := Ideal) m ρ c (Proc.devRef .tc main_arg9) = (m ((c.tc : Thread nD τ).loc main_arg9))
  arg10 : Gen.W15 (F := Ideal) m ρ c (Proc.devRef .tc main_arg10) = (m ((c.tc : Thread nD τ).loc main_arg10))
  v9 : Gen.W15 (F := Ideal) m ρ c (Proc.devRef .tc main_v9) = (Cert.ReferenceIdeal.Read.val_main_v9 (F := Ideal) (m ((c.tc : Thread nD τ).loc main_arg4)))
  v10 : Gen.W15 (F := Ideal) m ρ c (Proc.devRef .tc main_v10) = (Cert.ReferenceIdeal.Read.val_main_v10 (F := Ideal))
  v22 : Gen.W15 (F := Ideal) m ρ c (Proc.devRef .tc main_v22) = (Cert.ReferenceIdeal.Read.val_main_v22 (F := Ideal) (m ((c.tc : Thread nD τ).loc main_arg3)) (m ((c.tc : Thread nD τ).loc main_arg4)))
  v23 : Gen.W15 (F := Ideal) m ρ c (Proc.devRef .tc main_v23) = (Cert.ReferenceIdeal.Read.val_main_v50 (F := Ideal) (m ((c.tc : Thread nD τ).loc main_arg2)))
  v68_0 : Gen.W15 (F := Ideal) m ρ c (Proc.devRef .tc main_v68_0) = (Cert.ReferenceIdeal.Read.val_main_v83 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v68_1 : Gen.W15 (F := Ideal) m ρ c (Proc.devRef .tc main_v68_1) = (Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v69_0 : Gen.W15 (F := Ideal) m ρ c (Proc.devRef .tc main_v69_0) = (Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
  v69_1 : Gen.W15 (F := Ideal) m ρ c (Proc.devRef .tc main_v69_1) = (Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))

end Cert.ChainA

end
-- ==== Proof.ValMul0.lean ====
/- The kernel's first elementwise product, as one whole array.

   The region runs over 500 grid points. At point t it loads rows 4000·t … 4000·t + 3999 (all 64 columns) of
   each of its two operand arrays, multiplies the two blocks entry by entry, and stores the product block
   into the same rows of the result array. The three windows move together (the same block index at every
   point), so what point t writes back is exactly block t of the entrywise product of the two whole operand
   arrays; and the 500 blocks tile the 2000000 rows (row r lies in block r / 4000). Hence, whatever the
   buffers hold when the region is entered, the result array ends holding the entrywise product of the two
   operand arrays as the region found them. Nothing here depends on the float instance: the product is
   taken once per entry, in the same way on both sides. -/
import proofs.«149916_j40106404610266_2_alg».proof.Proof.Gen.KernelIdeal.Frame
import Idealize.ShloMosaic.Lib.Pipeline.Value

noncomputable section

namespace Cert.KernelIdeal.ValMul0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The three windows' arrays, by name. -/
theorem arrRef_0 : Pipeline.arrRef spec0 0 = main_v39 := rfl
theorem arrRef_1 : Pipeline.arrRef spec0 1 = main_v32 := rfl
theorem arrRef_2 : Pipeline.arrRef spec0 2 = main_v40 := rfl

theorem hz : (![0, 0] : Fin 2 → Nat) = fun _ => 0 := funext fun a => by fin_cases a <;> rfl

/-- The entrywise product of two whole arrays of the operands' shape. -/
abbrev prod (a0 a1 : S2000000x64.Idx → Elt F .f32) : S2000000x64.Idx → Elt F .f32 := mulf a0 a1

/-- The body's stored value is the entrywise product of its two loaded blocks (its shape casts are to the
    blocks' own shape). -/
theorem pay_eq (x0 x1 : Vec F S4000x64 .f32) : k0_pay1 x0 x1 = mulf x0 x1 := by
  unfold k0_pay1
  simp only [shapeCast_self]

/-- The two operand windows sit, at every point, at the result window's block index. -/
theorem index_0 (t : Fin cfg0.N) : win0_0.index t = win0_2.index t := rfl
theorem index_1 (t : Fin cfg0.N) : win0_1.index t = win0_2.index t := rfl

/-- The result window's block index at point t is (t, 0): decided over the 500 points. -/
theorem index_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- What point t writes back is block t of the entrywise product of the two operand arrays. -/
theorem flushed_eq (c : Dev nD) (t : Fin cfg0.N) :
    (dat0 V c).flushed 2 t = ((cfg0.win 2).blk t).view.read (Elt F) (prod (V c main_v39) (V c main_v32)) := by
  show (cfg0.win 2).cut (grid0.coords t) ((dat0 V c).after 2 t) = _
  rw [after0_2]
  unfold out0_2
  rw [View.canon_unit_zero hz]
  simp only [View.ld_unit_zero (S := S4000x64) hz]
  rw [pay_eq]
  funext j
  show FloatOps.mulf (V c main_v39 (((cfg0.win 0).blk t).view.emb j)) (V c main_v32 (((cfg0.win 1).blk t).view.emb j)) = FloatOps.mulf (V c main_v39 (((cfg0.win 2).blk t).view.emb j)) (V c main_v32 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; rw [index_0]
    | ⟨1, _⟩ => show win0_0.index t (1 : Fin 2) * 64 + 1 * (j 1).val = win0_2.index t (1 : Fin 2) * 64 + 1 * (j 1).val; rw [index_0]
  have h1 : ((cfg0.win 1).blk t).view.emb j = ((cfg0.win 2).blk t).view.emb j := by
    funext a; apply Fin.ext
    match a with
    | ⟨0, _⟩ => show win0_1.index t (0 : Fin 2) * 4000 + 1 * (j 0).val = win0_2.index t (0 : Fin 2) * 4000 + 1 * (j 0).val; rw [index_1]
    | ⟨1, _⟩ => show win0_1.index t (1 : Fin 2) * 64 + 1 * (j 1).val = win0_2.index t (1 : Fin 2) * 64 + 1 * (j 1).val; rw [index_1]
  rw [h0, h1]

/-- An index of the result array is in point t's block iff each coordinate is in the block's range. -/
theorem mem_blk (t : Fin cfg0.N) (i : S2000000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v40).slice (win0_2.rect t)).set ↔ _
  rw [View.set_slice_whole, Rect.mem_set_unit]
  exact Iff.rfl

/-- Every index of the result array is in some point's block: row r is in block r / 4000. -/
theorem cover (i : S2000000x64.Idx) :
    ∃ t : Fin cfg0.N, (cfg0.win 2).flush t = true ∧ i ∈ ((cfg0.win 2).blk t).view.set := by
  have hi0 : (i 0).val < 2000000 := (i 0).isLt
  have hi1 : (i 1).val < 64 := (i 1).isLt
  have hN : cfg0.N = 500 := N_0
  obtain ⟨t, ht⟩ : ∃ t : Fin cfg0.N, t.val = (i 0).val / 4000 := ⟨⟨(i 0).val / 4000, by rw [hN]; omega⟩, rfl⟩
  obtain ⟨q0, q1⟩ := index_2 t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- THE RESULT ARRAY after the region: the entrywise product of the two operand arrays as the region found them. -/
theorem arr (c : Dev nD) :
    (dat0 V c).arrAt 2 cfg0.N = mulf (V c main_v39 : S2000000x64.Idx → Elt F .f32) (V c main_v32 : S2000000x64.Idx → Elt F .f32) :=
  (dat0 V c).arrAt_eq_of_cover 2 (prod (V c main_v39) (V c main_v32)) (fun t _ => flushed_eq V c t) cover

end Cert.KernelIdeal.ValMul0

end
-- ==== Proof.ChainA1.lean ====
/-
  From the launch to the entry of the second region (boundaries 4, 5, 6).

  Boundary 4 is the launch memory after the host operations that precede the first region: the row norms of the
  relation table and its normalized Gram matrix, the upper-triangular mask, their masked sum of squares, the softmax
  of the relation table against the factor table, the two gathers of the edge lists. Each of these is the same
  operation, on the same operands, as the reference's stage, so each buffer holds the reference's value by
  unfolding both sides. The first region multiplies the two gathered arrays entry by entry, which is the
  reference's product stage. The stretch that follows scatters the products onto the users, counts the users'
  degrees, divides, and prepares the second region's operands; again operation for operation the reference's.
  Buffers a step does not write keep their contents.
-/
import proofs.«149916_j40106404610266_2_alg».proof.Proof.Gen.KernelIdeal.Frame
import proofs.«149916_j40106404610266_2_alg».proof.Proof.Gen.ReferenceIdeal.Read
import proofs.«149916_j40106404610266_2_alg».proof.Proof.ChainA0
import proofs.«149916_j40106404610266_2_alg».proof.Proof.ValMul0

set_option maxRecDepth 16384

noncomputable section

namespace Cert.ChainA

open Idealize.ShloMosaic Idealize.ShloMosaic.TcCoe Idealize.SL.Sem
open Cert.KernelIdeal

variable (m : (ℓ : Loc nD τ sig) → Buf (Elt Ideal) ℓ) (ρ : Dev nD → PrngReg) (c : Dev nD)

/-! ## Boundary 4: the host operations before the first region, from the launch memory -/

theorem W4_arg0 : Gen.W4 (F := Ideal) m ρ c (Proc.devRef .tc main_arg0) = (m ((c.tc : Thread nD τ).loc main_arg0)) := by
  dsimp only [Gen.W4, Gen.hostOps0_3]
  after_results_simp <;> rfl
theorem W4_arg1 : Gen.W4 (F := Ideal) m ρ c (Proc.devRef .tc main_arg1) = (m ((c.tc : Thread nD τ).loc main_arg1)) := by
  dsimp only [Gen.W4, Gen.hostOps0_3]
  after_results_simp <;> rfl
theorem W4_arg2 : Gen.W4 (F := Ideal) m ρ c (Proc.devRef .tc main_arg2) = (m ((c.tc : Thread nD τ).loc main_arg2)) := by
  dsimp only [Gen.W4, Gen.hostOps0_3]
  after_results_simp <;> rfl
theorem W4_arg3 : Gen.W4 (F := Ideal) m ρ c (Proc.devRef .tc main_arg3) = (m ((c.tc : Thread nD τ).loc main_arg3)) := by
  dsimp only [Gen.W4, Gen.hostOps0_3]
  after_results_simp <;> rfl
theorem W4_arg4 : Gen.W4 (F := Ideal) m ρ c (Proc.devRef .tc main_arg4) = (m ((c.tc : Thread nD τ).loc main_arg4)) := by
  dsimp only [Gen.W4, Gen.hostOps0_3]
  after_results_simp <;> rfl
theorem W4_arg5 : Gen.W4 (F := Ideal) m ρ c (Proc.devRef .tc main_arg5) = (m ((c.tc : Thread nD τ).loc main_arg5)) := by
  dsimp only [Gen.W4, Gen.hostOps0_3]
  after_results_simp <;> rfl
theorem W4_arg6 : Gen.W4 (F := Ideal) m ρ c (Proc.devRef .tc main_arg6) = (m ((c.tc : Thread nD τ).loc main_arg6)) := by
  dsimp only [Gen.W4, Gen.hostOps0_3]
  after_results_simp <;> rfl
theorem W4_arg7 : Gen.W4 (F := Ideal) m ρ c (Proc.devRef .tc main_arg7) = (m ((c.tc : Thread nD τ).loc main_arg7)) := by
  dsimp only [Gen.W4, Gen.hostOps0_3]
  after_results_simp <;> rfl
theorem W4_arg8 : Gen.W4 (F := Ideal) m ρ c (Proc.devRef .tc main_arg8) = (m ((c.tc : Thread nD τ).loc main_arg8)) := by
  dsimp only [Gen.W4, Gen.hostOps0_3]
  after_results_simp <;> rfl
theorem W4_arg9 : Gen.W4 (F := Ideal) m ρ c (Proc.devRef .tc main_arg9) = (m ((c.tc : Thread nD τ).loc main_arg9)) := by
  dsimp only [Gen.W4, Gen.hostOps0_3]
  after_results_simp <;> rfl
theorem W4_arg10 : Gen.W4 (F := Ideal) m ρ c (Proc.devRef .tc main_arg10) = (m ((c.tc : Thread nD τ).loc main_arg10)) := by
  dsimp only [Gen.W4, Gen.hostOps0_3]
  after_results_simp <;> rfl
theorem W4_v9 : Gen.W4 (F := Ideal) m ρ c (Proc.devRef .tc main_v9) = (Cert.ReferenceIdeal.Read.val_main_v9 (F := Ideal) (m ((c.tc : Thread nD τ).loc main_arg4))) := by
  dsimp only [Gen.W4, Gen.hostOps0_3]
  after_results_simp <;> rfl
theorem W4_v10 : Gen.W4 (F := Ideal) m ρ c (Proc.devRef .tc main_v10) = (Cert.ReferenceIdeal.Read.val_main_v10 (F := Ideal)) := by
  dsimp only [Gen.W4, Gen.hostOps0_3]
  after_results_simp <;> rfl
theorem W4_v22 : Gen.W4 (F := Ideal) m ρ c (Proc.devRef .tc main_v22) = (Cert.ReferenceIdeal.Read.val_main_v22 (F := Ideal) (m ((c.tc : Thread nD τ).loc main_arg3)) (m ((c.tc : Thread nD τ).loc main_arg4))) := by
  dsimp only [Gen.W4, Gen.hostOps0_3]
  after_results_simp <;> rfl
theorem W4_v23 : Gen.W4 (F := Ideal) m ρ c (Proc.devRef .tc main_v23) = (Cert.ReferenceIdeal.Read.val_main_v50 (F := Ideal) (m ((c.tc : Thread nD τ).loc main_arg2))) := by
  dsimp only [Gen.W4, Gen.hostOps0_3]
  after_results_simp <;> rfl
theorem W4_v32 : Gen.W4 (F := Ideal) m ρ c (Proc.devRef .tc main_v32) = (Cert.ReferenceIdeal.Read.val_main_v31 (F := Ideal) (m ((c.tc : Thread nD τ).loc main_arg3)) (m ((c.tc : Thread nD τ).loc main_arg8))) := by
  dsimp only [Gen.W4, Gen.hostOps0_3]
  after_results_simp <;> rfl
theorem W4_v39 : Gen.W4 (F := Ideal) m ρ c (Proc.devRef .tc main_v39) = (Cert.ReferenceIdeal.Read.val_main_v38 (F := Ideal) (m ((c.tc : Thread nD τ).loc main_arg1)) (m ((c.tc : Thread nD τ).loc main_arg7))) := by
  dsimp only [Gen.W4, Gen.hostOps0_3]
  after_results_simp <;> rfl

/-! ## Boundary 5: the first region (the entrywise product of the two gathered arrays) -/

theorem W5_arg0 : Gen.W5 (F := Ideal) m ρ c (Proc.devRef .tc main_arg0) = (m ((c.tc : Thread nD τ).loc main_arg0)) :=
  (Gen.W5_of_ne m ρ c main_arg0 (by decide)).trans (W4_arg0 m ρ c)
theorem W5_arg1 : Gen.W5 (F := Ideal) m ρ c (Proc.devRef .tc main_arg1) = (m ((c.tc : Thread nD τ).loc main_arg1)) :=
  (Gen.W5_of_ne m ρ c main_arg1 (by decide)).trans (W4_arg1 m ρ c)
theorem W5_arg2 : Gen.W5 (F := Ideal) m ρ c (Proc.devRef .tc main_arg2) = (m ((c.tc : Thread nD τ).loc main_arg2)) :=
  (Gen.W5_of_ne m ρ c main_arg2 (by decide)).trans (W4_arg2 m ρ c)
theorem W5_arg3 : Gen.W5 (F := Ideal) m ρ c (Proc.devRef .tc main_arg3) = (m ((c.tc : Thread nD τ).loc main_arg3)) :=
  (Gen.W5_of_ne m ρ c main_arg3 (by decide)).trans (W4_arg3 m ρ c)
theorem W5_arg4 : Gen.W5 (F := Ideal) m ρ c (Proc.devRef .tc main_arg4) = (m ((c.tc : Thread nD τ).loc main_arg4)) :=
  (Gen.W5_of_ne m ρ c main_arg4 (by decide)).trans (W4_arg4 m ρ c)
theorem W5_arg5 : Gen.W5 (F := Ideal) m ρ c (Proc.devRef .tc main_arg5) = (m ((c.tc : Thread nD τ).loc main_arg5)) :=
  (Gen.W5_of_ne m ρ c main_arg5 (by decide)).trans (W4_arg5 m ρ c)
theorem W5_arg6 : Gen.W5 (F := Ideal) m ρ c (Proc.devRef .tc main_arg6) = (m ((c.tc : Thread nD τ).loc main_arg6)) :=
  (Gen.W5_of_ne m ρ c main_arg6 (by decide)).trans (W4_arg6 m ρ c)
theorem W5_arg7 : Gen.W5 (F := Ideal) m ρ c (Proc.devRef .tc main_arg7) = (m ((c.tc : Thread nD τ).loc main_arg7)) :=
  (Gen.W5_of_ne m ρ c main_arg7 (by decide)).trans (W4_arg7 m ρ c)
theorem W5_arg8 : Gen.W5 (F := Ideal) m ρ c (Proc.devRef .tc main_arg8) = (m ((c.tc : Thread nD τ).loc main_arg8)) :=
  (Gen.W5_of_ne m ρ c main_arg8 (by decide)).trans (W4_arg8 m ρ c)
theorem W5_arg9 : Gen.W5 (F := Ideal) m ρ c (Proc.devRef .tc main_arg9) = (m ((c.tc : Thread nD τ).loc main_arg9)) :=
  (Gen.W5_of_ne m ρ c main_arg9 (by decide)).trans (W4_arg9 m ρ c)
theorem W5_arg10 : Gen.W5 (F := Ideal) m ρ c (Proc.devRef .tc main_arg10) = (m ((c.tc : Thread nD τ).loc main_arg10)) :=
  (Gen.W5_of_ne m ρ c main_arg10 (by decide)).trans (W4_arg10 m ρ c)
theorem W5_v9 : Gen.W5 (F := Ideal) m ρ c (Proc.devRef .tc main_v9) = (Cert.ReferenceIdeal.Read.val_main_v9 (F := Ideal) (m ((c.tc : Thread nD τ).loc main_arg4))) :=
  (Gen.W5_of_ne m ρ c main_v9 (by decide)).trans (W4_v9 m ρ c)
theorem W5_v10 : Gen.W5 (F := Ideal) m ρ c (Proc.devRef .tc main_v10) = (Cert.ReferenceIdeal.Read.val_main_v10 (F := Ideal)) :=
  (Gen.W5_of_ne m ρ c main_v10 (by decide)).trans (W4_v10 m ρ c)
theorem W5_v22 : Gen.W5 (F := Ideal) m ρ c (Proc.devRef .tc main_v22) = (Cert.ReferenceIdeal.Read.val_main_v22 (F := Ideal) (m ((c.tc : Thread nD τ).loc main_arg3)) (m ((c.tc : Thread nD τ).loc main_arg4))) :=
  (Gen.W5_of_ne m ρ c main_v22 (by decide)).trans (W4_v22 m ρ c)
theorem W5_v23 : Gen.W5 (F := Ideal) m ρ c (Proc.devRef .tc main_v23) = (Cert.ReferenceIdeal.Read.val_main_v50 (F := Ideal) (m ((c.tc : Thread nD τ).loc main_arg2))) :=
  (Gen.W5_of_ne m ρ c main_v23 (by decide)).trans (W4_v23 m ρ c)
theorem W5_v40 : Gen.W5 (F := Ideal) m ρ c (Proc.devRef .tc main_v40) = (Cert.ReferenceIdeal.Read.val_main_v39 (F := Ideal) (m ((c.tc : Thread nD τ).loc main_arg1)) (m ((c.tc : Thread nD τ).loc main_arg3)) (m ((c.tc : Thread nD τ).loc main_arg7)) (m ((c.tc : Thread nD τ).loc main_arg8))) := by
  refine (Gen.W5_arr m ρ c 2).trans ((Cert.KernelIdeal.ValMul0.arr (F := Ideal) (Gen.V4 m ρ) c).trans ?_)
  rw [show Gen.V4 (F := Ideal) m ρ c main_v39 = _ from W4_v39 m ρ c, show Gen.V4 (F := Ideal) m ρ c main_v32 = _ from W4_v32 m ρ c]
  rfl

/-! ## Boundary 6: scatter onto the users, degrees, the mean, and the second region's operands -/

theorem W6_arg0 : Gen.W6 (F := Ideal) m ρ c (Proc.devRef .tc main_arg0) = (m ((c.tc : Thread nD τ).loc main_arg0)) := by
  dsimp only [Gen.W6, Gen.hostOps1]
  after_results_simp
  exact W5_arg0 m ρ c
theorem W6_arg1 : Gen.W6 (F := Ideal) m ρ c (Proc.devRef .tc main_arg1) = (m ((c.tc : Thread nD τ).loc main_arg1)) := by
  dsimp only [Gen.W6, Gen.hostOps1]
  after_results_simp
  exact W5_arg1 m ρ c
theorem W6_arg2 : Gen.W6 (F := Ideal) m ρ c (Proc.devRef .tc main_arg2) = (m ((c.tc : Thread nD τ).loc main_arg2)) := by
  dsimp only [Gen.W6, Gen.hostOps1]
  after_results_simp
  exact W5_arg2 m ρ c
theorem W6_arg3 : Gen.W6 (F := Ideal) m ρ c (Proc.devRef .tc main_arg3) = (m ((c.tc : Thread nD τ).loc main_arg3)) := by
  dsimp only [Gen.W6, Gen.hostOps1]
  after_results_simp
  exact W5_arg3 m ρ c
theorem W6_arg4 : Gen.W6 (F := Ideal) m ρ c (Proc.devRef .tc main_arg4) = (m ((c.tc : Thread nD τ).loc main_arg4)) := by
  dsimp only [Gen.W6, Gen.hostOps1]
  after_results_simp
  exact W5_arg4 m ρ c
theorem W6_arg5 : Gen.W6 (F := Ideal) m ρ c (Proc.devRef .tc main_arg5) = (m ((c.tc : Thread nD τ).loc main_arg5)) := by
  dsimp only [Gen.W6, Gen.hostOps1]
  after_results_simp
  exact W5_arg5 m ρ c
theorem W6_arg6 : Gen.W6 (F := Ideal) m ρ c (Proc.devRef .tc main_arg6) = (m ((c.tc : Thread nD τ).loc main_arg6)) := by
  dsimp only [Gen.W6, Gen.hostOps1]
  after_results_simp
  exact W5_arg6 m ρ c
theorem W6_arg7 : Gen.W6 (F := Ideal) m ρ c (Proc.devRef .tc main_arg7) = (m ((c.tc : Thread nD τ).loc main_arg7)) := by
  dsimp only [Gen.W6, Gen.hostOps1]
  after_results_simp
  exact W5_arg7 m ρ c
theorem W6_arg8 : Gen.W6 (F := Ideal) m ρ c (Proc.devRef .tc main_arg8) = (m ((c.tc : Thread nD τ).loc main_arg8)) := by
  dsimp only [Gen.W6, Gen.hostOps1]
  after_results_simp
  exact W5_arg8 m ρ c
theorem W6_arg9 : Gen.W6 (F := Ideal) m ρ c (Proc.devRef .tc main_arg9) = (m ((c.tc : Thread nD τ).loc main_arg9)) := by
  dsimp only [Gen.W6, Gen.hostOps1]
  after_results_simp
  exact W5_arg9 m ρ c
theorem W6_arg10 : Gen.W6 (F := Ideal) m ρ c (Proc.devRef .tc main_arg10) = (m ((c.tc : Thread nD τ).loc main_arg10)) := by
  dsimp only [Gen.W6, Gen.hostOps1]
  after_results_simp
  exact W5_arg10 m ρ c
theorem W6_v9 : Gen.W6 (F := Ideal) m ρ c (Proc.devRef .tc main_v9) = (Cert.ReferenceIdeal.Read.val_main_v9 (F := Ideal) (m ((c.tc : Thread nD τ).loc main_arg4))) := by
  dsimp only [Gen.W6, Gen.hostOps1]
  after_results_simp
  exact W5_v9 m ρ c
theorem W6_v10 : Gen.W6 (F := Ideal) m ρ c (Proc.devRef .tc main_v10) = (Cert.ReferenceIdeal.Read.val_main_v10 (F := Ideal)) := by
  dsimp only [Gen.W6, Gen.hostOps1]
  after_results_simp
  exact W5_v10 m ρ c
theorem W6_v22 : Gen.W6 (F := Ideal) m ρ c (Proc.devRef .tc main_v22) = (Cert.ReferenceIdeal.Read.val_main_v22 (F := Ideal) (m ((c.tc : Thread nD τ).loc main_arg3)) (m ((c.tc : Thread nD τ).loc main_arg4))) := by
  dsimp only [Gen.W6, Gen.hostOps1]
  after_results_simp
  exact W5_v22 m ρ c
theorem W6_v23 : Gen.W6 (F := Ideal) m ρ c (Proc.devRef .tc main_v23) = (Cert.ReferenceIdeal.Read.val_main_v50 (F := Ideal) (m ((c.tc : Thread nD τ).loc main_arg2))) := by
  dsimp only [Gen.W6, Gen.hostOps1]
  after_results_simp
  exact W5_v23 m ρ c
theorem W6_v50 : Gen.W6 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) := by
  dsimp only [Gen.W6, Gen.hostOps1]
  after_results_simp
  rw [W5_v40 m ρ c, W5_arg6 m ρ c, W5_v10 m ρ c]
  rfl
theorem W6_v57 : Gen.W6 (F := Ideal) m ρ c (Proc.devRef .tc main_v57) = (Cert.ReferenceIdeal.Read.val_main_v70 (F := Ideal) (m ((c.tc : Thread nD τ).loc main_arg1)) (m ((c.tc : Thread nD τ).loc main_arg10))) := by
  dsimp only [Gen.W6, Gen.hostOps1]
  after_results_simp
  rw [W5_arg1 m ρ c, W5_arg10 m ρ c]
  rfl
theorem W6_v58 : Gen.W6 (F := Ideal) m ρ c (Proc.devRef .tc main_v58) = (Cert.ReferenceIdeal.Read.val_main_v63 (F := Ideal) (m ((c.tc : Thread nD τ).loc main_arg5))) := by
  dsimp only [Gen.W6, Gen.hostOps1]
  after_results_simp
  rw [W5_arg5 m ρ c]
  rfl

/-- Boundary 6 whole. -/
theorem at6 : At6 m ρ c :=
  ⟨W6_arg0 m ρ c, W6_arg1 m ρ c, W6_arg2 m ρ c, W6_arg3 m ρ c, W6_arg4 m ρ c, W6_arg5 m ρ c, W6_arg6 m ρ c, W6_arg7 m ρ c, W6_arg8 m ρ c, W6_arg9 m ρ c, W6_arg10 m ρ c, W6_v9 m ρ c, W6_v10 m ρ c, W6_v22 m ρ c, W6_v23 m ρ c, W6_v50 m ρ c, W6_v57 m ρ c, W6_v58 m ρ c⟩

end Cert.ChainA

end
-- ==== Proof.ValMul1.lean ====
/- The kernel's product of an array by a column, as one whole array.

   The region runs over 250 grid points. At point t it loads rows 4000·t … 4000·t + 3999 of a 1000000 × 64
   array (all 64 columns) and the same rows of a 1000000 × 1 column, repeats each column entry along its
   row, multiplies entry by entry, and stores the product block into the same rows of the result array. The
   three windows move together (the same block index at every point), so what point t writes back is
   exactly block t of the whole-array function "entry (r, k) of the first array times entry (r, 0) of the
   column"; and the 250 blocks tile the 1000000 rows (row r lies in block r / 4000). Hence, whatever the
   buffers hold when the region is entered, the result array ends holding that function of the two operand
   arrays as the region found them. Over the extended reals the product commutes, and repeating a column
   entry along its row is what a broadcast along the column axis reads at an index, so the same array is
   also "the broadcast column times the first array" in that order. -/
import proofs.«149916_j40106404610266_2_alg».proof.Proof.Gen.KernelIdeal.Frame
import Idealize.ShloMosaic.Lib.Pipeline.Value
import Idealize.ShloMosaic.PureOps.Ideal

noncomputable section

namespace Cert.KernelIdeal.ValMul1

open Cert.KernelIdeal Cert.KernelIdeal.Gen Idealize.ShloMosaic Idealize.ShloMosaic.TcCoe Idealize.SL.Sem
open Idealize.ShloMosaic.Pipeline (Dat)

/-- The three windows' arrays, by name. -/
theorem arrRef_0 : Pipeline.arrRef spec1 0 = main_v57 := rfl
theorem arrRef_1 : Pipeline.arrRef spec1 1 = main_v58 := rfl
theorem arrRef_2 : Pipeline.arrRef spec1 2 = main_v59 := rfl

theorem hz : (![0, 0] : Fin 2 → Nat) = fun _ => 0 := funext fun a => by fin_cases a <;> rfl

/-- The column's entry for row `i 0`: index (i 0, 0) of the 1000000 × 1 array. -/
abbrev col (i : S1000000x64.Idx) : S1000000x1.Idx := fun a => match a with
  | ⟨0, _⟩ => ⟨(i 0).val, (i 0).isLt⟩
  | ⟨1, _⟩ => ⟨0, Nat.one_pos⟩

/-- The same inside a block: index (j 0, 0) of the 4000 × 1 block. -/
abbrev colB (j : S4000x64.Idx) : S4000x1.Idx := fun a => match a with
  | ⟨0, _⟩ => ⟨(j 0).val, (j 0).isLt⟩
  | ⟨1, _⟩ => ⟨0, Nat.one_pos⟩

section AnyFloat

variable {F : FTy → Type} [FloatOps F]
variable (V : (c : Dev nD) → (b : Ref sig .tc) → Buf (Elt F) ((c : Thread nD τ).loc b))

/-- Each entry of the array times its row's entry of the column. -/
abbrev prod (a0 : S1000000x64.Idx → Elt F .f32) (a1 : S1000000x1.Idx → Elt F .f32) : S1000000x64.Idx → Elt F .f32 :=
  fun i => FloatOps.mulf (a0 i) (a1 (col i))

/-- The body's stored value at an index of the block: the first block's entry times the column block's entry
    of the same row (its shape casts are to the blocks' own shapes; the broadcast repeats along the row). -/
theorem pay_apply (x0 : Vec F S4000x64 .f32) (x1 : Vec F S4000x1 .f32) (j : S4000x64.Idx) :
    k1_pay1 x0 x1 j = FloatOps.mulf (x0 j) (x1 (colB j)) := by
  unfold k1_pay1
  simp only [shapeCast_self]
  show FloatOps.mulf (x0 j) (broadcastTo S4000x64 x1 broadcasts_S4000x1_S4000x64 j) = _
  refine congrArg (FloatOps.mulf (x0 j)) (broadcastTo_apply x1 broadcasts_S4000x1_S4000x64 j (colB j) fun a => ?_)
  match a with
  | ⟨0, _⟩ => rfl
  | ⟨1, _⟩ => rfl

/-- The two operand windows sit, at every point, at the result window's block index. -/
theorem index_0 (t : Fin cfg1.N) : win1_0.index t = win1_2.index t := rfl
theorem index_1 (t : Fin cfg1.N) : win1_1.index t = win1_2.index t := rfl

/-- The result window's block index at point t is (t, 0): decided over the 250 points. -/
theorem index_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-- What point t writes back is block t of `prod` of the two operand arrays. -/
theorem flushed_eq (c : Dev nD) (t : Fin cfg1.N) :
    (dat1 V c).flushed 2 t = ((cfg1.win 2).blk t).view.read (Elt F) (prod (V c main_v57) (V c main_v58)) := by
  show (cfg1.win 2).cut (grid1.coords t) ((dat1 V c).after 2 t) = _
  rw [after1_2]
  unfold out1_2
  rw [View.canon_unit_zero hz]
  simp only [View.ld_unit_zero (S := S4000x64) hz, View.ld_unit_zero (S := S4000x1) hz]
  funext j
  show k1_pay1 (iblk1 V c 0 t) (iblk1 V c 1 t) j = FloatOps.mulf (V c main_v57 (((cfg1.win 2).blk t).view.emb j)) (V c main_v58 (col (((cfg1.win 2).blk t).view.emb j)))
  refine (pay_apply (iblk1 V c 0 t) (iblk1 V c 1 t) j).trans ?_
  show FloatOps.mulf (V c main_v57 (((cfg1.win 0).blk t).view.emb j)) (V c main_v58 (((cfg1.win 1).blk t).view.emb (colB j))) = _
  obtain ⟨q0, q1⟩ := index_2 t
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; rw [index_0]
    | ⟨1, _⟩ => show win1_0.index t (1 : Fin 2) * 64 + 1 * (j 1).val = win1_2.index t (1 : Fin 2) * 64 + 1 * (j 1).val; rw [index_0]
  have h1 : ((cfg1.win 1).blk t).view.emb (colB j) = col (((cfg1.win 2).blk t).view.emb j) := by
    funext a; apply Fin.ext
    match a with
    | ⟨0, _⟩ => show win1_1.index t (0 : Fin 2) * 4000 + 1 * (j 0).val = win1_2.index t (0 : Fin 2) * 4000 + 1 * (j 0).val; rw [index_1]
    | ⟨1, _⟩ => show win1_1.index t (1 : Fin 2) * 1 + 1 * 0 = 0; rw [index_1, q1]
  rw [h0, h1]

/-- An index of the result array is in point t's block iff each coordinate is in the block's range. -/
theorem mem_blk (t : Fin cfg1.N) (i : S1000000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v59).slice (win1_2.rect t)).set ↔ _
  rw [View.set_slice_whole, Rect.mem_set_unit]
  exact Iff.rfl

/-- Every index of the result array is in some point's block: row r is in block r / 4000. -/
theorem cover (i : S1000000x64.Idx) :
    ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 250 := N_1
  obtain ⟨t, ht⟩ : ∃ t : Fin cfg1.N, t.val = (i 0).val / 4000 := ⟨⟨(i 0).val / 4000, by rw [hN]; omega⟩, rfl⟩
  obtain ⟨q0, q1⟩ := index_2 t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 64 ≤ (i 1).val ∧ (i 1).val < win1_2.index t (1 : Fin 2) * 64 + 64; omega

/-- THE RESULT ARRAY after the region: each entry of the first operand array times its row's entry of the
    column, both as the region found them. -/
theorem arr (c : Dev nD) :
    (dat1 V c).arrAt 2 cfg1.N = fun i : S1000000x64.Idx => FloatOps.mulf ((V c main_v57 : S1000000x64.Idx → Elt F .f32) i) ((V c main_v58 : S1000000x1.Idx → Elt F .f32) (col i)) :=
  (dat1 V c).arrAt_eq_of_cover 2 (prod (V c main_v57) (V c main_v58)) (fun t _ => flushed_eq V c t) cover

end AnyFloat

section ExtendedReals

variable (V : (c : Dev nD) → (b : Ref sig .tc) → Buf (Elt Ideal) ((c : Thread nD τ).loc b))

/-- Over the extended reals the product of two entries commutes. -/
theorem mulf_comm (x y : Ideal .f32) : FloatOps.mulf x y = FloatOps.mulf y x := mul_comm (x : EReal) y

/-- The same array in the other order and with the column broadcast along its rows first: the product of
    extended reals commutes, and a broadcast along the column axis reads, at (r, k), the column's entry (r, 0). -/
theorem arr_ref (h : S1000000x1.BroadcastsInDim S1000000x64 ![0, 1]) (c : Dev nD) :
    (dat1 (F := Ideal) V c).arrAt 2 cfg1.N
      = mulf (F := Ideal) (s := S1000000x64) (φ := .f32) (broadcastInDim S1000000x64 ![0, 1] h (V c main_v58 : S1000000x1.Idx → Elt Ideal .f32)) (V c main_v57 : S1000000x64.Idx → Elt Ideal .f32) := by
  rw [arr (F := Ideal) V c]
  funext i
  refine (mulf_comm (V c main_v57 i) (V c main_v58 (col i))).trans ?_
  exact congrArg (fun z : Ideal .f32 => FloatOps.mulf z (V c main_v57 i))
    (broadcastInDim_apply ![0, 1] h (V c main_v58 : S1000000x1.Idx → Elt Ideal .f32) i (col i) (fun a => by
      match a with
      | ⟨0, _⟩ => rfl
      | ⟨1, _⟩ => rfl)).symm

end ExtendedReals

end Cert.KernelIdeal.ValMul1

end
-- ==== Proof.AttnSpec.lean ====
/- The factor attention of one hop as ONE function of four arrays.

   For a row r of the user embeddings UE (100000 x 64), with LT the 64 x 4 transposed latent factors, DW the 4 x 64
   de-correlated factor weights and UA the 100000 x 64 aggregated messages:
     logit r f = sum over k of UE[r,k] * LT[k,f]                       (4 logits per row)
     m r       = max(-inf, max over f of logit r f)                     (the row maximum, folded from -inf)
     e r f     = exp(logit r f - m r)
     score r f = e r f / (sum over g of e r g)                          (the row softmax)
     out[r,q]  = UA[r,q] * (sum over f of score r f * DW[f,q]) + UA[r,q].
   "attn" is that value written with the reference program's own host operations, in the reference's order, so that
   the reference's two attention values are "attn" of their operands by unfolding. "cell" is the same value of one
   output entry written over the entry's row of UE, the whole of LT, the entry's column of DW and the entry of UA;
   "attn_apply" reads "attn" at an index as "cell". -/
import proofs.«149916_j40106404610266_2_alg».proof.Proof.Gen.ReferenceIdeal.Read

noncomputable section

namespace Cert.AttnSpec

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## One output entry, over extended reals -/

/-- The value the pattern of negative infinity denotes (never evaluated: the same word on both sides). -/
def NEG : EReal := Ideal.ofBits .f32 0xFF800000#32

/-- The four logits of a row. -/
def logit (ue : Fin 64 → EReal) (lt : Fin 64 → Fin 4 → EReal) (f : Fin 4) : EReal := ∑ k : Fin 64, ue k * lt k f

/-- The row's maximum, folded from negative infinity and once more joined with it. -/
def rmax (ue : Fin 64 → EReal) (lt : Fin 64 → Fin 4 → EReal) : EReal :=
  max NEG ((Finset.univ : Finset (Fin 4)).fold max NEG (logit ue lt))

/-- The shifted exponentials of a row. -/
def ex (ue : Fin 64 → EReal) (lt : Fin 64 → Fin 4 → EReal) (f : Fin 4) : EReal := Ideal.exp (logit ue lt f - rmax ue lt)

/-- One output entry: the aggregated message times the softmax-weighted column of factor weights, plus the message. -/
def cell (ue : Fin 64 → EReal) (lt : Fin 64 → Fin 4 → EReal) (dw : Fin 4 → EReal) (ua : EReal) : EReal :=
  ua * (∑ f : Fin 4, Ideal.div (ex ue lt f) (∑ g : Fin 4, ex ue lt g) * dw f) + ua

/-! ## The same value in the reference's host operations -/

section Stages
variable {F : FTy → Type} [FloatOps F]

def negInf : (⟨S_, .f32⟩ : BufTy).Contents (Elt F) := constant S_ .f32 0xFF800000#32
def zero : (⟨S_, .f32⟩ : BufTy).Contents (Elt F) := constant S_ .f32 0x00000000#32

def logits (UE : (⟨S100000x64, .f32⟩ : BufTy).Contents (Elt F)) (LT : (⟨S64x4, .f32⟩ : BufTy).Contents (Elt F)) :
    (⟨S100000x4, .f32⟩ : BufTy).Contents (Elt F) :=
  Host.dotGeneral dot_S100000x64_S64x4_S100000x4_1_0_0_1_n_n none UE LT

def rowMax (UE : (⟨S100000x64, .f32⟩ : BufTy).Contents (Elt F)) (LT : (⟨S64x4, .f32⟩ : BufTy).Contents (Elt F)) :
    (⟨S100000, .f32⟩ : BufTy).Contents (Elt F) :=
  maximumf (broadcastInDim S100000 ![] bcast_S_S100000 (negInf (F := F)))
    (Host.reduce FloatOps.maximumf (logits (F := F) UE LT) (negInf (F := F)) reducesTo_S100000x4_S100000_d1 h_S_)

def rowMaxB (UE : (⟨S100000x64, .f32⟩ : BufTy).Contents (Elt F)) (LT : (⟨S64x4, .f32⟩ : BufTy).Contents (Elt F)) :
    (⟨S100000x4, .f32⟩ : BufTy).Contents (Elt F) :=
  broadcastInDim S100000x4 ![0, 1] bcast_S100000x1_S100000x4_0_1
    (broadcastInDim S100000x1 ![0] bcast_S100000_S100000x1_0 (rowMax (F := F) UE LT))

def expo (UE : (⟨S100000x64, .f32⟩ : BufTy).Contents (Elt F)) (LT : (⟨S64x4, .f32⟩ : BufTy).Contents (Elt F)) :
    (⟨S100000x4, .f32⟩ : BufTy).Contents (Elt F) :=
  Host.exp (subf (logits (F := F) UE LT) (rowMaxB (F := F) UE LT))

def denom (UE : (⟨S100000x64, .f32⟩ : BufTy).Contents (Elt F)) (LT : (⟨S64x4, .f32⟩ : BufTy).Contents (Elt F)) :
    (⟨S100000, .f32⟩ : BufTy).Contents (Elt F) :=
  Host.reduceAdd (expo (F := F) UE LT) (zero (F := F)) reducesTo_S100000x4_S100000_d1 h_S_

def denomB (UE : (⟨S100000x64, .f32⟩ : BufTy).Contents (Elt F)) (LT : (⟨S64x4, .f32⟩ : BufTy).Contents (Elt F)) :
    (⟨S100000x4, .f32⟩ : BufTy).Contents (Elt F) :=
  broadcastInDim S100000x4 ![0, 1] bcast_S100000x1_S100000x4_0_1
    (broadcastInDim S100000x1 ![0] bcast_S100000_S100000x1_0 (denom (F := F) UE LT))

def score (UE : (⟨S100000x64, .f32⟩ : BufTy).Contents (Elt F)) (LT : (⟨S64x4, .f32⟩ : BufTy).Contents (Elt F)) :
    (⟨S100000x4, .f32⟩ : BufTy).Contents (Elt F) :=
  Host.divf (expo (F := F) UE LT) (denomB (F := F) UE LT)

def factor (UE : (⟨S100000x64, .f32⟩ : BufTy).Contents (Elt F)) (LT : (⟨S64x4, .f32⟩ : BufTy).Contents (Elt F))
    (DW : (⟨S4x64, .f32⟩ : BufTy).Contents (Elt F)) : (⟨S100000x64, .f32⟩ : BufTy).Contents (Elt F) :=
  Host.dotGeneral dot_S100000x4_S4x64_S100000x64_1_0_0_1_n_n none (score (F := F) UE LT) DW

/-- The factor attention of one hop, in the reference's operations, at any float instance. -/
def attnF (UE : (⟨S100000x64, .f32⟩ : BufTy).Contents (Elt F)) (LT : (⟨S64x4, .f32⟩ : BufTy).Contents (Elt F))
    (DW : (⟨S4x64, .f32⟩ : BufTy).Contents (Elt F)) (UA : (⟨S100000x64, .f32⟩ : BufTy).Contents (Elt F)) :
    (⟨S100000x64, .f32⟩ : BufTy).Contents (Elt F) :=
  addf (mulf UA (factor (F := F) UE LT DW)) UA

end Stages

/-- The factor attention of one hop at the extended reals. -/
def attn (UE : (⟨S100000x64, .f32⟩ : BufTy).Contents (Elt Ideal)) (LT : (⟨S64x4, .f32⟩ : BufTy).Contents (Elt Ideal))
    (DW : (⟨S4x64, .f32⟩ : BufTy).Contents (Elt Ideal)) (UA : (⟨S100000x64, .f32⟩ : BufTy).Contents (Elt Ideal)) :
    (⟨S100000x64, .f32⟩ : BufTy).Contents (Elt Ideal) :=
  attnF (F := Ideal) UE LT DW UA

/-! ## The reference's two attention values are "attn" of their operands -/

theorem v78_eq (x0 : (⟨S100000x64, .f32⟩ : BufTy).Contents (Elt Ideal)) (x1 : (⟨S200000x64, .f32⟩ : BufTy).Contents (Elt Ideal))
    (x2 : (⟨S4x64, .f32⟩ : BufTy).Contents (Elt Ideal)) (x3 : (⟨S9x64, .f32⟩ : BufTy).Contents (Elt Ideal))
    (x4 : (⟨S4x9, .f32⟩ : BufTy).Contents (Elt Ideal)) (x5 : (⟨S1000000, .f32⟩ : BufTy).Contents (Elt Ideal))
    (x9 x10 : (⟨S1000000, .i32⟩ : BufTy).Contents (Elt Ideal)) :
    Read.val_main_v78 (F := Ideal) x0 x1 x2 x3 x4 x5 x9 x10
      = attn x0 (Read.val_main_v50 (F := Ideal) x2) (Read.val_main_v22 (F := Ideal) x3 x4) (Read.val_main_v75 (F := Ideal) x1 x5 x9 x10) := rfl

theorem v146_eq (x0 : (⟨S100000x64, .f32⟩ : BufTy).Contents (Elt Ideal)) (x1 : (⟨S200000x64, .f32⟩ : BufTy).Contents (Elt Ideal))
    (x2 : (⟨S4x64, .f32⟩ : BufTy).Contents (Elt Ideal)) (x3 : (⟨S9x64, .f32⟩ : BufTy).Contents (Elt Ideal))
    (x4 : (⟨S4x9, .f32⟩ : BufTy).Contents (Elt Ideal)) (x5 : (⟨S1000000, .f32⟩ : BufTy).Contents (Elt Ideal))
    (x6 x7 x8 : (⟨S2000000, .i32⟩ : BufTy).Contents (Elt Ideal)) (x9 x10 : (⟨S1000000, .i32⟩ : BufTy).Contents (Elt Ideal)) :
    Read.val_main_v146 (F := Ideal) x0 x1 x2 x3 x4 x5 x6 x7 x8 x9 x10
      = attn (Read.val_main_v88 (F := Ideal) x0 x1 x2 x3 x4 x5 x9 x10) (Read.val_main_v118 (F := Ideal) x2)
          (Read.val_main_v22 (F := Ideal) x3 x4) (Read.val_main_v143 (F := Ideal) x1 x3 x5 x6 x7 x8 x9 x10) := rfl

/-! ## "attn" read at an index -/

section AtIndex
variable (UE : (⟨S100000x64, .f32⟩ : BufTy).Contents (Elt Ideal)) (LT : (⟨S64x4, .f32⟩ : BufTy).Contents (Elt Ideal))
  (DW : (⟨S4x64, .f32⟩ : BufTy).Contents (Elt Ideal)) (UA : (⟨S100000x64, .f32⟩ : BufTy).Contents (Elt Ideal))

/-- The index a reduction over the four factors inserts coordinate k into, at row R, is (R, k). -/
theorem lift_row (h : S100000x4.Reduces [1] S100000) (R : Fin 100000) (k : Fin 4) : h.lift (ix1 R) k = ix2 R k :=
  funext fun a => Fin.ext (by match a with | ⟨0, _⟩ => rfl | ⟨1, _⟩ => rfl)

/-- A per-row value broadcast along the four factors reads the row's value. -/
theorem bcast_row (y : (⟨S100000, .f32⟩ : BufTy).Contents (Elt Ideal)) (R : Fin 100000) (f : Fin 4) :
    broadcastInDim S100000x4 ![0, 1] bcast_S100000x1_S100000x4_0_1
      (broadcastInDim S100000x1 ![0] bcast_S100000_S100000x1_0 y) (ix2 R f) = y (ix1 R) := by
  rw [broadcastInDim_apply _ bcast_S100000x1_S100000x4_0_1 _ (ix2 R f) (ix2 R (0 : Fin 1)) (fun a => match a with
      | ⟨0, _⟩ => by show R.val = if (100000 : Nat) = 1 then 0 else R.val; rw [if_neg (by decide)]
      | ⟨1, _⟩ => by show 0 = if (1 : Nat) = 1 then 0 else f.val; rw [if_pos rfl])]
  exact broadcastInDim_apply _ bcast_S100000_S100000x1_0 y (ix2 R (0 : Fin 1)) (ix1 R) (fun a => match a with
      | ⟨0, _⟩ => by show R.val = if (100000 : Nat) = 1 then 0 else R.val; rw [if_neg (by decide)])

/-- The host's quotient at an index, over operands that stay names. -/
theorem hostDivf_apply (a b : FVec Ideal S100000x4 .f32) (i : S100000x4.Idx) :
    Host.divf (F := Ideal) (φ := .f32) a b i = Ideal.div (a i) (b i) := rfl

/-- The last two host operations at an index, over operands that stay names. -/
theorem mul_add_apply (a b : FVec Ideal S100000x64 .f32) (i : S100000x64.Idx) :
    addf (F := Ideal) (φ := .f32) (mulf (F := Ideal) (φ := .f32) a b) a i = a i * b i + a i := rfl

theorem logits_apply (R : Fin 100000) (f : Fin 4) :
    logits (F := Ideal) UE LT (ix2 R f) = logit (fun k => UE (ix2 R k)) (fun k f => LT (ix2 k f)) f := by
  unfold logits logit
  simp only [Host.dotGeneral]
  rw [Ideal.dotGeneral_apply, ← Equiv.sum_comp (contrEquiv1 dot_S100000x64_S64x4_S100000x4_1_0_0_1_n_n 64 rfl rfl).symm]
  refine Finset.sum_congr rfl fun k _ => ?_
  have hk := contrEquiv1_symm_val dot_S100000x64_S64x4_S100000x4_1_0_0_1_n_n 64 rfl rfl k
  have el : dot_S100000x64_S64x4_S100000x4_1_0_0_1_n_n.lhsIdx (ix2 R f) ((contrEquiv1 dot_S100000x64_S64x4_S100000x4_1_0_0_1_n_n 64 rfl rfl).symm k) = ix2 R k := funext fun a => Fin.ext (by
    match a with
    | ⟨0, _⟩ => exact Read.lhs_main_v51_0 _ _
    | ⟨1, _⟩ => exact (Read.lhs_main_v51_1 _ _).trans hk)
  have er : dot_S100000x64_S64x4_S100000x4_1_0_0_1_n_n.rhsIdx (ix2 R f) ((contrEquiv1 dot_S100000x64_S64x4_S100000x4_1_0_0_1_n_n 64 rfl rfl).symm k) = ix2 k f := funext fun a => Fin.ext (by
    match a with
    | ⟨0, _⟩ => exact (Read.rhs_main_v51_0 _ _).trans hk
    | ⟨1, _⟩ => exact Read.rhs_main_v51_1 _ _)
  rw [el, er]

theorem rowMax_apply (R : Fin 100000) :
    rowMax (F := Ideal) UE LT (ix1 R) = rmax (fun k => UE (ix2 R k)) (fun k f => LT (ix2 k f)) := by
  unfold rowMax rmax
  refine (maximumf_apply (s := S100000) (φ := .f32) _ _ (ix1 R)).trans ?_
  have hR : S100000x4.Reduces [1] S100000 := by decide
  refine congrArg₂ max ?_ ?_
  · exact broadcastInDim_apply _ bcast_S_S100000 (negInf (F := Ideal)) (ix1 R) ix0 (fun a => a.elim0)
  refine (Host.reduce_eq_fold_single (FloatOps.maximumf (F := Ideal) (φ := .f32)) (logits (F := Ideal) UE LT) (negInf (F := Ideal)) reducesTo_S100000x4_S100000_d1 hR h_S_ (ix1 R)).trans ?_
  show (Finset.univ : Finset (Fin 4)).fold max NEG (logits (F := Ideal) UE LT ∘ hR.lift (ix1 R)) = _
  refine Finset.fold_congr fun (k : Fin 4) _ => ?_
  show logits (F := Ideal) UE LT (hR.lift (ix1 R) k) = _
  rw [lift_row hR R k, logits_apply]

theorem expo_apply (R : Fin 100000) (f : Fin 4) :
    expo (F := Ideal) UE LT (ix2 R f) = ex (fun k => UE (ix2 R k)) (fun k f => LT (ix2 k f)) f := by
  show Ideal.exp (logits (F := Ideal) UE LT (ix2 R f) - rowMaxB (F := Ideal) UE LT (ix2 R f)) = _
  unfold rowMaxB
  rw [logits_apply, bcast_row, rowMax_apply]
  rfl

theorem denom_apply (R : Fin 100000) :
    denom (F := Ideal) UE LT (ix1 R) = ∑ g : Fin 4, ex (fun k => UE (ix2 R k)) (fun k f => LT (ix2 k f)) g := by
  unfold denom
  generalize hy : expo (F := Ideal) UE LT = y
  simp only [Host.reduceAdd, Ideal.hostReduceAdd_def]
  have hR : S100000x4.Reduces [1] S100000 := by decide
  rw [Ideal.hostReduceAdd_single reducesTo_S100000x4_S100000_d1 hR]
  show Ideal.ofBits .f32 0x00000000#32 + _ = _
  rw [Ideal.ofBits_zero_f32, zero_add]
  refine Finset.sum_congr rfl fun (k : Fin 4) _ => ?_
  rw [lift_row hR R k, ← hy, expo_apply]

theorem score_apply (R : Fin 100000) (f : Fin 4) :
    score (F := Ideal) UE LT (ix2 R f)
      = Ideal.div (ex (fun k => UE (ix2 R k)) (fun k f => LT (ix2 k f)) f) (∑ g : Fin 4, ex (fun k => UE (ix2 R k)) (fun k f => LT (ix2 k f)) g) := by
  unfold score
  refine (hostDivf_apply _ _ (ix2 R f)).trans ?_
  unfold denomB
  rw [expo_apply, bcast_row, denom_apply]

theorem factor_apply (R : Fin 100000) (q : Fin 64) :
    factor (F := Ideal) UE LT DW (ix2 R q)
      = ∑ f : Fin 4, Ideal.div (ex (fun k => UE (ix2 R k)) (fun k f => LT (ix2 k f)) f) (∑ g : Fin 4, ex (fun k => UE (ix2 R k)) (fun k f => LT (ix2 k f)) g) * DW (ix2 f q) := by
  unfold factor
  generalize hy : score (F := Ideal) UE LT = y
  simp only [Host.dotGeneral]
  rw [Ideal.dotGeneral_apply, ← Equiv.sum_comp (contrEquiv1 dot_S100000x4_S4x64_S100000x64_1_0_0_1_n_n 4 rfl rfl).symm]
  refine Finset.sum_congr rfl fun k _ => ?_
  have hk := contrEquiv1_symm_val dot_S100000x4_S4x64_S100000x64_1_0_0_1_n_n 4 rfl rfl k
  have el : dot_S100000x4_S4x64_S100000x64_1_0_0_1_n_n.lhsIdx (ix2 R q) ((contrEquiv1 dot_S100000x4_S4x64_S100000x64_1_0_0_1_n_n 4 rfl rfl).symm k) = ix2 R k := funext fun a => Fin.ext (by
    match a with
    | ⟨0, _⟩ => exact Read.lhs_main_v76_0 _ _
    | ⟨1, _⟩ => exact (Read.lhs_main_v76_1 _ _).trans hk)
  have er : dot_S100000x4_S4x64_S100000x64_1_0_0_1_n_n.rhsIdx (ix2 R q) ((contrEquiv1 dot_S100000x4_S4x64_S100000x64_1_0_0_1_n_n 4 rfl rfl).symm k) = ix2 k q := funext fun a => Fin.ext (by
    match a with
    | ⟨0, _⟩ => exact (Read.rhs_main_v76_0 _ _).trans hk
    | ⟨1, _⟩ => exact Read.rhs_main_v76_1 _ _)
  rw [el, er, ← hy, score_apply]

/-- "attn" at row R and column q is "cell" of row R of the user embeddings, the factor matrices' entries and the message. -/
theorem attn_apply (R : Fin 100000) (q : Fin 64) :
    attn UE LT DW UA (ix2 R q)
      = cell (fun k => UE (ix2 R k)) (fun k f => LT (ix2 k f)) (fun f => DW (ix2 f q)) (UA (ix2 R q)) := by
  unfold attn attnF cell
  refine (mul_add_apply UA _ (ix2 R q)).trans ?_
  exact congrArg (fun z => UA (ix2 R q) * z + UA (ix2 R q)) (factor_apply UE LT DW R q)

end AtIndex

end Cert.AttnSpec

end
-- ==== Proof.LibKeepdims.lean ====
/-
  Layout operations of a keep-dimensions reduction read at an index, over literal matrix shapes: a vector
  cast to a column, a column broadcast along a second axis, and the sum along either axis of a matrix as a
  sum over a finite index type.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail
open Idealize.ShloMosaic Idealize.ShloMosaic.ValueIdx

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The sum along the second axis of a matrix, read at row k: the sum of the row's entries. -/
theorem sumAxis1_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (k : Fin a) :
    multiReduction .add [1] ⟨1, ![a]⟩ src acc h hφ hacc (ix1 k) = ∑ c : Fin b, src (ix2 k c) :=
  (Ideal.multiReduction_add_single src acc h hφ hacc (ix1 k)).trans
    (Finset.sum_congr rfl fun c _ => congrArg src (funext fun ax => Fin.ext (by
      match ax with
      | ⟨0, _⟩ => rfl
      | ⟨1, _⟩ => rfl)))

/-- The sum along the first axis of a matrix, read at column c: the sum of the column's entries. -/
theorem sumAxis0_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (funext fun ax => Fin.ext (by
      match ax with
      | ⟨0, _⟩ => rfl
      | ⟨1, _⟩ => rfl)))

end Sums

end Cert.KernelIdeal.Tail
end
-- ==== Proof.AttnBody.lean ====
/- The factor-attention kernel body, read at an index.

   The body takes a 4000 x 64 block of user embeddings, the 64 x 4 and 4 x 64 factor matrices and a 4000 x 64 block of
   aggregated messages. Its stored value is: logits = block times the 64 x 4 matrix (into a zero accumulator; the
   narrowings to bf16 are the identity on extended reals), the row softmax of the logits (row maximum folded from
   negative infinity, subtract, exponential, row sum, divide), that score times the 4 x 64 matrix, times the messages,
   plus the messages. Read at local row r and column q this is "cell" (AttnSpec) of row r of the embeddings block, the
   two matrices' entries and the message at (r, q): the same expression the reference's host operations give. -/
import proofs.«149916_j40106404610266_2_alg».proof.Proof.Gen.KernelIdeal.Skeleton
import proofs.«149916_j40106404610266_2_alg».proof.Proof.AttnSpec
import proofs.«149916_j40106404610266_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnBody

open Cert.KernelIdeal Cert.KernelIdeal.Gen Idealize.ShloMosaic Idealize.ShloMosaic.TcCoe Idealize.SL.Sem
open Idealize.ShloMosaic.ValueIdx
open Cert.AttnSpec (NEG logit rmax ex cell)
open Cert.KernelIdeal.Tail (shapeCast_a_a1_apply broadcastTo_a1_ab_apply sumAxis1_apply)
open scoped BigOperators

/-! ## The two block products at an index -/

theorem d1_lhs0 (i : S4000x4.Idx) (q : dot_S4000x64_S64x4_S4000x4_1_0_0_1_n_n.contr.Idx) :
    (dot_S4000x64_S64x4_S4000x4_1_0_0_1_n_n.lhsIdx i q 0).val = (i 0).val := by
  unfold DotDims.lhsIdx
  rw [dif_neg (show ¬(0 : Fin S4000x64.rank) ∈ dot_S4000x64_S64x4_S4000x4_1_0_0_1_n_n.lhsBatch by decide), dif_pos (show (0 : Fin S4000x64.rank) ∈ dot_S4000x64_S64x4_S4000x4_1_0_0_1_n_n.lhsNonContracting by decide)]
  rfl
theorem d1_lhs1 (i : S4000x4.Idx) (q : dot_S4000x64_S64x4_S4000x4_1_0_0_1_n_n.contr.Idx) :
    (dot_S4000x64_S64x4_S4000x4_1_0_0_1_n_n.lhsIdx i q 1).val = (q ⟨0, by decide⟩).val :=
  dot_S4000x64_S64x4_S4000x4_1_0_0_1_n_n.lhsIdx_val_of_single rfl i q
theorem d1_rhs0 (i : S4000x4.Idx) (q : dot_S4000x64_S64x4_S4000x4_1_0_0_1_n_n.contr.Idx) :
    (dot_S4000x64_S64x4_S4000x4_1_0_0_1_n_n.rhsIdx i q 0).val = (q ⟨0, by decide⟩).val :=
  dot_S4000x64_S64x4_S4000x4_1_0_0_1_n_n.rhsIdx_val_of_single rfl i q
theorem d1_rhs1 (i : S4000x4.Idx) (q : dot_S4000x64_S64x4_S4000x4_1_0_0_1_n_n.contr.Idx) :
    (dot_S4000x64_S64x4_S4000x4_1_0_0_1_n_n.rhsIdx i q 1).val = (i 1).val := by
  unfold DotDims.rhsIdx
  rw [dif_neg (show ¬(1 : Fin S64x4.rank) ∈ dot_S4000x64_S64x4_S4000x4_1_0_0_1_n_n.rhsBatch by decide), dif_pos (show (1 : Fin S64x4.rank) ∈ dot_S4000x64_S64x4_S4000x4_1_0_0_1_n_n.rhsNonContracting by decide)]
  rfl

theorem d2_lhs0 (i : S4000x64.Idx) (q : dot_S4000x4_S4x64_S4000x64_1_0_0_1_n_n.contr.Idx) :
    (dot_S4000x4_S4x64_S4000x64_1_0_0_1_n_n.lhsIdx i q 0).val = (i 0).val := by
  unfold DotDims.lhsIdx
  rw [dif_neg (show ¬(0 : Fin S4000x4.rank) ∈ dot_S4000x4_S4x64_S4000x64_1_0_0_1_n_n.lhsBatch by decide), dif_pos (show (0 : Fin S4000x4.rank) ∈ dot_S4000x4_S4x64_S4000x64_1_0_0_1_n_n.lhsNonContracting by decide)]
  rfl
theorem d2_lhs1 (i : S4000x64.Idx) (q : dot_S4000x4_S4x64_S4000x64_1_0_0_1_n_n.contr.Idx) :
    (dot_S4000x4_S4x64_S4000x64_1_0_0_1_n_n.lhsIdx i q 1).val = (q ⟨0, by decide⟩).val :=
  dot_S4000x4_S4x64_S4000x64_1_0_0_1_n_n.lhsIdx_val_of_single rfl i q
theorem d2_rhs0 (i : S4000x64.Idx) (q : dot_S4000x4_S4x64_S4000x64_1_0_0_1_n_n.contr.Idx) :
    (dot_S4000x4_S4x64_S4000x64_1_0_0_1_n_n.rhsIdx i q 0).val = (q ⟨0, by decide⟩).val :=
  dot_S4000x4_S4x64_S4000x64_1_0_0_1_n_n.rhsIdx_val_of_single rfl i q
theorem d2_rhs1 (i : S4000x64.Idx) (q : dot_S4000x4_S4x64_S4000x64_1_0_0_1_n_n.contr.Idx) :
    (dot_S4000x4_S4x64_S4000x64_1_0_0_1_n_n.rhsIdx i q 1).val = (i 1).val := by
  unfold DotDims.rhsIdx
  rw [dif_neg (show ¬(1 : Fin S4x64.rank) ∈ dot_S4000x4_S4x64_S4000x64_1_0_0_1_n_n.rhsBatch by decide), dif_pos (show (1 : Fin S4x64.rank) ∈ dot_S4000x4_S4x64_S4000x64_1_0_0_1_n_n.rhsNonContracting by decide)]
  rfl

/-- The block product into the zero accumulator, at an index: the sum over the contraction coordinate. -/
theorem mm1_apply (a : FVec Ideal S4000x64 .bf16) (b : FVec Ideal S64x4 .bf16) (r : Fin 4000) (f : Fin 4) :
    matmul dot_S4000x64_S64x4_S4000x4_1_0_0_1_n_n none a b (constant (F := Ideal) S4000x4 .f32 0x00000000#32) (ix2 r f)
      = ∑ k : Fin 64, a (ix2 r k) * b (ix2 k f) := by
  simp only [matmul]
  refine (Ideal.matmul_constant_zero_apply dot_S4000x64_S64x4_S4000x4_1_0_0_1_n_n none a b (ix2 r f)).trans ?_
  rw [← Equiv.sum_comp (contrEquiv1 dot_S4000x64_S64x4_S4000x4_1_0_0_1_n_n 64 rfl rfl).symm]
  refine Finset.sum_congr rfl fun k _ => ?_
  have hk := contrEquiv1_symm_val dot_S4000x64_S64x4_S4000x4_1_0_0_1_n_n 64 rfl rfl k
  have el : dot_S4000x64_S64x4_S4000x4_1_0_0_1_n_n.lhsIdx (ix2 r f) ((contrEquiv1 dot_S4000x64_S64x4_S4000x4_1_0_0_1_n_n 64 rfl rfl).symm k) = ix2 r k := funext fun c => Fin.ext (by
    match c with
    | ⟨0, _⟩ => exact d1_lhs0 _ _
    | ⟨1, _⟩ => exact (d1_lhs1 _ _).trans hk)
  have er : dot_S4000x64_S64x4_S4000x4_1_0_0_1_n_n.rhsIdx (ix2 r f) ((contrEquiv1 dot_S4000x64_S64x4_S4000x4_1_0_0_1_n_n 64 rfl rfl).symm k) = ix2 k f := funext fun c => Fin.ext (by
    match c with
    | ⟨0, _⟩ => exact (d1_rhs0 _ _).trans hk
    | ⟨1, _⟩ => exact d1_rhs1 _ _)
  rw [el, er]

/-- The block product into the zero accumulator, at an index: the sum over the contraction coordinate. -/
theorem mm2_apply (a : FVec Ideal S4000x4 .bf16) (b : FVec Ideal S4x64 .bf16) (r : Fin 4000) (f : Fin 64) :
    matmul dot_S4000x4_S4x64_S4000x64_1_0_0_1_n_n none a b (constant (F := Ideal) S4000x64 .f32 0x00000000#32) (ix2 r f)
      = ∑ k : Fin 4, a (ix2 r k) * b (ix2 k f) := by
  simp only [matmul]
  refine (Ideal.matmul_constant_zero_apply dot_S4000x4_S4x64_S4000x64_1_0_0_1_n_n none a b (ix2 r f)).trans ?_
  rw [← Equiv.sum_comp (contrEquiv1 dot_S4000x4_S4x64_S4000x64_1_0_0_1_n_n 4 rfl rfl).symm]
  refine Finset.sum_congr rfl fun k _ => ?_
  have hk := contrEquiv1_symm_val dot_S4000x4_S4x64_S4000x64_1_0_0_1_n_n 4 rfl rfl k
  have el : dot_S4000x4_S4x64_S4000x64_1_0_0_1_n_n.lhsIdx (ix2 r f) ((contrEquiv1 dot_S4000x4_S4x64_S4000x64_1_0_0_1_n_n 4 rfl rfl).symm k) = ix2 r k := funext fun c => Fin.ext (by
    match c with
    | ⟨0, _⟩ => exact d2_lhs0 _ _
    | ⟨1, _⟩ => exact (d2_lhs1 _ _).trans hk)
  have er : dot_S4000x4_S4x64_S4000x64_1_0_0_1_n_n.rhsIdx (ix2 r f) ((contrEquiv1 dot_S4000x4_S4x64_S4000x64_1_0_0_1_n_n 4 rfl rfl).symm k) = ix2 k f := funext fun c => Fin.ext (by
    match c with
    | ⟨0, _⟩ => exact (d2_rhs0 _ _).trans hk
    | ⟨1, _⟩ => exact d2_rhs1 _ _)
  rw [el, er]

/-! ## The row maximum at an index -/

/-- The maximum along the second axis of a 4000 x 4 block, read at row r: the fold of max from the accumulator's value. -/
theorem maxAxis1_apply (src : FVec Ideal S4000x4 .f32) (acc : BitVec (FTy.bits .f32))
    (h : S4000x4.Reduces [1] S4000) (hφ : FKind.Formats .f32) (hacc : acc = FKind.maximumf.neutral .f32 hφ) (r : Fin 4000) :
    multiReduction .maximumf [1] S4000 src acc h hφ hacc (ix1 r)
      = (Finset.univ : Finset (Fin 4)).fold max (Ideal.ofBits .f32 acc) (fun k => src (ix2 r k)) :=
  (Ideal.multiReduction_maximumf_single src acc h hφ hacc (ix1 r)).trans
    (Finset.fold_congr fun (k : Fin 4) _ => congrArg src (funext fun ax => Fin.ext (by
      match ax with
      | ⟨0, _⟩ => rfl
      | ⟨1, _⟩ => rfl)))

/-! ## The body's stages, over operands that stay names -/

section Stages
variable (a : FVec Ideal S4000x64 .f32) (b : FVec Ideal S64x4 .f32) (d : FVec Ideal S4x64 .f32) (u : FVec Ideal S4000x64 .f32)

/-- The block's logits. -/
def Lg : FVec Ideal S4000x4 .f32 :=
  matmul dot_S4000x64_S64x4_S4000x4_1_0_0_1_n_n none (truncf .bf16 a bitsLt_bf16_f32) (truncf .bf16 b bitsLt_bf16_f32)
    (constant (F := Ideal) S4000x4 .f32 0x00000000#32)

/-- The rows' maxima. -/
def Mx : FVec Ideal S4000 .f32 :=
  maximumf (broadcast S4000 (Scalar.ofBits (F := Ideal) .f32 0xFF800000#32))
    (multiReduction .maximumf [1] S4000 (Lg a b) 0xFF800000#32 reduces_S4000x4_S4000 (.inl rfl) rfl)

/-- The shifted exponentials. -/
def Ex : FVec Ideal S4000x4 .f32 :=
  exp (subf (Lg a b) (broadcastTo S4000x4 (shapeCast S4000x1 (Mx a b) shapeCasts_S4000_S4000x1) broadcasts_S4000x1_S4000x4))

/-- The rows' softmax. -/
def Sc : FVec Ideal S4000x4 .f32 :=
  divf (Ex a b) (broadcastTo S4000x4 (shapeCast S4000x1
    (multiReduction .add [1] S4000 (Ex a b) 0x00000000#32 reduces_S4000x4_S4000 (.inl rfl) rfl) shapeCasts_S4000_S4000x1) broadcasts_S4000x1_S4000x4)

/-- The score times the factor weights. -/
def Fc : FVec Ideal S4000x64 .f32 :=
  matmul dot_S4000x4_S4x64_S4000x64_1_0_0_1_n_n none (truncf .bf16 (Sc a b) bitsLt_bf16_f32) (truncf .bf16 d bitsLt_bf16_f32)
    (constant (F := Ideal) S4000x64 .f32 0x00000000#32)

/-- The stored value. -/
def body : FVec Ideal S4000x64 .f32 := addf (mulf u (Fc a b d)) u

theorem Lg_apply (r : Fin 4000) (f : Fin 4) :
    Lg a b (ix2 r f) = logit (fun k => a (ix2 r k)) (fun k f => b (ix2 k f)) f := by
  unfold Lg logit
  exact mm1_apply _ _ r f

theorem Mx_apply (r : Fin 4000) :
    Mx a b (ix1 r) = rmax (fun k => a (ix2 r k)) (fun k f => b (ix2 k f)) := by
  unfold Mx rmax
  refine (maximumf_apply (s := S4000) (φ := .f32) _ _ (ix1 r)).trans ?_
  refine congrArg₂ max rfl ?_
  refine (maxAxis1_apply (Lg a b) 0xFF800000#32 reduces_S4000x4_S4000 (.inl rfl) rfl r).trans ?_
  exact Finset.fold_congr fun (k : Fin 4) _ => Lg_apply a b r k

theorem Ex_apply (r : Fin 4000) (f : Fin 4) :
    Ex a b (ix2 r f) = ex (fun k => a (ix2 r k)) (fun k f => b (ix2 k f)) f := by
  unfold Ex
  show Ideal.exp (Lg a b (ix2 r f) - broadcastTo S4000x4 (shapeCast S4000x1 (Mx a b) shapeCasts_S4000_S4000x1) broadcasts_S4000x1_S4000x4 (ix2 r f)) = _
  rw [Lg_apply, broadcastTo_a1_ab_apply, shapeCast_a_a1_apply, Mx_apply]
  rfl

theorem Sc_apply (r : Fin 4000) (f : Fin 4) :
    Sc a b (ix2 r f)
      = Ideal.div (ex (fun k => a (ix2 r k)) (fun k f => b (ix2 k f)) f) (∑ g : Fin 4, ex (fun k => a (ix2 r k)) (fun k f => b (ix2 k f)) g) := by
  unfold Sc
  refine (divf_apply (s := S4000x4) (φ := .f32) _ _ (ix2 r f)).trans ?_
  rw [Ex_apply, broadcastTo_a1_ab_apply, shapeCast_a_a1_apply,
    sumAxis1_apply (Ex a b) 0x00000000#32 reduces_S4000x4_S4000 (.inl rfl) rfl r]
  exact congrArg (Ideal.div _) (Finset.sum_congr rfl fun g _ => Ex_apply a b r g)

theorem Fc_apply (r : Fin 4000) (q : Fin 64) :
    Fc a b d (ix2 r q)
      = ∑ f : Fin 4, Ideal.div (ex (fun k => a (ix2 r k)) (fun k f => b (ix2 k f)) f) (∑ g : Fin 4, ex (fun k => a (ix2 r k)) (fun k f => b (ix2 k f)) g) * d (ix2 f q) := by
  unfold Fc
  refine (mm2_apply _ _ r q).trans ?_
  exact Finset.sum_congr rfl fun f _ => congrArg (· * d (ix2 f q)) (Sc_apply a b r f)

theorem body_apply (r : Fin 4000) (q : Fin 64) :
    body a b d u (ix2 r q)
      = cell (fun k => a (ix2 r k)) (fun k f => b (ix2 k f)) (fun f => d (ix2 f q)) (u (ix2 r q)) := by
  unfold body cell
  refine (addf_apply (s := S4000x64) (φ := .f32) _ _ (ix2 r q)).trans ?_
  refine congrArg (· + u (ix2 r q)) ?_
  refine (mulf_apply (s := S4000x64) (φ := .f32) _ _ (ix2 r q)).trans ?_
  exact congrArg (u (ix2 r q) * ·) (Fc_apply a b d r q)

end Stages

/-! ## The two printed payloads are that body -/

theorem pay2_eq (x0 : Vec Ideal S4000x64 .f32) (x1 : Vec Ideal S64x4 .f32) (x2 : Vec Ideal S4x64 .f32) (x3 : Vec Ideal S4000x64 .f32) :
    k2_pay1 (F := Ideal) x0 x1 x2 x3
      = body x0 (shapeCast S64x4 x1 shapeCasts_S64x4_S64x4) (shapeCast S4x64 x2 shapeCasts_S4x64_S4x64)
          (shapeCast S4000x64 x3 shapeCasts_S4000x64_S4000x64) := rfl

theorem pay9_eq (x0 : Vec Ideal S4000x64 .f32) (x1 : Vec Ideal S64x4 .f32) (x2 : Vec Ideal S4x64 .f32) (x3 : Vec Ideal S4000x64 .f32) :
    k9_pay1 (F := Ideal) x0 x1 x2 x3
      = body (shapeCast S4000x64 x0 shapeCasts_S4000x64_S4000x64) (shapeCast S64x4 x1 shapeCasts_S64x4_S64x4)
          (shapeCast S4x64 x2 shapeCasts_S4x64_S4x64) (shapeCast S4000x64 x3 shapeCasts_S4000x64_S4000x64) := rfl

/-- The body of region 2 at local row r and column q. -/
theorem pay2_apply (x0 : Vec Ideal S4000x64 .f32) (x1 : Vec Ideal S64x4 .f32) (x2 : Vec Ideal S4x64 .f32)
    (x3 : Vec Ideal S4000x64 .f32) (r : Fin 4000) (q : Fin 64) :
    k2_pay1 (F := Ideal) x0 x1 x2 x3 (ix2 r q)
      = cell (fun k => x0 (ix2 r k)) (fun k f => x1 (ix2 k f)) (fun f => x2 (ix2 f q)) (x3 (ix2 r q)) := by
  rw [pay2_eq, shapeCast_self, shapeCast_self, shapeCast_self]
  exact body_apply x0 x1 x2 x3 r q

/-- The body of region 9 at local row r and column q. -/
theorem pay9_apply (x0 : Vec Ideal S4000x64 .f32) (x1 : Vec Ideal S64x4 .f32) (x2 : Vec Ideal S4x64 .f32)
    (x3 : Vec Ideal S4000x64 .f32) (r : Fin 4000) (q : Fin 64) :
    k9_pay1 (F := Ideal) x0 x1 x2 x3 (ix2 r q)
      = cell (fun k => x0 (ix2 r k)) (fun k f => x1 (ix2 k f)) (fun f => x2 (ix2 f q)) (x3 (ix2 r q)) := by
  rw [pay9_eq, shapeCast_self, shapeCast_self, shapeCast_self, shapeCast_self]
  exact body_apply x0 x1 x2 x3 r q

end Cert.KernelIdeal.AttnBody

end
-- ==== Proof.ValAttn2.lean ====
/- The factor-attention region of hop 1, as a value: whatever the buffers hold when the region is entered,
   its output array ends holding the factor attention ("attn" of AttnSpec) of the four arrays its windows read.

   The region runs 25 points; point t stages rows 4000 t .. 4000 t + 3999 of the user embeddings and of the aggregated
   messages, the whole 64 x 4 and 4 x 64 factor matrices, and writes rows 4000 t .. 4000 t + 3999 of the output.
   Output row r depends on row r of the two row-blocked operands only, so block t of "attn" of the arrays is the
   body's value on block t of the operands: per entry both are "cell" of the entry's row, the factor matrices and the
   entry's message. The 25 blocks tile the 100000 rows (row r lies in block r / 4000), so the array is "attn". -/
import proofs.«149916_j40106404610266_2_alg».proof.Proof.Gen.KernelIdeal.Frame
import proofs.«149916_j40106404610266_2_alg».proof.Proof.AttnSpec
import proofs.«149916_j40106404610266_2_alg».proof.Proof.AttnBody
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ValAttn2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The user embeddings, the two factor matrices and the aggregated messages as the region finds them. -/
abbrev UE (c : Dev nD) : S100000x64.Idx → EReal := V c main_arg0
abbrev LT (c : Dev nD) : S64x4.Idx → EReal := V c main_v23
abbrev DW (c : Dev nD) : S4x64.Idx → EReal := V c main_v22
abbrev UA (c : Dev nD) : S100000x64.Idx → EReal := V c main_v62

theorem hz : (![0, 0] : Fin 2 → Nat) = fun _ => 0 := funext fun a => by fin_cases a <;> rfl

/-- "cell" of equal arguments. -/
theorem cell_congr {ue ue' : Fin 64 → EReal} {lt lt' : Fin 64 → Fin 4 → EReal} {dw dw' : Fin 4 → EReal} {ua ua' : EReal}
    (h0 : ue = ue') (h1 : lt = lt') (h2 : dw = dw') (h3 : ua = ua') :
    Cert.AttnSpec.cell ue lt dw ua = Cert.AttnSpec.cell ue' lt' dw' ua' := by
  subst h0 h1 h2 h3; rfl

/-! ## The blocks -/

/-- The index maps over the grid: the two row-blocked input windows move with the output window, block t at rows
    4000 t …, all columns; the two factor matrices' windows stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A 4000-row block of the user embeddings at a point: row 4000 t + r. -/
theorem iblk0_apply (c : Dev nD) (t : Fin cfg2.N) (r : Fin 4000) (k : Fin 64) (R : Fin 100000)
    (hR : R.val = t.val * 4000 + r.val) :
    (iblk2 V c 0 t : Vec Ideal S4000x64 .f32) (ix2 r k) = UE V c (ix2 R k) := by
  obtain ⟨e0, e1, -⟩ := idx_facts t
  unfold iblk2
  rw [View.read_apply]
  show UE V c _ = UE V c (ix2 R k)
  refine congrArg (UE V c) (funext fun a => Fin.ext ?_)
  match a with
  | ⟨0, _⟩ => show win2_0.index t (0 : Fin 2) * 4000 + 1 * r.val = R.val; rw [e0, hR]; omega
  | ⟨1, _⟩ => show win2_0.index t (1 : Fin 2) * 64 + 1 * k.val = k.val; rw [e1]; omega

/-- The 64 x 4 factor matrix's block at every point is the matrix. -/
theorem iblk1_apply (c : Dev nD) (t : Fin cfg2.N) (k : Fin 64) (f : Fin 4) :
    (iblk2 V c 1 t : Vec Ideal S64x4 .f32) (ix2 k f) = LT V c (ix2 k f) := by
  obtain ⟨-, -, e0, e1, -⟩ := idx_facts t
  unfold iblk2
  rw [View.read_apply]
  show LT V c _ = LT V c (ix2 k f)
  refine congrArg (LT V c) (funext fun a => Fin.ext ?_)
  match a with
  | ⟨0, _⟩ => show win2_1.index t (0 : Fin 2) * 64 + 1 * k.val = k.val; rw [e0]; omega
  | ⟨1, _⟩ => show win2_1.index t (1 : Fin 2) * 4 + 1 * f.val = f.val; rw [e1]; omega

/-- The 4 x 64 factor matrix's block at every point is the matrix. -/
theorem iblk2_apply (c : Dev nD) (t : Fin cfg2.N) (f : Fin 4) (q : Fin 64) :
    (iblk2 V c 2 t : Vec Ideal S4x64 .f32) (ix2 f q) = DW V c (ix2 f q) := by
  obtain ⟨-, -, -, -, e0, e1, -⟩ := idx_facts t
  unfold iblk2
  rw [View.read_apply]
  show DW V c _ = DW V c (ix2 f q)
  refine congrArg (DW V c) (funext fun a => Fin.ext ?_)
  match a with
  | ⟨0, _⟩ => show win2_2.index t (0 : Fin 2) * 4 + 1 * f.val = f.val; rw [e0]; omega
  | ⟨1, _⟩ => show win2_2.index t (1 : Fin 2) * 64 + 1 * q.val = q.val; rw [e1]; omega

/-- A 4000-row block of the aggregated messages at a point: row 4000 t + r. -/
theorem iblk3_apply (c : Dev nD) (t : Fin cfg2.N) (r : Fin 4000) (q : Fin 64) (R : Fin 100000)
    (hR : R.val = t.val * 4000 + r.val) :
    (iblk2 V c 3 t : Vec Ideal S4000x64 .f32) (ix2 r q) = UA V c (ix2 R q) := by
  obtain ⟨-, -, -, -, -, -, e0, e1, -⟩ := idx_facts t
  unfold iblk2
  rw [View.read_apply]
  show UA V c _ = UA V c (ix2 R q)
  refine congrArg (UA V c) (funext fun a => Fin.ext ?_)
  match a with
  | ⟨0, _⟩ => show win2_3.index t (0 : Fin 2) * 4000 + 1 * r.val = R.val; rw [e0, hR]; omega
  | ⟨1, _⟩ => show win2_3.index t (1 : Fin 2) * 64 + 1 * q.val = q.val; rw [e1]; omega

/-! ## What a point writes back -/

/-- Point t writes back block t of the factor attention of the four arrays. -/
theorem flushed4_eq (c : Dev nD) (t : Fin cfg2.N) :
    (dat2 (F := Ideal) V c).flushed 4 t
      = ((cfg2.win 4).blk t).view.read (Elt Ideal)
          (Cert.AttnSpec.attn (V c main_arg0) (V c main_v23) (V c main_v22) (V c main_v62)) := by
  show (cfg2.win 4).cut (grid2.coords t) ((dat2 (F := Ideal) V c).after 4 t) = _
  rw [after2_4]
  unfold out2_4
  rw [View.canon_unit_zero hz]
  simp only [View.ld_unit_zero (S := S4000x64) hz, View.ld_unit_zero (S := S64x4) hz, View.ld_unit_zero (S := S4x64) hz]
  obtain ⟨-, -, -, -, -, -, -, -, e0, e1⟩ := idx_facts t
  have hN : t.val < 25 := lt_of_lt_of_eq t.isLt (show cfg2.N = 25 from N_2)
  funext y
  obtain ⟨r, q, rfl⟩ : ∃ (r : Fin 4000) (q : Fin 64), y = ix2 r q := ⟨y 0, y 1, eq_ix2 y⟩
  rw [View.read_apply]
  refine (Cert.KernelIdeal.AttnBody.pay2_apply (iblk2 V c 0 t) (iblk2 V c 1 t) (iblk2 V c 2 t) (iblk2 V c 3 t) r q).trans ?_
  have hr : r.val < 4000 := r.isLt
  let R : Fin 100000 := ⟨t.val * 4000 + r.val, by omega⟩
  have hemb : ((cfg2.win 4).blk t).view.emb (ix2 r q) = ix2 R q := funext fun a => Fin.ext (by
    match a with
    | ⟨0, _⟩ => show win2_4.index t (0 : Fin 2) * 4000 + 1 * r.val = t.val * 4000 + r.val; rw [e0]; omega
    | ⟨1, _⟩ => show win2_4.index t (1 : Fin 2) * 64 + 1 * q.val = q.val; rw [e1]; omega)
  show _ = Cert.AttnSpec.attn (V c main_arg0) (V c main_v23) (V c main_v22) (V c main_v62) (((cfg2.win 4).blk t).view.emb (ix2 r q))
  rw [hemb]
  refine Eq.trans ?_ (Cert.AttnSpec.attn_apply (V c main_arg0) (V c main_v23) (V c main_v22) (V c main_v62) R q).symm
  exact cell_congr (funext fun k => iblk0_apply V c t r k R rfl) (funext fun k => funext fun f => iblk1_apply V c t k f)
    (funext fun f => iblk2_apply V c t f q) (iblk3_apply V c t r q R rfl)

/-! ## The blocks tile the array -/

/-- A row is in point t's block of the output iff it is one of rows 4000 t … 4000 t + 3999. -/
theorem mem_blk4 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v63).slice (win2_4.rect t)).set ↔ _
  rw [View.set_slice_whole, Rect.mem_set_unit]
  exact Iff.rfl

/-- Row r is covered by point r / 4000. -/
theorem cover4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  let t : Fin cfg2.N := ⟨(i 0).val / 4000, by rw [hN]; omega⟩
  have ht : t.val = (i 0).val / 4000 := rfl
  obtain ⟨-, -, -, -, -, -, -, -, e0, e1⟩ := idx_facts t
  refine ⟨t, flush2_4 t, ?_⟩
  rw [mem_blk4]
  intro a
  match a with
  | ⟨0, _⟩ => show win2_4.index t (0 : Fin 2) * 4000 ≤ (i 0).val ∧ (i 0).val < win2_4.index t (0 : Fin 2) * 4000 + 4000; rw [e0, ht]; omega
  | ⟨1, _⟩ => show win2_4.index t (1 : Fin 2) * 64 ≤ (i 1).val ∧ (i 1).val < win2_4.index t (1 : Fin 2) * 64 + 64; rw [e1]; omega

/-- THE ARRAY after the region: the factor attention of the four arrays as the region finds them. -/
theorem arr (c : Dev nD) :
    (dat2 (F := Ideal) V c).arrAt 4 cfg2.N
      = Cert.AttnSpec.attn (V c main_arg0) (V c main_v23) (V c main_v22) (V c main_v62) :=
  (dat2 (F := Ideal) V c).arrAt_eq_of_cover 4
    (Cert.AttnSpec.attn (V c main_arg0) (V c main_v23) (V c main_v22) (V c main_v62))
    (fun t _ => flushed4_eq V c t) cover4

end Cert.KernelIdeal.ValAttn2

end
-- ==== Proof.ChainA2.lean ====
/-
  From the entry of the second region to the entry of the first sum of squares (boundaries 7, 8, 9).

  The second region multiplies each row of the gathered user embeddings by that edge's weight, the weight array
  being a single column: this is the reference's product of the column broadcast along the rows with the
  gathered array. The host stretch after it scatters those weighted rows onto the items, the reference's scatter
  stage. The third region mixes each item's aggregate with the softmax over the four factors of the item's own
  embedding against the transposed factor table, weighted by the relation-factor product; its output array is the
  attention formula of its four operand arrays, whatever they hold, and the reference's stage of that name is
  the same formula of the reference's operands. Input arrays of a region and buffers a step does not touch keep
  their contents.
-/
import proofs.«149916_j40106404610266_2_alg».proof.Proof.Gen.KernelIdeal.Frame
import proofs.«149916_j40106404610266_2_alg».proof.Proof.Gen.ReferenceIdeal.Read
import proofs.«149916_j40106404610266_2_alg».proof.Proof.ChainA0
import proofs.«149916_j40106404610266_2_alg».proof.Proof.ValMul1
import proofs.«149916_j40106404610266_2_alg».proof.Proof.AttnSpec
import proofs.«149916_j40106404610266_2_alg».proof.Proof.ValAttn2

set_option maxRecDepth 16384

noncomputable section

namespace Cert.ChainA

open Idealize.ShloMosaic Idealize.ShloMosaic.TcCoe Idealize.SL.Sem
open Cert.KernelIdeal

variable (m : (ℓ : Loc nD τ sig) → Buf (Elt Ideal) ℓ) (ρ : Dev nD → PrngReg) (c : Dev nD)

/-! ## Boundary 7: the second region (each gathered row times its edge weight) -/

theorem W7_arg0 (h : At6 m ρ c) : Gen.W7 (F := Ideal) m ρ c (Proc.devRef .tc main_arg0) = (m ((c.tc : Thread nD τ).loc main_arg0)) :=
  (Gen.W7_of_ne m ρ c main_arg0 (by decide)).trans (h.arg0)
theorem W7_arg1 (h : At6 m ρ c) : Gen.W7 (F := Ideal) m ρ c (Proc.devRef .tc main_arg1) = (m ((c.tc : Thread nD τ).loc main_arg1)) :=
  (Gen.W7_of_ne m ρ c main_arg1 (by decide)).trans (h.arg1)
theorem W7_arg2 (h : At6 m ρ c) : Gen.W7 (F := Ideal) m ρ c (Proc.devRef .tc main_arg2) = (m ((c.tc : Thread nD τ).loc main_arg2)) :=
  (Gen.W7_of_ne m ρ c main_arg2 (by decide)).trans (h.arg2)
theorem W7_arg3 (h : At6 m ρ c) : Gen.W7 (F := Ideal) m ρ c (Proc.devRef .tc main_arg3) = (m ((c.tc : Thread nD τ).loc main_arg3)) :=
  (Gen.W7_of_ne m ρ c main_arg3 (by decide)).trans (h.arg3)
theorem W7_arg4 (h : At6 m ρ c) : Gen.W7 (F := Ideal) m ρ c (Proc.devRef .tc main_arg4) = (m ((c.tc : Thread nD τ).loc main_arg4)) :=
  (Gen.W7_of_ne m ρ c main_arg4 (by decide)).trans (h.arg4)
theorem W7_arg5 (h : At6 m ρ c) : Gen.W7 (F := Ideal) m ρ c (Proc.devRef .tc main_arg5) = (m ((c.tc : Thread nD τ).loc main_arg5)) :=
  (Gen.W7_of_ne m ρ c main_arg5 (by decide)).trans (h.arg5)
theorem W7_arg6 (h : At6 m ρ c) : Gen.W7 (F := Ideal) m ρ c (Proc.devRef .tc main_arg6) = (m ((c.tc : Thread nD τ).loc main_arg6)) :=
  (Gen.W7_of_ne m ρ c main_arg6 (by decide)).trans (h.arg6)
theorem W7_arg7 (h : At6 m ρ c) : Gen.W7 (F := Ideal) m ρ c (Proc.devRef .tc main_arg7) = (m ((c.tc : Thread nD τ).loc main_arg7)) :=
  (Gen.W7_of_ne m ρ c main_arg7 (by decide)).trans (h.arg7)
theorem W7_arg8 (h : At6 m ρ c) : Gen.W7 (F := Ideal) m ρ c (Proc.devRef .tc main_arg8) = (m ((c.tc : Thread nD τ).loc main_arg8)) :=
  (Gen.W7_of_ne m ρ c main_arg8 (by decide)).trans (h.arg8)
theorem W7_arg9 (h : At6 m ρ c) : Gen.W7 (F := Ideal) m ρ c (Proc.devRef .tc main_arg9) = (m ((c.tc : Thread nD τ).loc main_arg9)) :=
  (Gen.W7_of_ne m ρ c main_arg9 (by decide)).trans (h.arg9)
theorem W7_arg10 (h : At6 m ρ c) : Gen.W7 (F := Ideal) m ρ c (Proc.devRef .tc main_arg10) = (m ((c.tc : Thread nD τ).loc main_arg10)) :=
  (Gen.W7_of_ne m ρ c main_arg10 (by decide)).trans (h.arg10)
theorem W7_v9 (h : At6 m ρ c) : Gen.W7 (F := Ideal) m ρ c (Proc.devRef .tc main_v9) = (Cert.ReferenceIdeal.Read.val_main_v9 (F := Ideal) (m ((c.tc : Thread nD τ).loc main_arg4))) :=
  (Gen.W7_of_ne m ρ c main_v9 (by decide)).trans (h.v9)
theorem W7_v10 (h : At6 m ρ c) : Gen.W7 (F := Ideal) m ρ c (Proc.devRef .tc main_v10) = (Cert.ReferenceIdeal.Read.val_main_v10 (F := Ideal)) :=
  (Gen.W7_of_ne m ρ c main_v10 (by decide)).trans (h.v10)
theorem W7_v22 (h : At6 m ρ c) : Gen.W7 (F := Ideal) m ρ c (Proc.devRef .tc main_v22) = (Cert.ReferenceIdeal.Read.val_main_v22 (F := Ideal) (m ((c.tc : Thread nD τ).loc main_arg3)) (m ((c.tc : Thread nD τ).loc main_arg4))) :=
  (Gen.W7_of_ne m ρ c main_v22 (by decide)).trans (h.v22)
theorem W7_v23 (h : At6 m ρ c) : Gen.W7 (F := Ideal) m ρ c (Proc.devRef .tc main_v23) = (Cert.ReferenceIdeal.Read.val_main_v50 (F := Ideal) (m ((c.tc : Thread nD τ).loc main_arg2))) :=
  (Gen.W7_of_ne m ρ c main_v23 (by decide)).trans (h.v23)
theorem W7_v50 (h : At6 m ρ c) : Gen.W7 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) :=
  (Gen.W7_of_ne m ρ c main_v50 (by decide)).trans (h.v50)
theorem W7_v59 (h : At6 m ρ c) : Gen.W7 (F := Ideal) m ρ c (Proc.devRef .tc main_v59) = (Cert.ReferenceIdeal.Read.val_main_v72 (F := Ideal) (m ((c.tc : Thread nD τ).loc main_arg1)) (m ((c.tc : Thread nD τ).loc main_arg5)) (m ((c.tc : Thread nD τ).loc main_arg10))) := by
  refine (Gen.W7_arr m ρ c 2).trans ((Cert.KernelIdeal.ValMul1.arr_ref (Gen.V6 (F := Ideal) m ρ) Cert.ReferenceIdeal.Gen.bcast_S1000000x1_S1000000x64_0_1 c).trans ?_)
  rw [show Gen.V6 (F := Ideal) m ρ c main_v58 = _ from h.v58, show Gen.V6 (F := Ideal) m ρ c main_v57 = _ from h.v57]
  rfl

/-! ## Boundary 8: the weighted rows scattered onto the items -/

theorem W8_arg0 (h : At6 m ρ c) : Gen.W8 (F := Ideal) m ρ c (Proc.devRef .tc main_arg0) = (m ((c.tc : Thread nD τ).loc main_arg0)) := by
  dsimp only [Gen.W8, Gen.hostOps2]
  after_results_simp
  exact W7_arg0 m ρ c h
theorem W8_arg1 (h : At6 m ρ c) : Gen.W8 (F := Ideal) m ρ c (Proc.devRef .tc main_arg1) = (m ((c.tc : Thread nD τ).loc main_arg1)) := by
  dsimp only [Gen.W8, Gen.hostOps2]
  after_results_simp
  exact W7_arg1 m ρ c h
theorem W8_arg2 (h : At6 m ρ c) : Gen.W8 (F := Ideal) m ρ c (Proc.devRef .tc main_arg2) = (m ((c.tc : Thread nD τ).loc main_arg2)) := by
  dsimp only [Gen.W8, Gen.hostOps2]
  after_results_simp
  exact W7_arg2 m ρ c h
theorem W8_arg3 (h : At6 m ρ c) : Gen.W8 (F := Ideal) m ρ c (Proc.devRef .tc main_arg3) = (m ((c.tc : Thread nD τ).loc main_arg3)) := by
  dsimp only [Gen.W8, Gen.hostOps2]
  after_results_simp
  exact W7_arg3 m ρ c h
theorem W8_arg4 (h : At6 m ρ c) : Gen.W8 (F := Ideal) m ρ c (Proc.devRef .tc main_arg4) = (m ((c.tc : Thread nD τ).loc main_arg4)) := by
  dsimp only [Gen.W8, Gen.hostOps2]
  after_results_simp
  exact W7_arg4 m ρ c h
theorem W8_arg5 (h : At6 m ρ c) : Gen.W8 (F := Ideal) m ρ c (Proc.devRef .tc main_arg5) = (m ((c.tc : Thread nD τ).loc main_arg5)) := by
  dsimp only [Gen.W8, Gen.hostOps2]
  after_results_simp
  exact W7_arg5 m ρ c h
theorem W8_arg6 (h : At6 m ρ c) : Gen.W8 (F := Ideal) m ρ c (Proc.devRef .tc main_arg6) = (m ((c.tc : Thread nD τ).loc main_arg6)) := by
  dsimp only [Gen.W8, Gen.hostOps2]
  after_results_simp
  exact W7_arg6 m ρ c h
theorem W8_arg7 (h : At6 m ρ c) : Gen.W8 (F := Ideal) m ρ c (Proc.devRef .tc main_arg7) = (m ((c.tc : Thread nD τ).loc main_arg7)) := by
  dsimp only [Gen.W8, Gen.hostOps2]
  after_results_simp
  exact W7_arg7 m ρ c h
theorem W8_arg8 (h : At6 m ρ c) : Gen.W8 (F := Ideal) m ρ c (Proc.devRef .tc main_arg8) = (m ((c.tc : Thread nD τ).loc main_arg8)) := by
  dsimp only [Gen.W8, Gen.hostOps2]
  after_results_simp
  exact W7_arg8 m ρ c h
theorem W8_arg9 (h : At6 m ρ c) : Gen.W8 (F := Ideal) m ρ c (Proc.devRef .tc main_arg9) = (m ((c.tc : Thread nD τ).loc main_arg9)) := by
  dsimp only [Gen.W8, Gen.hostOps2]
  after_results_simp
  exact W7_arg9 m ρ c h
theorem W8_arg10 (h : At6 m ρ c) : Gen.W8 (F := Ideal) m ρ c (Proc.devRef .tc main_arg10) = (m ((c.tc : Thread nD τ).loc main_arg10)) := by
  dsimp only [Gen.W8, Gen.hostOps2]
  after_results_simp
  exact W7_arg10 m ρ c h
theorem W8_v9 (h : At6 m ρ c) : Gen.W8 (F := Ideal) m ρ c (Proc.devRef .tc main_v9) = (Cert.ReferenceIdeal.Read.val_main_v9 (F := Ideal) (m ((c.tc : Thread nD τ).loc main_arg4))) := by
  dsimp only [Gen.W8, Gen.hostOps2]
  after_results_simp
  exact W7_v9 m ρ c h
theorem W8_v10 (h : At6 m ρ c) : Gen.W8 (F := Ideal) m ρ c (Proc.devRef .tc main_v10) = (Cert.ReferenceIdeal.Read.val_main_v10 (F := Ideal)) := by
  dsimp only [Gen.W8, Gen.hostOps2]
  after_results_simp
  exact W7_v10 m ρ c h
theorem W8_v22 (h : At6 m ρ c) : Gen.W8 (F := Ideal) m ρ c (Proc.devRef .tc main_v22) = (Cert.ReferenceIdeal.Read.val_main_v22 (F := Ideal) (m ((c.tc : Thread nD τ).loc main_arg3)) (m ((c.tc : Thread nD τ).loc main_arg4))) := by
  dsimp only [Gen.W8, Gen.hostOps2]
  after_results_simp
  exact W7_v22 m ρ c h
theorem W8_v23 (h : At6 m ρ c) : Gen.W8 (F := Ideal) m ρ c (Proc.devRef .tc main_v23) = (Cert.ReferenceIdeal.Read.val_main_v50 (F := Ideal) (m ((c.tc : Thread nD τ).loc main_arg2))) := by
  dsimp only [Gen.W8, Gen.hostOps2]
  after_results_simp
  exact W7_v23 m ρ c h
theorem W8_v50 (h : At6 m ρ c) : Gen.W8 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) := by
  dsimp only [Gen.W8, Gen.hostOps2]
  after_results_simp
  exact W7_v50 m ρ c h
theorem W8_v62 (h : At6 m ρ c) : Gen.W8 (F := Ideal) m ρ c (Proc.devRef .tc main_v62) = (Cert.ReferenceIdeal.Read.val_main_v75 (F := Ideal) (m ((c.tc : Thread nD τ).loc main_arg1)) (m ((c.tc : Thread nD τ).loc main_arg5)) (m ((c.tc : Thread nD τ).loc main_arg9)) (m ((c.tc : Thread nD τ).loc main_arg10))) := by
  dsimp only [Gen.W8, Gen.hostOps2]
  after_results_simp
  rw [W7_v59 m ρ c h, W7_arg9 m ρ c h]
  rfl

/-! ## Boundary 9: the attention region -/

theorem W9_arg0 (h : At6 m ρ c) : Gen.W9 (F := Ideal) m ρ c (Proc.devRef .tc main_arg0) = (m ((c.tc : Thread nD τ).loc main_arg0)) :=
  ((Gen.W9_arr m ρ c 0).trans (((Gen.dat2 (Gen.V8 m ρ) c).arrAt_in 0 rfl _).trans (Gen.A_eq2 (Gen.V8 m ρ) c 0))).trans (W8_arg0 m ρ c h)
theorem W9_arg1 (h : At6 m ρ c) : Gen.W9 (F := Ideal) m ρ c (Proc.devRef .tc main_arg1) = (m ((c.tc : Thread nD τ).loc main_arg1)) :=
  (Gen.W9_of_ne m ρ c main_arg1 (by decide)).trans (W8_arg1 m ρ c h)
theorem W9_arg2 (h : At6 m ρ c) : Gen.W9 (F := Ideal) m ρ c (Proc.devRef .tc main_arg2) = (m ((c.tc : Thread nD τ).loc main_arg2)) :=
  (Gen.W9_of_ne m ρ c main_arg2 (by decide)).trans (W8_arg2 m ρ c h)
theorem W9_arg3 (h : At6 m ρ c) : Gen.W9 (F := Ideal) m ρ c (Proc.devRef .tc main_arg3) = (m ((c.tc : Thread nD τ).loc main_arg3)) :=
  (Gen.W9_of_ne m ρ c main_arg3 (by decide)).trans (W8_arg3 m ρ c h)
theorem W9_arg4 (h : At6 m ρ c) : Gen.W9 (F := Ideal) m ρ c (Proc.devRef .tc main_arg4) = (m ((c.tc : Thread nD τ).loc main_arg4)) :=
  (Gen.W9_of_ne m ρ c main_arg4 (by decide)).trans (W8_arg4 m ρ c h)
theorem W9_arg5 (h : At6 m ρ c) : Gen.W9 (F := Ideal) m ρ c (Proc.devRef .tc main_arg5) = (m ((c.tc : Thread nD τ).loc main_arg5)) :=
  (Gen.W9_of_ne m ρ c main_arg5 (by decide)).trans (W8_arg5 m ρ c h)
theorem W9_arg6 (h : At6 m ρ c) : Gen.W9 (F := Ideal) m ρ c (Proc.devRef .tc main_arg6) = (m ((c.tc : Thread nD τ).loc main_arg6)) :=
  (Gen.W9_of_ne m ρ c main_arg6 (by decide)).trans (W8_arg6 m ρ c h)
theorem W9_arg7 (h : At6 m ρ c) : Gen.W9 (F := Ideal) m ρ c (Proc.devRef .tc main_arg7) = (m ((c.tc : Thread nD τ).loc main_arg7)) :=
  (Gen.W9_of_ne m ρ c main_arg7 (by decide)).trans (W8_arg7 m ρ c h)
theorem W9_arg8 (h : At6 m ρ c) : Gen.W9 (F := Ideal) m ρ c (Proc.devRef .tc main_arg8) = (m ((c.tc : Thread nD τ).loc main_arg8)) :=
  (Gen.W9_of_ne m ρ c main_arg8 (by decide)).trans (W8_arg8 m ρ c h)
theorem W9_arg9 (h : At6 m ρ c) : Gen.W9 (F := Ideal) m ρ c (Proc.devRef .tc main_arg9) = (m ((c.tc : Thread nD τ).loc main_arg9)) :=
  (Gen.W9_of_ne m ρ c main_arg9 (by decide)).trans (W8_arg9 m ρ c h)
theorem W9_arg10 (h : At6 m ρ c) : Gen.W9 (F := Ideal) m ρ c (Proc.devRef .tc main_arg10) = (m ((c.tc : Thread nD τ).loc main_arg10)) :=
  (Gen.W9_of_ne m ρ c main_arg10 (by decide)).trans (W8_arg10 m ρ c h)
theorem W9_v9 (h : At6 m ρ c) : Gen.W9 (F := Ideal) m ρ c (Proc.devRef .tc main_v9) = (Cert.ReferenceIdeal.Read.val_main_v9 (F := Ideal) (m ((c.tc : Thread nD τ).loc main_arg4))) :=
  (Gen.W9_of_ne m ρ c main_v9 (by decide)).trans (W8_v9 m ρ c h)
theorem W9_v10 (h : At6 m ρ c) : Gen.W9 (F := Ideal) m ρ c (Proc.devRef .tc main_v10) = (Cert.ReferenceIdeal.Read.val_main_v10 (F := Ideal)) :=
  (Gen.W9_of_ne m ρ c main_v10 (by decide)).trans (W8_v10 m ρ c h)
theorem W9_v22 (h : At6 m ρ c) : Gen.W9 (F := Ideal) m ρ c (Proc.devRef .tc main_v22) = (Cert.ReferenceIdeal.Read.val_main_v22 (F := Ideal) (m ((c.tc : Thread nD τ).loc main_arg3)) (m ((c.tc : Thread nD τ).loc main_arg4))) :=
  ((Gen.W9_arr m ρ c 2).trans (((Gen.dat2 (Gen.V8 m ρ) c).arrAt_in 2 rfl _).trans (Gen.A_eq2 (Gen.V8 m ρ) c 2))).trans (W8_v22 m ρ c h)
theorem W9_v23 (h : At6 m ρ c) : Gen.W9 (F := Ideal) m ρ c (Proc.devRef .tc main_v23) = (Cert.ReferenceIdeal.Read.val_main_v50 (F := Ideal) (m ((c.tc : Thread nD τ).loc main_arg2))) :=
  ((Gen.W9_arr m ρ c 1).trans (((Gen.dat2 (Gen.V8 m ρ) c).arrAt_in 1 rfl _).trans (Gen.A_eq2 (Gen.V8 m ρ) c 1))).trans (W8_v23 m ρ c h)
theorem W9_v50 (h : At6 m ρ c) : Gen.W9 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) :=
  (Gen.W9_of_ne m ρ c main_v50 (by decide)).trans (W8_v50 m ρ c h)
theorem W9_v63 (h : At6 m ρ c) : Gen.W9 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) := by
  refine (Gen.W9_arr m ρ c 4).trans ((Cert.KernelIdeal.ValAttn2.arr (Gen.V8 (F := Ideal) m ρ) c).trans ?_)
  rw [show Gen.V8 (F := Ideal) m ρ c main_arg0 = _ from W8_arg0 m ρ c h, show Gen.V8 (F := Ideal) m ρ c main_v23 = _ from W8_v23 m ρ c h,
    show Gen.V8 (F := Ideal) m ρ c main_v22 = _ from W8_v22 m ρ c h, show Gen.V8 (F := Ideal) m ρ c main_v62 = _ from W8_v62 m ρ c h]
  exact (Cert.AttnSpec.v78_eq _ _ _ _ _ _ _ _).symm

/-- Boundary 9 whole, from boundary 6. -/
theorem at9 (h : At6 m ρ c) : At9 m ρ c :=
  ⟨W9_arg0 m ρ c h, W9_arg1 m ρ c h, W9_arg2 m ρ c h, W9_arg3 m ρ c h, W9_arg4 m ρ c h, W9_arg5 m ρ c h, W9_arg6 m ρ c h, W9_arg7 m ρ c h, W9_arg8 m ρ c h, W9_arg9 m ρ c h, W9_arg10 m ρ c h, W9_v9 m ρ c h, W9_v10 m ρ c h, W9_v22 m ρ c h, W9_v23 m ρ c h, W9_v50 m ρ c h, W9_v63 m ρ c h⟩

end Cert.ChainA

end
-- ==== Proof.LibBlockSum.lean ====
/-
  Sums over the rows of a matrix, taken block by block.

  A matrix with B·R rows and C columns is B consecutive blocks of R rows. The sum of any function of the matrix's
  index — with values in any additive commutative monoid, so in particular in the extended reals, where no finiteness
  is needed to regroup a sum — is the sum over the blocks t < B of the sum over the block's own index (r, l),
  r < R, l < C, of the function at row t·R + r and column l. The two literal cases used by the sum-of-squares
  regions are 200000 × 64 = 50 blocks of 4000 × 64 and 100000 × 64 = 25 blocks of 4000 × 64.
-/
import Idealize.ShloMosaic.Lib.ValueIdx

noncomputable section

open scoped BigOperators

namespace Cert.LibBlockSum

open Idealize.ShloMosaic Idealize.ShloMosaic.ValueIdx

variable {M : Type*} [AddCommMonoid M]

/-- Row `r` of block `t` is a row of the whole matrix: `t·R + r < B·R` for `t < B`, `r < R`. -/
theorem row_lt {B R N : ℕ} (hN : N = B * R) (t : Fin B) (r : Fin R) : t.val * R + r.val < N := by
  subst hN
  calc t.val * R + r.val < t.val * R + R := Nat.add_lt_add_left r.isLt _
    _ = (t.val + 1) * R := (Nat.succ_mul _ _).symm
    _ ≤ B * R := Nat.mul_le_mul_right _ t.isLt

/-- A sum over `N = B·R` consecutive positions is the sum over the `B` blocks of the sum over the `R` positions of
    the block: position `t·R + r` is position `r` of block `t`. -/
theorem sum_fin_blocks (B R N : ℕ) (hN : N = B * R) (g : Fin N → M) :
    ∑ n : Fin N, g n = ∑ t : Fin B, ∑ r : Fin R, g ⟨t.val * R + r.val, row_lt hN t r⟩ := by
  subst hN
  rw [← Equiv.sum_comp (finProdFinEquiv (m := B) (n := R)) g, Fintype.sum_prod_type]
  refine Finset.sum_congr rfl fun t _ => Finset.sum_congr rfl fun r _ => congrArg g (Fin.ext ?_)
  show r.val + R * t.val = t.val * R + r.val
  rw [Nat.mul_comm, Nat.add_comm]

/-- The sum of a function over the index set of a matrix with `N = B·R` rows and `C` columns is the sum over the
    blocks `t < B` of the sums over the block's rows `r < R` and columns `l < C` of the function at row
    `t·R + r`, column `l`. -/
theorem sum_matrix_blocks (B R C N : ℕ) (hN : N = B * R) (f : (⟨2, ![N, C]⟩ : Shape).Idx → M) :
    ∑ i, f i = ∑ t : Fin B, ∑ r : Fin R, ∑ l : Fin C, f (ix2 ⟨t.val * R + r.val, row_lt hN t r⟩ l) := by
  rw [sum_idx2 f]
  exact sum_fin_blocks B R N hN fun n => ∑ l : Fin C, f (ix2 n l)

/-- 200000 × 64 is 50 blocks of 4000 × 64: the sum over the whole index set is the sum over the blocks of the sums
    over each block's 4000 rows and 64 columns. -/
theorem sum_200000x64 (f : (⟨2, ![200000, 64]⟩ : Shape).Idx → M) :
    ∑ i, f i = ∑ t : Fin 50, ∑ r : Fin 4000, ∑ l : Fin 64,
      f (ix2 (⟨t.val * 4000 + r.val, row_lt (N := 200000) (by decide) t r⟩ : Fin 200000) l) :=
  sum_matrix_blocks 50 4000 64 200000 (by decide) f

/-- 100000 × 64 is 25 blocks of 4000 × 64: the sum over the whole index set is the sum over the blocks of the sums
    over each block's 4000 rows and 64 columns. -/
theorem sum_100000x64 (f : (⟨2, ![100000, 64]⟩ : Shape).Idx → M) :
    ∑ i, f i = ∑ t : Fin 25, ∑ r : Fin 4000, ∑ l : Fin 64,
      f (ix2 (⟨t.val * 4000 + r.val, row_lt (N := 100000) (by decide) t r⟩ : Fin 100000) l) :=
  sum_matrix_blocks 25 4000 64 100000 (by decide) f

end Cert.LibBlockSum

end
-- ==== Proof.ValSumsq3.lean ====
/-
  The sum-of-squares region number 3: the value its output array holds at the region's exit.

  The region's grid has 50 points. Its input window walks the 200000 × 64 matrix in consecutive blocks of 4000
  rows; its output is a single 1 × 1 block whose position never moves, so the block is carried from point to point
  and written back after the last point only. The body sets the block to zero at point 0 and, at every point, adds to
  it the sum over the 4000 × 64 entries of the current input block of the entry's square (a sum over the 64 lanes
  of each row, then over the 4000 rows). Hence after point n the block holds 0 + S₀ + S₁ + … + Sₙ, where Sₜ is the
  sum of the squares of the entries in rows 4000·t … 4000·t + 3999, and after the last point it holds the sum of
  the squares of all 200000 × 64 entries: over the extended reals a finite sum may be regrouped freely (addition
  is commutative and associative there, and 0 + x = x), so no finiteness of the entries is used. This is also the
  value the host's reduce-add of x·x over both axes, started from the constant 0, computes.
-/
import proofs.«149916_j40106404610266_2_alg».proof.Proof.Gen.KernelIdeal.Frame
import proofs.«149916_j40106404610266_2_alg».proof.Proof.LibBlockSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.ValSumsq3

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## What each case of the body leaves in the output block (any float instance) -/

section AnyInstance

variable {F : FTy → Type} [FloatOps F]

/-- The zero offsets of a load or store of a whole block. -/
theorem hz : (![0, 0] : Fin 2 → Nat) = fun _ => 0 := funext fun a => by fin_cases a <;> rfl

/-- At a point other than the first the body leaves, in the output block holding `xo`, the accumulating payload of
    the input block `x` and `xo`: its one store covers the block, and its loads read the whole buffers. -/
theorem out_B (c : Dev nD) (i : grid3.Coords) (a1 : Memref sig .tc .vmem S4000x64 .f32) (h1 : a1.IsWhole)
    (a2 : Memref sig .tc .vmem S1x1 .f32) (h2 : a2.IsWhole) (hc : ¬cond3_0 i) (x : Vec F S4000x64 .f32)
    (xo : Vec F S1x1 .f32) : out3_B_1 c i a1 h1 a2 h2 hc x xo = k3_pay2 x xo := by
  unfold out3_B_1
  rw [View.read_writes_eq_canon _ _ _ (cover3_B_1 c i a1 h1 a2 h2 hc x xo)]
  unfold kernelRun3_B
  dsimp only
  sl_unfold_words
  rw [View.canon_unit_zero hz]
  simp only [View.readAt_eq_ld, h1.read_unread, h2.read_unread, View.ld_unit_zero (S := S4000x64) hz,
    View.ld_unit_zero (S := S1x1) hz]

/-- At the first point the body stores the zero block, reads it back and leaves the accumulating payload of the input
    block `x` and that zero block. -/
theorem out_A (c : Dev nD) (i : grid3.Coords) (a1 : Memref sig .tc .vmem S4000x64 .f32) (h1 : a1.IsWhole)
    (a2 : Memref sig .tc .vmem S1x1 .f32) (h2 : a2.IsWhole) (hc : cond3_0 i) (x : Vec F S4000x64 .f32) :
    out3_A_1 c i a1 h1 a2 h2 hc x = k3_pay2 x (k3_pay1 (F := F)) := by
  unfold out3_A_1
  rw [View.read_writes_eq_canon _ _ _ (cover3_A_1 c i a1 h1 a2 h2 hc x)]
  unfold kernelRun3_A
  dsimp only
  sl_unfold_words
  rw [View.canon_cons_unit_zero (S := S1x1) hz, View.readCov_unit_zero (S := S1x1) _ hz]
  simp only [View.readAt_eq_ld, h1.read_unread, View.ld_unit_zero (S := S4000x64) hz,
    View.ld_unit_zero (S := S1x1) hz]

end AnyInstance

/-! ## The payloads over the extended reals -/

/-- Over row `r`, lane `l` is entry (r, l) of the block. -/
theorem lift_lane (h : S4000x64.Reduces [1] S4000) (r : Fin 4000) (l : Fin 64) : h.lift (ix1 r) l = ix2 r l := by
  funext a; match a with
    | ⟨0, _⟩ => exact Fin.ext rfl
    | ⟨1, _⟩ => exact Fin.ext rfl

/-- Over the one entry of the column of row sums' total, row `r` is entry (r, 0) of the column. -/
theorem lift_row (h : S4000x1.Reduces [0] S1) (u : Fin 1) (r : Fin 4000) : h.lift (ix1 u) r = ix2 r u := by
  funext a; match a with
    | ⟨0, _⟩ => exact Fin.ext rfl
    | ⟨1, _⟩ => exact Fin.ext rfl

/-- The reset payload is the zero block. -/
theorem pay1_apply (j : S1x1.Idx) : k3_pay1 (F := Ideal) j = 0 := by
  show Ideal.ofBits .f32 0x00000000#32 = 0
  exact Ideal.ofBits_zero_f32

/-- The accumulating payload adds to the carried block the sum, over the rows and lanes of the input block, of the
    entry's square. -/
theorem pay2_apply (x : Vec Ideal S4000x64 .f32) (xo : Vec Ideal S1x1 .f32) (j : S1x1.Idx) :
    k3_pay2 (F := Ideal) x xo j = xo j + ∑ r : Fin 4000, ∑ l : Fin 64, x (ix2 r l) * x (ix2 r l) := by
  obtain ⟨a, b, rfl⟩ : ∃ (a b : Fin 1), j = ix2 a b := ⟨j 0, j 1, eq_ix2 j⟩
  unfold k3_pay2
  dsimp only
  refine (addf_apply _ _ (ix2 a b)).trans ?_
  refine congrArg₂ (· + ·) (congrFun (shapeCast_self xo _) (ix2 a b)) ?_
  refine (shapeCast_apply _ _ (ix2 a b) (ix1 (0 : Fin 1)) ?_).trans ?_
  · rw [Shape.rowMajor_val_one, Shape.rowMajor_val_two]
    show (0 : ℕ) = a.val * 1 + b.val
    omega
  refine (Ideal.multiReduction_add_single _ _ _ _ _ (ix1 (0 : Fin 1))).trans ?_
  refine Finset.sum_congr rfl fun (r : Fin 4000) _ => ?_
  refine (shapeCast_apply _ _ _ (ix1 r) ?_).trans ?_
  · rw [Shape.rowMajor_val_one, Shape.rowMajor_val_two]
    show r.val = r.val * 1 + 0
    omega
  refine (Ideal.multiReduction_add_single _ _ _ _ _ (ix1 r)).trans ?_
  refine Finset.sum_congr rfl fun (l : Fin 64) _ => ?_
  rw [lift_lane]
  show shapeCast S4000x64 x shapeCasts_S4000x64_S4000x64 (ix2 r l) * shapeCast S4000x64 x shapeCasts_S4000x64_S4000x64 (ix2 r l) = _
  rw [shapeCast_self]

/-- The constant 1 × 1 block. -/
abbrev const11 (s : EReal) : Vec Ideal S1x1 .f32 := fun _ => s

/-- One accumulating step: a carried block constantly `s` becomes constantly `s + b`, `b` the input block's sum of
    squares. -/
theorem step_apply (x : Vec Ideal S4000x64 .f32) (s b : EReal)
    (hb : ∑ r : Fin 4000, ∑ l : Fin 64, x (ix2 r l) * x (ix2 r l) = b) :
    k3_pay2 (F := Ideal) x (const11 s) = const11 (s + b) :=
  funext fun j => (pay2_apply x (const11 s) j).trans (by rw [hb])

/-- The first step, over the zero block: the block becomes constantly the input block's sum of squares. -/
theorem first_apply (x : Vec Ideal S4000x64 .f32) (b : EReal)
    (hb : ∑ r : Fin 4000, ∑ l : Fin 64, x (ix2 r l) * x (ix2 r l) = b) :
    k3_pay2 (F := Ideal) x (k3_pay1 (F := Ideal)) = const11 b :=
  funext fun j => (pay2_apply x (k3_pay1 (F := Ideal)) j).trans (by rw [pay1_apply, zero_add, hb])

/-! ## The region's value at its entry contents -/

/-- The sum of the squares of the entries of rows 4000·t … 4000·t + 3999 of a 200000 × 64 matrix (zero for a `t`
    past the last block). -/
def blockSq (Y : FVec Ideal S200000x64 .f32) (t : ℕ) : EReal :=
  if h : t < 50 then
    ∑ r : Fin 4000, ∑ l : Fin 64,
      Y (ix2 (⟨t * 4000 + r.val, LibBlockSum.row_lt (N := 200000) (by decide) (⟨t, h⟩ : Fin 50) r⟩ : Fin 200000) l)
        * Y (ix2 (⟨t * 4000 + r.val, LibBlockSum.row_lt (N := 200000) (by decide) (⟨t, h⟩ : Fin 50) r⟩ : Fin 200000) l)
  else 0

/-- The blocks' sums of squares add up to the sum of the squares of all the entries. -/
theorem total_eq (Y : FVec Ideal S200000x64 .f32) :
    ∑ s ∈ Finset.range 50, blockSq Y s = ∑ i : S200000x64.Idx, Y i * Y i := by
  rw [← Fin.sum_univ_eq_sum_range (fun s => blockSq Y s) 50, LibBlockSum.sum_200000x64 (fun i => Y i * Y i)]
  refine Finset.sum_congr rfl fun t _ => ?_
  unfold blockSq
  rw [dif_pos t.isLt]

section Region

variable (V : (c : Dev nD) → (b : Ref sig .tc) → Buf (Elt Ideal) ((c : Thread nD τ).loc b))

/-- The input array as the region finds it. -/
abbrev Xin (c : Dev nD) : FVec Ideal S200000x64 .f32 := V c main_v50

/-- The input window's block at point `t`. -/
abbrev blk (c : Dev nD) (t : Fin cfg3.N) : Vec Ideal S4000x64 .f32 := iblk3 V c 0 t

/-- The input window's block index at point `t` is (t, 0): decided over the grid. -/
theorem idx_facts : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

/-- Entry (r, l) of the input block at point `t` is entry (4000·t + r, l) of the input array. -/
theorem iblk_apply (c : Dev nD) (t : Fin cfg3.N) (r : Fin 4000) (l : Fin 64) (hr : t.val * 4000 + r.val < 200000) :
    blk V c t (ix2 r l) = Xin V c (ix2 (⟨t.val * 4000 + r.val, hr⟩ : Fin 200000) l) := by
  obtain ⟨e0, e1⟩ := idx_facts t
  unfold blk Xin iblk3
  rw [View.read_apply]
  show V c main_v50 (((cfg3.win 0).blk t).view.emb (ix2 r l)) = V c main_v50 _
  refine congrArg (V c main_v50 : S200000x64.Idx → EReal) ?_
  funext a; apply Fin.ext
  match a with
  | ⟨0, _⟩ => show win3_0.index t (0 : Fin 2) * 4000 + 1 * r.val = t.val * 4000 + r.val; omega
  | ⟨1, _⟩ => show win3_0.index t (1 : Fin 2) * 64 + 1 * l.val = l.val; omega

/-- The input block at point `t` has the sum of squares of the rows 4000·t … 4000·t + 3999 of the input array. -/
theorem blockSq_eq (c : Dev nD) (t : Fin cfg3.N) :
    ∑ r : Fin 4000, ∑ l : Fin 64, blk V c t (ix2 r l) * blk V c t (ix2 r l) = blockSq (Xin V c) t.val := by
  have h50 : t.val < 50 := lt_of_lt_of_eq t.isLt (show cfg3.N = 50 from N_3)
  unfold blockSq
  rw [dif_pos h50]
  refine Finset.sum_congr rfl fun r _ => Finset.sum_congr rfl fun l _ => ?_
  rw [iblk_apply V c t r l (LibBlockSum.row_lt (N := 200000) (by decide) (⟨t.val, h50⟩ : Fin 50) r)]

/-- THE INVARIANT: after point `n` the output block holds, at its one entry, the sum of the squares of the rows below
    4000·(n + 1) — the blocks' sums of squares added up from block 0 to block `n`. By induction on the point. -/
theorem outsAt_eq (c : Dev nD) (n : ℕ) : ∀ (h : n < cfg3.N),
    outsAt3 V c n h = const11 (∑ s ∈ Finset.range (n + 1), blockSq (Xin V c) s) := by
  induction n with
  | zero =>
    intro h
    refine (outsAt3_A V c ⟨0, h⟩ rfl).trans ?_
    refine (out_A (F := Ideal) c (grid3.coords ⟨0, h⟩) (ms3_0 ⟨0, h⟩) (hs3_0 ⟨0, h⟩) (ms3_1 ⟨0, h⟩) (hs3_1 ⟨0, h⟩)
      ((hcond3_0 ⟨0, h⟩).mpr rfl) (iblk3 V c 0 ⟨0, h⟩)).trans ?_
    refine first_apply (blk V c ⟨0, h⟩) (∑ s ∈ Finset.range (0 + 1), blockSq (Xin V c) s) ((blockSq_eq V c ⟨0, h⟩).trans ?_)
    rw [Finset.sum_range_succ, Finset.range_zero, Finset.sum_empty, zero_add]
  | succ n ih =>
    intro h
    have hN : n + 1 < 50 := lt_of_lt_of_eq h (show cfg3.N = 50 from N_3)
    have hB : ¬(⟨n + 1, h⟩ : Fin cfg3.N).val % 50 = 0 := by dsimp only; omega
    have ih' := ih (Nat.lt_of_succ_lt h)
    refine (outsAt3_B V c ⟨n + 1, h⟩ hB).trans ?_
    refine (out_B (F := Ideal) c (grid3.coords ⟨n + 1, h⟩) (ms3_0 ⟨n + 1, h⟩) (hs3_0 ⟨n + 1, h⟩) (ms3_1 ⟨n + 1, h⟩)
      (hs3_1 ⟨n + 1, h⟩) (fun hc => hB ((hcond3_0 ⟨n + 1, h⟩).mp hc)) (iblk3 V c 0 ⟨n + 1, h⟩)
      (outsAt3 V c n (Nat.lt_of_succ_lt h))).trans ?_
    refine (congrArg (k3_pay2 (F := Ideal) (blk V c ⟨n + 1, h⟩)) ih').trans ?_
    exact (step_apply (blk V c ⟨n + 1, h⟩) (∑ s ∈ Finset.range (n + 1), blockSq (Xin V c) s) (blockSq (Xin V c) (n + 1))
      (blockSq_eq V c ⟨n + 1, h⟩)).trans
      (congrArg const11 (Finset.sum_range_succ (fun s => blockSq (Xin V c) s) (n + 1)).symm)

/-- The last point of the grid, the one that writes the output block back. -/
def tLast : Fin cfg3.N := ⟨49, by rw [show cfg3.N = 50 from N_3]; decide⟩

/-- The one write-back, after the last point, writes the blocks' sums of squares added up over all 50 blocks: the
    output's block (0, 0) read through zero offsets is the whole 1 × 1 array. -/
theorem flushed_eq (c : Dev nD) (t : Fin cfg3.N) (hf : (cfg3.win 1).flush t = true) :
    (dat3 V c).flushed 1 t
      = ((cfg3.win 1).blk t).view.read (Elt Ideal) (const11 (∑ s ∈ Finset.range 50, blockSq (Xin V c) s)) := by
  have hN : t.val < 50 := lt_of_lt_of_eq t.isLt (show cfg3.N = 50 from N_3)
  have hl : t.val + 1 = 50 := by have := (flush3_1 t).mp hf; omega
  show (cfg3.win 1).cut (grid3.coords t) ((dat3 V c).after 1 t) = _
  rw [after3_1, outsAt_eq V c t.val t.isLt, hl]
  have hz' : (fun a => win3_1.index t a * main_v64.ty.shape.size a) = fun _ => 0 :=
    funext fun a => by fin_cases a <;> rfl
  exact (Memref.read_access_unit_zero (Elt Ideal) main_v64 hz' (fun a => by rw [congrFun hz' a]; simp)
    (const11 (∑ s ∈ Finset.range 50, blockSq (Xin V c) s))).symm

/-- At the region's exit the 1 × 1 output array holds the blocks' sums of squares added up over all 50 blocks: the
    last point's block covers it. -/
theorem arr_blocks (c : Dev nD) :
    (dat3 (F := Ideal) V c).arrAt 1 cfg3.N = const11 (∑ s ∈ Finset.range 50, blockSq (Xin V c) s) :=
  (dat3 V c).arrAt_eq_of_cover 1 (const11 (∑ s ∈ Finset.range 50, blockSq (Xin V c) s)) (flushed_eq V c) fun i =>
    ⟨tLast, (flush3_1 tLast).mpr rfl, by
      show i ∈ ((View.whole main_v64).slice (win3_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win3_1.index tLast 0 * win3_1.size 0 ≤ (i 0 : Nat)
          ∧ (i 0 : Nat) < win3_1.index tLast 0 * win3_1.size 0 + win3_1.xsize (grid3.coords tLast) 0
        rw [show win3_1.index tLast 0 * win3_1.size 0 = 0 from by decide +kernel,
          show win3_1.xsize (grid3.coords tLast) 0 = 1 from by decide +kernel]
        omega
      | ⟨1, _⟩ =>
        show win3_1.index tLast 1 * win3_1.size 1 ≤ (i 1 : Nat)
          ∧ (i 1 : Nat) < win3_1.index tLast 1 * win3_1.size 1 + win3_1.xsize (grid3.coords tLast) 1
        rw [show win3_1.index tLast 1 * win3_1.size 1 = 0 from by decide +kernel,
          show win3_1.xsize (grid3.coords tLast) 1 = 1 from by decide +kernel]
        omega⟩

/-- THE VALUE: at the region's exit the 1 × 1 output array holds, at its one entry, the sum of the squares of all the
    entries of the input array `Y` as the region finds it. -/
theorem arr (c : Dev nD) (Y : FVec Ideal S200000x64 .f32) (hY : V c main_v50 = Y) :
    (dat3 (F := Ideal) V c).arrAt 1 cfg3.N = const11 (∑ i : S200000x64.Idx, Y i * Y i) := by
  subst hY
  exact (arr_blocks V c).trans (congrArg const11 (total_eq (Xin V c)))

/-- The same value in the host's spelling: the reduce-add over both axes, started from the constant 0, of the
    input array times itself, read at the scalar's one index — the initial value plus the sum over every index, and
    the initial value is 0. -/
theorem arr_ref (c : Dev nD) (Y : FVec Ideal S200000x64 .f32) (hY : V c main_v50 = Y) (h : S200000x64.ReducesTo [0, 1] S_)
    (h' : 0 < S_.numel) :
    (dat3 (F := Ideal) V c).arrAt 1 cfg3.N
      = const11 ((Host.reduceAdd (F := Ideal) (mulf Y Y) (constant (F := Ideal) S_ .f32 0x00000000#32) h h') ix0) := by
  rw [arr V c Y hY]
  refine congrArg const11 ?_
  rw [hostReduceAdd_apply, Ideal.hostReduceAdd_total h (fun b => b.elim0)]
  show _ = Ideal.ofBits .f32 0x00000000#32 + ∑ i : S200000x64.Idx, Y i * Y i
  rw [Ideal.ofBits_zero_f32, zero_add]

end Region

end Cert.KernelIdeal.ValSumsq3

end
-- ==== Proof.ValSumsq4.lean ====
/-
  The sum-of-squares region number 4: the value its output array holds at the region's exit.

  The region's grid has 25 points. Its input window walks the 100000 × 64 matrix in consecutive blocks of 4000
  rows; its output is a single 1 × 1 block whose position never moves, so the block is carried from point to point
  and written back after the last point only. The body sets the block to zero at point 0 and, at every point, adds to
  it the sum over the 4000 × 64 entries of the current input block of the entry's square (a sum over the 64 lanes
  of each row, then over the 4000 rows). Hence after point n the block holds 0 + S₀ + S₁ + … + Sₙ, where Sₜ is the
  sum of the squares of the entries in rows 4000·t … 4000·t + 3999, and after the last point it holds the sum of
  the squares of all 100000 × 64 entries: over the extended reals a finite sum may be regrouped freely (addition
  is commutative and associative there, and 0 + x = x), so no finiteness of the entries is used. This is also the
  value the host's reduce-add of x·x over both axes, started from the constant 0, computes.
-/
import proofs.«149916_j40106404610266_2_alg».proof.Proof.Gen.KernelIdeal.Frame
import proofs.«149916_j40106404610266_2_alg».proof.Proof.LibBlockSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.ValSumsq4

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## What each case of the body leaves in the output block (any float instance) -/

section AnyInstance

variable {F : FTy → Type} [FloatOps F]

/-- The zero offsets of a load or store of a whole block. -/
theorem hz : (![0, 0] : Fin 2 → Nat) = fun _ => 0 := funext fun a => by fin_cases a <;> rfl

/-- At a point other than the first the body leaves, in the output block holding `xo`, the accumulating payload of
    the input block `x` and `xo`: its one store covers the block, and its loads read the whole buffers. -/
theorem out_B (c : Dev nD) (i : grid4.Coords) (a1 : Memref sig .tc .vmem S4000x64 .f32) (h1 : a1.IsWhole)
    (a2 : Memref sig .tc .vmem S1x1 .f32) (h2 : a2.IsWhole) (hc : ¬cond4_0 i) (x : Vec F S4000x64 .f32)
    (xo : Vec F S1x1 .f32) : out4_B_1 c i a1 h1 a2 h2 hc x xo = k4_pay2 x xo := by
  unfold out4_B_1
  rw [View.read_writes_eq_canon _ _ _ (cover4_B_1 c i a1 h1 a2 h2 hc x xo)]
  unfold kernelRun4_B
  dsimp only
  sl_unfold_words
  rw [View.canon_unit_zero hz]
  simp only [View.readAt_eq_ld, h1.read_unread, h2.read_unread, View.ld_unit_zero (S := S4000x64) hz,
    View.ld_unit_zero (S := S1x1) hz]

/-- At the first point the body stores the zero block, reads it back and leaves the accumulating payload of the input
    block `x` and that zero block. -/
theorem out_A (c : Dev nD) (i : grid4.Coords) (a1 : Memref sig .tc .vmem S4000x64 .f32) (h1 : a1.IsWhole)
    (a2 : Memref sig .tc .vmem S1x1 .f32) (h2 : a2.IsWhole) (hc : cond4_0 i) (x : Vec F S4000x64 .f32) :
    out4_A_1 c i a1 h1 a2 h2 hc x = k4_pay2 x (k4_pay1 (F := F)) := by
  unfold out4_A_1
  rw [View.read_writes_eq_canon _ _ _ (cover4_A_1 c i a1 h1 a2 h2 hc x)]
  unfold kernelRun4_A
  dsimp only
  sl_unfold_words
  rw [View.canon_cons_unit_zero (S := S1x1) hz, View.readCov_unit_zero (S := S1x1) _ hz]
  simp only [View.readAt_eq_ld, h1.read_unread, View.ld_unit_zero (S := S4000x64) hz,
    View.ld_unit_zero (S := S1x1) hz]

end AnyInstance

/-! ## The payloads over the extended reals -/

/-- Over row `r`, lane `l` is entry (r, l) of the block. -/
theorem lift_lane (h : S4000x64.Reduces [1] S4000) (r : Fin 4000) (l : Fin 64) : h.lift (ix1 r) l = ix2 r l := by
  funext a; match a with
    | ⟨0, _⟩ => exact Fin.ext rfl
    | ⟨1, _⟩ => exact Fin.ext rfl

/-- Over the one entry of the column of row sums' total, row `r` is entry (r, 0) of the column. -/
theorem lift_row (h : S4000x1.Reduces [0] S1) (u : Fin 1) (r : Fin 4000) : h.lift (ix1 u) r = ix2 r u := by
  funext a; match a with
    | ⟨0, _⟩ => exact Fin.ext rfl
    | ⟨1, _⟩ => exact Fin.ext rfl

/-- The reset payload is the zero block. -/
theorem pay1_apply (j : S1x1.Idx) : k4_pay1 (F := Ideal) j = 0 := by
  show Ideal.ofBits .f32 0x00000000#32 = 0
  exact Ideal.ofBits_zero_f32

/-- The accumulating payload adds to the carried block the sum, over the rows and lanes of the input block, of the
    entry's square. -/
theorem pay2_apply (x : Vec Ideal S4000x64 .f32) (xo : Vec Ideal S1x1 .f32) (j : S1x1.Idx) :
    k4_pay2 (F := Ideal) x xo j = xo j + ∑ r : Fin 4000, ∑ l : Fin 64, x (ix2 r l) * x (ix2 r l) := by
  obtain ⟨a, b, rfl⟩ : ∃ (a b : Fin 1), j = ix2 a b := ⟨j 0, j 1, eq_ix2 j⟩
  unfold k4_pay2
  dsimp only
  refine (addf_apply _ _ (ix2 a b)).trans ?_
  refine congrArg₂ (· + ·) (congrFun (shapeCast_self xo _) (ix2 a b)) ?_
  refine (shapeCast_apply _ _ (ix2 a b) (ix1 (0 : Fin 1)) ?_).trans ?_
  · rw [Shape.rowMajor_val_one, Shape.rowMajor_val_two]
    show (0 : ℕ) = a.val * 1 + b.val
    omega
  refine (Ideal.multiReduction_add_single _ _ _ _ _ (ix1 (0 : Fin 1))).trans ?_
  refine Finset.sum_congr rfl fun (r : Fin 4000) _ => ?_
  refine (shapeCast_apply _ _ _ (ix1 r) ?_).trans ?_
  · rw [Shape.rowMajor_val_one, Shape.rowMajor_val_two]
    show r.val = r.val * 1 + 0
    omega
  refine (Ideal.multiReduction_add_single _ _ _ _ _ (ix1 r)).trans ?_
  refine Finset.sum_congr rfl fun (l : Fin 64) _ => ?_
  rw [lift_lane]
  show shapeCast S4000x64 x shapeCasts_S4000x64_S4000x64 (ix2 r l) * shapeCast S4000x64 x shapeCasts_S4000x64_S4000x64 (ix2 r l) = _
  rw [shapeCast_self]

/-- The constant 1 × 1 block. -/
abbrev const11 (s : EReal) : Vec Ideal S1x1 .f32 := fun _ => s

/-- One accumulating step: a carried block constantly `s` becomes constantly `s + b`, `b` the input block's sum of
    squares. -/
theorem step_apply (x : Vec Ideal S4000x64 .f32) (s b : EReal)
    (hb : ∑ r : Fin 4000, ∑ l : Fin 64, x (ix2 r l) * x (ix2 r l) = b) :
    k4_pay2 (F := Ideal) x (const11 s) = const11 (s + b) :=
  funext fun j => (pay2_apply x (const11 s) j).trans (by rw [hb])

/-- The first step, over the zero block: the block becomes constantly the input block's sum of squares. -/
theorem first_apply (x : Vec Ideal S4000x64 .f32) (b : EReal)
    (hb : ∑ r : Fin 4000, ∑ l : Fin 64, x (ix2 r l) * x (ix2 r l) = b) :
    k4_pay2 (F := Ideal) x (k4_pay1 (F := Ideal)) = const11 b :=
  funext fun j => (pay2_apply x (k4_pay1 (F := Ideal)) j).trans (by rw [pay1_apply, zero_add, hb])

/-! ## The region's value at its entry contents -/

/-- The sum of the squares of the entries of rows 4000·t … 4000·t + 3999 of a 100000 × 64 matrix (zero for a `t`
    past the last block). -/
def blockSq (Y : FVec Ideal S100000x64 .f32) (t : ℕ) : EReal :=
  if h : t < 25 then
    ∑ r : Fin 4000, ∑ l : Fin 64,
      Y (ix2 (⟨t * 4000 + r.val, LibBlockSum.row_lt (N := 100000) (by decide) (⟨t, h⟩ : Fin 25) r⟩ : Fin 100000) l)
        * Y (ix2 (⟨t * 4000 + r.val, LibBlockSum.row_lt (N := 100000) (by decide) (⟨t, h⟩ : Fin 25) r⟩ : Fin 100000) l)
  else 0

/-- The blocks' sums of squares add up to the sum of the squares of all the entries. -/
theorem total_eq (Y : FVec Ideal S100000x64 .f32) :
    ∑ s ∈ Finset.range 25, blockSq Y s = ∑ i : S100000x64.Idx, Y i * Y i := by
  rw [← Fin.sum_univ_eq_sum_range (fun s => blockSq Y s) 25, LibBlockSum.sum_100000x64 (fun i => Y i * Y i)]
  refine Finset.sum_congr rfl fun t _ => ?_
  unfold blockSq
  rw [dif_pos t.isLt]

section Region

variable (V : (c : Dev nD) → (b : Ref sig .tc) → Buf (Elt Ideal) ((c : Thread nD τ).loc b))

/-- The input array as the region finds it. -/
abbrev Xin (c : Dev nD) : FVec Ideal S100000x64 .f32 := V c main_v63

/-- The input window's block at point `t`. -/
abbrev blk (c : Dev nD) (t : Fin cfg4.N) : Vec Ideal S4000x64 .f32 := iblk4 V c 0 t

/-- The input window's block index at point `t` is (t, 0): decided over the grid. -/
theorem idx_facts : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Entry (r, l) of the input block at point `t` is entry (4000·t + r, l) of the input array. -/
theorem iblk_apply (c : Dev nD) (t : Fin cfg4.N) (r : Fin 4000) (l : Fin 64) (hr : t.val * 4000 + r.val < 100000) :
    blk V c t (ix2 r l) = Xin V c (ix2 (⟨t.val * 4000 + r.val, hr⟩ : Fin 100000) l) := by
  obtain ⟨e0, e1⟩ := idx_facts t
  unfold blk Xin iblk4
  rw [View.read_apply]
  show V c main_v63 (((cfg4.win 0).blk t).view.emb (ix2 r l)) = V c main_v63 _
  refine congrArg (V c main_v63 : S100000x64.Idx → EReal) ?_
  funext a; apply Fin.ext
  match a with
  | ⟨0, _⟩ => show win4_0.index t (0 : Fin 2) * 4000 + 1 * r.val = t.val * 4000 + r.val; omega
  | ⟨1, _⟩ => show win4_0.index t (1 : Fin 2) * 64 + 1 * l.val = l.val; omega

/-- The input block at point `t` has the sum of squares of the rows 4000·t … 4000·t + 3999 of the input array. -/
theorem blockSq_eq (c : Dev nD) (t : Fin cfg4.N) :
    ∑ r : Fin 4000, ∑ l : Fin 64, blk V c t (ix2 r l) * blk V c t (ix2 r l) = blockSq (Xin V c) t.val := by
  have h50 : t.val < 25 := lt_of_lt_of_eq t.isLt (show cfg4.N = 25 from N_4)
  unfold blockSq
  rw [dif_pos h50]
  refine Finset.sum_congr rfl fun r _ => Finset.sum_congr rfl fun l _ => ?_
  rw [iblk_apply V c t r l (LibBlockSum.row_lt (N := 100000) (by decide) (⟨t.val, h50⟩ : Fin 25) r)]

/-- THE INVARIANT: after point `n` the output block holds, at its one entry, the sum of the squares of the rows below
    4000·(n + 1) — the blocks' sums of squares added up from block 0 to block `n`. By induction on the point. -/
theorem outsAt_eq (c : Dev nD) (n : ℕ) : ∀ (h : n < cfg4.N),
    outsAt4 V c n h = const11 (∑ s ∈ Finset.range (n + 1), blockSq (Xin V c) s) := by
  induction n with
  | zero =>
    intro h
    refine (outsAt4_A V c ⟨0, h⟩ rfl).trans ?_
    refine (out_A (F := Ideal) c (grid4.coords ⟨0, h⟩) (ms4_0 ⟨0, h⟩) (hs4_0 ⟨0, h⟩) (ms4_1 ⟨0, h⟩) (hs4_1 ⟨0, h⟩)
      ((hcond4_0 ⟨0, h⟩).mpr rfl) (iblk4 V c 0 ⟨0, h⟩)).trans ?_
    refine first_apply (blk V c ⟨0, h⟩) (∑ s ∈ Finset.range (0 + 1), blockSq (Xin V c) s) ((blockSq_eq V c ⟨0, h⟩).trans ?_)
    rw [Finset.sum_range_succ, Finset.range_zero, Finset.sum_empty, zero_add]
  | succ n ih =>
    intro h
    have hN : n + 1 < 25 := lt_of_lt_of_eq h (show cfg4.N = 25 from N_4)
    have hB : ¬(⟨n + 1, h⟩ : Fin cfg4.N).val % 25 = 0 := by dsimp only; omega
    have ih' := ih (Nat.lt_of_succ_lt h)
    refine (outsAt4_B V c ⟨n + 1, h⟩ hB).trans ?_
    refine (out_B (F := Ideal) c (grid4.coords ⟨n + 1, h⟩) (ms4_0 ⟨n + 1, h⟩) (hs4_0 ⟨n + 1, h⟩) (ms4_1 ⟨n + 1, h⟩)
      (hs4_1 ⟨n + 1, h⟩) (fun hc => hB ((hcond4_0 ⟨n + 1, h⟩).mp hc)) (iblk4 V c 0 ⟨n + 1, h⟩)
      (outsAt4 V c n (Nat.lt_of_succ_lt h))).trans ?_
    refine (congrArg (k4_pay2 (F := Ideal) (blk V c ⟨n + 1, h⟩)) ih').trans ?_
    exact (step_apply (blk V c ⟨n + 1, h⟩) (∑ s ∈ Finset.range (n + 1), blockSq (Xin V c) s) (blockSq (Xin V c) (n + 1))
      (blockSq_eq V c ⟨n + 1, h⟩)).trans
      (congrArg const11 (Finset.sum_range_succ (fun s => blockSq (Xin V c) s) (n + 1)).symm)

/-- The last point of the grid, the one that writes the output block back. -/
def tLast : Fin cfg4.N := ⟨24, by rw [show cfg4.N = 25 from N_4]; decide⟩

/-- The one write-back, after the last point, writes the blocks' sums of squares added up over all 25 blocks: the
    output's block (0, 0) read through zero offsets is the whole 1 × 1 array. -/
theorem flushed_eq (c : Dev nD) (t : Fin cfg4.N) (hf : (cfg4.win 1).flush t = true) :
    (dat4 V c).flushed 1 t
      = ((cfg4.win 1).blk t).view.read (Elt Ideal) (const11 (∑ s ∈ Finset.range 25, blockSq (Xin V c) s)) := by
  have hN : t.val < 25 := lt_of_lt_of_eq t.isLt (show cfg4.N = 25 from N_4)
  have hl : t.val + 1 = 25 := by have := (flush4_1 t).mp hf; omega
  show (cfg4.win 1).cut (grid4.coords t) ((dat4 V c).after 1 t) = _
  rw [after4_1, outsAt_eq V c t.val t.isLt, hl]
  have hz' : (fun a => win4_1.index t a * main_v66.ty.shape.size a) = fun _ => 0 :=
    funext fun a => by fin_cases a <;> rfl
  exact (Memref.read_access_unit_zero (Elt Ideal) main_v66 hz' (fun a => by rw [congrFun hz' a]; simp)
    (const11 (∑ s ∈ Finset.range 25, blockSq (Xin V c) s))).symm

/-- At the region's exit the 1 × 1 output array holds the blocks' sums of squares added up over all 25 blocks: the
    last point's block covers it. -/
theorem arr_blocks (c : Dev nD) :
    (dat4 (F := Ideal) V c).arrAt 1 cfg4.N = const11 (∑ s ∈ Finset.range 25, blockSq (Xin V c) s) :=
  (dat4 V c).arrAt_eq_of_cover 1 (const11 (∑ s ∈ Finset.range 25, blockSq (Xin V c) s)) (flushed_eq V c) fun i =>
    ⟨tLast, (flush4_1 tLast).mpr rfl, by
      show i ∈ ((View.whole main_v66).slice (win4_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win4_1.index tLast 0 * win4_1.size 0 ≤ (i 0 : Nat)
          ∧ (i 0 : Nat) < win4_1.index tLast 0 * win4_1.size 0 + win4_1.xsize (grid4.coords tLast) 0
        rw [show win4_1.index tLast 0 * win4_1.size 0 = 0 from by decide +kernel,
          show win4_1.xsize (grid4.coords tLast) 0 = 1 from by decide +kernel]
        omega
      | ⟨1, _⟩ =>
        show win4_1.index tLast 1 * win4_1.size 1 ≤ (i 1 : Nat)
          ∧ (i 1 : Nat) < win4_1.index tLast 1 * win4_1.size 1 + win4_1.xsize (grid4.coords tLast) 1
        rw [show win4_1.index tLast 1 * win4_1.size 1 = 0 from by decide +kernel,
          show win4_1.xsize (grid4.coords tLast) 1 = 1 from by decide +kernel]
        omega⟩

/-- THE VALUE: at the region's exit the 1 × 1 output array holds, at its one entry, the sum of the squares of all the
    entries of the input array `Y` as the region finds it. -/
theorem arr (c : Dev nD) (Y : FVec Ideal S100000x64 .f32) (hY : V c main_v63 = Y) :
    (dat4 (F := Ideal) V c).arrAt 1 cfg4.N = const11 (∑ i : S100000x64.Idx, Y i * Y i) := by
  subst hY
  exact (arr_blocks V c).trans (congrArg const11 (total_eq (Xin V c)))

/-- The same value in the host's spelling: the reduce-add over both axes, started from the constant 0, of the
    input array times itself, read at the scalar's one index — the initial value plus the sum over every index, and
    the initial value is 0. -/
theorem arr_ref (c : Dev nD) (Y : FVec Ideal S100000x64 .f32) (hY : V c main_v63 = Y) (h : S100000x64.ReducesTo [0, 1] S_)
    (h' : 0 < S_.numel) :
    (dat4 (F := Ideal) V c).arrAt 1 cfg4.N
      = const11 ((Host.reduceAdd (F := Ideal) (mulf Y Y) (constant (F := Ideal) S_ .f32 0x00000000#32) h h') ix0) := by
  rw [arr V c Y hY]
  refine congrArg const11 ?_
  rw [hostReduceAdd_apply, Ideal.hostReduceAdd_total h (fun b => b.elim0)]
  show _ = Ideal.ofBits .f32 0x00000000#32 + ∑ i : S100000x64.Idx, Y i * Y i
  rw [Ideal.ofBits_zero_f32, zero_add]

end Region

end Cert.KernelIdeal.ValSumsq4

end
-- ==== Proof.ChainA3.lean ====
/-
  The two global norms of the first hop (boundaries 9 to 13).

  At boundary 9 the user aggregate and the item aggregate hold the reference's values. A region sums the squares
  of the user aggregate's entries into a one-entry array: this is the reference's sum of squares over both axes,
  the same sum of the same products. One host operation takes its square root, entry by entry, which on a
  one-entry array is the reference's square root of the scalar. A second region and a second square root do the
  same for the item aggregate. The two norms are thus the reference's, carried as constant one-entry arrays.
  Every buffer a step does not write keeps its contents; the input window of a region is left as entered.
-/
import proofs.«149916_j40106404610266_2_alg».proof.Proof.Gen.KernelIdeal.Frame
import proofs.«149916_j40106404610266_2_alg».proof.Proof.Gen.ReferenceIdeal.Read
import proofs.«149916_j40106404610266_2_alg».proof.Proof.ChainA0
import proofs.«149916_j40106404610266_2_alg».proof.Proof.ValSumsq3
import proofs.«149916_j40106404610266_2_alg».proof.Proof.ValSumsq4

set_option maxRecDepth 16384

noncomputable section

namespace Cert.ChainA

open Idealize.ShloMosaic Idealize.ShloMosaic.TcCoe Idealize.SL.Sem
open Cert.KernelIdeal

variable (m : (ℓ : Loc nD τ sig) → Buf (Elt Ideal) ℓ) (ρ : Dev nD → PrngReg) (c : Dev nD)

namespace S3

/-! ## Two facts over arbitrary arrays

Both are stated over VARIABLES, so that nothing about a particular array is ever unfolded: a one-entry array that
holds, at its one entry, the entry of a rank-0 array; and the square root taken entry by entry. -/

section Generic

variable (y z : FVec Ideal Cert.ReferenceIdeal.S_ .f32)

/-- The entrywise square root of the one-entry array holding a scalar holds the scalar's square root. -/
theorem sqrt_const (hz : z = Host.sqrt y) :
    Host.sqrt (F := Ideal) (fun (_ : S1x1.Idx) => (y ValueIdx.ix0 : EReal))
      = fun (_ : S1x1.Idx) => (z ValueIdx.ix0 : EReal) := by
  subst hz; rfl

/-- A scalar that is, by definition, a sum of squares over both axes, carried as a constant one-entry array
    (the wider of the two arrays). -/
theorem sumsq_const_u (Y : FVec Ideal S200000x64 .f32) (r : S200000x64.ReducesTo [0, 1] S_) (r' : 0 < S_.numel)
    (hz : z = Host.reduceAdd (F := Ideal) (mulf Y Y) (constant (F := Ideal) S_ .f32 0x00000000#32) r r') :
    Cert.KernelIdeal.ValSumsq3.const11 ((Host.reduceAdd (F := Ideal) (mulf Y Y) (constant (F := Ideal) S_ .f32 0x00000000#32) r r') ValueIdx.ix0)
      = fun (_ : S1x1.Idx) => (z ValueIdx.ix0 : EReal) := by
  subst hz; rfl

/-- The same for the narrower array. -/
theorem sumsq_const_i (Y : FVec Ideal S100000x64 .f32) (r : S100000x64.ReducesTo [0, 1] S_) (r' : 0 < S_.numel)
    (hz : z = Host.reduceAdd (F := Ideal) (mulf Y Y) (constant (F := Ideal) S_ .f32 0x00000000#32) r r') :
    Cert.KernelIdeal.ValSumsq4.const11 ((Host.reduceAdd (F := Ideal) (mulf Y Y) (constant (F := Ideal) S_ .f32 0x00000000#32) r r') ValueIdx.ix0)
      = fun (_ : S1x1.Idx) => (z ValueIdx.ix0 : EReal) := by
  subst hz; rfl

end Generic

/-! ## Boundary 10: the sum of squares of the user aggregate -/

theorem W10_arg0 (h : At9 m ρ c) : Gen.W10 (F := Ideal) m ρ c (Proc.devRef .tc main_arg0) = (m ((c.tc : Thread nD τ).loc main_arg0)) :=
  (Gen.W10_of_ne m ρ c main_arg0 (by decide)).trans (h.arg0)
theorem W10_arg1 (h : At9 m ρ c) : Gen.W10 (F := Ideal) m ρ c (Proc.devRef .tc main_arg1) = (m ((c.tc : Thread nD τ).loc main_arg1)) :=
  (Gen.W10_of_ne m ρ c main_arg1 (by decide)).trans (h.arg1)
theorem W10_arg2 (h : At9 m ρ c) : Gen.W10 (F := Ideal) m ρ c (Proc.devRef .tc main_arg2) = (m ((c.tc : Thread nD τ).loc main_arg2)) :=
  (Gen.W10_of_ne m ρ c main_arg2 (by decide)).trans (h.arg2)
theorem W10_arg3 (h : At9 m ρ c) : Gen.W10 (F := Ideal) m ρ c (Proc.devRef .tc main_arg3) = (m ((c.tc : Thread nD τ).loc main_arg3)) :=
  (Gen.W10_of_ne m ρ c main_arg3 (by decide)).trans (h.arg3)
theorem W10_arg4 (h : At9 m ρ c) : Gen.W10 (F := Ideal) m ρ c (Proc.devRef .tc main_arg4) = (m ((c.tc : Thread nD τ).loc main_arg4)) :=
  (Gen.W10_of_ne m ρ c main_arg4 (by decide)).trans (h.arg4)
theorem W10_arg5 (h : At9 m ρ c) : Gen.W10 (F := Ideal) m ρ c (Proc.devRef .tc main_arg5) = (m ((c.tc : Thread nD τ).loc main_arg5)) :=
  (Gen.W10_of_ne m ρ c main_arg5 (by decide)).trans (h.arg5)
theorem W10_arg6 (h : At9 m ρ c) : Gen.W10 (F := Ideal) m ρ c (Proc.devRef .tc main_arg6) = (m ((c.tc : Thread nD τ).loc main_arg6)) :=
  (Gen.W10_of_ne m ρ c main_arg6 (by decide)).trans (h.arg6)
theorem W10_arg7 (h : At9 m ρ c) : Gen.W10 (F := Ideal) m ρ c (Proc.devRef .tc main_arg7) = (m ((c.tc : Thread nD τ).loc main_arg7)) :=
  (Gen.W10_of_ne m ρ c main_arg7 (by decide)).trans (h.arg7)
theorem W10_arg8 (h : At9 m ρ c) : Gen.W10 (F := Ideal) m ρ c (Proc.devRef .tc main_arg8) = (m ((c.tc : Thread nD τ).loc main_arg8)) :=
  (Gen.W10_of_ne m ρ c main_arg8 (by decide)).trans (h.arg8)
theorem W10_arg9 (h : At9 m ρ c) : Gen.W10 (F := Ideal) m ρ c (Proc.devRef .tc main_arg9) = (m ((c.tc : Thread nD τ).loc main_arg9)) :=
  (Gen.W10_of_ne m ρ c main_arg9 (by decide)).trans (h.arg9)
theorem W10_arg10 (h : At9 m ρ c) : Gen.W10 (F := Ideal) m ρ c (Proc.devRef .tc main_arg10) = (m ((c.tc : Thread nD τ).loc main_arg10)) :=
  (Gen.W10_of_ne m ρ c main_arg10 (by decide)).trans (h.arg10)
theorem W10_v9 (h : At9 m ρ c) : Gen.W10 (F := Ideal) m ρ c (Proc.devRef .tc main_v9) = (Cert.ReferenceIdeal.Read.val_main_v9 (F := Ideal) (m ((c.tc : Thread nD τ).loc main_arg4))) :=
  (Gen.W10_of_ne m ρ c main_v9 (by decide)).trans (h.v9)
theorem W10_v10 (h : At9 m ρ c) : Gen.W10 (F := Ideal) m ρ c (Proc.devRef .tc main_v10) = (Cert.ReferenceIdeal.Read.val_main_v10 (F := Ideal)) :=
  (Gen.W10_of_ne m ρ c main_v10 (by decide)).trans (h.v10)
theorem W10_v22 (h : At9 m ρ c) : Gen.W10 (F := Ideal) m ρ c (Proc.devRef .tc main_v22) = (Cert.ReferenceIdeal.Read.val_main_v22 (F := Ideal) (m ((c.tc : Thread nD τ).loc main_arg3)) (m ((c.tc : Thread nD τ).loc main_arg4))) :=
  (Gen.W10_of_ne m ρ c main_v22 (by decide)).trans (h.v22)
theorem W10_v23 (h : At9 m ρ c) : Gen.W10 (F := Ideal) m ρ c (Proc.devRef .tc main_v23) = (Cert.ReferenceIdeal.Read.val_main_v50 (F := Ideal) (m ((c.tc : Thread nD τ).loc main_arg2))) :=
  (Gen.W10_of_ne m ρ c main_v23 (by decide)).trans (h.v23)
theorem W10_v63 (h : At9 m ρ c) : Gen.W10 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) :=
  (Gen.W10_of_ne m ρ c main_v63 (by decide)).trans (h.v63)
theorem W10_v50 (h : At9 m ρ c) : Gen.W10 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) :=
  ((Gen.W10_arr m ρ c 0).trans (((Gen.dat3 (Gen.V9 m ρ) c).arrAt_in 0 rfl _).trans (Gen.A_eq3 (Gen.V9 m ρ) c 0))).trans (h.v50)
theorem W10_v64 (h : At9 m ρ c) : Gen.W10 (F := Ideal) m ρ c (Proc.devRef .tc main_v64) = (fun (_ : S1x1.Idx) => ((Cert.ReferenceIdeal.Read.val_main_v80 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal)) :=
  (Gen.W10_arr m ρ c 1).trans ((Cert.KernelIdeal.ValSumsq3.arr_ref (Gen.V9 m ρ) c (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) h.v50
    Cert.ReferenceIdeal.Facts₀.reducesTo_S200000x64_S_d0_1 Cert.ReferenceIdeal.Facts₀.h_S_).trans
    (sumsq_const_u (Cert.ReferenceIdeal.Read.val_main_v80 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
      Cert.ReferenceIdeal.Facts₀.reducesTo_S200000x64_S_d0_1 Cert.ReferenceIdeal.Facts₀.h_S_ rfl))
/-! ## Boundary 11: the square root of the first sum -/

theorem W11_arg0 (h : At9 m ρ c) : Gen.W11 (F := Ideal) m ρ c (Proc.devRef .tc main_arg0) = (m ((c.tc : Thread nD τ).loc main_arg0)) := by
  dsimp only [Gen.W11, Gen.hostOps4]
  after_results_simp
  exact W10_arg0 m ρ c h
theorem W11_arg1 (h : At9 m ρ c) : Gen.W11 (F := Ideal) m ρ c (Proc.devRef .tc main_arg1) = (m ((c.tc : Thread nD τ).loc main_arg1)) := by
  dsimp only [Gen.W11, Gen.hostOps4]
  after_results_simp
  exact W10_arg1 m ρ c h
theorem W11_arg2 (h : At9 m ρ c) : Gen.W11 (F := Ideal) m ρ c (Proc.devRef .tc main_arg2) = (m ((c.tc : Thread nD τ).loc main_arg2)) := by
  dsimp only [Gen.W11, Gen.hostOps4]
  after_results_simp
  exact W10_arg2 m ρ c h
theorem W11_arg3 (h : At9 m ρ c) : Gen.W11 (F := Ideal) m ρ c (Proc.devRef .tc main_arg3) = (m ((c.tc : Thread nD τ).loc main_arg3)) := by
  dsimp only [Gen.W11, Gen.hostOps4]
  after_results_simp
  exact W10_arg3 m ρ c h
theorem W11_arg4 (h : At9 m ρ c) : Gen.W11 (F := Ideal) m ρ c (Proc.devRef .tc main_arg4) = (m ((c.tc : Thread nD τ).loc main_arg4)) := by
  dsimp only [Gen.W11, Gen.hostOps4]
  after_results_simp
  exact W10_arg4 m ρ c h
theorem W11_arg5 (h : At9 m ρ c) : Gen.W11 (F := Ideal) m ρ c (Proc.devRef .tc main_arg5) = (m ((c.tc : Thread nD τ).loc main_arg5)) := by
  dsimp only [Gen.W11, Gen.hostOps4]
  after_results_simp
  exact W10_arg5 m ρ c h
theorem W11_arg6 (h : At9 m ρ c) : Gen.W11 (F := Ideal) m ρ c (Proc.devRef .tc main_arg6) = (m ((c.tc : Thread nD τ).loc main_arg6)) := by
  dsimp only [Gen.W11, Gen.hostOps4]
  after_results_simp
  exact W10_arg6 m ρ c h
theorem W11_arg7 (h : At9 m ρ c) : Gen.W11 (F := Ideal) m ρ c (Proc.devRef .tc main_arg7) = (m ((c.tc : Thread nD τ).loc main_arg7)) := by
  dsimp only [Gen.W11, Gen.hostOps4]
  after_results_simp
  exact W10_arg7 m ρ c h
theorem W11_arg8 (h : At9 m ρ c) : Gen.W11 (F := Ideal) m ρ c (Proc.devRef .tc main_arg8) = (m ((c.tc : Thread nD τ).loc main_arg8)) := by
  dsimp only [Gen.W11, Gen.hostOps4]
  after_results_simp
  exact W10_arg8 m ρ c h
theorem W11_arg9 (h : At9 m ρ c) : Gen.W11 (F := Ideal) m ρ c (Proc.devRef .tc main_arg9) = (m ((c.tc : Thread nD τ).loc main_arg9)) := by
  dsimp only [Gen.W11, Gen.hostOps4]
  after_results_simp
  exact W10_arg9 m ρ c h
theorem W11_arg10 (h : At9 m ρ c) : Gen.W11 (F := Ideal) m ρ c (Proc.devRef .tc main_arg10) = (m ((c.tc : Thread nD τ).loc main_arg10)) := by
  dsimp only [Gen.W11, Gen.hostOps4]
  after_results_simp
  exact W10_arg10 m ρ c h
theorem W11_v9 (h : At9 m ρ c) : Gen.W11 (F := Ideal) m ρ c (Proc.devRef .tc main_v9) = (Cert.ReferenceIdeal.Read.val_main_v9 (F := Ideal) (m ((c.tc : Thread nD τ).loc main_arg4))) := by
  dsimp only [Gen.W11, Gen.hostOps4]
  after_results_simp
  exact W10_v9 m ρ c h
theorem W11_v10 (h : At9 m ρ c) : Gen.W11 (F := Ideal) m ρ c (Proc.devRef .tc main_v10) = (Cert.ReferenceIdeal.Read.val_main_v10 (F := Ideal)) := by
  dsimp only [Gen.W11, Gen.hostOps4]
  after_results_simp
  exact W10_v10 m ρ c h
theorem W11_v22 (h : At9 m ρ c) : Gen.W11 (F := Ideal) m ρ c (Proc.devRef .tc main_v22) = (Cert.ReferenceIdeal.Read.val_main_v22 (F := Ideal) (m ((c.tc : Thread nD τ).loc main_arg3)) (m ((c.tc : Thread nD τ).loc main_arg4))) := by
  dsimp only [Gen.W11, Gen.hostOps4]
  after_results_simp
  exact W10_v22 m ρ c h
theorem W11_v23 (h : At9 m ρ c) : Gen.W11 (F := Ideal) m ρ c (Proc.devRef .tc main_v23) = (Cert.ReferenceIdeal.Read.val_main_v50 (F := Ideal) (m ((c.tc : Thread nD τ).loc main_arg2))) := by
  dsimp only [Gen.W11, Gen.hostOps4]
  after_results_simp
  exact W10_v23 m ρ c h
theorem W11_v50 (h : At9 m ρ c) : Gen.W11 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) := by
  dsimp only [Gen.W11, Gen.hostOps4]
  after_results_simp
  exact W10_v50 m ρ c h
theorem W11_v63 (h : At9 m ρ c) : Gen.W11 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) := by
  dsimp only [Gen.W11, Gen.hostOps4]
  after_results_simp
  exact W10_v63 m ρ c h
theorem W11_v65 (h : At9 m ρ c) : Gen.W11 (F := Ideal) m ρ c (Proc.devRef .tc main_v65) = (fun (_ : S1x1.Idx) => ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal)) := by
  dsimp only [Gen.W11, Gen.hostOps4]
  after_results_simp
  exact (congrArg Host.sqrt (W10_v64 m ρ c h)).trans (sqrt_const (Cert.ReferenceIdeal.Read.val_main_v80 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) (Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) rfl)
/-! ## Boundary 12: the sum of squares of the item aggregate -/

theorem W12_arg0 (h : At9 m ρ c) : Gen.W12 (F := Ideal) m ρ c (Proc.devRef .tc main_arg0) = (m ((c.tc : Thread nD τ).loc main_arg0)) :=
  (Gen.W12_of_ne m ρ c main_arg0 (by decide)).trans (W11_arg0 m ρ c h)
theorem W12_arg1 (h : At9 m ρ c) : Gen.W12 (F := Ideal) m ρ c (Proc.devRef .tc main_arg1) = (m ((c.tc : Thread nD τ).loc main_arg1)) :=
  (Gen.W12_of_ne m ρ c main_arg1 (by decide)).trans (W11_arg1 m ρ c h)
theorem W12_arg2 (h : At9 m ρ c) : Gen.W12 (F := Ideal) m ρ c (Proc.devRef .tc main_arg2) = (m ((c.tc : Thread nD τ).loc main_arg2)) :=
  (Gen.W12_of_ne m ρ c main_arg2 (by decide)).trans (W11_arg2 m ρ c h)
theorem W12_arg3 (h : At9 m ρ c) : Gen.W12 (F := Ideal) m ρ c (Proc.devRef .tc main_arg3) = (m ((c.tc : Thread nD τ).loc main_arg3)) :=
  (Gen.W12_of_ne m ρ c main_arg3 (by decide)).trans (W11_arg3 m ρ c h)
theorem W12_arg4 (h : At9 m ρ c) : Gen.W12 (F := Ideal) m ρ c (Proc.devRef .tc main_arg4) = (m ((c.tc : Thread nD τ).loc main_arg4)) :=
  (Gen.W12_of_ne m ρ c main_arg4 (by decide)).trans (W11_arg4 m ρ c h)
theorem W12_arg5 (h : At9 m ρ c) : Gen.W12 (F := Ideal) m ρ c (Proc.devRef .tc main_arg5) = (m ((c.tc : Thread nD τ).loc main_arg5)) :=
  (Gen.W12_of_ne m ρ c main_arg5 (by decide)).trans (W11_arg5 m ρ c h)
theorem W12_arg6 (h : At9 m ρ c) : Gen.W12 (F := Ideal) m ρ c (Proc.devRef .tc main_arg6) = (m ((c.tc : Thread nD τ).loc main_arg6)) :=
  (Gen.W12_of_ne m ρ c main_arg6 (by decide)).trans (W11_arg6 m ρ c h)
theorem W12_arg7 (h : At9 m ρ c) : Gen.W12 (F := Ideal) m ρ c (Proc.devRef .tc main_arg7) = (m ((c.tc : Thread nD τ).loc main_arg7)) :=
  (Gen.W12_of_ne m ρ c main_arg7 (by decide)).trans (W11_arg7 m ρ c h)
theorem W12_arg8 (h : At9 m ρ c) : Gen.W12 (F := Ideal) m ρ c (Proc.devRef .tc main_arg8) = (m ((c.tc : Thread nD τ).loc main_arg8)) :=
  (Gen.W12_of_ne m ρ c main_arg8 (by decide)).trans (W11_arg8 m ρ c h)
theorem W12_arg9 (h : At9 m ρ c) : Gen.W12 (F := Ideal) m ρ c (Proc.devRef .tc main_arg9) = (m ((c.tc : Thread nD τ).loc main_arg9)) :=
  (Gen.W12_of_ne m ρ c main_arg9 (by decide)).trans (W11_arg9 m ρ c h)
theorem W12_arg10 (h : At9 m ρ c) : Gen.W12 (F := Ideal) m ρ c (Proc.devRef .tc main_arg10) = (m ((c.tc : Thread nD τ).loc main_arg10)) :=
  (Gen.W12_of_ne m ρ c main_arg10 (by decide)).trans (W11_arg10 m ρ c h)
theorem W12_v9 (h : At9 m ρ c) : Gen.W12 (F := Ideal) m ρ c (Proc.devRef .tc main_v9) = (Cert.ReferenceIdeal.Read.val_main_v9 (F := Ideal) (m ((c.tc : Thread nD τ).loc main_arg4))) :=
  (Gen.W12_of_ne m ρ c main_v9 (by decide)).trans (W11_v9 m ρ c h)
theorem W12_v10 (h : At9 m ρ c) : Gen.W12 (F := Ideal) m ρ c (Proc.devRef .tc main_v10) = (Cert.ReferenceIdeal.Read.val_main_v10 (F := Ideal)) :=
  (Gen.W12_of_ne m ρ c main_v10 (by decide)).trans (W11_v10 m ρ c h)
theorem W12_v22 (h : At9 m ρ c) : Gen.W12 (F := Ideal) m ρ c (Proc.devRef .tc main_v22) = (Cert.ReferenceIdeal.Read.val_main_v22 (F := Ideal) (m ((c.tc : Thread nD τ).loc main_arg3)) (m ((c.tc : Thread nD τ).loc main_arg4))) :=
  (Gen.W12_of_ne m ρ c main_v22 (by decide)).trans (W11_v22 m ρ c h)
theorem W12_v23 (h : At9 m ρ c) : Gen.W12 (F := Ideal) m ρ c (Proc.devRef .tc main_v23) = (Cert.ReferenceIdeal.Read.val_main_v50 (F := Ideal) (m ((c.tc : Thread nD τ).loc main_arg2))) :=
  (Gen.W12_of_ne m ρ c main_v23 (by decide)).trans (W11_v23 m ρ c h)
theorem W12_v50 (h : At9 m ρ c) : Gen.W12 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) :=
  (Gen.W12_of_ne m ρ c main_v50 (by decide)).trans (W11_v50 m ρ c h)
theorem W12_v65 (h : At9 m ρ c) : Gen.W12 (F := Ideal) m ρ c (Proc.devRef .tc main_v65) = (fun (_ : S1x1.Idx) => ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal)) :=
  (Gen.W12_of_ne m ρ c main_v65 (by decide)).trans (W11_v65 m ρ c h)
theorem W12_v63 (h : At9 m ρ c) : Gen.W12 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) :=
  ((Gen.W12_arr m ρ c 0).trans (((Gen.dat4 (Gen.V11 m ρ) c).arrAt_in 0 rfl _).trans (Gen.A_eq4 (Gen.V11 m ρ) c 0))).trans (W11_v63 m ρ c h)
theorem W12_v66 (h : At9 m ρ c) : Gen.W12 (F := Ideal) m ρ c (Proc.devRef .tc main_v66) = (fun (_ : S1x1.Idx) => ((Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal)) :=
  (Gen.W12_arr m ρ c 1).trans ((Cert.KernelIdeal.ValSumsq4.arr_ref (Gen.V11 m ρ) c (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) (W11_v63 m ρ c h)
    Cert.ReferenceIdeal.Facts₀.reducesTo_S100000x64_S_d0_1 Cert.ReferenceIdeal.Facts₀.h_S_).trans
    (sumsq_const_i (Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
      Cert.ReferenceIdeal.Facts₀.reducesTo_S100000x64_S_d0_1 Cert.ReferenceIdeal.Facts₀.h_S_ rfl))
/-! ## Boundary 13: the square root of the second sum -/

theorem W13_arg0 (h : At9 m ρ c) : Gen.W13 (F := Ideal) m ρ c (Proc.devRef .tc main_arg0) = (m ((c.tc : Thread nD τ).loc main_arg0)) := by
  dsimp only [Gen.W13, Gen.hostOps5]
  after_results_simp
  exact W12_arg0 m ρ c h
theorem W13_arg1 (h : At9 m ρ c) : Gen.W13 (F := Ideal) m ρ c (Proc.devRef .tc main_arg1) = (m ((c.tc : Thread nD τ).loc main_arg1)) := by
  dsimp only [Gen.W13, Gen.hostOps5]
  after_results_simp
  exact W12_arg1 m ρ c h
theorem W13_arg2 (h : At9 m ρ c) : Gen.W13 (F := Ideal) m ρ c (Proc.devRef .tc main_arg2) = (m ((c.tc : Thread nD τ).loc main_arg2)) := by
  dsimp only [Gen.W13, Gen.hostOps5]
  after_results_simp
  exact W12_arg2 m ρ c h
theorem W13_arg3 (h : At9 m ρ c) : Gen.W13 (F := Ideal) m ρ c (Proc.devRef .tc main_arg3) = (m ((c.tc : Thread nD τ).loc main_arg3)) := by
  dsimp only [Gen.W13, Gen.hostOps5]
  after_results_simp
  exact W12_arg3 m ρ c h
theorem W13_arg4 (h : At9 m ρ c) : Gen.W13 (F := Ideal) m ρ c (Proc.devRef .tc main_arg4) = (m ((c.tc : Thread nD τ).loc main_arg4)) := by
  dsimp only [Gen.W13, Gen.hostOps5]
  after_results_simp
  exact W12_arg4 m ρ c h
theorem W13_arg5 (h : At9 m ρ c) : Gen.W13 (F := Ideal) m ρ c (Proc.devRef .tc main_arg5) = (m ((c.tc : Thread nD τ).loc main_arg5)) := by
  dsimp only [Gen.W13, Gen.hostOps5]
  after_results_simp
  exact W12_arg5 m ρ c h
theorem W13_arg6 (h : At9 m ρ c) : Gen.W13 (F := Ideal) m ρ c (Proc.devRef .tc main_arg6) = (m ((c.tc : Thread nD τ).loc main_arg6)) := by
  dsimp only [Gen.W13, Gen.hostOps5]
  after_results_simp
  exact W12_arg6 m ρ c h
theorem W13_arg7 (h : At9 m ρ c) : Gen.W13 (F := Ideal) m ρ c (Proc.devRef .tc main_arg7) = (m ((c.tc : Thread nD τ).loc main_arg7)) := by
  dsimp only [Gen.W13, Gen.hostOps5]
  after_results_simp
  exact W12_arg7 m ρ c h
theorem W13_arg8 (h : At9 m ρ c) : Gen.W13 (F := Ideal) m ρ c (Proc.devRef .tc main_arg8) = (m ((c.tc : Thread nD τ).loc main_arg8)) := by
  dsimp only [Gen.W13, Gen.hostOps5]
  after_results_simp
  exact W12_arg8 m ρ c h
theorem W13_arg9 (h : At9 m ρ c) : Gen.W13 (F := Ideal) m ρ c (Proc.devRef .tc main_arg9) = (m ((c.tc : Thread nD τ).loc main_arg9)) := by
  dsimp only [Gen.W13, Gen.hostOps5]
  after_results_simp
  exact W12_arg9 m ρ c h
theorem W13_arg10 (h : At9 m ρ c) : Gen.W13 (F := Ideal) m ρ c (Proc.devRef .tc main_arg10) = (m ((c.tc : Thread nD τ).loc main_arg10)) := by
  dsimp only [Gen.W13, Gen.hostOps5]
  after_results_simp
  exact W12_arg10 m ρ c h
theorem W13_v9 (h : At9 m ρ c) : Gen.W13 (F := Ideal) m ρ c (Proc.devRef .tc main_v9) = (Cert.ReferenceIdeal.Read.val_main_v9 (F := Ideal) (m ((c.tc : Thread nD τ).loc main_arg4))) := by
  dsimp only [Gen.W13, Gen.hostOps5]
  after_results_simp
  exact W12_v9 m ρ c h
theorem W13_v10 (h : At9 m ρ c) : Gen.W13 (F := Ideal) m ρ c (Proc.devRef .tc main_v10) = (Cert.ReferenceIdeal.Read.val_main_v10 (F := Ideal)) := by
  dsimp only [Gen.W13, Gen.hostOps5]
  after_results_simp
  exact W12_v10 m ρ c h
theorem W13_v22 (h : At9 m ρ c) : Gen.W13 (F := Ideal) m ρ c (Proc.devRef .tc main_v22) = (Cert.ReferenceIdeal.Read.val_main_v22 (F := Ideal) (m ((c.tc : Thread nD τ).loc main_arg3)) (m ((c.tc : Thread nD τ).loc main_arg4))) := by
  dsimp only [Gen.W13, Gen.hostOps5]
  after_results_simp
  exact W12_v22 m ρ c h
theorem W13_v23 (h : At9 m ρ c) : Gen.W13 (F := Ideal) m ρ c (Proc.devRef .tc main_v23) = (Cert.ReferenceIdeal.Read.val_main_v50 (F := Ideal) (m ((c.tc : Thread nD τ).loc main_arg2))) := by
  dsimp only [Gen.W13, Gen.hostOps5]
  after_results_simp
  exact W12_v23 m ρ c h
theorem W13_v50 (h : At9 m ρ c) : Gen.W13 (F := Ideal) m ρ c (Proc.devRef .tc main_v50) = (Cert.ReferenceIdeal.Read.val_main_v49 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) := by
  dsimp only [Gen.W13, Gen.hostOps5]
  after_results_simp
  exact W12_v50 m ρ c h
theorem W13_v63 (h : At9 m ρ c) : Gen.W13 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) := by
  dsimp only [Gen.W13, Gen.hostOps5]
  after_results_simp
  exact W12_v63 m ρ c h
theorem W13_v65 (h : At9 m ρ c) : Gen.W13 (F := Ideal) m ρ c (Proc.devRef .tc main_v65) = (fun (_ : S1x1.Idx) => ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal)) := by
  dsimp only [Gen.W13, Gen.hostOps5]
  after_results_simp
  exact W12_v65 m ρ c h
theorem W13_v67 (h : At9 m ρ c) : Gen.W13 (F := Ideal) m ρ c (Proc.devRef .tc main_v67) = (fun (_ : S1x1.Idx) => ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal)) := by
  dsimp only [Gen.W13, Gen.hostOps5]
  after_results_simp
  exact (congrArg Host.sqrt (W12_v66 m ρ c h)).trans (sqrt_const (Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) (Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) rfl)
end S3

/-- From boundary 9 (the entry of the first sum of squares) to boundary 13 (the entry of the first normalize-and-add region). -/
theorem at13 (h : At9 m ρ c) : At13 m ρ c where
  arg0 := S3.W13_arg0 m ρ c h
  arg1 := S3.W13_arg1 m ρ c h
  arg2 := S3.W13_arg2 m ρ c h
  arg3 := S3.W13_arg3 m ρ c h
  arg4 := S3.W13_arg4 m ρ c h
  arg5 := S3.W13_arg5 m ρ c h
  arg6 := S3.W13_arg6 m ρ c h
  arg7 := S3.W13_arg7 m ρ c h
  arg8 := S3.W13_arg8 m ρ c h
  arg9 := S3.W13_arg9 m ρ c h
  arg10 := S3.W13_arg10 m ρ c h
  v9 := S3.W13_v9 m ρ c h
  v10 := S3.W13_v10 m ρ c h
  v22 := S3.W13_v22 m ρ c h
  v23 := S3.W13_v23 m ρ c h
  v50 := S3.W13_v50 m ρ c h
  v63 := S3.W13_v63 m ρ c h
  v65 := S3.W13_v65 m ρ c h
  v67 := S3.W13_v67 m ρ c h

end Cert.ChainA

end
-- ==== Proof.DivLaw.lean ====
/-
  Dividing by a nonzero extended real is multiplying by its reciprocal: for `n ≠ 0`, `x / n = x · (1 / n)` at
  EVERY extended real `x` (both sides are `x · n⁻¹`; no finiteness of `x` or `n` is used, and `n = ⊤` is
  allowed). At `n = 0` the law fails exactly at `x = 0`: `0 / 0` is `⊥` while `0 · (1 / 0) = 0 · ⊤ = 0`.
-/
import Idealize.ShloMosaic.PureOps.Ideal

namespace Cert.NormLaw

open Idealize.ShloMosaic

/-- `x / n = x · (1 / n)` for a nonzero divisor. -/
theorem div_eq_mul_one_div {n : EReal} (hn : n ≠ 0) (x : EReal) :
    Ideal.div x n = x * Ideal.div 1 n := by
  rw [Ideal.div, Ideal.div, if_neg hn, if_neg hn, one_mul]

end Cert.NormLaw
-- ==== Proof.ValNorm5.lean ====
/-
  The normalize-and-add region over the 200000 x 64 aggregate (blocks of 4000 rows, 50 grid points).

  At every grid point the body reads a block x of the aggregate, the 1 x 1 norm n (the same whole array at every
  point) and the matching block r of the residual, and stores

      emb = x * (1 / n)        (the reciprocal of the norm, broadcast over the block, times the block)
      res = r + emb.

  Both outputs are pointwise in the row and the column, the output blocks have the same index map as the input
  blocks (row = 4000 * t + y at point t), and the 50 blocks tile the 200000 rows. So once the norm array is the
  constant s, the two output arrays after the region are, index by index,

      emb i = agg i * (1 / s),      res i = resid i + agg i * (1 / s).

  For s ≠ 0, x * (1 / s) = x / s at every extended real x (both are x * s⁻¹), which gives the quotient
  spelling  emb i = agg i / s,  res i = resid i + agg i / s.
-/
import proofs.«149916_j40106404610266_2_alg».proof.Proof.Gen.KernelIdeal.Frame
import proofs.«149916_j40106404610266_2_alg».proof.Proof.DivLaw
import Idealize.ShloMosaic.Lib.Pipeline.Value
import Idealize.ShloMosaic.Lib.ValueIdx
import Idealize.ShloMosaic.Lib.IdealHost

noncomputable section

namespace Cert.KernelIdeal.ValNorm5

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b)) (c : Dev nD)

/-- The aggregate, the 1 x 1 norm and the residual as the region finds them. -/
abbrev agg : S200000x64.Idx → EReal := V c main_v50
abbrev nrm : S1x1.Idx → EReal := V c main_v65
abbrev resid : S200000x64.Idx → EReal := V c main_arg1

/-! ## The body's two stored values at an index -/

theorem hz : (![0, 0] : Fin 2 → Nat) = fun _ => 0 := funext fun a => by fin_cases a <;> rfl

/-- The first stored value: the block times the reciprocal of the (constant) norm. -/
theorem pay1_apply (n : Vec Ideal S1x1 .f32) (x : Vec Ideal S4000x64 .f32) (s : EReal) (hn : n = fun _ => s)
    (j : S4000x64.Idx) : k5_pay1 (F := Ideal) n x j = x j * Ideal.div 1 s := by
  subst hn
  unfold k5_pay1
  simp only [shapeCast_self]
  rw [← Ideal.ofBits_one_f32]
  rfl

/-- The second stored value: the residual block plus the first. -/
theorem pay2_apply (n : Vec Ideal S1x1 .f32) (x r : Vec Ideal S4000x64 .f32) (s : EReal) (hn : n = fun _ => s)
    (j : S4000x64.Idx) : k5_pay2 (F := Ideal) n x r j = r j + x j * Ideal.div 1 s := by
  unfold k5_pay2
  exact congrArg (fun z => r j + z) (pay1_apply n x s hn j)

/-! ## The blocks -/

/-- The index maps over the grid: the two 4000-row input windows move with the output windows, block t at rows
    4000 t …, all columns; the norm's window stays at its one block. -/
theorem idx_facts : ∀ t : Fin cfg5.N,
    win5_0.index t (0 : Fin 2) = t.val ∧ win5_0.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The norm's block at every point is the constant. -/
theorem iblk1_eq (s : EReal) (hn : nrm V c = fun _ => s) (t : Fin cfg5.N) :
    (iblk5 V c 1 t : Vec Ideal S1x1 .f32) = fun _ => s := by
  funext y
  unfold iblk5
  rw [View.read_apply]
  show nrm V c _ = s
  rw [hn]

/-- A 4000-row block of the aggregate at a point: row 4000 t + y. -/
theorem iblk0_apply (t : Fin cfg5.N) (y : S4000x64.Idx) (i : S200000x64.Idx)
    (h0 : (i 0).val = t.val * 4000 + (y 0).val) (h1 : (i 1).val = (y 1).val) :
    (iblk5 V c 0 t : Vec Ideal S4000x64 .f32) y = agg V c i := by
  obtain ⟨e0, e1, -⟩ := idx_facts t
  unfold iblk5
  rw [View.read_apply]
  show agg V c _ = agg V c i
  refine congrArg (agg V c) (funext fun a => Fin.ext ?_)
  match a with
  | ⟨0, _⟩ => show win5_0.index t (0 : Fin 2) * 4000 + 1 * (y 0).val = (i 0).val; rw [e0, h0]; omega
  | ⟨1, _⟩ => show win5_0.index t (1 : Fin 2) * 64 + 1 * (y 1).val = (i 1).val; rw [e1, h1]; omega

/-- A 4000-row block of the residual at a point: row 4000 t + y. -/
theorem iblk2_apply (t : Fin cfg5.N) (y : S4000x64.Idx) (i : S200000x64.Idx)
    (h0 : (i 0).val = t.val * 4000 + (y 0).val) (h1 : (i 1).val = (y 1).val) :
    (iblk5 V c 2 t : Vec Ideal S4000x64 .f32) y = resid V c i := by
  obtain ⟨-, -, e0, e1, -⟩ := idx_facts t
  unfold iblk5
  rw [View.read_apply]
  show resid V c _ = resid V c i
  refine congrArg (resid V c) (funext fun a => Fin.ext ?_)
  match a with
  | ⟨0, _⟩ => show win5_2.index t (0 : Fin 2) * 4000 + 1 * (y 0).val = (i 0).val; rw [e0, h0]; omega
  | ⟨1, _⟩ => show win5_2.index t (1 : Fin 2) * 64 + 1 * (y 1).val = (i 1).val; rw [e1, h1]; omega

/-! ## What a point writes back -/

/-- Point t writes back, into the first output, block t of the normalized aggregate. -/
theorem flushed3_eq (s : EReal) (hn : nrm V c = fun _ => s) (t : Fin cfg5.N) :
    (dat5 (F := Ideal) V c).flushed 3 t
      = ((cfg5.win 3).blk t).view.read (Elt Ideal) (fun i => agg V c i * Ideal.div 1 s) := by
  show (cfg5.win 3).cut (grid5.coords t) ((dat5 (F := Ideal) V c).after 3 t) = _
  rw [after5_3]
  unfold out5_3
  rw [View.canon_unit_zero hz]
  simp only [View.ld_unit_zero (S := S4000x64) hz, View.ld_unit_zero (S := S1x1) hz]
  obtain ⟨-, -, -, -, e0, e1, -⟩ := idx_facts t
  funext y
  rw [View.read_apply]
  refine (pay1_apply (iblk5 V c 1 t) (iblk5 V c 0 t) s (iblk1_eq V c s hn t) y).trans ?_
  refine congrArg (fun z => z * Ideal.div 1 s) (iblk0_apply V c t y _ ?_ ?_)
  · show win5_3.index t (0 : Fin 2) * 4000 + 1 * (y 0).val = t.val * 4000 + (y 0).val; rw [e0]; omega
  · show win5_3.index t (1 : Fin 2) * 64 + 1 * (y 1).val = (y 1).val; rw [e1]; omega

/-- Point t writes back, into the second output, block t of the residual plus the normalized aggregate. -/
theorem flushed4_eq (s : EReal) (hn : nrm V c = fun _ => s) (t : Fin cfg5.N) :
    (dat5 (F := Ideal) V c).flushed 4 t
      = ((cfg5.win 4).blk t).view.read (Elt Ideal) (fun i => resid V c i + agg V c i * Ideal.div 1 s) := by
  show (cfg5.win 4).cut (grid5.coords t) ((dat5 (F := Ideal) V c).after 4 t) = _
  rw [after5_4]
  unfold out5_4
  rw [View.canon_unit_zero hz]
  simp only [View.ld_unit_zero (S := S4000x64) hz, View.ld_unit_zero (S := S1x1) hz]
  obtain ⟨-, -, -, -, -, -, e0, e1⟩ := idx_facts t
  funext y
  rw [View.read_apply]
  refine (pay2_apply (iblk5 V c 1 t) (iblk5 V c 0 t) (iblk5 V c 2 t) s (iblk1_eq V c s hn t) y).trans ?_
  have h0 : ((((cfg5.win 4).blk t).view.emb y) 0).val = t.val * 4000 + (y 0).val := by
    show win5_4.index t (0 : Fin 2) * 4000 + 1 * (y 0).val = t.val * 4000 + (y 0).val; rw [e0]; omega
  have h1 : ((((cfg5.win 4).blk t).view.emb y) 1).val = (y 1).val := by
    show win5_4.index t (1 : Fin 2) * 64 + 1 * (y 1).val = (y 1).val; rw [e1]; omega
  rw [iblk2_apply V c t y _ h0 h1, iblk0_apply V c t y _ h0 h1]
  rfl

/-! ## The blocks tile the array -/

/-- A row is in point t's block of the first output iff it is one of rows 4000 t … 4000 t + 3999. -/
theorem mem_blk3 (t : Fin cfg5.N) (i : S200000x64.Idx) :
    i ∈ ((cfg5.win 3).blk t).view.set ↔ ∀ a : Fin 2, win5_3.index t a * S4000x64.size a ≤ (i a).val ∧ (i a).val < win5_3.index t a * S4000x64.size a + S4000x64.size a := by
  show i ∈ ((View.whole main_v68_0).slice (win5_3.rect t)).set ↔ _
  rw [View.set_slice_whole, Rect.mem_set_unit]
  exact Iff.rfl

theorem mem_blk4 (t : Fin cfg5.N) (i : S200000x64.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v68_1).slice (win5_4.rect t)).set ↔ _
  rw [View.set_slice_whole, Rect.mem_set_unit]
  exact Iff.rfl

/-- Row r is covered by point r / 4000. -/
theorem cover3 (i : S200000x64.Idx) :
    ∃ t : Fin cfg5.N, (cfg5.win 3).flush t = true ∧ i ∈ ((cfg5.win 3).blk t).view.set := by
  have hi0 : (i 0).val < 200000 := (i 0).isLt
  have hi1 : (i 1).val < 64 := (i 1).isLt
  have hN : cfg5.N = 50 := N_5
  let t : Fin cfg5.N := ⟨(i 0).val / 4000, by rw [hN]; omega⟩
  have ht : t.val = (i 0).val / 4000 := rfl
  obtain ⟨-, -, -, -, e0, e1, -⟩ := idx_facts t
  refine ⟨t, flush5_3 t, ?_⟩
  rw [mem_blk3]
  intro a
  match a with
  | ⟨0, _⟩ => show win5_3.index t (0 : Fin 2) * 4000 ≤ (i 0).val ∧ (i 0).val < win5_3.index t (0 : Fin 2) * 4000 + 4000; rw [e0, ht]; omega
  | ⟨1, _⟩ => show win5_3.index t (1 : Fin 2) * 64 ≤ (i 1).val ∧ (i 1).val < win5_3.index t (1 : Fin 2) * 64 + 64; rw [e1]; omega

theorem cover4 (i : S200000x64.Idx) :
    ∃ t : Fin cfg5.N, (cfg5.win 4).flush t = true ∧ i ∈ ((cfg5.win 4).blk t).view.set := by
  have hi0 : (i 0).val < 200000 := (i 0).isLt
  have hi1 : (i 1).val < 64 := (i 1).isLt
  have hN : cfg5.N = 50 := N_5
  let t : Fin cfg5.N := ⟨(i 0).val / 4000, by rw [hN]; omega⟩
  have ht : t.val = (i 0).val / 4000 := rfl
  obtain ⟨-, -, -, -, -, -, e0, e1⟩ := idx_facts t
  refine ⟨t, flush5_4 t, ?_⟩
  rw [mem_blk4]
  intro a
  match a with
  | ⟨0, _⟩ => show win5_4.index t (0 : Fin 2) * 4000 ≤ (i 0).val ∧ (i 0).val < win5_4.index t (0 : Fin 2) * 4000 + 4000; rw [e0, ht]; omega
  | ⟨1, _⟩ => show win5_4.index t (1 : Fin 2) * 64 ≤ (i 1).val ∧ (i 1).val < win5_4.index t (1 : Fin 2) * 64 + 64; rw [e1]; omega

/-! ## The two output arrays after the region -/

/-- The normalized aggregate: every entry times the reciprocal of the norm. -/
theorem emb_raw (s : EReal) (hn : nrm V c = fun _ => s) :
    (dat5 (F := Ideal) V c).arrAt 3 cfg5.N = fun i => agg V c i * Ideal.div 1 s :=
  (dat5 (F := Ideal) V c).arrAt_eq_of_cover 3 (fun i => agg V c i * Ideal.div 1 s)
    (fun t _ => flushed3_eq V c s hn t) cover3

/-- The residual plus the normalized aggregate. -/
theorem res_raw (s : EReal) (hn : nrm V c = fun _ => s) :
    (dat5 (F := Ideal) V c).arrAt 4 cfg5.N = fun i => resid V c i + agg V c i * Ideal.div 1 s :=
  (dat5 (F := Ideal) V c).arrAt_eq_of_cover 4 (fun i => resid V c i + agg V c i * Ideal.div 1 s)
    (fun t _ => flushed4_eq V c s hn t) cover4

/-- For a nonzero norm the normalized aggregate is the quotient by the norm. -/
theorem emb (s : EReal) (hn : nrm V c = fun _ => s) (hs : s ≠ 0) :
    (dat5 (F := Ideal) V c).arrAt 3 cfg5.N = fun i => Ideal.div (agg V c i) s := by
  rw [emb_raw V c s hn]
  funext i
  exact (Cert.NormLaw.div_eq_mul_one_div hs _).symm

/-- For a nonzero norm the second output is the residual plus the quotient. -/
theorem res (s : EReal) (hn : nrm V c = fun _ => s) (hs : s ≠ 0) :
    (dat5 (F := Ideal) V c).arrAt 4 cfg5.N = fun i => resid V c i + Ideal.div (agg V c i) s := by
  rw [res_raw V c s hn]
  funext i
  exact congrArg (fun z => resid V c i + z) (Cert.NormLaw.div_eq_mul_one_div hs _).symm

end Cert.KernelIdeal.ValNorm5

end
-- ==== Proof.ValNorm6.lean ====
/-
  The normalize-and-add region over the 100000 x 64 aggregate (blocks of 4000 rows, 25 grid points).

  At every grid point the body reads a block x of the aggregate, the 1 x 1 norm n (the same whole array at every
  point) and the matching block r of the residual, and stores

      emb = x * (1 / n)        (the reciprocal of the norm, broadcast over the block, times the block)
      res = r + emb.

  Both outputs are pointwise in the row and the column, the output blocks have the same index map as the input
  blocks (row = 4000 * t + y at point t), and the 25 blocks tile the 100000 rows. So once the norm array is the
  constant s, the two output arrays after the region are, index by index,

      emb i = agg i * (1 / s),      res i = resid i + agg i * (1 / s).

  For s ≠ 0, x * (1 / s) = x / s at every extended real x (both are x * s⁻¹), which gives the quotient
  spelling  emb i = agg i / s,  res i = resid i + agg i / s.
-/
import proofs.«149916_j40106404610266_2_alg».proof.Proof.Gen.KernelIdeal.Frame
import proofs.«149916_j40106404610266_2_alg».proof.Proof.DivLaw
import Idealize.ShloMosaic.Lib.Pipeline.Value
import Idealize.ShloMosaic.Lib.ValueIdx
import Idealize.ShloMosaic.Lib.IdealHost

noncomputable section

namespace Cert.KernelIdeal.ValNorm6

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b)) (c : Dev nD)

/-- The aggregate, the 1 x 1 norm and the residual as the region finds them. -/
abbrev agg : S100000x64.Idx → EReal := V c main_v63
abbrev nrm : S1x1.Idx → EReal := V c main_v67
abbrev resid : S100000x64.Idx → EReal := V c main_arg0

/-! ## The body's two stored values at an index -/

theorem hz : (![0, 0] : Fin 2 → Nat) = fun _ => 0 := funext fun a => by fin_cases a <;> rfl

/-- The first stored value: the block times the reciprocal of the (constant) norm. -/
theorem pay1_apply (n : Vec Ideal S1x1 .f32) (x : Vec Ideal S4000x64 .f32) (s : EReal) (hn : n = fun _ => s)
    (j : S4000x64.Idx) : k6_pay1 (F := Ideal) n x j = x j * Ideal.div 1 s := by
  subst hn
  unfold k6_pay1
  simp only [shapeCast_self]
  rw [← Ideal.ofBits_one_f32]
  rfl

/-- The second stored value: the residual block plus the first. -/
theorem pay2_apply (n : Vec Ideal S1x1 .f32) (x r : Vec Ideal S4000x64 .f32) (s : EReal) (hn : n = fun _ => s)
    (j : S4000x64.Idx) : k6_pay2 (F := Ideal) n x r j = r j + x j * Ideal.div 1 s := by
  unfold k6_pay2
  exact congrArg (fun z => r j + z) (pay1_apply n x s hn j)

/-! ## The blocks -/

/-- The index maps over the grid: the two 4000-row input windows move with the output windows, block t at rows
    4000 t …, all columns; the norm's window stays at its one block. -/
theorem idx_facts : ∀ t : Fin cfg6.N,
    win6_0.index t (0 : Fin 2) = t.val ∧ win6_0.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The norm's block at every point is the constant. -/
theorem iblk1_eq (s : EReal) (hn : nrm V c = fun _ => s) (t : Fin cfg6.N) :
    (iblk6 V c 1 t : Vec Ideal S1x1 .f32) = fun _ => s := by
  funext y
  unfold iblk6
  rw [View.read_apply]
  show nrm V c _ = s
  rw [hn]

/-- A 4000-row block of the aggregate at a point: row 4000 t + y. -/
theorem iblk0_apply (t : Fin cfg6.N) (y : S4000x64.Idx) (i : S100000x64.Idx)
    (h0 : (i 0).val = t.val * 4000 + (y 0).val) (h1 : (i 1).val = (y 1).val) :
    (iblk6 V c 0 t : Vec Ideal S4000x64 .f32) y = agg V c i := by
  obtain ⟨e0, e1, -⟩ := idx_facts t
  unfold iblk6
  rw [View.read_apply]
  show agg V c _ = agg V c i
  refine congrArg (agg V c) (funext fun a => Fin.ext ?_)
  match a with
  | ⟨0, _⟩ => show win6_0.index t (0 : Fin 2) * 4000 + 1 * (y 0).val = (i 0).val; rw [e0, h0]; omega
  | ⟨1, _⟩ => show win6_0.index t (1 : Fin 2) * 64 + 1 * (y 1).val = (i 1).val; rw [e1, h1]; omega

/-- A 4000-row block of the residual at a point: row 4000 t + y. -/
theorem iblk2_apply (t : Fin cfg6.N) (y : S4000x64.Idx) (i : S100000x64.Idx)
    (h0 : (i 0).val = t.val * 4000 + (y 0).val) (h1 : (i 1).val = (y 1).val) :
    (iblk6 V c 2 t : Vec Ideal S4000x64 .f32) y = resid V c i := by
  obtain ⟨-, -, e0, e1, -⟩ := idx_facts t
  unfold iblk6
  rw [View.read_apply]
  show resid V c _ = resid V c i
  refine congrArg (resid V c) (funext fun a => Fin.ext ?_)
  match a with
  | ⟨0, _⟩ => show win6_2.index t (0 : Fin 2) * 4000 + 1 * (y 0).val = (i 0).val; rw [e0, h0]; omega
  | ⟨1, _⟩ => show win6_2.index t (1 : Fin 2) * 64 + 1 * (y 1).val = (i 1).val; rw [e1, h1]; omega

/-! ## What a point writes back -/

/-- Point t writes back, into the first output, block t of the normalized aggregate. -/
theorem flushed3_eq (s : EReal) (hn : nrm V c = fun _ => s) (t : Fin cfg6.N) :
    (dat6 (F := Ideal) V c).flushed 3 t
      = ((cfg6.win 3).blk t).view.read (Elt Ideal) (fun i => agg V c i * Ideal.div 1 s) := by
  show (cfg6.win 3).cut (grid6.coords t) ((dat6 (F := Ideal) V c).after 3 t) = _
  rw [after6_3]
  unfold out6_3
  rw [View.canon_unit_zero hz]
  simp only [View.ld_unit_zero (S := S4000x64) hz, View.ld_unit_zero (S := S1x1) hz]
  obtain ⟨-, -, -, -, e0, e1, -⟩ := idx_facts t
  funext y
  rw [View.read_apply]
  refine (pay1_apply (iblk6 V c 1 t) (iblk6 V c 0 t) s (iblk1_eq V c s hn t) y).trans ?_
  refine congrArg (fun z => z * Ideal.div 1 s) (iblk0_apply V c t y _ ?_ ?_)
  · show win6_3.index t (0 : Fin 2) * 4000 + 1 * (y 0).val = t.val * 4000 + (y 0).val; rw [e0]; omega
  · show win6_3.index t (1 : Fin 2) * 64 + 1 * (y 1).val = (y 1).val; rw [e1]; omega

/-- Point t writes back, into the second output, block t of the residual plus the normalized aggregate. -/
theorem flushed4_eq (s : EReal) (hn : nrm V c = fun _ => s) (t : Fin cfg6.N) :
    (dat6 (F := Ideal) V c).flushed 4 t
      = ((cfg6.win 4).blk t).view.read (Elt Ideal) (fun i => resid V c i + agg V c i * Ideal.div 1 s) := by
  show (cfg6.win 4).cut (grid6.coords t) ((dat6 (F := Ideal) V c).after 4 t) = _
  rw [after6_4]
  unfold out6_4
  rw [View.canon_unit_zero hz]
  simp only [View.ld_unit_zero (S := S4000x64) hz, View.ld_unit_zero (S := S1x1) hz]
  obtain ⟨-, -, -, -, -, -, e0, e1⟩ := idx_facts t
  funext y
  rw [View.read_apply]
  refine (pay2_apply (iblk6 V c 1 t) (iblk6 V c 0 t) (iblk6 V c 2 t) s (iblk1_eq V c s hn t) y).trans ?_
  have h0 : ((((cfg6.win 4).blk t).view.emb y) 0).val = t.val * 4000 + (y 0).val := by
    show win6_4.index t (0 : Fin 2) * 4000 + 1 * (y 0).val = t.val * 4000 + (y 0).val; rw [e0]; omega
  have h1 : ((((cfg6.win 4).blk t).view.emb y) 1).val = (y 1).val := by
    show win6_4.index t (1 : Fin 2) * 64 + 1 * (y 1).val = (y 1).val; rw [e1]; omega
  rw [iblk2_apply V c t y _ h0 h1, iblk0_apply V c t y _ h0 h1]
  rfl

/-! ## The blocks tile the array -/

/-- A row is in point t's block of the first output iff it is one of rows 4000 t … 4000 t + 3999. -/
theorem mem_blk3 (t : Fin cfg6.N) (i : S100000x64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_v69_0).slice (win6_3.rect t)).set ↔ _
  rw [View.set_slice_whole, Rect.mem_set_unit]
  exact Iff.rfl

theorem mem_blk4 (t : Fin cfg6.N) (i : S100000x64.Idx) :
    i ∈ ((cfg6.win 4).blk t).view.set ↔ ∀ a : Fin 2, win6_4.index t a * S4000x64.size a ≤ (i a).val ∧ (i a).val < win6_4.index t a * S4000x64.size a + S4000x64.size a := by
  show i ∈ ((View.whole main_v69_1).slice (win6_4.rect t)).set ↔ _
  rw [View.set_slice_whole, Rect.mem_set_unit]
  exact Iff.rfl

/-- Row r is covered by point r / 4000. -/
theorem cover3 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 25 := N_6
  let t : Fin cfg6.N := ⟨(i 0).val / 4000, by rw [hN]; omega⟩
  have ht : t.val = (i 0).val / 4000 := rfl
  obtain ⟨-, -, -, -, e0, e1, -⟩ := idx_facts t
  refine ⟨t, flush6_3 t, ?_⟩
  rw [mem_blk3]
  intro a
  match a with
  | ⟨0, _⟩ => show win6_3.index t (0 : Fin 2) * 4000 ≤ (i 0).val ∧ (i 0).val < win6_3.index t (0 : Fin 2) * 4000 + 4000; rw [e0, ht]; omega
  | ⟨1, _⟩ => show win6_3.index t (1 : Fin 2) * 64 ≤ (i 1).val ∧ (i 1).val < win6_3.index t (1 : Fin 2) * 64 + 64; rw [e1]; omega

theorem cover4 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 25 := N_6
  let t : Fin cfg6.N := ⟨(i 0).val / 4000, by rw [hN]; omega⟩
  have ht : t.val = (i 0).val / 4000 := rfl
  obtain ⟨-, -, -, -, -, -, e0, e1⟩ := idx_facts t
  refine ⟨t, flush6_4 t, ?_⟩
  rw [mem_blk4]
  intro a
  match a with
  | ⟨0, _⟩ => show win6_4.index t (0 : Fin 2) * 4000 ≤ (i 0).val ∧ (i 0).val < win6_4.index t (0 : Fin 2) * 4000 + 4000; rw [e0, ht]; omega
  | ⟨1, _⟩ => show win6_4.index t (1 : Fin 2) * 64 ≤ (i 1).val ∧ (i 1).val < win6_4.index t (1 : Fin 2) * 64 + 64; rw [e1]; omega

/-! ## The two output arrays after the region -/

/-- The normalized aggregate: every entry times the reciprocal of the norm. -/
theorem emb_raw (s : EReal) (hn : nrm V c = fun _ => s) :
    (dat6 (F := Ideal) V c).arrAt 3 cfg6.N = fun i => agg V c i * Ideal.div 1 s :=
  (dat6 (F := Ideal) V c).arrAt_eq_of_cover 3 (fun i => agg V c i * Ideal.div 1 s)
    (fun t _ => flushed3_eq V c s hn t) cover3

/-- The residual plus the normalized aggregate. -/
theorem res_raw (s : EReal) (hn : nrm V c = fun _ => s) :
    (dat6 (F := Ideal) V c).arrAt 4 cfg6.N = fun i => resid V c i + agg V c i * Ideal.div 1 s :=
  (dat6 (F := Ideal) V c).arrAt_eq_of_cover 4 (fun i => resid V c i + agg V c i * Ideal.div 1 s)
    (fun t _ => flushed4_eq V c s hn t) cover4

/-- For a nonzero norm the normalized aggregate is the quotient by the norm. -/
theorem emb (s : EReal) (hn : nrm V c = fun _ => s) (hs : s ≠ 0) :
    (dat6 (F := Ideal) V c).arrAt 3 cfg6.N = fun i => Ideal.div (agg V c i) s := by
  rw [emb_raw V c s hn]
  funext i
  exact (Cert.NormLaw.div_eq_mul_one_div hs _).symm

/-- For a nonzero norm the second output is the residual plus the quotient. -/
theorem res (s : EReal) (hn : nrm V c = fun _ => s) (hs : s ≠ 0) :
    (dat6 (F := Ideal) V c).arrAt 4 cfg6.N = fun i => resid V c i + Ideal.div (agg V c i) s := by
  rw [res_raw V c s hn]
  funext i
  exact congrArg (fun z => resid V c i + z) (Cert.NormLaw.div_eq_mul_one_div hs _).symm

end Cert.KernelIdeal.ValNorm6

end
-- ==== Proof.ChainA4.lean ====
/-
  The end of the first hop: the two regions that normalize and add (boundaries 13, 14, 15).

  At boundary 13 the user aggregate, the item aggregate, their two norms (each a one-entry array holding the
  reference's scalar) and the two residual inputs hold the reference's values. The first region divides the user
  aggregate by its norm and adds the quotient to the user residual; its value is stated as "multiply by the
  reciprocal of the norm", which for a norm that is not zero is the division, at every extended real. The
  reference divides by the norm broadcast over the array, and reading the broadcast at an index gives the scalar,
  so the region's two outputs are the reference's normalized user embedding and its sum with the residual. The
  second region does the same for the items. Every buffer a region does not write keeps its contents; an input
  window of a region is left as entered.
-/
import proofs.«149916_j40106404610266_2_alg».proof.Proof.Gen.KernelIdeal.Frame
import proofs.«149916_j40106404610266_2_alg».proof.Proof.Gen.ReferenceIdeal.Read
import proofs.«149916_j40106404610266_2_alg».proof.Proof.ChainA0
import proofs.«149916_j40106404610266_2_alg».proof.Proof.ValNorm5
import proofs.«149916_j40106404610266_2_alg».proof.Proof.ValNorm6

set_option maxRecDepth 16384

noncomputable section

namespace Cert.ChainA

open Idealize.ShloMosaic Idealize.ShloMosaic.TcCoe Idealize.SL.Sem
open Cert.KernelIdeal

variable (m : (ℓ : Loc nD τ sig) → Buf (Elt Ideal) ℓ) (ρ : Dev nD → PrngReg) (c : Dev nD)

namespace S4

/-! ## Boundary 14: the first normalize-and-add region (users) -/

theorem W14_arg0 (h : At13 m ρ c) : Gen.W14 (F := Ideal) m ρ c (Proc.devRef .tc main_arg0) = (m ((c.tc : Thread nD τ).loc main_arg0)) :=
  (Gen.W14_of_ne m ρ c main_arg0 (by decide)).trans (h.arg0)
theorem W14_arg2 (h : At13 m ρ c) : Gen.W14 (F := Ideal) m ρ c (Proc.devRef .tc main_arg2) = (m ((c.tc : Thread nD τ).loc main_arg2)) :=
  (Gen.W14_of_ne m ρ c main_arg2 (by decide)).trans (h.arg2)
theorem W14_arg3 (h : At13 m ρ c) : Gen.W14 (F := Ideal) m ρ c (Proc.devRef .tc main_arg3) = (m ((c.tc : Thread nD τ).loc main_arg3)) :=
  (Gen.W14_of_ne m ρ c main_arg3 (by decide)).trans (h.arg3)
theorem W14_arg4 (h : At13 m ρ c) : Gen.W14 (F := Ideal) m ρ c (Proc.devRef .tc main_arg4) = (m ((c.tc : Thread nD τ).loc main_arg4)) :=
  (Gen.W14_of_ne m ρ c main_arg4 (by decide)).trans (h.arg4)
theorem W14_arg5 (h : At13 m ρ c) : Gen.W14 (F := Ideal) m ρ c (Proc.devRef .tc main_arg5) = (m ((c.tc : Thread nD τ).loc main_arg5)) :=
  (Gen.W14_of_ne m ρ c main_arg5 (by decide)).trans (h.arg5)
theorem W14_arg6 (h : At13 m ρ c) : Gen.W14 (F := Ideal) m ρ c (Proc.devRef .tc main_arg6) = (m ((c.tc : Thread nD τ).loc main_arg6)) :=
  (Gen.W14_of_ne m ρ c main_arg6 (by decide)).trans (h.arg6)
theorem W14_arg7 (h : At13 m ρ c) : Gen.W14 (F := Ideal) m ρ c (Proc.devRef .tc main_arg7) = (m ((c.tc : Thread nD τ).loc main_arg7)) :=
  (Gen.W14_of_ne m ρ c main_arg7 (by decide)).trans (h.arg7)
theorem W14_arg8 (h : At13 m ρ c) : Gen.W14 (F := Ideal) m ρ c (Proc.devRef .tc main_arg8) = (m ((c.tc : Thread nD τ).loc main_arg8)) :=
  (Gen.W14_of_ne m ρ c main_arg8 (by decide)).trans (h.arg8)
theorem W14_arg9 (h : At13 m ρ c) : Gen.W14 (F := Ideal) m ρ c (Proc.devRef .tc main_arg9) = (m ((c.tc : Thread nD τ).loc main_arg9)) :=
  (Gen.W14_of_ne m ρ c main_arg9 (by decide)).trans (h.arg9)
theorem W14_arg10 (h : At13 m ρ c) : Gen.W14 (F := Ideal) m ρ c (Proc.devRef .tc main_arg10) = (m ((c.tc : Thread nD τ).loc main_arg10)) :=
  (Gen.W14_of_ne m ρ c main_arg10 (by decide)).trans (h.arg10)
theorem W14_v9 (h : At13 m ρ c) : Gen.W14 (F := Ideal) m ρ c (Proc.devRef .tc main_v9) = (Cert.ReferenceIdeal.Read.val_main_v9 (F := Ideal) (m ((c.tc : Thread nD τ).loc main_arg4))) :=
  (Gen.W14_of_ne m ρ c main_v9 (by decide)).trans (h.v9)
theorem W14_v10 (h : At13 m ρ c) : Gen.W14 (F := Ideal) m ρ c (Proc.devRef .tc main_v10) = (Cert.ReferenceIdeal.Read.val_main_v10 (F := Ideal)) :=
  (Gen.W14_of_ne m ρ c main_v10 (by decide)).trans (h.v10)
theorem W14_v22 (h : At13 m ρ c) : Gen.W14 (F := Ideal) m ρ c (Proc.devRef .tc main_v22) = (Cert.ReferenceIdeal.Read.val_main_v22 (F := Ideal) (m ((c.tc : Thread nD τ).loc main_arg3)) (m ((c.tc : Thread nD τ).loc main_arg4))) :=
  (Gen.W14_of_ne m ρ c main_v22 (by decide)).trans (h.v22)
theorem W14_v23 (h : At13 m ρ c) : Gen.W14 (F := Ideal) m ρ c (Proc.devRef .tc main_v23) = (Cert.ReferenceIdeal.Read.val_main_v50 (F := Ideal) (m ((c.tc : Thread nD τ).loc main_arg2))) :=
  (Gen.W14_of_ne m ρ c main_v23 (by decide)).trans (h.v23)
theorem W14_v63 (h : At13 m ρ c) : Gen.W14 (F := Ideal) m ρ c (Proc.devRef .tc main_v63) = (Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) :=
  (Gen.W14_of_ne m ρ c main_v63 (by decide)).trans (h.v63)
theorem W14_v67 (h : At13 m ρ c) : Gen.W14 (F := Ideal) m ρ c (Proc.devRef .tc main_v67) = (fun (_ : S1x1.Idx) => ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal)) :=
  (Gen.W14_of_ne m ρ c main_v67 (by decide)).trans (h.v67)
theorem W14_arg1 (h : At13 m ρ c) : Gen.W14 (F := Ideal) m ρ c (Proc.devRef .tc main_arg1) = (m ((c.tc : Thread nD τ).loc main_arg1)) :=
  ((Gen.W14_arr m ρ c 2).trans (((Gen.dat5 (Gen.V13 m ρ) c).arrAt_in 2 rfl _).trans (Gen.A_eq5 (Gen.V13 m ρ) c 2))).trans (h.arg1)
theorem W14_v68_0 (h : At13 m ρ c) (hne : ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal) ≠ 0) : Gen.W14 (F := Ideal) m ρ c (Proc.devRef .tc main_v68_0) = (Cert.ReferenceIdeal.Read.val_main_v83 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) := by
  refine (Gen.W14_arr m ρ c 3).trans ((Cert.KernelIdeal.ValNorm5.emb (Gen.V13 m ρ) c _ h.v65 hne).trans ?_)
  funext i
  rw [Cert.ReferenceIdeal.Read.val_main_v83_apply, Cert.ReferenceIdeal.Read.val_main_v82_apply]
  dsimp only [Cert.KernelIdeal.ValNorm5.agg]
  rw [show Gen.V13 (F := Ideal) m ρ c main_v50 = _ from h.v50]
  rfl
theorem W14_v68_1 (h : At13 m ρ c) (hne : ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal) ≠ 0) : Gen.W14 (F := Ideal) m ρ c (Proc.devRef .tc main_v68_1) = (Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) := by
  refine (Gen.W14_arr m ρ c 4).trans ((Cert.KernelIdeal.ValNorm5.res (Gen.V13 m ρ) c _ h.v65 hne).trans ?_)
  funext i
  rw [Cert.ReferenceIdeal.Read.val_main_v89_apply, Cert.ReferenceIdeal.Read.val_main_v83_apply, Cert.ReferenceIdeal.Read.val_main_v82_apply]
  dsimp only [Cert.KernelIdeal.ValNorm5.agg, Cert.KernelIdeal.ValNorm5.resid]
  rw [show Gen.V13 (F := Ideal) m ρ c main_arg1 = _ from h.arg1, show Gen.V13 (F := Ideal) m ρ c main_v50 = _ from h.v50]
  rfl

/-! ## Boundary 15: the second normalize-and-add region (items) -/

theorem W15_arg1 (h : At13 m ρ c) : Gen.W15 (F := Ideal) m ρ c (Proc.devRef .tc main_arg1) = (m ((c.tc : Thread nD τ).loc main_arg1)) :=
  (Gen.W15_of_ne m ρ c main_arg1 (by decide)).trans (W14_arg1 m ρ c h)
theorem W15_arg2 (h : At13 m ρ c) : Gen.W15 (F := Ideal) m ρ c (Proc.devRef .tc main_arg2) = (m ((c.tc : Thread nD τ).loc main_arg2)) :=
  (Gen.W15_of_ne m ρ c main_arg2 (by decide)).trans (W14_arg2 m ρ c h)
theorem W15_arg3 (h : At13 m ρ c) : Gen.W15 (F := Ideal) m ρ c (Proc.devRef .tc main_arg3) = (m ((c.tc : Thread nD τ).loc main_arg3)) :=
  (Gen.W15_of_ne m ρ c main_arg3 (by decide)).trans (W14_arg3 m ρ c h)
theorem W15_arg4 (h : At13 m ρ c) : Gen.W15 (F := Ideal) m ρ c (Proc.devRef .tc main_arg4) = (m ((c.tc : Thread nD τ).loc main_arg4)) :=
  (Gen.W15_of_ne m ρ c main_arg4 (by decide)).trans (W14_arg4 m ρ c h)
theorem W15_arg5 (h : At13 m ρ c) : Gen.W15 (F := Ideal) m ρ c (Proc.devRef .tc main_arg5) = (m ((c.tc : Thread nD τ).loc main_arg5)) :=
  (Gen.W15_of_ne m ρ c main_arg5 (by decide)).trans (W14_arg5 m ρ c h)
theorem W15_arg6 (h : At13 m ρ c) : Gen.W15 (F := Ideal) m ρ c (Proc.devRef .tc main_arg6) = (m ((c.tc : Thread nD τ).loc main_arg6)) :=
  (Gen.W15_of_ne m ρ c main_arg6 (by decide)).trans (W14_arg6 m ρ c h)
theorem W15_arg7 (h : At13 m ρ c) : Gen.W15 (F := Ideal) m ρ c (Proc.devRef .tc main_arg7) = (m ((c.tc : Thread nD τ).loc main_arg7)) :=
  (Gen.W15_of_ne m ρ c main_arg7 (by decide)).trans (W14_arg7 m ρ c h)
theorem W15_arg8 (h : At13 m ρ c) : Gen.W15 (F := Ideal) m ρ c (Proc.devRef .tc main_arg8) = (m ((c.tc : Thread nD τ).loc main_arg8)) :=
  (Gen.W15_of_ne m ρ c main_arg8 (by decide)).trans (W14_arg8 m ρ c h)
theorem W15_arg9 (h : At13 m ρ c) : Gen.W15 (F := Ideal) m ρ c (Proc.devRef .tc main_arg9) = (m ((c.tc : Thread nD τ).loc main_arg9)) :=
  (Gen.W15_of_ne m ρ c main_arg9 (by decide)).trans (W14_arg9 m ρ c h)
theorem W15_arg10 (h : At13 m ρ c) : Gen.W15 (F := Ideal) m ρ c (Proc.devRef .tc main_arg10) = (m ((c.tc : Thread nD τ).loc main_arg10)) :=
  (Gen.W15_of_ne m ρ c main_arg10 (by decide)).trans (W14_arg10 m ρ c h)
theorem W15_v9 (h : At13 m ρ c) : Gen.W15 (F := Ideal) m ρ c (Proc.devRef .tc main_v9) = (Cert.ReferenceIdeal.Read.val_main_v9 (F := Ideal) (m ((c.tc : Thread nD τ).loc main_arg4))) :=
  (Gen.W15_of_ne m ρ c main_v9 (by decide)).trans (W14_v9 m ρ c h)
theorem W15_v10 (h : At13 m ρ c) : Gen.W15 (F := Ideal) m ρ c (Proc.devRef .tc main_v10) = (Cert.ReferenceIdeal.Read.val_main_v10 (F := Ideal)) :=
  (Gen.W15_of_ne m ρ c main_v10 (by decide)).trans (W14_v10 m ρ c h)
theorem W15_v22 (h : At13 m ρ c) : Gen.W15 (F := Ideal) m ρ c (Proc.devRef .tc main_v22) = (Cert.ReferenceIdeal.Read.val_main_v22 (F := Ideal) (m ((c.tc : Thread nD τ).loc main_arg3)) (m ((c.tc : Thread nD τ).loc main_arg4))) :=
  (Gen.W15_of_ne m ρ c main_v22 (by decide)).trans (W14_v22 m ρ c h)
theorem W15_v23 (h : At13 m ρ c) : Gen.W15 (F := Ideal) m ρ c (Proc.devRef .tc main_v23) = (Cert.ReferenceIdeal.Read.val_main_v50 (F := Ideal) (m ((c.tc : Thread nD τ).loc main_arg2))) :=
  (Gen.W15_of_ne m ρ c main_v23 (by decide)).trans (W14_v23 m ρ c h)
theorem W15_v68_0 (h : At13 m ρ c) (hne : ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal) ≠ 0) : Gen.W15 (F := Ideal) m ρ c (Proc.devRef .tc main_v68_0) = (Cert.ReferenceIdeal.Read.val_main_v83 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) :=
  (Gen.W15_of_ne m ρ c main_v68_0 (by decide)).trans (W14_v68_0 m ρ c h hne)
theorem W15_v68_1 (h : At13 m ρ c) (hne : ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal) ≠ 0) : Gen.W15 (F := Ideal) m ρ c (Proc.devRef .tc main_v68_1) = (Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) :=
  (Gen.W15_of_ne m ρ c main_v68_1 (by decide)).trans (W14_v68_1 m ρ c h hne)
theorem W15_arg0 (h : At13 m ρ c) : Gen.W15 (F := Ideal) m ρ c (Proc.devRef .tc main_arg0) = (m ((c.tc : Thread nD τ).loc main_arg0)) :=
  ((Gen.W15_arr m ρ c 2).trans (((Gen.dat6 (Gen.V14 m ρ) c).arrAt_in 2 rfl _).trans (Gen.A_eq6 (Gen.V14 m ρ) c 2))).trans (W14_arg0 m ρ c h)
theorem W15_v69_0 (h : At13 m ρ c) (hnu : ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal) ≠ 0) : Gen.W15 (F := Ideal) m ρ c (Proc.devRef .tc main_v69_0) = (Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) := by
  refine (Gen.W15_arr m ρ c 3).trans ((Cert.KernelIdeal.ValNorm6.emb (Gen.V14 m ρ) c _ (W14_v67 m ρ c h) hnu).trans ?_)
  funext i
  rw [Cert.ReferenceIdeal.Read.val_main_v88_apply, Cert.ReferenceIdeal.Read.val_main_v87_apply]
  dsimp only [Cert.KernelIdeal.ValNorm6.agg]
  rw [show Gen.V14 (F := Ideal) m ρ c main_v63 = _ from W14_v63 m ρ c h]
  rfl
theorem W15_v69_1 (h : At13 m ρ c) (hnu : ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal) ≠ 0) : Gen.W15 (F := Ideal) m ρ c (Proc.devRef .tc main_v69_1) = (Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) := by
  refine (Gen.W15_arr m ρ c 4).trans ((Cert.KernelIdeal.ValNorm6.res (Gen.V14 m ρ) c _ (W14_v67 m ρ c h) hnu).trans ?_)
  funext i
  rw [Cert.ReferenceIdeal.Read.val_main_v90_apply, Cert.ReferenceIdeal.Read.val_main_v88_apply, Cert.ReferenceIdeal.Read.val_main_v87_apply]
  dsimp only [Cert.KernelIdeal.ValNorm6.agg, Cert.KernelIdeal.ValNorm6.resid]
  rw [show Gen.V14 (F := Ideal) m ρ c main_arg0 = _ from W14_arg0 m ρ c h, show Gen.V14 (F := Ideal) m ρ c main_v63 = _ from W14_v63 m ρ c h]
  rfl

end S4

/-- From boundary 13 to the end of the first hop, given that the two norms are not zero. -/
theorem at15 (h : At13 m ρ c) (hne : ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal) ≠ 0)
    (hnu : ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal) ≠ 0) : At15 m ρ c where
  arg0 := S4.W15_arg0 m ρ c h
  arg1 := S4.W15_arg1 m ρ c h
  arg2 := S4.W15_arg2 m ρ c h
  arg3 := S4.W15_arg3 m ρ c h
  arg4 := S4.W15_arg4 m ρ c h
  arg5 := S4.W15_arg5 m ρ c h
  arg6 := S4.W15_arg6 m ρ c h
  arg7 := S4.W15_arg7 m ρ c h
  arg8 := S4.W15_arg8 m ρ c h
  arg9 := S4.W15_arg9 m ρ c h
  arg10 := S4.W15_arg10 m ρ c h
  v9 := S4.W15_v9 m ρ c h
  v10 := S4.W15_v10 m ρ c h
  v22 := S4.W15_v22 m ρ c h
  v23 := S4.W15_v23 m ρ c h
  v68_0 := S4.W15_v68_0 m ρ c h hne
  v68_1 := S4.W15_v68_1 m ρ c h hne
  v69_0 := S4.W15_v69_0 m ρ c h hnu
  v69_1 := S4.W15_v69_1 m ρ c h hnu

end Cert.ChainA

end
-- ==== Proof.ChainA.lean ====
/-
  Hop 1 of the kernel's run read as values, whole: from the launch memory to the end of the first hop.

  The four stretches compose: the launch to the second region's entry, on to the first sum of squares' entry,
  on to the first normalize-and-add region's entry, and to the end of the hop. The last stretch is the only one
  with a condition: the kernel multiplies by the reciprocal of each global norm where the reference divides by
  the norm, and the two agree at every extended real exactly when the norm is not zero. So, provided the user
  norm and the item norm of the first hop (the reference's scalars, read at their single entry) are not zero,
  at the end of the first hop every buffer the second hop reads holds the reference's stage of the launch
  arguments: the arguments unchanged, the host-side tables, the two normalized embeddings and the two residual
  sums.
-/
import proofs.«149916_j40106404610266_2_alg».proof.Proof.ChainA0
import proofs.«149916_j40106404610266_2_alg».proof.Proof.ChainA1
import proofs.«149916_j40106404610266_2_alg».proof.Proof.ChainA2
import proofs.«149916_j40106404610266_2_alg».proof.Proof.ChainA3
import proofs.«149916_j40106404610266_2_alg».proof.Proof.ChainA4

set_option maxRecDepth 16384

noncomputable section

namespace Cert.ChainA

open Idealize.ShloMosaic Idealize.ShloMosaic.TcCoe Idealize.SL.Sem
open Cert.KernelIdeal

variable (m : (ℓ : Loc nD τ sig) → Buf (Elt Ideal) ℓ) (ρ : Dev nD → PrngReg) (c : Dev nD)

/-- The first hop: at its end the kernel's buffers hold the reference's stages, the two norms being nonzero. -/
theorem hop1 (hne : ((Cert.ReferenceIdeal.Read.val_main_v81 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal) ≠ 0)
    (hnu : ((Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))) ValueIdx.ix0 : EReal) ≠ 0) : At15 m ρ c :=
  at15 m ρ c (at13 m ρ c (at9 m ρ c (at6 m ρ c))) hne hnu

end Cert.ChainA

end
-- ==== Proof.ChainB0.lean ====
/-
  Hop 2 of the kernel's run read as values: what is claimed at the hand-over boundaries.

  The second hop repeats the first on the first hop's outputs. At each boundary named here the claim is that
  every buffer a later step of the hop reads holds the value the reference program computes for the
  corresponding stage, as a function of the eleven launch arguments alone. Boundary 18 is the entry of the
  second elementwise-product region of the hop: the scattered and averaged user aggregate, the gathered user
  rows and the column of edge weights are the reference's, and the first hop's outputs and tables still stand.
  Boundary 21 is the exit of the attention region: the attention-mixed item aggregate is the reference's.
  Boundary 25 is the entry of the first normalize-and-add region: the two global norms stand in one-entry
  arrays (the kernel keeps each in a 1x1 buffer, the reference as a scalar), beside the two aggregates and the
  first hop's two residual sums.
-/
import proofs.«149916_j40106404610266_2_alg».proof.Proof.Gen.KernelIdeal.Frame
import proofs.«149916_j40106404610266_2_alg».proof.Proof.Gen.ReferenceIdeal.Read

set_option maxRecDepth 16384

noncomputable section

namespace Cert.ChainB

open Idealize.ShloMosaic Idealize.ShloMosaic.TcCoe Idealize.SL.Sem
open Cert.KernelIdeal

variable (m : (ℓ : Loc nD τ sig) → Buf (Elt Ideal) ℓ) (ρ : Dev nD → PrngReg) (c : Dev nD)

/-- The kernel's buffers at boundary 18 hold the reference's stages of the launch arguments. -/
structure At18 : Prop where
  arg9 : Gen.W18 (F := Ideal) m ρ c (Proc.devRef .tc main_arg9) = (m ((c.tc : Thread nD τ).loc main_arg9))
  v9 : Gen.W18 (F := Ideal) m ρ c (Proc.devRef .tc main_v9) = (Cert.ReferenceIdeal.Read.val_main_v9 (F := Ideal) (m ((c.tc : Thread nD τ).loc main_arg4)))
  v22 : Gen.W18 (F := Ideal) m ρ c (Proc.devRef .tc main_v22) = (Cert.ReferenceIdeal.Read.val_main_v22 (F := Ideal) (m ((c.tc : Thread nD τ).loc main_arg3)) (m ((c.tc : Thread nD τ).loc main_arg4)))
  v23 : Gen.W18 (F := Ideal) m ρ c (Proc.devRef .tc main_v23) = (Cert.ReferenceIdeal.Read.val_main_v50 (F := Ideal) (m ((c.tc : Thread nD τ).loc main_arg2)))
  v68_1 : Gen.W18 (F := Ideal) m ρ c (Proc.devRef .tc main_v68_1) = (Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v69_0 : Gen.W18 (F := Ideal) m ρ c (Proc.devRef .tc main_v69_0) = (Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
  v69_1 : Gen.W18 (F := Ideal) m ρ c (Proc.devRef .tc main_v69_1) = (Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
  v96 : Gen.W18 (F := Ideal) m ρ c (Proc.devRef .tc main_v96) = (Cert.ReferenceIdeal.Read.val_main_v117 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v103 : Gen.W18 (F := Ideal) m ρ c (Proc.devRef .tc main_v103) = (Cert.ReferenceIdeal.Read.val_main_v138 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg10)))
  v104 : Gen.W18 (F := Ideal) m ρ c (Proc.devRef .tc main_v104) = (Cert.ReferenceIdeal.Read.val_main_v131 (F := Ideal) (m ((c.tc : Thread nD τ).loc main_arg5)))

/-- The kernel's buffers at boundary 21 hold the reference's stages of the launch arguments. -/
structure At21 : Prop where
  v9 : Gen.W21 (F := Ideal) m ρ c (Proc.devRef .tc main_v9) = (Cert.ReferenceIdeal.Read.val_main_v9 (F := Ideal) (m ((c.tc : Thread nD τ).loc main_arg4)))
  v68_1 : Gen.W21 (F := Ideal) m ρ c (Proc.devRef .tc main_v68_1) = (Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v69_1 : Gen.W21 (F := Ideal) m ρ c (Proc.devRef .tc main_v69_1) = (Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
  v96 : Gen.W21 (F := Ideal) m ρ c (Proc.devRef .tc main_v96) = (Cert.ReferenceIdeal.Read.val_main_v117 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v109 : Gen.W21 (F := Ideal) m ρ c (Proc.devRef .tc main_v109) = (Cert.ReferenceIdeal.Read.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))

/-- The kernel's buffers at boundary 25 hold the reference's stages of the launch arguments. -/
structure At25 : Prop where
  v9 : Gen.W25 (F := Ideal) m ρ c (Proc.devRef .tc main_v9) = (Cert.ReferenceIdeal.Read.val_main_v9 (F := Ideal) (m ((c.tc : Thread nD τ).loc main_arg4)))
  v68_1 : Gen.W25 (F := Ideal) m ρ c (Proc.devRef .tc main_v68_1) = (Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v69_1 : Gen.W25 (F := Ideal) m ρ c (Proc.devRef .tc main_v69_1) = (Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)))
  v96 : Gen.W25 (F := Ideal) m ρ c (Proc.devRef .tc main_v96) = (Cert.ReferenceIdeal.Read.val_main_v117 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)))
  v109 : Gen.W25 (F := Ideal) m ρ c (Proc.devRef .tc main_v109) = (Cert.ReferenceIdeal.Read.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
  v111 : Gen.W25 (F := Ideal) m ρ c (Proc.devRef .tc main_v111) = (fun (_ : S1x1.Idx) => ((Cert.ReferenceIdeal.Read.val_main_v149 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal))
  v113 : Gen.W25 (F := Ideal) m ρ c (Proc.devRef .tc main_v113) = (fun (_ : S1x1.Idx) => ((Cert.ReferenceIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) ValueIdx.ix0 : EReal))

end Cert.ChainB

end
-- ==== Proof.ValMul7.lean ====
/- The kernel's elementwise product of the second hop, as one whole array.

   The region runs over 500 grid points. At point t it loads rows 4000·t … 4000·t + 3999 (all 64 columns) of
   each of its two operand arrays, multiplies the two blocks entry by entry, and stores the product block
   into the same rows of the result array. The three windows move together (the same block index at every
   point), so what point t writes back is exactly block t of the entrywise product of the two whole operand
   arrays; and the 500 blocks tile the 2000000 rows (row r lies in block r / 4000). Hence, whatever the
   buffers hold when the region is entered, the result array ends holding the entrywise product of the two
   operand arrays as the region found them. Nothing here depends on the float instance: the product is
   taken once per entry, in the same way on both sides. -/
import proofs.«149916_j40106404610266_2_alg».proof.Proof.Gen.KernelIdeal.Frame
import Idealize.ShloMosaic.Lib.Pipeline.Value

noncomputable section

namespace Cert.KernelIdeal.ValMul7

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The three windows' arrays, by name. -/
theorem arrRef_0 : Pipeline.arrRef spec7 0 = main_v85 := rfl
theorem arrRef_1 : Pipeline.arrRef spec7 1 = main_v78 := rfl
theorem arrRef_2 : Pipeline.arrRef spec7 2 = main_v86 := rfl

theorem hz : (![0, 0] : Fin 2 → Nat) = fun _ => 0 := funext fun a => by fin_cases a <;> rfl

/-- The entrywise product of two whole arrays of the operands' shape. -/
abbrev prod (a0 a1 : S2000000x64.Idx → Elt F .f32) : S2000000x64.Idx → Elt F .f32 := mulf a0 a1

/-- The body's stored value is the entrywise product of its two loaded blocks (its shape casts are to the
    blocks' own shape). -/
theorem pay_eq (x0 x1 : Vec F S4000x64 .f32) : k7_pay1 x0 x1 = mulf x0 x1 := by
  unfold k7_pay1
  simp only [shapeCast_self]

/-- The two operand windows sit, at every point, at the result window's block index. -/
theorem index_0 (t : Fin cfg7.N) : win7_0.index t = win7_2.index t := rfl
theorem index_1 (t : Fin cfg7.N) : win7_1.index t = win7_2.index t := rfl

/-- The result window's block index at point t is (t, 0): decided over the 500 points. -/
theorem index_2 : ∀ t : Fin cfg7.N, win7_2.index t (0 : Fin 2) = t.val ∧ win7_2.index t (1 : Fin 2) = 0 :=
  (by decide +kernel : ∀ t : Fin grid7.N, win7_2.index t (0 : Fin 2) = t.val ∧ win7_2.index t (1 : Fin 2) = 0)

/-- What point t writes back is block t of the entrywise product of the two operand arrays. -/
theorem flushed_eq (c : Dev nD) (t : Fin cfg7.N) :
    (dat7 V c).flushed 2 t = ((cfg7.win 2).blk t).view.read (Elt F) (prod (V c main_v85) (V c main_v78)) := by
  show (cfg7.win 2).cut (grid7.coords t) ((dat7 V c).after 2 t) = _
  rw [after7_2]
  unfold out7_2
  rw [View.canon_unit_zero hz]
  simp only [View.ld_unit_zero (S := S4000x64) hz]
  rw [pay_eq]
  funext j
  show FloatOps.mulf (V c main_v85 (((cfg7.win 0).blk t).view.emb j)) (V c main_v78 (((cfg7.win 1).blk t).view.emb j)) = FloatOps.mulf (V c main_v85 (((cfg7.win 2).blk t).view.emb j)) (V c main_v78 (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 4000 + 1 * (j 0).val = win7_2.index t (0 : Fin 2) * 4000 + 1 * (j 0).val; rw [index_0]
    | ⟨1, _⟩ => show win7_0.index t (1 : Fin 2) * 64 + 1 * (j 1).val = win7_2.index t (1 : Fin 2) * 64 + 1 * (j 1).val; rw [index_0]
  have h1 : ((cfg7.win 1).blk t).view.emb j = ((cfg7.win 2).blk t).view.emb j := by
    funext a; apply Fin.ext
    match a with
    | ⟨0, _⟩ => show win7_1.index t (0 : Fin 2) * 4000 + 1 * (j 0).val = win7_2.index t (0 : Fin 2) * 4000 + 1 * (j 0).val; rw [index_1]
    | ⟨1, _⟩ => show win7_1.index t (1 : Fin 2) * 64 + 1 * (j 1).val = win7_2.index t (1 : Fin 2) * 64 + 1 * (j 1).val; rw [index_1]
  rw [h0, h1]

/-- An index of the result array is in point t's block iff each coordinate is in the block's range. -/
theorem mem_blk (t : Fin cfg7.N) (i : S2000000x64.Idx) :
    i ∈ ((cfg7.win 2).blk t).view.set ↔ ∀ a : Fin 2, win7_2.index t a * S4000x64.size a ≤ (i a).val ∧ (i a).val < win7_2.index t a * S4000x64.size a + S4000x64.size a := by
  show i ∈ ((View.whole main_v86).slice (win7_2.rect t)).set ↔ _
  rw [View.set_slice_whole, Rect.mem_set_unit]
  exact Iff.rfl

/-- Every index of the result array is in some point's block: row r is in block r / 4000. -/
theorem cover (i : S2000000x64.Idx) :
    ∃ t : Fin cfg7.N, (cfg7.win 2).flush t = true ∧ i ∈ ((cfg7.win 2).blk t).view.set := by
  have hi0 : (i 0).val < 2000000 := (i 0).isLt
  have hi1 : (i 1).val < 64 := (i 1).isLt
  have hN : cfg7.N = 500 := N_7
  obtain ⟨t, ht⟩ : ∃ t : Fin cfg7.N, t.val = (i 0).val / 4000 := ⟨⟨(i 0).val / 4000, by rw [hN]; omega⟩, rfl⟩
  obtain ⟨q0, q1⟩ := index_2 t
  refine ⟨t, flush7_2 t, ?_⟩
  rw [mem_blk]
  intro a
  match a with
  | ⟨0, _⟩ => show win7_2.index t (0 : Fin 2) * 4000 ≤ (i 0).val ∧ (i 0).val < win7_2.index t (0 : Fin 2) * 4000 + 4000; omega
  | ⟨1, _⟩ => show win7_2.index t (1 : Fin 2) * 64 ≤ (i 1).val ∧ (i 1).val < win7_2.index t (1 : Fin 2) * 64 + 64; omega

/-- THE RESULT ARRAY after the region: the entrywise product of the two operand arrays as the region found them. -/
theorem arr (c : Dev nD) :
    (dat7 V c).arrAt 2 cfg7.N = mulf (V c main_v85 : S2000000x64.Idx → Elt F .f32) (V c main_v78 : S2000000x64.Idx → Elt F .f32) :=
  (dat7 V c).arrAt_eq_of_cover 2 (prod (V c main_v85) (V c main_v78)) (fun t _ => flushed_eq V c t) cover

end Cert.KernelIdeal.ValMul7

end
-- ==== Proof.ChainB1.lean ====
/-
  Hop 2, first leg: from the end of the first hop (boundary 15) to the entry of the hop's second
  elementwise-product region (boundary 18).

  The stretch of host operations after boundary 15 gathers, per edge, the normalized user row of the first hop
  and the relation row; the first region multiplies the two gathered arrays entry by entry; the next stretch
  scatter-adds the products onto the users and divides by the clamped in-degree, gathers the normalized user
  rows per interaction, and lays the interaction weights out as a column. Each of these is the reference's
  operation of the same place applied to operands already known to be the reference's stages, so the kernel's
  buffer holds the reference's stage. A buffer that a stretch does not write, and that a region neither writes
  nor stages, keeps its contents: that carries the first hop's outputs and tables across.
-/
import proofs.«149916_j40106404610266_2_alg».proof.Proof.ChainA0
import proofs.«149916_j40106404610266_2_alg».proof.Proof.ChainB0
import proofs.«149916_j40106404610266_2_alg».proof.Proof.ValMul7

set_option maxRecDepth 16384

noncomputable section

namespace Cert.ChainB

open Idealize.ShloMosaic Idealize.ShloMosaic.TcCoe
open Idealize.SL.Sem
open Cert.KernelIdeal Cert.KernelIdeal.Gen
open Cert.ReferenceIdeal.Read

variable (m : (ℓ : Loc nD τ sig) → Buf (Elt Ideal) ℓ) (ρ : Dev nD → PrngReg) (c : Dev nD)
variable (x0 : (⟨Cert.ReferenceIdeal.S100000x64, .f32⟩ : BufTy).Contents (Elt Ideal))
  (x1 : (⟨Cert.ReferenceIdeal.S200000x64, .f32⟩ : BufTy).Contents (Elt Ideal))
  (x2 : (⟨Cert.ReferenceIdeal.S4x64, .f32⟩ : BufTy).Contents (Elt Ideal))
  (x3 : (⟨Cert.ReferenceIdeal.S9x64, .f32⟩ : BufTy).Contents (Elt Ideal))
  (x4 : (⟨Cert.ReferenceIdeal.S4x9, .f32⟩ : BufTy).Contents (Elt Ideal))
  (x5 : (⟨Cert.ReferenceIdeal.S1000000, .f32⟩ : BufTy).Contents (Elt Ideal))
  (x6 x7 x8 : (⟨Cert.ReferenceIdeal.S2000000, .i32⟩ : BufTy).Contents (Elt Ideal))
  (x9 x10 : (⟨Cert.ReferenceIdeal.S1000000, .i32⟩ : BufTy).Contents (Elt Ideal))

namespace S1

/-- The buffers the host stretch `hostOps7` writes. -/
abbrev hostOps7_W : List (Ref sig .tc) := [main_c_15, main_v70, main_v71, main_c_16, main_v72, main_v73, main_c_17, main_v74, main_v75, main_v76, main_v77, main_v78, main_c_18, main_v79, main_v80, main_c_19, main_v81, main_v82, main_v83, main_v84, main_v85]
theorem hostOps7_writes : (hostOps7 : List (HloOp τ sig (Elt Ideal))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem W16_of (r : Ref sig .tc) (h : r ∉ hostOps7_W) :
    W16 m ρ c (Proc.devRef .tc r) = W15 m ρ c (Proc.devRef .tc r) :=
  StableHlo.after_of_writes_sub hostOps7 _ hostOps7_writes h

/-- The buffers the host stretch `hostOps8` writes. -/
abbrev hostOps8_W : List (Ref sig .tc) := [main_cst_20, main_v87, main_v88, main_v89, main_cst_21, main_v90, main_v91, main_v92, main_cst_22, main_v93, main_v94, main_v95, main_v96, main_c_23, main_v97, main_v98, main_c_24, main_v99, main_v100, main_v101, main_v102, main_v103, main_v104]
theorem hostOps8_writes : (hostOps8 : List (HloOp τ sig (Elt Ideal))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem W18_of (r : Ref sig .tc) (h : r ∉ hostOps8_W) :
    W18 m ρ c (Proc.devRef .tc r) = W17 m ρ c (Proc.devRef .tc r) :=
  StableHlo.after_of_writes_sub hostOps8 _ hostOps8_writes h

/-- Across the first stretch and the first region of the hop. -/
theorem carry17 (r : Ref sig .tc) (h7 : r ∉ hostOps7_W) (hr : ∀ w, Pipeline.arrRef spec7 w ≠ r) :
    W17 m ρ c (Proc.devRef .tc r) = W15 m ρ c (Proc.devRef .tc r) :=
  (W17_of_ne m ρ c r hr).trans (W16_of m ρ c r h7)
/-- Across the first two stretches and the first region of the hop. -/
theorem carry18 (r : Ref sig .tc) (h7 : r ∉ hostOps7_W) (hr : ∀ w, Pipeline.arrRef spec7 w ≠ r) (h8 : r ∉ hostOps8_W) :
    W18 m ρ c (Proc.devRef .tc r) = W15 m ρ c (Proc.devRef .tc r) :=
  (W18_of m ρ c r h8).trans (carry17 m ρ c r h7 hr)

/-! ## The second hop's first stretch: the two gathers -/

theorem W16_v85 (h68_0 : W15 m ρ c (Proc.devRef .tc main_v68_0) = val_main_v83 (F := Ideal) x1 x3 x6 x7 x8)
    (harg7 : W15 m ρ c (Proc.devRef .tc main_arg7) = x7) :
    W16 m ρ c (Proc.devRef .tc main_v85) = val_main_v106 (F := Ideal) x1 x3 x6 x7 x8 := by
  show StableHlo.after hostOps7 (W15 m ρ c) _ = _
  simp only [hostOps7]
  after_results_simp
  rw [h68_0, harg7]
  rfl

theorem W16_v78 (harg3 : W15 m ρ c (Proc.devRef .tc main_arg3) = x3)
    (harg8 : W15 m ρ c (Proc.devRef .tc main_arg8) = x8) :
    W16 m ρ c (Proc.devRef .tc main_v78) = val_main_v99 (F := Ideal) x3 x8 := by
  show StableHlo.after hostOps7 (W15 m ρ c) _ = _
  simp only [hostOps7]
  after_results_simp
  rw [harg3, harg8]
  rfl

/-- Region 7 multiplies the two gathered arrays entry by entry. -/
theorem W17_v86 (h85 : W16 m ρ c (Proc.devRef .tc main_v85) = val_main_v106 (F := Ideal) x1 x3 x6 x7 x8)
    (h78 : W16 m ρ c (Proc.devRef .tc main_v78) = val_main_v99 (F := Ideal) x3 x8) :
    W17 m ρ c (Proc.devRef .tc main_v86) = val_main_v107 (F := Ideal) x1 x3 x6 x7 x8 := by
  refine (W17_arr m ρ c 2).trans ((Cert.KernelIdeal.ValMul7.arr (F := Ideal) (V16 m ρ) c).trans ?_)
  exact congrArg₂ (mulf (F := Ideal) (s := S2000000x64) (φ := .f32)) h85 h78

/-! ## The second stretch: the scatter-mean, the second gather, the column of weights -/

theorem W18_v96 (h86 : W17 m ρ c (Proc.devRef .tc main_v86) = val_main_v107 (F := Ideal) x1 x3 x6 x7 x8)
    (harg6 : W17 m ρ c (Proc.devRef .tc main_arg6) = x6)
    (h10 : W17 m ρ c (Proc.devRef .tc main_v10) = val_main_v10 (F := Ideal)) :
    W18 m ρ c (Proc.devRef .tc main_v96) = val_main_v117 (F := Ideal) x1 x3 x6 x7 x8 := by
  show StableHlo.after hostOps8 (W17 m ρ c) _ = _
  simp only [hostOps8]
  after_results_simp
  rw [h86, harg6, h10]
  rfl

theorem W18_v103 (h68_0 : W17 m ρ c (Proc.devRef .tc main_v68_0) = val_main_v83 (F := Ideal) x1 x3 x6 x7 x8)
    (harg10 : W17 m ρ c (Proc.devRef .tc main_arg10) = x10) :
    W18 m ρ c (Proc.devRef .tc main_v103) = val_main_v138 (F := Ideal) x1 x3 x6 x7 x8 x10 := by
  show StableHlo.after hostOps8 (W17 m ρ c) _ = _
  simp only [hostOps8]
  after_results_simp
  rw [h68_0, harg10]
  rfl

theorem W18_v104 (harg5 : W17 m ρ c (Proc.devRef .tc main_arg5) = x5) :
    W18 m ρ c (Proc.devRef .tc main_v104) = val_main_v131 (F := Ideal) x5 := by
  show StableHlo.after hostOps8 (W17 m ρ c) _ = _
  simp only [hostOps8]
  after_results_simp
  rw [harg5]
  rfl

end S1

open S1 in
/-- From the end of the first hop to the entry of the hop's second elementwise-product region. -/
theorem at18 (h : Cert.ChainA.At15 m ρ c) : At18 m ρ c where
  arg9 := (carry18 m ρ c main_arg9 (by decide) (by decide) (by decide)).trans h.arg9
  v9 := (carry18 m ρ c main_v9 (by decide) (by decide) (by decide)).trans h.v9
  v22 := (carry18 m ρ c main_v22 (by decide) (by decide) (by decide)).trans h.v22
  v23 := (carry18 m ρ c main_v23 (by decide) (by decide) (by decide)).trans h.v23
  v68_1 := (carry18 m ρ c main_v68_1 (by decide) (by decide) (by decide)).trans h.v68_1
  v69_0 := (carry18 m ρ c main_v69_0 (by decide) (by decide) (by decide)).trans h.v69_0
  v69_1 := (carry18 m ρ c main_v69_1 (by decide) (by decide) (by decide)).trans h.v69_1
  v96 := W18_v96 m ρ c _ _ _ _ _
    (W17_v86 m ρ c _ _ _ _ _ (W16_v85 m ρ c _ _ _ _ _ h.v68_0 h.arg7) (W16_v78 m ρ c _ _ h.arg3 h.arg8))
    ((carry17 m ρ c main_arg6 (by decide) (by decide)).trans h.arg6) ((carry17 m ρ c main_v10 (by decide) (by decide)).trans h.v10)
  v103 := W18_v103 m ρ c _ _ _ _ _ _ ((carry17 m ρ c main_v68_0 (by decide) (by decide)).trans h.v68_0) ((carry17 m ρ c main_arg10 (by decide) (by decide)).trans h.arg10)
  v104 := W18_v104 m ρ c _ ((carry17 m ρ c main_arg5 (by decide) (by decide)).trans h.arg5)

end Cert.ChainB

end
-- ==== Proof.ValMul8.lean ====
/- The kernel's product of an array by a column in the second hop, as one whole array.

   The region runs over 250 grid points. At point t it loads rows 4000·t … 4000·t + 3999 of a 1000000 × 64
   array (all 64 columns) and the same rows of a 1000000 × 1 column, repeats each column entry along its
   row, multiplies entry by entry, and stores the product block into the same rows of the result array. The
   three windows move together (the same block index at every point), so what point t writes back is
   exactly block t of the whole-array function "entry (r, k) of the first array times entry (r, 0) of the
   column"; and the 250 blocks tile the 1000000 rows (row r lies in block r / 4000). Hence, whatever the
   buffers hold when the region is entered, the result array ends holding that function of the two operand
   arrays as the region found them. Over the extended reals the product commutes, and repeating a column
   entry along its row is what a broadcast along the column axis reads at an index, so the same array is
   also "the broadcast column times the first array" in that order. -/
import proofs.«149916_j40106404610266_2_alg».proof.Proof.Gen.KernelIdeal.Frame
import Idealize.ShloMosaic.Lib.Pipeline.Value
import Idealize.ShloMosaic.PureOps.Ideal

noncomputable section

namespace Cert.KernelIdeal.ValMul8

open Cert.KernelIdeal Cert.KernelIdeal.Gen Idealize.ShloMosaic Idealize.ShloMosaic.TcCoe Idealize.SL.Sem
open Idealize.ShloMosaic.Pipeline (Dat)

/-- The three windows' arrays, by name. -/
theorem arrRef_0 : Pipeline.arrRef spec8 0 = main_v103 := rfl
theorem arrRef_1 : Pipeline.arrRef spec8 1 = main_v104 := rfl
theorem arrRef_2 : Pipeline.arrRef spec8 2 = main_v105 := rfl

theorem hz : (![0, 0] : Fin 2 → Nat) = fun _ => 0 := funext fun a => by fin_cases a <;> rfl

/-- The column's entry for row `i 0`: index (i 0, 0) of the 1000000 × 1 array. -/
abbrev col (i : S1000000x64.Idx) : S1000000x1.Idx := fun a => match a with
  | ⟨0, _⟩ => ⟨(i 0).val, (i 0).isLt⟩
  | ⟨1, _⟩ => ⟨0, Nat.one_pos⟩

/-- The same inside a block: index (j 0, 0) of the 4000 × 1 block. -/
abbrev colB (j : S4000x64.Idx) : S4000x1.Idx := fun a => match a with
  | ⟨0, _⟩ => ⟨(j 0).val, (j 0).isLt⟩
  | ⟨1, _⟩ => ⟨0, Nat.one_pos⟩

section AnyFloat

variable {F : FTy → Type} [FloatOps F]
variable (V : (c : Dev nD) → (b : Ref sig .tc) → Buf (Elt F) ((c : Thread nD τ).loc b))

/-- Each entry of the array times its row's entry of the column. -/
abbrev prod (a0 : S1000000x64.Idx → Elt F .f32) (a1 : S1000000x1.Idx → Elt F .f32) : S1000000x64.Idx → Elt F .f32 :=
  fun i => FloatOps.mulf (a0 i) (a1 (col i))

/-- The body's stored value at an index of the block: the first block's entry times the column block's entry
    of the same row (its shape casts are to the blocks' own shapes; the broadcast repeats along the row). -/
theorem pay_apply (x0 : Vec F S4000x64 .f32) (x1 : Vec F S4000x1 .f32) (j : S4000x64.Idx) :
    k8_pay1 x0 x1 j = FloatOps.mulf (x0 j) (x1 (colB j)) := by
  unfold k8_pay1
  simp only [shapeCast_self]
  show FloatOps.mulf (x0 j) (broadcastTo S4000x64 x1 broadcasts_S4000x1_S4000x64 j) = _
  refine congrArg (FloatOps.mulf (x0 j)) (broadcastTo_apply x1 broadcasts_S4000x1_S4000x64 j (colB j) fun a => ?_)
  match a with
  | ⟨0, _⟩ => rfl
  | ⟨1, _⟩ => rfl

/-- The two operand windows sit, at every point, at the result window's block index. -/
theorem index_0 (t : Fin cfg8.N) : win8_0.index t = win8_2.index t := rfl
theorem index_1 (t : Fin cfg8.N) : win8_1.index t = win8_2.index t := rfl

/-- The result window's block index at point t is (t, 0): decided over the 250 points. -/
theorem index_2 : ∀ t : Fin cfg8.N, win8_2.index t (0 : Fin 2) = t.val ∧ win8_2.index t (1 : Fin 2) = 0 :=
  (by decide +kernel : ∀ t : Fin grid8.N, win8_2.index t (0 : Fin 2) = t.val ∧ win8_2.index t (1 : Fin 2) = 0)

/-- What point t writes back is block t of `prod` of the two operand arrays. -/
theorem flushed_eq (c : Dev nD) (t : Fin cfg8.N) :
    (dat8 V c).flushed 2 t = ((cfg8.win 2).blk t).view.read (Elt F) (prod (V c main_v103) (V c main_v104)) := by
  show (cfg8.win 2).cut (grid8.coords t) ((dat8 V c).after 2 t) = _
  rw [after8_2]
  unfold out8_2
  rw [View.canon_unit_zero hz]
  simp only [View.ld_unit_zero (S := S4000x64) hz, View.ld_unit_zero (S := S4000x1) hz]
  funext j
  show k8_pay1 (iblk8 V c 0 t) (iblk8 V c 1 t) j = FloatOps.mulf (V c main_v103 (((cfg8.win 2).blk t).view.emb j)) (V c main_v104 (col (((cfg8.win 2).blk t).view.emb j)))
  refine (pay_apply (iblk8 V c 0 t) (iblk8 V c 1 t) j).trans ?_
  show FloatOps.mulf (V c main_v103 (((cfg8.win 0).blk t).view.emb j)) (V c main_v104 (((cfg8.win 1).blk t).view.emb (colB j))) = _
  obtain ⟨q0, q1⟩ := index_2 t
  have h0 : ((cfg8.win 0).blk t).view.emb j = ((cfg8.win 2).blk t).view.emb j := by
    funext a; apply Fin.ext
    match a with
    | ⟨0, _⟩ => show win8_0.index t (0 : Fin 2) * 4000 + 1 * (j 0).val = win8_2.index t (0 : Fin 2) * 4000 + 1 * (j 0).val; rw [index_0]
    | ⟨1, _⟩ => show win8_0.index t (1 : Fin 2) * 64 + 1 * (j 1).val = win8_2.index t (1 : Fin 2) * 64 + 1 * (j 1).val; rw [index_0]
  have h1 : ((cfg8.win 1).blk t).view.emb (colB j) = col (((cfg8.win 2).blk t).view.emb j) := by
    funext a; apply Fin.ext
    match a with
    | ⟨0, _⟩ => show win8_1.index t (0 : Fin 2) * 4000 + 1 * (j 0).val = win8_2.index t (0 : Fin 2) * 4000 + 1 * (j 0).val; rw [index_1]
    | ⟨1, _⟩ => show win8_1.index t (1 : Fin 2) * 1 + 1 * 0 = 0; rw [index_1, q1]
  rw [h0, h1]

/-- An index of the result array is in point t's block iff each coordinate is in the block's range. -/
theorem mem_blk (t : Fin cfg8.N) (i : S1000000x64.Idx) :
    i ∈ ((cfg8.win 2).blk t).view.set ↔ ∀ a : Fin 2, win8_2.index t a * S4000x64.size a ≤ (i a).val ∧ (i a).val < win8_2.index t a * S4000x64.size a + S4000x64.size a := by
  show i ∈ ((View.whole main_v105).slice (win8_2.rect t)).set ↔ _
  rw [View.set_slice_whole, Rect.mem_set_unit]
  exact Iff.rfl

/-- Every index of the result array is in some point's block: row r is in block r / 4000. -/
theorem cover (i : S1000000x64.Idx) :
    ∃ t : Fin cfg8.N, (cfg8.win 2).flush t = true ∧ i ∈ ((cfg8.win 2).blk t).view.set := by
  have hi0 : (i 0).val < 1000000 := (i 0).isLt
  have hi1 : (i 1).val < 64 := (i 1).isLt
  have hN : cfg8.N = 250 := N_8
  obtain ⟨t, ht⟩ : ∃ t : Fin cfg8.N, t.val = (i 0).val / 4000 := ⟨⟨(i 0).val / 4000, by rw [hN]; omega⟩, rfl⟩
  obtain ⟨q0, q1⟩ := index_2 t
  refine ⟨t, flush8_2 t, ?_⟩
  rw [mem_blk]
  intro a
  match a with
  | ⟨0, _⟩ => show win8_2.index t (0 : Fin 2) * 4000 ≤ (i 0).val ∧ (i 0).val < win8_2.index t (0 : Fin 2) * 4000 + 4000; omega
  | ⟨1, _⟩ => show win8_2.index t (1 : Fin 2) * 64 ≤ (i 1).val ∧ (i 1).val < win8_2.index t (1 : Fin 2) * 64 + 64; omega

/-- THE RESULT ARRAY after the region: each entry of the first operand array times its row's entry of the
    column, both as the region found them. -/
theorem arr (c : Dev nD) :
    (dat8 V c).arrAt 2 cfg8.N = fun i : S1000000x64.Idx => FloatOps.mulf ((V c main_v103 : S1000000x64.Idx → Elt F .f32) i) ((V c main_v104 : S1000000x1.Idx → Elt F .f32) (col i)) :=
  (dat8 V c).arrAt_eq_of_cover 2 (prod (V c main_v103) (V c main_v104)) (fun t _ => flushed_eq V c t) cover

end AnyFloat

section ExtendedReals

variable (V : (c : Dev nD) → (b : Ref sig .tc) → Buf (Elt Ideal) ((c : Thread nD τ).loc b))

/-- Over the extended reals the product of two entries commutes. -/
theorem mulf_comm (x y : Ideal .f32) : FloatOps.mulf x y = FloatOps.mulf y x := mul_comm (x : EReal) y

/-- The same array in the other order and with the column broadcast along its rows first: the product of
    extended reals commutes, and a broadcast along the column axis reads, at (r, k), the column's entry (r, 0). -/
theorem arr_ref (h : S1000000x1.BroadcastsInDim S1000000x64 ![0, 1]) (c : Dev nD) :
    (dat8 (F := Ideal) V c).arrAt 2 cfg8.N
      = mulf (F := Ideal) (s := S1000000x64) (φ := .f32) (broadcastInDim S1000000x64 ![0, 1] h (V c main_v104 : S1000000x1.Idx → Elt Ideal .f32)) (V c main_v103 : S1000000x64.Idx → Elt Ideal .f32) := by
  rw [arr (F := Ideal) V c]
  funext i
  refine (mulf_comm (V c main_v103 i) (V c main_v104 (col i))).trans ?_
  exact congrArg (fun z : Ideal .f32 => FloatOps.mulf z (V c main_v103 i))
    (broadcastInDim_apply ![0, 1] h (V c main_v104 : S1000000x1.Idx → Elt Ideal .f32) i (col i) (fun a => by
      match a with
      | ⟨0, _⟩ => rfl
      | ⟨1, _⟩ => rfl)).symm

end ExtendedReals

end Cert.KernelIdeal.ValMul8

end
-- ==== Proof.ValAttn9.lean ====
/- The factor-attention region of hop 2, as a value: whatever the buffers hold when the region is entered,
   its output array ends holding the factor attention ("attn" of AttnSpec) of the four arrays its windows read.

   The region runs 25 points; point t stages rows 4000 t .. 4000 t + 3999 of the user embeddings and of the aggregated
   messages, the whole 64 x 4 and 4 x 64 factor matrices, and writes rows 4000 t .. 4000 t + 3999 of the output.
   Output row r depends on row r of the two row-blocked operands only, so block t of "attn" of the arrays is the
   body's value on block t of the operands: per entry both are "cell" of the entry's row, the factor matrices and the
   entry's message. The 25 blocks tile the 100000 rows (row r lies in block r / 4000), so the array is "attn". -/
import proofs.«149916_j40106404610266_2_alg».proof.Proof.Gen.KernelIdeal.Frame
import proofs.«149916_j40106404610266_2_alg».proof.Proof.AttnSpec
import proofs.«149916_j40106404610266_2_alg».proof.Proof.AttnBody
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ValAttn9

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The user embeddings, the two factor matrices and the aggregated messages as the region finds them. -/
abbrev UE (c : Dev nD) : S100000x64.Idx → EReal := V c main_v69_0
abbrev LT (c : Dev nD) : S64x4.Idx → EReal := V c main_v23
abbrev DW (c : Dev nD) : S4x64.Idx → EReal := V c main_v22
abbrev UA (c : Dev nD) : S100000x64.Idx → EReal := V c main_v108

theorem hz : (![0, 0] : Fin 2 → Nat) = fun _ => 0 := funext fun a => by fin_cases a <;> rfl

/-- "cell" of equal arguments. -/
theorem cell_congr {ue ue' : Fin 64 → EReal} {lt lt' : Fin 64 → Fin 4 → EReal} {dw dw' : Fin 4 → EReal} {ua ua' : EReal}
    (h0 : ue = ue') (h1 : lt = lt') (h2 : dw = dw') (h3 : ua = ua') :
    Cert.AttnSpec.cell ue lt dw ua = Cert.AttnSpec.cell ue' lt' dw' ua' := by
  subst h0 h1 h2 h3; rfl

/-! ## The blocks -/

/-- The index maps over the grid: the two row-blocked input windows move with the output window, block t at rows
    4000 t …, all columns; the two factor matrices' windows stay at their one block. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- A 4000-row block of the user embeddings at a point: row 4000 t + r. -/
theorem iblk0_apply (c : Dev nD) (t : Fin cfg9.N) (r : Fin 4000) (k : Fin 64) (R : Fin 100000)
    (hR : R.val = t.val * 4000 + r.val) :
    (iblk9 V c 0 t : Vec Ideal S4000x64 .f32) (ix2 r k) = UE V c (ix2 R k) := by
  obtain ⟨e0, e1, -⟩ := idx_facts t
  unfold iblk9
  rw [View.read_apply]
  show UE V c _ = UE V c (ix2 R k)
  refine congrArg (UE V c) (funext fun a => Fin.ext ?_)
  match a with
  | ⟨0, _⟩ => show win9_0.index t (0 : Fin 2) * 4000 + 1 * r.val = R.val; rw [e0, hR]; omega
  | ⟨1, _⟩ => show win9_0.index t (1 : Fin 2) * 64 + 1 * k.val = k.val; rw [e1]; omega

/-- The 64 x 4 factor matrix's block at every point is the matrix. -/
theorem iblk1_apply (c : Dev nD) (t : Fin cfg9.N) (k : Fin 64) (f : Fin 4) :
    (iblk9 V c 1 t : Vec Ideal S64x4 .f32) (ix2 k f) = LT V c (ix2 k f) := by
  obtain ⟨-, -, e0, e1, -⟩ := idx_facts t
  unfold iblk9
  rw [View.read_apply]
  show LT V c _ = LT V c (ix2 k f)
  refine congrArg (LT V c) (funext fun a => Fin.ext ?_)
  match a with
  | ⟨0, _⟩ => show win9_1.index t (0 : Fin 2) * 64 + 1 * k.val = k.val; rw [e0]; omega
  | ⟨1, _⟩ => show win9_1.index t (1 : Fin 2) * 4 + 1 * f.val = f.val; rw [e1]; omega

/-- The 4 x 64 factor matrix's block at every point is the matrix. -/
theorem iblk2_apply (c : Dev nD) (t : Fin cfg9.N) (f : Fin 4) (q : Fin 64) :
    (iblk9 V c 2 t : Vec Ideal S4x64 .f32) (ix2 f q) = DW V c (ix2 f q) := by
  obtain ⟨-, -, -, -, e0, e1, -⟩ := idx_facts t
  unfold iblk9
  rw [View.read_apply]
  show DW V c _ = DW V c (ix2 f q)
  refine congrArg (DW V c) (funext fun a => Fin.ext ?_)
  match a with
  | ⟨0, _⟩ => show win9_2.index t (0 : Fin 2) * 4 + 1 * f.val = f.val; rw [e0]; omega
  | ⟨1, _⟩ => show win9_2.index t (1 : Fin 2) * 64 + 1 * q.val = q.val; rw [e1]; omega

/-- A 4000-row block of the aggregated messages at a point: row 4000 t + r. -/
theorem iblk3_apply (c : Dev nD) (t : Fin cfg9.N) (r : Fin 4000) (q : Fin 64) (R : Fin 100000)
    (hR : R.val = t.val * 4000 + r.val) :
    (iblk9 V c 3 t : Vec Ideal S4000x64 .f32) (ix2 r q) = UA V c (ix2 R q) := by
  obtain ⟨-, -, -, -, -, -, e0, e1, -⟩ := idx_facts t
  unfold iblk9
  rw [View.read_apply]
  show UA V c _ = UA V c (ix2 R q)
  refine congrArg (UA V c) (funext fun a => Fin.ext ?_)
  match a with
  | ⟨0, _⟩ => show win9_3.index t (0 : Fin 2) * 4000 + 1 * r.val = R.val; rw [e0, hR]; omega
  | ⟨1, _⟩ => show win9_3.index t (1 : Fin 2) * 64 + 1 * q.val = q.val; rw [e1]; omega

/-! ## What a point writes back -/

/-- Point t writes back block t of the factor attention of the four arrays. -/
theorem flushed4_eq (c : Dev nD) (t : Fin cfg9.N) :
    (dat9 (F := Ideal) V c).flushed 4 t
      = ((cfg9.win 4).blk t).view.read (Elt Ideal)
          (Cert.AttnSpec.attn (V c main_v69_0) (V c main_v23) (V c main_v22) (V c main_v108)) := by
  show (cfg9.win 4).cut (grid9.coords t) ((dat9 (F := Ideal) V c).after 4 t) = _
  rw [after9_4]
  unfold out9_4
  rw [View.canon_unit_zero hz]
  simp only [View.ld_unit_zero (S := S4000x64) hz, View.ld_unit_zero (S := S64x4) hz, View.ld_unit_zero (S := S4x64) hz]
  obtain ⟨-, -, -, -, -, -, -, -, e0, e1⟩ := idx_facts t
  have hN : t.val < 25 := lt_of_lt_of_eq t.isLt (show cfg9.N = 25 from N_9)
  funext y
  obtain ⟨r, q, rfl⟩ : ∃ (r : Fin 4000) (q : Fin 64), y = ix2 r q := ⟨y 0, y 1, eq_ix2 y⟩
  rw [View.read_apply]
  refine (Cert.KernelIdeal.AttnBody.pay9_apply (iblk9 V c 0 t) (iblk9 V c 1 t) (iblk9 V c 2 t) (iblk9 V c 3 t) r q).trans ?_
  have hr : r.val < 4000 := r.isLt
  let R : Fin 100000 := ⟨t.val * 4000 + r.val, by omega⟩
  have hemb : ((cfg9.win 4).blk t).view.emb (ix2 r q) = ix2 R q := funext fun a => Fin.ext (by
    match a with
    | ⟨0, _⟩ => show win9_4.index t (0 : Fin 2) * 4000 + 1 * r.val = t.val * 4000 + r.val; rw [e0]; omega
    | ⟨1, _⟩ => show win9_4.index t (1 : Fin 2) * 64 + 1 * q.val = q.val; rw [e1]; omega)
  show _ = Cert.AttnSpec.attn (V c main_v69_0) (V c main_v23) (V c main_v22) (V c main_v108) (((cfg9.win 4).blk t).view.emb (ix2 r q))
  rw [hemb]
  refine Eq.trans ?_ (Cert.AttnSpec.attn_apply (V c main_v69_0) (V c main_v23) (V c main_v22) (V c main_v108) R q).symm
  exact cell_congr (funext fun k => iblk0_apply V c t r k R rfl) (funext fun k => funext fun f => iblk1_apply V c t k f)
    (funext fun f => iblk2_apply V c t f q) (iblk3_apply V c t r q R rfl)

/-! ## The blocks tile the array -/

/-- A row is in point t's block of the output iff it is one of rows 4000 t … 4000 t + 3999. -/
theorem mem_blk4 (t : Fin cfg9.N) (i : S100000x64.Idx) :
    i ∈ ((cfg9.win 4).blk t).view.set ↔ ∀ a : Fin 2, win9_4.index t a * S4000x64.size a ≤ (i a).val ∧ (i a).val < win9_4.index t a * S4000x64.size a + S4000x64.size a := by
  show i ∈ ((View.whole main_v109).slice (win9_4.rect t)).set ↔ _
  rw [View.set_slice_whole, Rect.mem_set_unit]
  exact Iff.rfl

/-- Row r is covered by point r / 4000. -/
theorem cover4 (i : S100000x64.Idx) :
    ∃ t : Fin cfg9.N, (cfg9.win 4).flush t = true ∧ i ∈ ((cfg9.win 4).blk t).view.set := by
  have hi0 : (i 0).val < 100000 := (i 0).isLt
  have hi1 : (i 1).val < 64 := (i 1).isLt
  have hN : cfg9.N = 25 := N_9
  let t : Fin cfg9.N := ⟨(i 0).val / 4000, by rw [hN]; omega⟩
  have ht : t.val = (i 0).val / 4000 := rfl
  obtain ⟨-, -, -, -, -, -, -, -, e0, e1⟩ := idx_facts t
  refine ⟨t, flush9_4 t, ?_⟩
  rw [mem_blk4]
  intro a
  match a with
  | ⟨0, _⟩ => show win9_4.index t (0 : Fin 2) * 4000 ≤ (i 0).val ∧ (i 0).val < win9_4.index t (0 : Fin 2) * 4000 + 4000; rw [e0, ht]; omega
  | ⟨1, _⟩ => show win9_4.index t (1 : Fin 2) * 64 ≤ (i 1).val ∧ (i 1).val < win9_4.index t (1 : Fin 2) * 64 + 64; rw [e1]; omega

/-- THE ARRAY after the region: the factor attention of the four arrays as the region finds them. -/
theorem arr (c : Dev nD) :
    (dat9 (F := Ideal) V c).arrAt 4 cfg9.N
      = Cert.AttnSpec.attn (V c main_v69_0) (V c main_v23) (V c main_v22) (V c main_v108) :=
  (dat9 (F := Ideal) V c).arrAt_eq_of_cover 4
    (Cert.AttnSpec.attn (V c main_v69_0) (V c main_v23) (V c main_v22) (V c main_v108))
    (fun t _ => flushed4_eq V c t) cover4

end Cert.KernelIdeal.ValAttn9

end
-- ==== Proof.ChainB2.lean ====
/-
  Hop 2, second leg: from the entry of the hop's second elementwise-product region (boundary 18) to the exit
  of the attention region (boundary 21).

  The region multiplies each gathered user row by its interaction weight, which is the reference's product of
  the row with the weight column broadcast along the row; the stretch after it scatter-adds the products onto
  the items, the reference's scatter of the same operands; the attention region then mixes the item aggregate
  with the factor table, which is the reference's attention value of the hop because its four operands (the
  first hop's normalized item embedding, the transposed factor embedding, the relation-factor table, the item
  aggregate) are the reference's. The transposed factor embedding is computed once by the kernel and twice by
  the reference, by the same transposition of the same argument. Buffers that nothing here writes or stages
  keep their contents.
-/
import proofs.«149916_j40106404610266_2_alg».proof.Proof.ChainB0
import proofs.«149916_j40106404610266_2_alg».proof.Proof.ValMul8
import proofs.«149916_j40106404610266_2_alg».proof.Proof.AttnSpec
import proofs.«149916_j40106404610266_2_alg».proof.Proof.ValAttn9

set_option maxRecDepth 16384

noncomputable section

namespace Cert.ChainB

open Idealize.ShloMosaic Idealize.ShloMosaic.TcCoe
open Idealize.SL.Sem
open Cert.KernelIdeal Cert.KernelIdeal.Gen
open Cert.ReferenceIdeal.Read

variable (m : (ℓ : Loc nD τ sig) → Buf (Elt Ideal) ℓ) (ρ : Dev nD → PrngReg) (c : Dev nD)
variable (x0 : (⟨Cert.ReferenceIdeal.S100000x64, .f32⟩ : BufTy).Contents (Elt Ideal))
  (x1 : (⟨Cert.ReferenceIdeal.S200000x64, .f32⟩ : BufTy).Contents (Elt Ideal))
  (x2 : (⟨Cert.ReferenceIdeal.S4x64, .f32⟩ : BufTy).Contents (Elt Ideal))
  (x3 : (⟨Cert.ReferenceIdeal.S9x64, .f32⟩ : BufTy).Contents (Elt Ideal))
  (x4 : (⟨Cert.ReferenceIdeal.S4x9, .f32⟩ : BufTy).Contents (Elt Ideal))
  (x5 : (⟨Cert.ReferenceIdeal.S1000000, .f32⟩ : BufTy).Contents (Elt Ideal))
  (x6 x7 x8 : (⟨Cert.ReferenceIdeal.S2000000, .i32⟩ : BufTy).Contents (Elt Ideal))
  (x9 x10 : (⟨Cert.ReferenceIdeal.S1000000, .i32⟩ : BufTy).Contents (Elt Ideal))

namespace S2

/-- The buffers the host stretch `hostOps9` writes. -/
abbrev hostOps9_W : List (Ref sig .tc) := [main_cst_25, main_v106, main_v107, main_v108]
theorem hostOps9_writes : (hostOps9 : List (HloOp τ sig (Elt Ideal))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem W20_of (r : Ref sig .tc) (h : r ∉ hostOps9_W) :
    W20 m ρ c (Proc.devRef .tc r) = W19 m ρ c (Proc.devRef .tc r) :=
  StableHlo.after_of_writes_sub hostOps9 _ hostOps9_writes h

/-- Across the hop's second elementwise-product region and the stretch after it. -/
theorem carry20 (r : Ref sig .tc) (hr8 : ∀ w, Pipeline.arrRef spec8 w ≠ r) (h9 : r ∉ hostOps9_W) :
    W20 m ρ c (Proc.devRef .tc r) = W18 m ρ c (Proc.devRef .tc r) :=
  (W20_of m ρ c r h9).trans (W19_of_ne m ρ c r hr8)
/-- And across the attention region. -/
theorem carry21 (r : Ref sig .tc) (hr8 : ∀ w, Pipeline.arrRef spec8 w ≠ r) (h9 : r ∉ hostOps9_W)
    (hr9 : ∀ w, Pipeline.arrRef spec9 w ≠ r) :
    W21 m ρ c (Proc.devRef .tc r) = W18 m ρ c (Proc.devRef .tc r) :=
  (W21_of_ne m ρ c r hr9).trans (carry20 m ρ c r hr8 h9)

/-- The weight column broadcasts along the rows. -/
theorem bcol : S1000000x1.BroadcastsInDim S1000000x64 (![0, 1] : Fin 2 → Fin S1000000x64.rank) := by decide

/-! ## The weighted rows, their scatter, the attention -/

/-- The region multiplies each gathered row by its weight. -/
theorem W19_v105 (h103 : W18 m ρ c (Proc.devRef .tc main_v103) = val_main_v138 (F := Ideal) x1 x3 x6 x7 x8 x10)
    (h104 : W18 m ρ c (Proc.devRef .tc main_v104) = val_main_v131 (F := Ideal) x5) :
    W19 m ρ c (Proc.devRef .tc main_v105) = val_main_v140 (F := Ideal) x1 x3 x5 x6 x7 x8 x10 := by
  refine (W19_arr m ρ c 2).trans ((Cert.KernelIdeal.ValMul8.arr_ref (V18 m ρ) bcol c).trans ?_)
  have e104 : (V18 m ρ c main_v104 : S1000000x1.Idx → Elt Ideal .f32) = val_main_v131 (F := Ideal) x5 := h104
  have e103 : (V18 m ρ c main_v103 : S1000000x64.Idx → Elt Ideal .f32)
      = val_main_v138 (F := Ideal) x1 x3 x6 x7 x8 x10 := h103
  rw [e104, e103]
  unfold val_main_v140 val_main_v139
  rfl

theorem W20_v108 (h105 : W19 m ρ c (Proc.devRef .tc main_v105) = val_main_v140 (F := Ideal) x1 x3 x5 x6 x7 x8 x10)
    (harg9 : W19 m ρ c (Proc.devRef .tc main_arg9) = x9) :
    W20 m ρ c (Proc.devRef .tc main_v108) = val_main_v143 (F := Ideal) x1 x3 x5 x6 x7 x8 x9 x10 := by
  show StableHlo.after hostOps9 (W19 m ρ c) _ = _
  simp only [hostOps9]
  after_results_simp
  rw [h105, harg9]
  rfl

/-- The attention value depends on its four operands only. -/
theorem attn_congr {A A' : (⟨Cert.ReferenceIdeal.S100000x64, .f32⟩ : BufTy).Contents (Elt Ideal)}
    {B B' : (⟨Cert.ReferenceIdeal.S64x4, .f32⟩ : BufTy).Contents (Elt Ideal)}
    {C C' : (⟨Cert.ReferenceIdeal.S4x64, .f32⟩ : BufTy).Contents (Elt Ideal)}
    {D D' : (⟨Cert.ReferenceIdeal.S100000x64, .f32⟩ : BufTy).Contents (Elt Ideal)}
    (hA : A = A') (hB : B = B') (hC : C = C') (hD : D = D') :
    Cert.AttnSpec.attn A B C D = Cert.AttnSpec.attn A' B' C' D' := by
  subst hA hB hC hD; rfl

/-- The attention region on the reference's operands leaves the reference's attention value of the hop. -/
theorem W21_v109
    (hR9 : (dat9 (F := Ideal) (V20 m ρ) c).arrAt 4 cfg9.N
      = Cert.AttnSpec.attn (V20 m ρ c main_v69_0) (V20 m ρ c main_v23) (V20 m ρ c main_v22) (V20 m ρ c main_v108))
    (h69_0 : W20 m ρ c (Proc.devRef .tc main_v69_0) = val_main_v88 (F := Ideal) x0 x1 x2 x3 x4 x5 x9 x10)
    (h23 : W20 m ρ c (Proc.devRef .tc main_v23) = val_main_v50 (F := Ideal) x2)
    (h22 : W20 m ρ c (Proc.devRef .tc main_v22) = val_main_v22 (F := Ideal) x3 x4)
    (h108 : W20 m ρ c (Proc.devRef .tc main_v108) = val_main_v143 (F := Ideal) x1 x3 x5 x6 x7 x8 x9 x10) :
    W21 m ρ c (Proc.devRef .tc main_v109) = val_main_v146 (F := Ideal) x0 x1 x2 x3 x4 x5 x6 x7 x8 x9 x10 := by
  refine (W21_arr m ρ c 4).trans (hR9.trans ?_)
  exact (attn_congr h69_0 h23 h22 h108).trans (Cert.AttnSpec.v146_eq x0 x1 x2 x3 x4 x5 x6 x7 x8 x9 x10).symm

end S2

open S2 in
/-- From the entry of the hop's second elementwise-product region to the exit of the attention region. -/
theorem at21 (h : At18 m ρ c) : At21 m ρ c where
  v9 := (carry21 m ρ c main_v9 (by decide) (by decide) (by decide)).trans h.v9
  v68_1 := (carry21 m ρ c main_v68_1 (by decide) (by decide) (by decide)).trans h.v68_1
  v69_1 := (carry21 m ρ c main_v69_1 (by decide) (by decide) (by decide)).trans h.v69_1
  v96 := (carry21 m ρ c main_v96 (by decide) (by decide) (by decide)).trans h.v96
  v109 := W21_v109 m ρ c _ _ _ _ _ _ _ _ _ _ _ (Cert.KernelIdeal.ValAttn9.arr (V20 m ρ) c) ((carry20 m ρ c main_v69_0 (by decide) (by decide)).trans h.v69_0) ((carry20 m ρ c main_v23 (by decide) (by decide)).trans h.v23) ((carry20 m ρ c main_v22 (by decide) (by decide)).trans h.v22)
    (W20_v108 m ρ c _ _ _ _ _ _ _ _ (W19_v105 m ρ c _ _ _ _ _ _ _ h.v103 h.v104)
      ((W19_of_ne m ρ c main_arg9 (by decide)).trans h.arg9))

end Cert.ChainB

end
-- ==== Proof.ValSumsq10.lean ====
/-
  The sum-of-squares region number 10: the value its output array holds at the region's exit.

  The region's grid has 50 points. Its input window walks the 200000 × 64 matrix in consecutive blocks of 4000
  rows; its output is a single 1 × 1 block whose position never moves, so the block is carried from point to point
  and written back after the last point only. The body sets the block to zero at point 0 and, at every point, adds to
  it the sum over the 4000 × 64 entries of the current input block of the entry's square (a sum over the 64 lanes
  of each row, then over the 4000 rows). Hence after point n the block holds 0 + S₀ + S₁ + … + Sₙ, where Sₜ is the
  sum of the squares of the entries in rows 4000·t … 4000·t + 3999, and after the last point it holds the sum of
  the squares of all 200000 × 64 entries: over the extended reals a finite sum may be regrouped freely (addition
  is commutative and associative there, and 0 + x = x), so no finiteness of the entries is used. This is also the
  value the host's reduce-add of x·x over both axes, started from the constant 0, computes.
-/
import proofs.«149916_j40106404610266_2_alg».proof.Proof.Gen.KernelIdeal.Frame
import proofs.«149916_j40106404610266_2_alg».proof.Proof.LibBlockSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.ValSumsq10

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## What each case of the body leaves in the output block (any float instance) -/

section AnyInstance

variable {F : FTy → Type} [FloatOps F]

/-- The zero offsets of a load or store of a whole block. -/
theorem hz : (![0, 0] : Fin 2 → Nat) = fun _ => 0 := funext fun a => by fin_cases a <;> rfl

/-- At a point other than the first the body leaves, in the output block holding `xo`, the accumulating payload of
    the input block `x` and `xo`: its one store covers the block, and its loads read the whole buffers. -/
theorem out_B (c : Dev nD) (i : grid10.Coords) (a1 : Memref sig .tc .vmem S4000x64 .f32) (h1 : a1.IsWhole)
    (a2 : Memref sig .tc .vmem S1x1 .f32) (h2 : a2.IsWhole) (hc : ¬cond10_0 i) (x : Vec F S4000x64 .f32)
    (xo : Vec F S1x1 .f32) : out10_B_1 c i a1 h1 a2 h2 hc x xo = k10_pay2 x xo := by
  unfold out10_B_1
  rw [View.read_writes_eq_canon _ _ _ (cover10_B_1 c i a1 h1 a2 h2 hc x xo)]
  unfold kernelRun10_B
  dsimp only
  sl_unfold_words
  rw [View.canon_unit_zero hz]
  simp only [View.readAt_eq_ld, h1.read_unread, h2.read_unread, View.ld_unit_zero (S := S4000x64) hz,
    View.ld_unit_zero (S := S1x1) hz]

/-- At the first point the body stores the zero block, reads it back and leaves the accumulating payload of the input
    block `x` and that zero block. -/
theorem out_A (c : Dev nD) (i : grid10.Coords) (a1 : Memref sig .tc .vmem S4000x64 .f32) (h1 : a1.IsWhole)
    (a2 : Memref sig .tc .vmem S1x1 .f32) (h2 : a2.IsWhole) (hc : cond10_0 i) (x : Vec F S4000x64 .f32) :
    out10_A_1 c i a1 h1 a2 h2 hc x = k10_pay2 x (k10_pay1 (F := F)) := by
  unfold out10_A_1
  rw [View.read_writes_eq_canon _ _ _ (cover10_A_1 c i a1 h1 a2 h2 hc x)]
  unfold kernelRun10_A
  dsimp only
  sl_unfold_words
  rw [View.canon_cons_unit_zero (S := S1x1) hz, View.readCov_unit_zero (S := S1x1) _ hz]
  simp only [View.readAt_eq_ld, h1.read_unread, View.ld_unit_zero (S := S4000x64) hz,
    View.ld_unit_zero (S := S1x1) hz]

end AnyInstance

/-! ## The payloads over the extended reals -/

/-- Over row `r`, lane `l` is entry (r, l) of the block. -/
theorem lift_lane (h : S4000x64.Reduces [1] S4000) (r : Fin 4000) (l : Fin 64) : h.lift (ix1 r) l = ix2 r l := by
  funext a; match a with
    | ⟨0, _⟩ => exact Fin.ext rfl
    | ⟨1, _⟩ => exact Fin.ext rfl

/-- Over the one entry of the column of row sums' total, row `r` is entry (r, 0) of the column. -/
theorem lift_row (h : S4000x1.Reduces [0] S1) (u : Fin 1) (r : Fin 4000) : h.lift (ix1 u) r = ix2 r u := by
  funext a; match a with
    | ⟨0, _⟩ => exact Fin.ext rfl
    | ⟨1, _⟩ => exact Fin.ext rfl

/-- The reset payload is the zero block. -/
theorem pay1_apply (j : S1x1.Idx) : k10_pay1 (F := Ideal) j = 0 := by
  show Ideal.ofBits .f32 0x00000000#32 = 0
  exact Ideal.ofBits_zero_f32

/-- The accumulating payload adds to the carried block the sum, over the rows and lanes of the input block, of the
    entry's square. -/
theorem pay2_apply (x : Vec Ideal S4000x64 .f32) (xo : Vec Ideal S1x1 .f32) (j : S1x1.Idx) :
    k10_pay2 (F := Ideal) x xo j = xo j + ∑ r : Fin 4000, ∑ l : Fin 64, x (ix2 r l) * x (ix2 r l) := by
  obtain ⟨a, b, rfl⟩ : ∃ (a b : Fin 1), j = ix2 a b := ⟨j 0, j 1, eq_ix2 j⟩
  unfold k10_pay2
  dsimp only
  refine (addf_apply _ _ (ix2 a b)).trans ?_
  refine congrArg₂ (· + ·) (congrFun (shapeCast_self xo _) (ix2 a b)) ?_
  refine (shapeCast_apply _ _ (ix2 a b) (ix1 (0 : Fin 1)) ?_).trans ?_
  · rw [Shape.rowMajor_val_one, Shape.rowMajor_val_two]
    show (0 : ℕ) = a.val * 1 + b.val
    omega
  refine (Ideal.multiReduction_add_single _ _ _ _ _ (ix1 (0 : Fin 1))).trans ?_
  refine Finset.sum_congr rfl fun (r : Fin 4000) _ => ?_
  refine (shapeCast_apply _ _ _ (ix1 r) ?_).trans ?_
  · rw [Shape.rowMajor_val_one, Shape.rowMajor_val_two]
    show r.val = r.val * 1 + 0
    omega
  refine (Ideal.multiReduction_add_single _ _ _ _ _ (ix1 r)).trans ?_
  refine Finset.sum_congr rfl fun (l : Fin 64) _ => ?_
  rw [lift_lane]
  show shapeCast S4000x64 x shapeCasts_S4000x64_S4000x64 (ix2 r l) * shapeCast S4000x64 x shapeCasts_S4000x64_S4000x64 (ix2 r l) = _
  rw [shapeCast_self]

/-- The constant 1 × 1 block. -/
abbrev const11 (s : EReal) : Vec Ideal S1x1 .f32 := fun _ => s

/-- One accumulating step: a carried block constantly `s` becomes constantly `s + b`, `b` the input block's sum of
    squares. -/
theorem step_apply (x : Vec Ideal S4000x64 .f32) (s b : EReal)
    (hb : ∑ r : Fin 4000, ∑ l : Fin 64, x (ix2 r l) * x (ix2 r l) = b) :
    k10_pay2 (F := Ideal) x (const11 s) = const11 (s + b) :=
  funext fun j => (pay2_apply x (const11 s) j).trans (by rw [hb])

/-- The first step, over the zero block: the block becomes constantly the input block's sum of squares. -/
theorem first_apply (x : Vec Ideal S4000x64 .f32) (b : EReal)
    (hb : ∑ r : Fin 4000, ∑ l : Fin 64, x (ix2 r l) * x (ix2 r l) = b) :
    k10_pay2 (F := Ideal) x (k10_pay1 (F := Ideal)) = const11 b :=
  funext fun j => (pay2_apply x (k10_pay1 (F := Ideal)) j).trans (by rw [pay1_apply, zero_add, hb])

/-! ## The region's value at its entry contents -/

/-- The sum of the squares of the entries of rows 4000·t … 4000·t + 3999 of a 200000 × 64 matrix (zero for a `t`
    past the last block). -/
def blockSq (Y : FVec Ideal S200000x64 .f32) (t : ℕ) : EReal :=
  if h : t < 50 then
    ∑ r : Fin 4000, ∑ l : Fin 64,
      Y (ix2 (⟨t * 4000 + r.val, LibBlockSum.row_lt (N := 200000) (by decide) (⟨t, h⟩ : Fin 50) r⟩ : Fin 200000) l)
        * Y (ix2 (⟨t * 4000 + r.val, LibBlockSum.row_lt (N := 200000) (by decide) (⟨t, h⟩ : Fin 50) r⟩ : Fin 200000) l)
  else 0

/-- The blocks' sums of squares add up to the sum of the squares of all the entries. -/
theorem total_eq (Y : FVec Ideal S200000x64 .f32) :
    ∑ s ∈ Finset.range 50, blockSq Y s = ∑ i : S200000x64.Idx, Y i * Y i := by
  rw [← Fin.sum_univ_eq_sum_range (fun s => blockSq Y s) 50, LibBlockSum.sum_200000x64 (fun i => Y i * Y i)]
  refine Finset.sum_congr rfl fun t _ => ?_
  unfold blockSq
  rw [dif_pos t.isLt]

section Region

variable (V : (c : Dev nD) → (b : Ref sig .tc) → Buf (Elt Ideal) ((c : Thread nD τ).loc b))

/-- The input array as the region finds it. -/
abbrev Xin (c : Dev nD) : FVec Ideal S200000x64 .f32 := V c main_v96

/-- The input window's block at point `t`. -/
abbrev blk (c : Dev nD) (t : Fin cfg10.N) : Vec Ideal S4000x64 .f32 := iblk10 V c 0 t

/-- The input window's block index at point `t` is (t, 0): decided over the grid. -/
theorem idx_facts : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)

/-- Entry (r, l) of the input block at point `t` is entry (4000·t + r, l) of the input array. -/
theorem iblk_apply (c : Dev nD) (t : Fin cfg10.N) (r : Fin 4000) (l : Fin 64) (hr : t.val * 4000 + r.val < 200000) :
    blk V c t (ix2 r l) = Xin V c (ix2 (⟨t.val * 4000 + r.val, hr⟩ : Fin 200000) l) := by
  obtain ⟨e0, e1⟩ := idx_facts t
  unfold blk Xin iblk10
  rw [View.read_apply]
  show V c main_v96 (((cfg10.win 0).blk t).view.emb (ix2 r l)) = V c main_v96 _
  refine congrArg (V c main_v96 : S200000x64.Idx → EReal) ?_
  funext a; apply Fin.ext
  match a with
  | ⟨0, _⟩ => show win10_0.index t (0 : Fin 2) * 4000 + 1 * r.val = t.val * 4000 + r.val; omega
  | ⟨1, _⟩ => show win10_0.index t (1 : Fin 2) * 64 + 1 * l.val = l.val; omega

/-- The input block at point `t` has the sum of squares of the rows 4000·t … 4000·t + 3999 of the input array. -/
theorem blockSq_eq (c : Dev nD) (t : Fin cfg10.N) :
    ∑ r : Fin 4000, ∑ l : Fin 64, blk V c t (ix2 r l) * blk V c t (ix2 r l) = blockSq (Xin V c) t.val := by
  have h50 : t.val < 50 := lt_of_lt_of_eq t.isLt (show cfg10.N = 50 from N_10)
  unfold blockSq
  rw [dif_pos h50]
  refine Finset.sum_congr rfl fun r _ => Finset.sum_congr rfl fun l _ => ?_
  rw [iblk_apply V c t r l (LibBlockSum.row_lt (N := 200000) (by decide) (⟨t.val, h50⟩ : Fin 50) r)]

/-- THE INVARIANT: after point `n` the output block holds, at its one entry, the sum of the squares of the rows below
    4000·(n + 1) — the blocks' sums of squares added up from block 0 to block `n`. By induction on the point. -/
theorem outsAt_eq (c : Dev nD) (n : ℕ) : ∀ (h : n < cfg10.N),
    outsAt10 V c n h = const11 (∑ s ∈ Finset.range (n + 1), blockSq (Xin V c) s) := by
  induction n with
  | zero =>
    intro h
    refine (outsAt10_A V c ⟨0, h⟩ rfl).trans ?_
    refine (out_A (F := Ideal) c (grid10.coords ⟨0, h⟩) (ms10_0 ⟨0, h⟩) (hs10_0 ⟨0, h⟩) (ms10_1 ⟨0, h⟩) (hs10_1 ⟨0, h⟩)
      ((hcond10_0 ⟨0, h⟩).mpr rfl) (iblk10 V c 0 ⟨0, h⟩)).trans ?_
    refine first_apply (blk V c ⟨0, h⟩) (∑ s ∈ Finset.range (0 + 1), blockSq (Xin V c) s) ((blockSq_eq V c ⟨0, h⟩).trans ?_)
    rw [Finset.sum_range_succ, Finset.range_zero, Finset.sum_empty, zero_add]
  | succ n ih =>
    intro h
    have hN : n + 1 < 50 := lt_of_lt_of_eq h (show cfg10.N = 50 from N_10)
    have hB : ¬(⟨n + 1, h⟩ : Fin cfg10.N).val % 50 = 0 := by dsimp only; omega
    have ih' := ih (Nat.lt_of_succ_lt h)
    refine (outsAt10_B V c ⟨n + 1, h⟩ hB).trans ?_
    refine (out_B (F := Ideal) c (grid10.coords ⟨n + 1, h⟩) (ms10_0 ⟨n + 1, h⟩) (hs10_0 ⟨n + 1, h⟩) (ms10_1 ⟨n + 1, h⟩)
      (hs10_1 ⟨n + 1, h⟩) (fun hc => hB ((hcond10_0 ⟨n + 1, h⟩).mp hc)) (iblk10 V c 0 ⟨n + 1, h⟩)
      (outsAt10 V c n (Nat.lt_of_succ_lt h))).trans ?_
    refine (congrArg (k10_pay2 (F := Ideal) (blk V c ⟨n + 1, h⟩)) ih').trans ?_
    exact (step_apply (blk V c ⟨n + 1, h⟩) (∑ s ∈ Finset.range (n + 1), blockSq (Xin V c) s) (blockSq (Xin V c) (n + 1))
      (blockSq_eq V c ⟨n + 1, h⟩)).trans
      (congrArg const11 (Finset.sum_range_succ (fun s => blockSq (Xin V c) s) (n + 1)).symm)

/-- The last point of the grid, the one that writes the output block back. -/
def tLast : Fin cfg10.N := ⟨49, by rw [show cfg10.N = 50 from N_10]; decide⟩

/-- The one write-back, after the last point, writes the blocks' sums of squares added up over all 50 blocks: the
    output's block (0, 0) read through zero offsets is the whole 1 × 1 array. -/
theorem flushed_eq (c : Dev nD) (t : Fin cfg10.N) (hf : (cfg10.win 1).flush t = true) :
    (dat10 V c).flushed 1 t
      = ((cfg10.win 1).blk t).view.read (Elt Ideal) (const11 (∑ s ∈ Finset.range 50, blockSq (Xin V c) s)) := by
  have hN : t.val < 50 := lt_of_lt_of_eq t.isLt (show cfg10.N = 50 from N_10)
  have hl : t.val + 1 = 50 := by have := (flush10_1 t).mp hf; omega
  show (cfg10.win 1).cut (grid10.coords t) ((dat10 V c).after 1 t) = _
  rw [after10_1, outsAt_eq V c t.val t.isLt, hl]
  have hz' : (fun a => win10_1.index t a * main_v110.ty.shape.size a) = fun _ => 0 :=
    funext fun a => by fin_cases a <;> rfl
  exact (Memref.read_access_unit_zero (Elt Ideal) main_v110 hz' (fun a => by rw [congrFun hz' a]; simp)
    (const11 (∑ s ∈ Finset.range 50, blockSq (Xin V c) s))).symm

/-- At the region's exit the 1 × 1 output array holds the blocks' sums of squares added up over all 50 blocks: the
    last point's block covers it. -/
theorem arr_blocks (c : Dev nD) :
    (dat10 (F := Ideal) V c).arrAt 1 cfg10.N = const11 (∑ s ∈ Finset.range 50, blockSq (Xin V c) s) :=
  (dat10 V c).arrAt_eq_of_cover 1 (const11 (∑ s ∈ Finset.range 50, blockSq (Xin V c) s)) (flushed_eq V c) fun i =>
    ⟨tLast, (flush10_1 tLast).mpr rfl, by
      show i ∈ ((View.whole main_v110).slice (win10_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win10_1.index tLast 0 * win10_1.size 0 ≤ (i 0 : Nat)
          ∧ (i 0 : Nat) < win10_1.index tLast 0 * win10_1.size 0 + win10_1.xsize (grid10.coords tLast) 0
        rw [show win10_1.index tLast 0 * win10_1.size 0 = 0 from by decide +kernel,
          show win10_1.xsize (grid10.coords tLast) 0 = 1 from by decide +kernel]
        omega
      | ⟨1, _⟩ =>
        show win10_1.index tLast 1 * win10_1.size 1 ≤ (i 1 : Nat)
          ∧ (i 1 : Nat) < win10_1.index tLast 1 * win10_1.size 1 + win10_1.xsize (grid10.coords tLast) 1
        rw [show win10_1.index tLast 1 * win10_1.size 1 = 0 from by decide +kernel,
          show win10_1.xsize (grid10.coords tLast) 1 = 1 from by decide +kernel]
        omega⟩

/-- THE VALUE: at the region's exit the 1 × 1 output array holds, at its one entry, the sum of the squares of all the
    entries of the input array `Y` as the region finds it. -/
theorem arr (c : Dev nD) (Y : FVec Ideal S200000x64 .f32) (hY : V c main_v96 = Y) :
    (dat10 (F := Ideal) V c).arrAt 1 cfg10.N = const11 (∑ i : S200000x64.Idx, Y i * Y i) := by
  subst hY
  exact (arr_blocks V c).trans (congrArg const11 (total_eq (Xin V c)))

/-- The same value in the host's spelling: the reduce-add over both axes, started from the constant 0, of the
    input array times itself, read at the scalar's one index — the initial value plus the sum over every index, and
    the initial value is 0. -/
theorem arr_ref (c : Dev nD) (Y : FVec Ideal S200000x64 .f32) (hY : V c main_v96 = Y) (h : S200000x64.ReducesTo [0, 1] S_)
    (h' : 0 < S_.numel) :
    (dat10 (F := Ideal) V c).arrAt 1 cfg10.N
      = const11 ((Host.reduceAdd (F := Ideal) (mulf Y Y) (constant (F := Ideal) S_ .f32 0x00000000#32) h h') ix0) := by
  rw [arr V c Y hY]
  refine congrArg const11 ?_
  rw [hostReduceAdd_apply, Ideal.hostReduceAdd_total h (fun b => b.elim0)]
  show _ = Ideal.ofBits .f32 0x00000000#32 + ∑ i : S200000x64.Idx, Y i * Y i
  rw [Ideal.ofBits_zero_f32, zero_add]

end Region

end Cert.KernelIdeal.ValSumsq10

end
-- ==== Proof.ValSumsq11.lean ====
/-
  The sum-of-squares region number 11: the value its output array holds at the region's exit.

  The region's grid has 25 points. Its input window walks the 100000 × 64 matrix in consecutive blocks of 4000
  rows; its output is a single 1 × 1 block whose position never moves, so the block is carried from point to point
  and written back after the last point only. The body sets the block to zero at point 0 and, at every point, adds to
  it the sum over the 4000 × 64 entries of the current input block of the entry's square (a sum over the 64 lanes
  of each row, then over the 4000 rows). Hence after point n the block holds 0 + S₀ + S₁ + … + Sₙ, where Sₜ is the
  sum of the squares of the entries in rows 4000·t … 4000·t + 3999, and after the last point it holds the sum of
  the squares of all 100000 × 64 entries: over the extended reals a finite sum may be regrouped freely (addition
  is commutative and associative there, and 0 + x = x), so no finiteness of the entries is used. This is also the
  value the host's reduce-add of x·x over both axes, started from the constant 0, computes.
-/
import proofs.«149916_j40106404610266_2_alg».proof.Proof.Gen.KernelIdeal.Frame
import proofs.«149916_j40106404610266_2_alg».proof.Proof.LibBlockSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.ValSumsq11

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## What each case of the body leaves in the output block (any float instance) -/

section AnyInstance

variable {F : FTy → Type} [FloatOps F]

/-- The zero offsets of a load or store of a whole block. -/
theorem hz : (![0, 0] : Fin 2 → Nat) = fun _ => 0 := funext fun a => by fin_cases a <;> rfl

/-- At a point other than the first the body leaves, in the output block holding `xo`, the accumulating payload of
    the input block `x` and `xo`: its one store covers the block, and its loads read the whole buffers. -/
theorem out_B (c : Dev nD) (i : grid11.Coords) (a1 : Memref sig .tc .vmem S4000x64 .f32) (h1 : a1.IsWhole)
    (a2 : Memref sig .tc .vmem S1x1 .f32) (h2 : a2.IsWhole) (hc : ¬cond11_0 i) (x : Vec F S4000x64 .f32)
    (xo : Vec F S1x1 .f32) : out11_B_1 c i a1 h1 a2 h2 hc x xo = k11_pay2 x xo := by
  unfold out11_B_1
  rw [View.read_writes_eq_canon _ _ _ (cover11_B_1 c i a1 h1 a2 h2 hc x xo)]
  unfold kernelRun11_B
  dsimp only
  sl_unfold_words
  rw [View.canon_unit_zero hz]
  simp only [View.readAt_eq_ld, h1.read_unread, h2.read_unread, View.ld_unit_zero (S := S4000x64) hz,
    View.ld_unit_zero (S := S1x1) hz]

/-- At the first point the body stores the zero block, reads it back and leaves the accumulating payload of the input
    block `x` and that zero block. -/
theorem out_A (c : Dev nD) (i : grid11.Coords) (a1 : Memref sig .tc .vmem S4000x64 .f32) (h1 : a1.IsWhole)
    (a2 : Memref sig .tc .vmem S1x1 .f32) (h2 : a2.IsWhole) (hc : cond11_0 i) (x : Vec F S4000x64 .f32) :
    out11_A_1 c i a1 h1 a2 h2 hc x = k11_pay2 x (k11_pay1 (F := F)) := by
  unfold out11_A_1
  rw [View.read_writes_eq_canon _ _ _ (cover11_A_1 c i a1 h1 a2 h2 hc x)]
  unfold kernelRun11_A
  dsimp only
  sl_unfold_words
  rw [View.canon_cons_unit_zero (S := S1x1) hz, View.readCov_unit_zero (S := S1x1) _ hz]
  simp only [View.readAt_eq_ld, h1.read_unread, View.ld_unit_zero (S := S4000x64) hz,
    View.ld_unit_zero (S := S1x1) hz]

end AnyInstance

/-! ## The payloads over the extended reals -/

/-- Over row `r`, lane `l` is entry (r, l) of the block. -/
theorem lift_lane (h : S4000x64.Reduces [1] S4000) (r : Fin 4000) (l : Fin 64) : h.lift (ix1 r) l = ix2 r l := by
  funext a; match a with
    | ⟨0, _⟩ => exact Fin.ext rfl
    | ⟨1, _⟩ => exact Fin.ext rfl

/-- Over the one entry of the column of row sums' total, row `r` is entry (r, 0) of the column. -/
theorem lift_row (h : S4000x1.Reduces [0] S1) (u : Fin 1) (r : Fin 4000) : h.lift (ix1 u) r = ix2 r u := by
  funext a; match a with
    | ⟨0, _⟩ => exact Fin.ext rfl
    | ⟨1, _⟩ => exact Fin.ext rfl

/-- The reset payload is the zero block. -/
theorem pay1_apply (j : S1x1.Idx) : k11_pay1 (F := Ideal) j = 0 := by
  show Ideal.ofBits .f32 0x00000000#32 = 0
  exact Ideal.ofBits_zero_f32

/-- The accumulating payload adds to the carried block the sum, over the rows and lanes of the input block, of the
    entry's square. -/
theorem pay2_apply (x : Vec Ideal S4000x64 .f32) (xo : Vec Ideal S1x1 .f32) (j : S1x1.Idx) :
    k11_pay2 (F := Ideal) x xo j = xo j + ∑ r : Fin 4000, ∑ l : Fin 64, x (ix2 r l) * x (ix2 r l) := by
  obtain ⟨a, b, rfl⟩ : ∃ (a b : Fin 1), j = ix2 a b := ⟨j 0, j 1, eq_ix2 j⟩
  unfold k11_pay2
  dsimp only
  refine (addf_apply _ _ (ix2 a b)).trans ?_
  refine congrArg₂ (· + ·) (congrFun (shapeCast_self xo _) (ix2 a b)) ?_
  refine (shapeCast_apply _ _ (ix2 a b) (ix1 (0 : Fin 1)) ?_).trans ?_
  · rw [Shape.rowMajor_val_one, Shape.rowMajor_val_two]
    show (0 : ℕ) = a.val * 1 + b.val
    omega
  refine (Ideal.multiReduction_add_single _ _ _ _ _ (ix1 (0 : Fin 1))).trans ?_
  refine Finset.sum_congr rfl fun (r : Fin 4000) _ => ?_
  refine (shapeCast_apply _ _ _ (ix1 r) ?_).trans ?_
  · rw [Shape.rowMajor_val_one, Shape.rowMajor_val_two]
    show r.val = r.val * 1 + 0
    omega
  refine (Ideal.multiReduction_add_single _ _ _ _ _ (ix1 r)).trans ?_
  refine Finset.sum_congr rfl fun (l : Fin 64) _ => ?_
  rw [lift_lane]
  show shapeCast S4000x64 x shapeCasts_S4000x64_S4000x64 (ix2 r l) * shapeCast S4000x64 x shapeCasts_S4000x64_S4000x64 (ix2 r l) = _
  rw [shapeCast_self]

/-- The constant 1 × 1 block. -/
abbrev const11 (s : EReal) : Vec Ideal S1x1 .f32 := fun _ => s

/-- One accumulating step: a carried block constantly `s` becomes constantly `s + b`, `b` the input block's sum of
    squares. -/
theorem step_apply (x : Vec Ideal S4000x64 .f32) (s b : EReal)
    (hb : ∑ r : Fin 4000, ∑ l : Fin 64, x (ix2 r l) * x (ix2 r l) = b) :
    k11_pay2 (F := Ideal) x (const11 s) = const11 (s + b) :=
  funext fun j => (pay2_apply x (const11 s) j).trans (by rw [hb])

/-- The first step, over the zero block: the block becomes constantly the input block's sum of squares. -/
theorem first_apply (x : Vec Ideal S4000x64 .f32) (b : EReal)
    (hb : ∑ r : Fin 4000, ∑ l : Fin 64, x (ix2 r l) * x (ix2 r l) = b) :
    k11_pay2 (F := Ideal) x (k11_pay1 (F := Ideal)) = const11 b :=
  funext fun j => (pay2_apply x (k11_pay1 (F := Ideal)) j).trans (by rw [pay1_apply, zero_add, hb])

/-! ## The region's value at its entry contents -/

/-- The sum of the squares of the entries of rows 4000·t … 4000·t + 3999 of a 100000 × 64 matrix (zero for a `t`
    past the last block). -/
def blockSq (Y : FVec Ideal S100000x64 .f32) (t : ℕ) : EReal :=
  if h : t < 25 then
    ∑ r : Fin 4000, ∑ l : Fin 64,
      Y (ix2 (⟨t * 4000 + r.val, LibBlockSum.row_lt (N := 100000) (by decide) (⟨t, h⟩ : Fin 25) r⟩ : Fin 100000) l)
        * Y (ix2 (⟨t * 4000 + r.val, LibBlockSum.row_lt (N := 100000) (by decide) (⟨t, h⟩ : Fin 25) r⟩ : Fin 100000) l)
  else 0

/-- The blocks' sums of squares add up to the sum of the squares of all the entries. -/
theorem total_eq (Y : FVec Ideal S100000x64 .f32) :
    ∑ s ∈ Finset.range 25, blockSq Y s = ∑ i : S100000x64.Idx, Y i * Y i := by
  rw [← Fin.sum_univ_eq_sum_range (fun s => blockSq Y s) 25, LibBlockSum.sum_100000x64 (fun i => Y i * Y i)]
  refine Finset.sum_congr rfl fun t _ => ?_
  unfold blockSq
  rw [dif_pos t.isLt]

section Region

variable (V : (c : Dev nD) → (b : Ref sig .tc) → Buf (Elt Ideal) ((c : Thread nD τ).loc b))

/-- The input array as the region finds it. -/
abbrev Xin (c : Dev nD) : FVec Ideal S100000x64 .f32 := V c main_v109

/-- The input window's block at point `t`. -/
abbrev blk (c : Dev nD) (t : Fin cfg11.N) : Vec Ideal S4000x64 .f32 := iblk11 V c 0 t

/-- The input window's block index at point `t` is (t, 0): decided over the grid. -/
theorem idx_facts : ∀ t : Fin cfg11.N, win11_0.index t (0 : Fin 2) = t.val ∧ win11_0.index t (1 : Fin 2) = 0 :=
  (by decide +kernel : ∀ t : Fin grid11.N, win11_0.index t (0 : Fin 2) = t.val ∧ win11_0.index t (1 : Fin 2) = 0)

/-- Entry (r, l) of the input block at point `t` is entry (4000·t + r, l) of the input array. -/
theorem iblk_apply (c : Dev nD) (t : Fin cfg11.N) (r : Fin 4000) (l : Fin 64) (hr : t.val * 4000 + r.val < 100000) :
    blk V c t (ix2 r l) = Xin V c (ix2 (⟨t.val * 4000 + r.val, hr⟩ : Fin 100000) l) := by
  obtain ⟨e0, e1⟩ := idx_facts t
  unfold blk Xin iblk11
  rw [View.read_apply]
  show V c main_v109 (((cfg11.win 0).blk t).view.emb (ix2 r l)) = V c main_v109 _
  refine congrArg (V c main_v109 : S100000x64.Idx → EReal) ?_
  funext a; apply Fin.ext
  match a with
  | ⟨0, _⟩ => show win11_0.index t (0 : Fin 2) * 4000 + 1 * r.val = t.val * 4000 + r.val; omega
  | ⟨1, _⟩ => show win11_0.index t (1 : Fin 2) * 64 + 1 * l.val = l.val; omega

/-- The input block at point `t` has the sum of squares of the rows 4000·t … 4000·t + 3999 of the input array. -/
theorem blockSq_eq (c : Dev nD) (t : Fin cfg11.N) :
    ∑ r : Fin 4000, ∑ l : Fin 64, blk V c t (ix2 r l) * blk V c t (ix2 r l) = blockSq (Xin V c) t.val := by
  have h50 : t.val < 25 := lt_of_lt_of_eq t.isLt (show cfg11.N = 25 from N_11)
  unfold blockSq
  rw [dif_pos h50]
  refine Finset.sum_congr rfl fun r _ => Finset.sum_congr rfl fun l _ => ?_
  rw [iblk_apply V c t r l (LibBlockSum.row_lt (N := 100000) (by decide) (⟨t.val, h50⟩ : Fin 25) r)]

/-- THE INVARIANT: after point `n` the output block holds, at its one entry, the sum of the squares of the rows below
    4000·(n + 1) — the blocks' sums of squares added up from block 0 to block `n`. By induction on the point. -/
theorem outsAt_eq (c : Dev nD) (n : ℕ) : ∀ (h : n < cfg11.N),
    outsAt11 V c n h = const11 (∑ s ∈ Finset.range (n + 1), blockSq (Xin V c) s) := by
  induction n with
  | zero =>
    intro h
    refine (outsAt11_A V c ⟨0, h⟩ rfl).trans ?_
    refine (out_A (F := Ideal) c (grid11.coords ⟨0, h⟩) (ms11_0 ⟨0, h⟩) (hs11_0 ⟨0, h⟩) (ms11_1 ⟨0, h⟩) (hs11_1 ⟨0, h⟩)
      ((hcond11_0 ⟨0, h⟩).mpr rfl) (iblk11 V c 0 ⟨0, h⟩)).trans ?_
    refine first_apply (blk V c ⟨0, h⟩) (∑ s ∈ Finset.range (0 + 1), blockSq (Xin V c) s) ((blockSq_eq V c ⟨0, h⟩).trans ?_)
    rw [Finset.sum_range_succ, Finset.range_zero, Finset.sum_empty, zero_add]
  | succ n ih =>
    intro h
    have hN : n + 1 < 25 := lt_of_lt_of_eq h (show cfg11.N = 25 from N_11)
    have hB : ¬(⟨n + 1, h⟩ : Fin cfg11.N).val % 25 = 0 := by dsimp only; omega
    have ih' := ih (Nat.lt_of_succ_lt h)
    refine (outsAt11_B V c ⟨n + 1, h⟩ hB).trans ?_
    refine (out_B (F := Ideal) c (grid11.coords ⟨n + 1, h⟩) (ms11_0 ⟨n + 1, h⟩) (hs11_0 ⟨n + 1, h⟩) (ms11_1 ⟨n + 1, h⟩)
      (hs11_1 ⟨n + 1, h⟩) (fun hc => hB ((hcond11_0 ⟨n + 1, h⟩).mp hc)) (iblk11 V c 0 ⟨n + 1, h⟩)
      (outsAt11 V c n (Nat.lt_of_succ_lt h))).trans ?_
    refine (congrArg (k11_pay2 (F := Ideal) (blk V c ⟨n + 1, h⟩)) ih').trans ?_
    exact (step_apply (blk V c ⟨n + 1, h⟩) (∑ s ∈ Finset.range (n + 1), blockSq (Xin V c) s) (blockSq (Xin V c) (n + 1))
      (blockSq_eq V c ⟨n + 1, h⟩)).trans
      (congrArg const11 (Finset.sum_range_succ (fun s => blockSq (Xin V c) s) (n + 1)).symm)

/-- The last point of the grid, the one that writes the output block back. -/
def tLast : Fin cfg11.N := ⟨24, by rw [show cfg11.N = 25 from N_11]; decide⟩

/-- The one write-back, after the last point, writes the blocks' sums of squares added up over all 25 blocks: the
    output's block (0, 0) read through zero offsets is the whole 1 × 1 array. -/
theorem flushed_eq (c : Dev nD) (t : Fin cfg11.N) (hf : (cfg11.win 1).flush t = true) :
    (dat11 V c).flushed 1 t
      = ((cfg11.win 1).blk t).view.read (Elt Ideal) (const11 (∑ s ∈ Finset.range 25, blockSq (Xin V c) s)) := by
  have hN : t.val < 25 := lt_of_lt_of_eq t.isLt (show cfg11.N = 25 from N_11)
  have hl : t.val + 1 = 25 := by have := (flush11_1 t).mp hf; omega
  show (cfg11.win 1).cut (grid11.coords t) ((dat11 V c).after 1 t) = _
  rw [after11_1, outsAt_eq V c t.val t.isLt, hl]
  have hz' : (fun a => win11_1.index t a * main_v112.ty.shape.size a) = fun _ => 0 :=
    funext fun a => by fin_cases a <;> rfl
  exact (Memref.read_access_unit_zero (Elt Ideal) main_v112 hz' (fun a => by rw [congrFun hz' a]; simp)
    (const11 (∑ s ∈ Finset.range 25, blockSq (Xin V c) s))).symm

/-- At the region's exit the 1 × 1 output array holds the blocks' sums of squares added up over all 25 blocks: the
    last point's block covers it. -/
theorem arr_blocks (c : Dev nD) :
    (dat11 (F := Ideal) V c).arrAt 1 cfg11.N = const11 (∑ s ∈ Finset.range 25, blockSq (Xin V c) s) :=
  (dat11 V c).arrAt_eq_of_cover 1 (const11 (∑ s ∈ Finset.range 25, blockSq (Xin V c) s)) (flushed_eq V c) fun i =>
    ⟨tLast, (flush11_1 tLast).mpr rfl, by
      show i ∈ ((View.whole main_v112).slice (win11_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win11_1.index tLast 0 * win11_1.size 0 ≤ (i 0 : Nat)
          ∧ (i 0 : Nat) < win11_1.index tLast 0 * win11_1.size 0 + win11_1.xsize (grid11.coords tLast) 0
        rw [show win11_1.index tLast 0 * win11_1.size 0 = 0 from by decide +kernel,
          show win11_1.xsize (grid11.coords tLast) 0 = 1 from by decide +kernel]
        omega
      | ⟨1, _⟩ =>
        show win11_1.index tLast 1 * win11_1.size 1 ≤ (i 1 : Nat)
          ∧ (i 1 : Nat) < win11_1.index tLast 1 * win11_1.size 1 + win11_1.xsize (grid11.coords tLast) 1
        rw [show win11_1.index tLast 1 * win11_1.size 1 = 0 from by decide +kernel,
          show win11_1.xsize (grid11.coords tLast) 1 = 1 from by decide +kernel]
        omega⟩

/-- THE VALUE: at the region's exit the 1 × 1 output array holds, at its one entry, the sum of the squares of all the
    entries of the input array `Y` as the region finds it. -/
theorem arr (c : Dev nD) (Y : FVec Ideal S100000x64 .f32) (hY : V c main_v109 = Y) :
    (dat11 (F := Ideal) V c).arrAt 1 cfg11.N = const11 (∑ i : S100000x64.Idx, Y i * Y i) := by
  subst hY
  exact (arr_blocks V c).trans (congrArg const11 (total_eq (Xin V c)))

/-- The same value in the host's spelling: the reduce-add over both axes, started from the constant 0, of the
    input array times itself, read at the scalar's one index — the initial value plus the sum over every index, and
    the initial value is 0. -/
theorem arr_ref (c : Dev nD) (Y : FVec Ideal S100000x64 .f32) (hY : V c main_v109 = Y) (h : S100000x64.ReducesTo [0, 1] S_)
    (h' : 0 < S_.numel) :
    (dat11 (F := Ideal) V c).arrAt 1 cfg11.N
      = const11 ((Host.reduceAdd (F := Ideal) (mulf Y Y) (constant (F := Ideal) S_ .f32 0x00000000#32) h h') ix0) := by
  rw [arr V c Y hY]
  refine congrArg const11 ?_
  rw [hostReduceAdd_apply, Ideal.hostReduceAdd_total h (fun b => b.elim0)]
  show _ = Ideal.ofBits .f32 0x00000000#32 + ∑ i : S100000x64.Idx, Y i * Y i
  rw [Ideal.ofBits_zero_f32, zero_add]

end Region

end Cert.KernelIdeal.ValSumsq11

end
-- ==== Proof.ChainB3.lean ====
/-
  The middle of the second hop's tail: from the exit of the attention region to the entry of the first
  normalize-and-add region.

  Two sum-of-squares regions and two one-entry square roots lie between the two boundaries. Each
  sum-of-squares region reads one aggregate (and leaves it as it found it) and leaves, in a 1 x 1 array, the
  sum over the whole aggregate of the squared entries: the same sum the reference takes when it squares the
  aggregate entry by entry and adds everything into a scalar. The host then takes the square root of the one
  entry, as the reference takes the square root of its scalar. Nothing else is written: the two aggregates,
  the first hop's two residual sums and the small normalized table pass through unchanged. So at the later
  boundary the two 1 x 1 arrays hold the reference's two global norms and the other buffers hold what they
  held at the earlier one.
-/
import proofs.«149916_j40106404610266_2_alg».proof.Proof.ChainB0
import proofs.«149916_j40106404610266_2_alg».proof.Proof.ValSumsq10
import proofs.«149916_j40106404610266_2_alg».proof.Proof.ValSumsq11

set_option maxRecDepth 16384

noncomputable section

namespace Cert.ChainB

open Idealize.ShloMosaic Idealize.ShloMosaic.TcCoe Idealize.SL.Sem
open Cert.KernelIdeal

variable (m : (ℓ : Loc nD τ sig) → Buf (Elt Ideal) ℓ) (ρ : Dev nD → PrngReg) (c : Dev nD)

namespace S3

/-! ## The two one-entry square roots -/

/-- The first square root writes the item norm's 1 x 1 array only. -/
theorem W23_of_ne (b : Ref sig .tc) (hb : b ≠ main_v111) : Gen.W23 (F := Ideal) m ρ c (Proc.devRef .tc b) = Gen.W22 (F := Ideal) m ρ c (Proc.devRef .tc b) := by
  show StableHlo.after Gen.hostOps11 (Gen.W22 (F := Ideal) m ρ c) (Proc.devRef .tc b) = _
  unfold Gen.hostOps11
  rw [StableHlo.after_cons, StableHlo.after_nil]
  exact StableHlo.unary_result_ne _ _ _ _ _ _ hb

/-- and leaves there the square root of the one-entry sum of squares. -/
theorem W23_v111 : Gen.W23 (F := Ideal) m ρ c (Proc.devRef .tc main_v111) = Host.sqrt (F := Ideal) (s := S1x1) (φ := .f32) (Gen.W22 (F := Ideal) m ρ c (Proc.devRef .tc main_v110) : Vec Ideal S1x1 .f32) := by
  show StableHlo.after Gen.hostOps11 (Gen.W22 (F := Ideal) m ρ c) (Proc.devRef .tc main_v111) = _
  unfold Gen.hostOps11
  rw [StableHlo.after_cons, StableHlo.after_nil]
  exact StableHlo.unary_result _ _ _ _ _ _

/-- The second square root writes the user norm's 1 x 1 array only. -/
theorem W25_of_ne (b : Ref sig .tc) (hb : b ≠ main_v113) : Gen.W25 (F := Ideal) m ρ c (Proc.devRef .tc b) = Gen.W24 (F := Ideal) m ρ c (Proc.devRef .tc b) := by
  show StableHlo.after Gen.hostOps12 (Gen.W24 (F := Ideal) m ρ c) (Proc.devRef .tc b) = _
  unfold Gen.hostOps12
  rw [StableHlo.after_cons, StableHlo.after_nil]
  exact StableHlo.unary_result_ne _ _ _ _ _ _ hb

/-- and leaves there the square root of the one-entry sum of squares. -/
theorem W25_v113 : Gen.W25 (F := Ideal) m ρ c (Proc.devRef .tc main_v113) = Host.sqrt (F := Ideal) (s := S1x1) (φ := .f32) (Gen.W24 (F := Ideal) m ρ c (Proc.devRef .tc main_v112) : Vec Ideal S1x1 .f32) := by
  show StableHlo.after Gen.hostOps12 (Gen.W24 (F := Ideal) m ρ c) (Proc.devRef .tc main_v113) = _
  unfold Gen.hostOps12
  rw [StableHlo.after_cons, StableHlo.after_nil]
  exact StableHlo.unary_result _ _ _ _ _ _

/-! ## What passes through -/

/-- A buffer that is no array of either region and neither square root's result passes through. -/
theorem carry (b : Ref sig .tc) (h10 : ∀ w, Pipeline.arrRef spec10 w ≠ b) (h11 : ∀ w, Pipeline.arrRef spec11 w ≠ b)
    (hb1 : b ≠ main_v111) (hb2 : b ≠ main_v113) : Gen.W25 (F := Ideal) m ρ c (Proc.devRef .tc b) = Gen.W21 (F := Ideal) m ρ c (Proc.devRef .tc b) :=
  (W25_of_ne m ρ c b hb2).trans ((Gen.W24_of_ne (F := Ideal) m ρ c b h11).trans
    ((W23_of_ne m ρ c b hb1).trans (Gen.W22_of_ne (F := Ideal) m ρ c b h10)))

/-- The item aggregate is the first region's input: read, never written back. -/
theorem carry_v96 : Gen.W25 (F := Ideal) m ρ c (Proc.devRef .tc main_v96) = Gen.W21 (F := Ideal) m ρ c (Proc.devRef .tc main_v96) :=
  (W25_of_ne m ρ c main_v96 (by decide)).trans ((Gen.W24_of_ne (F := Ideal) m ρ c main_v96 (by decide)).trans
    ((W23_of_ne m ρ c main_v96 (by decide)).trans
      ((Gen.W22_arr (F := Ideal) m ρ c 0).trans
        (((Gen.dat10 (F := Ideal) (Gen.V21 (F := Ideal) m ρ) c).arrAt_in 0 rfl _).trans (Gen.A_eq10 (F := Ideal) (Gen.V21 (F := Ideal) m ρ) c 0)))))

/-- The user aggregate at the second region's entry is what it was at the start. -/
theorem v109_at23 : Gen.W23 (F := Ideal) m ρ c (Proc.devRef .tc main_v109) = Gen.W21 (F := Ideal) m ρ c (Proc.devRef .tc main_v109) :=
  (W23_of_ne m ρ c main_v109 (by decide)).trans (Gen.W22_of_ne (F := Ideal) m ρ c main_v109 (by decide))

/-- The user aggregate is the second region's input: read, never written back. -/
theorem carry_v109 : Gen.W25 (F := Ideal) m ρ c (Proc.devRef .tc main_v109) = Gen.W21 (F := Ideal) m ρ c (Proc.devRef .tc main_v109) :=
  (W25_of_ne m ρ c main_v109 (by decide)).trans
    (((Gen.W24_arr (F := Ideal) m ρ c 0).trans
        (((Gen.dat11 (F := Ideal) (Gen.V23 (F := Ideal) m ρ) c).arrAt_in 0 rfl _).trans (Gen.A_eq11 (F := Ideal) (Gen.V23 (F := Ideal) m ρ) c 0))).trans
      (v109_at23 m ρ c))

/-! ## The two norms -/

/-- The square root of a one-entry array is the one-entry array of the square root. -/
theorem sqrt_const (s : EReal) :
    Host.sqrt (F := Ideal) (s := S1x1) (φ := .f32) (fun _ => s) = fun _ => FloatOps.hostUnary (F := Ideal) (φ := .f32) .sqrt s := rfl

/-- The reference's item sum of squares: every entry of the aggregate squared, all added into a scalar. -/
theorem v148_eq (x1 : (⟨S200000x64, .f32⟩ : BufTy).Contents (Elt Ideal)) (x3 : (⟨S9x64, .f32⟩ : BufTy).Contents (Elt Ideal)) (x6 x7 x8 : (⟨S2000000, .i32⟩ : BufTy).Contents (Elt Ideal)) :
    Cert.ReferenceIdeal.Read.val_main_v148 (F := Ideal) x1 x3 x6 x7 x8
      = Host.reduceAdd (F := Ideal) (mulf (Cert.ReferenceIdeal.Read.val_main_v117 (F := Ideal) x1 x3 x6 x7 x8) (Cert.ReferenceIdeal.Read.val_main_v117 (F := Ideal) x1 x3 x6 x7 x8))
          (constant (F := Ideal) S_ .f32 0x00000000#32) Cert.ReferenceIdeal.Facts₀.reducesTo_S200000x64_S_d0_1 Cert.ReferenceIdeal.Facts₀.h_S_ := by
  unfold Cert.ReferenceIdeal.Read.val_main_v148 Cert.ReferenceIdeal.Read.val_main_v147 Cert.ReferenceIdeal.Read.val_main_cst_34
  rfl

/-- The reference's user sum of squares. -/
theorem v153_eq (x0 : (⟨S100000x64, .f32⟩ : BufTy).Contents (Elt Ideal)) (x1 : (⟨S200000x64, .f32⟩ : BufTy).Contents (Elt Ideal)) (x2 : (⟨S4x64, .f32⟩ : BufTy).Contents (Elt Ideal)) (x3 : (⟨S9x64, .f32⟩ : BufTy).Contents (Elt Ideal)) (x4 : (⟨S4x9, .f32⟩ : BufTy).Contents (Elt Ideal)) (x5 : (⟨S1000000, .f32⟩ : BufTy).Contents (Elt Ideal)) (x6 x7 x8 : (⟨S2000000, .i32⟩ : BufTy).Contents (Elt Ideal)) (x9 x10 : (⟨S1000000, .i32⟩ : BufTy).Contents (Elt Ideal)) :
    Cert.ReferenceIdeal.Read.val_main_v153 (F := Ideal) x0 x1 x2 x3 x4 x5 x6 x7 x8 x9 x10
      = Host.reduceAdd (F := Ideal) (mulf (Cert.ReferenceIdeal.Read.val_main_v146 (F := Ideal) x0 x1 x2 x3 x4 x5 x6 x7 x8 x9 x10) (Cert.ReferenceIdeal.Read.val_main_v146 (F := Ideal) x0 x1 x2 x3 x4 x5 x6 x7 x8 x9 x10))
          (constant (F := Ideal) S_ .f32 0x00000000#32) Cert.ReferenceIdeal.Facts₀.reducesTo_S100000x64_S_d0_1 Cert.ReferenceIdeal.Facts₀.h_S_ := by
  unfold Cert.ReferenceIdeal.Read.val_main_v153 Cert.ReferenceIdeal.Read.val_main_v152 Cert.ReferenceIdeal.Read.val_main_cst_35
  rfl

/-- The item norm: the square root of the sum of the squared entries of the item aggregate. -/
theorem v111 (h : At21 m ρ c) :
    Gen.W25 (F := Ideal) m ρ c (Proc.devRef .tc main_v111) = (fun (_ : S1x1.Idx) => ((Cert.ReferenceIdeal.Read.val_main_v149 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) ValueIdx.ix0 : EReal)) := by
  refine (W25_of_ne m ρ c main_v111 (by decide)).trans ?_
  refine (Gen.W24_of_ne (F := Ideal) m ρ c main_v111 (by decide)).trans ?_
  refine (W23_v111 m ρ c).trans ?_
  rw [show Gen.W22 (F := Ideal) m ρ c (Proc.devRef .tc main_v110) = _ from (Gen.W22_arr (F := Ideal) m ρ c 1).trans
    (Cert.KernelIdeal.ValSumsq10.arr_ref (Gen.V21 (F := Ideal) m ρ) c (Cert.ReferenceIdeal.Read.val_main_v117 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))) h.v96 Cert.ReferenceIdeal.Facts₀.reducesTo_S200000x64_S_d0_1 Cert.ReferenceIdeal.Facts₀.h_S_)]
  rw [sqrt_const]
  funext _
  rw [Cert.ReferenceIdeal.Read.val_main_v149_apply, v148_eq]

/-- The user norm: the square root of the sum of the squared entries of the user aggregate. -/
theorem v113 (h : At21 m ρ c) :
    Gen.W25 (F := Ideal) m ρ c (Proc.devRef .tc main_v113) = (fun (_ : S1x1.Idx) => ((Cert.ReferenceIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) ValueIdx.ix0 : EReal)) := by
  refine (W25_v113 m ρ c).trans ?_
  rw [show Gen.W24 (F := Ideal) m ρ c (Proc.devRef .tc main_v112) = _ from (Gen.W24_arr (F := Ideal) m ρ c 1).trans
    (Cert.KernelIdeal.ValSumsq11.arr_ref (Gen.V23 (F := Ideal) m ρ) c (Cert.ReferenceIdeal.Read.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) ((v109_at23 m ρ c).trans h.v109) Cert.ReferenceIdeal.Facts₀.reducesTo_S100000x64_S_d0_1 Cert.ReferenceIdeal.Facts₀.h_S_)]
  rw [sqrt_const]
  funext _
  rw [Cert.ReferenceIdeal.Read.val_main_v154_apply, v153_eq]

end S3

/-- From the exit of the attention region to the entry of the first normalize-and-add region: the two global
    norms now stand in their 1 x 1 arrays, and the five carried buffers hold what they held. -/
theorem at25 (h : At21 m ρ c) : At25 m ρ c where
  v9 := (S3.carry m ρ c main_v9 (by decide) (by decide) (by decide) (by decide)).trans h.v9
  v68_1 := (S3.carry m ρ c main_v68_1 (by decide) (by decide) (by decide) (by decide)).trans h.v68_1
  v69_1 := (S3.carry m ρ c main_v69_1 (by decide) (by decide) (by decide) (by decide)).trans h.v69_1
  v96 := (S3.carry_v96 m ρ c).trans h.v96
  v109 := (S3.carry_v109 m ρ c).trans h.v109
  v111 := S3.v111 m ρ c h
  v113 := S3.v113 m ρ c h

end Cert.ChainB

end
-- ==== Proof.ValNorm12.lean ====
/-
  The normalize-and-add region over the 200000 x 64 aggregate (blocks of 4000 rows, 50 grid points).

  At every grid point the body reads a block x of the aggregate, the 1 x 1 norm n (the same whole array at every
  point) and the matching block r of the residual, and stores

      emb = x * (1 / n)        (the reciprocal of the norm, broadcast over the block, times the block)
      res = r + emb.

  Both outputs are pointwise in the row and the column, the output blocks have the same index map as the input
  blocks (row = 4000 * t + y at point t), and the 50 blocks tile the 200000 rows. So once the norm array is the
  constant s, the two output arrays after the region are, index by index,

      emb i = agg i * (1 / s),      res i = resid i + agg i * (1 / s).

  For s ≠ 0, x * (1 / s) = x / s at every extended real x (both are x * s⁻¹), which gives the quotient
  spelling  emb i = agg i / s,  res i = resid i + agg i / s.
-/
import proofs.«149916_j40106404610266_2_alg».proof.Proof.Gen.KernelIdeal.Frame
import proofs.«149916_j40106404610266_2_alg».proof.Proof.DivLaw
import Idealize.ShloMosaic.Lib.Pipeline.Value
import Idealize.ShloMosaic.Lib.ValueIdx
import Idealize.ShloMosaic.Lib.IdealHost

noncomputable section

namespace Cert.KernelIdeal.ValNorm12

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b)) (c : Dev nD)

/-- The aggregate, the 1 x 1 norm and the residual as the region finds them. -/
abbrev agg : S200000x64.Idx → EReal := V c main_v96
abbrev nrm : S1x1.Idx → EReal := V c main_v111
abbrev resid : S200000x64.Idx → EReal := V c main_v68_1

/-! ## The body's two stored values at an index -/

theorem hz : (![0, 0] : Fin 2 → Nat) = fun _ => 0 := funext fun a => by fin_cases a <;> rfl

/-- The first stored value: the block times the reciprocal of the (constant) norm. -/
theorem pay1_apply (n : Vec Ideal S1x1 .f32) (x : Vec Ideal S4000x64 .f32) (s : EReal) (hn : n = fun _ => s)
    (j : S4000x64.Idx) : k12_pay1 (F := Ideal) n x j = x j * Ideal.div 1 s := by
  subst hn
  unfold k12_pay1
  simp only [shapeCast_self]
  rw [← Ideal.ofBits_one_f32]
  rfl

/-- The second stored value: the residual block plus the first. -/
theorem pay2_apply (n : Vec Ideal S1x1 .f32) (x r : Vec Ideal S4000x64 .f32) (s : EReal) (hn : n = fun _ => s)
    (j : S4000x64.Idx) : k12_pay2 (F := Ideal) n x r j = r j + x j * Ideal.div 1 s := by
  unfold k12_pay2
  simp only [shapeCast_self]
  exact congrArg (fun z => r j + z) (pay1_apply n x s hn j)

/-! ## The blocks -/

/-- The index maps over the grid: the two 4000-row input windows move with the output windows, block t at rows
    4000 t …, all columns; the norm's window stays at its one block. -/
theorem idx_facts : ∀ t : Fin cfg12.N,
    win12_0.index t (0 : Fin 2) = t.val ∧ win12_0.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0 :=
  (by decide +kernel : ∀ t : Fin grid12.N, _)

/-- The norm's block at every point is the constant. -/
theorem iblk1_eq (s : EReal) (hn : nrm V c = fun _ => s) (t : Fin cfg12.N) :
    (iblk12 V c 1 t : Vec Ideal S1x1 .f32) = fun _ => s := by
  funext y
  unfold iblk12
  rw [View.read_apply]
  show nrm V c _ = s
  rw [hn]

/-- A 4000-row block of the aggregate at a point: row 4000 t + y. -/
theorem iblk0_apply (t : Fin cfg12.N) (y : S4000x64.Idx) (i : S200000x64.Idx)
    (h0 : (i 0).val = t.val * 4000 + (y 0).val) (h1 : (i 1).val = (y 1).val) :
    (iblk12 V c 0 t : Vec Ideal S4000x64 .f32) y = agg V c i := by
  obtain ⟨e0, e1, -⟩ := idx_facts t
  unfold iblk12
  rw [View.read_apply]
  show agg V c _ = agg V c i
  refine congrArg (agg V c) (funext fun a => Fin.ext ?_)
  match a with
  | ⟨0, _⟩ => show win12_0.index t (0 : Fin 2) * 4000 + 1 * (y 0).val = (i 0).val; rw [e0, h0]; omega
  | ⟨1, _⟩ => show win12_0.index t (1 : Fin 2) * 64 + 1 * (y 1).val = (i 1).val; rw [e1, h1]; omega

/-- A 4000-row block of the residual at a point: row 4000 t + y. -/
theorem iblk2_apply (t : Fin cfg12.N) (y : S4000x64.Idx) (i : S200000x64.Idx)
    (h0 : (i 0).val = t.val * 4000 + (y 0).val) (h1 : (i 1).val = (y 1).val) :
    (iblk12 V c 2 t : Vec Ideal S4000x64 .f32) y = resid V c i := by
  obtain ⟨-, -, e0, e1, -⟩ := idx_facts t
  unfold iblk12
  rw [View.read_apply]
  show resid V c _ = resid V c i
  refine congrArg (resid V c) (funext fun a => Fin.ext ?_)
  match a with
  | ⟨0, _⟩ => show win12_2.index t (0 : Fin 2) * 4000 + 1 * (y 0).val = (i 0).val; rw [e0, h0]; omega
  | ⟨1, _⟩ => show win12_2.index t (1 : Fin 2) * 64 + 1 * (y 1).val = (i 1).val; rw [e1, h1]; omega

/-! ## What a point writes back -/

/-- Point t writes back, into the first output, block t of the normalized aggregate. -/
theorem flushed3_eq (s : EReal) (hn : nrm V c = fun _ => s) (t : Fin cfg12.N) :
    (dat12 (F := Ideal) V c).flushed 3 t
      = ((cfg12.win 3).blk t).view.read (Elt Ideal) (fun i => agg V c i * Ideal.div 1 s) := by
  show (cfg12.win 3).cut (grid12.coords t) ((dat12 (F := Ideal) V c).after 3 t) = _
  rw [after12_3]
  unfold out12_3
  rw [View.canon_unit_zero hz]
  simp only [View.ld_unit_zero (S := S4000x64) hz, View.ld_unit_zero (S := S1x1) hz]
  obtain ⟨-, -, -, -, e0, e1, -⟩ := idx_facts t
  funext y
  rw [View.read_apply]
  refine (pay1_apply (iblk12 V c 1 t) (iblk12 V c 0 t) s (iblk1_eq V c s hn t) y).trans ?_
  refine congrArg (fun z => z * Ideal.div 1 s) (iblk0_apply V c t y _ ?_ ?_)
  · show win12_3.index t (0 : Fin 2) * 4000 + 1 * (y 0).val = t.val * 4000 + (y 0).val; rw [e0]; omega
  · show win12_3.index t (1 : Fin 2) * 64 + 1 * (y 1).val = (y 1).val; rw [e1]; omega

/-- Point t writes back, into the second output, block t of the residual plus the normalized aggregate. -/
theorem flushed4_eq (s : EReal) (hn : nrm V c = fun _ => s) (t : Fin cfg12.N) :
    (dat12 (F := Ideal) V c).flushed 4 t
      = ((cfg12.win 4).blk t).view.read (Elt Ideal) (fun i => resid V c i + agg V c i * Ideal.div 1 s) := by
  show (cfg12.win 4).cut (grid12.coords t) ((dat12 (F := Ideal) V c).after 4 t) = _
  rw [after12_4]
  unfold out12_4
  rw [View.canon_unit_zero hz]
  simp only [View.ld_unit_zero (S := S4000x64) hz, View.ld_unit_zero (S := S1x1) hz]
  obtain ⟨-, -, -, -, -, -, e0, e1⟩ := idx_facts t
  funext y
  rw [View.read_apply]
  refine (pay2_apply (iblk12 V c 1 t) (iblk12 V c 0 t) (iblk12 V c 2 t) s (iblk1_eq V c s hn t) y).trans ?_
  have h0 : ((((cfg12.win 4).blk t).view.emb y) 0).val = t.val * 4000 + (y 0).val := by
    show win12_4.index t (0 : Fin 2) * 4000 + 1 * (y 0).val = t.val * 4000 + (y 0).val; rw [e0]; omega
  have h1 : ((((cfg12.win 4).blk t).view.emb y) 1).val = (y 1).val := by
    show win12_4.index t (1 : Fin 2) * 64 + 1 * (y 1).val = (y 1).val; rw [e1]; omega
  rw [iblk2_apply V c t y _ h0 h1, iblk0_apply V c t y _ h0 h1]
  rfl

/-! ## The blocks tile the array -/

/-- A row is in point t's block of the first output iff it is one of rows 4000 t … 4000 t + 3999. -/
theorem mem_blk3 (t : Fin cfg12.N) (i : S200000x64.Idx) :
    i ∈ ((cfg12.win 3).blk t).view.set ↔ ∀ a : Fin 2, win12_3.index t a * S4000x64.size a ≤ (i a).val ∧ (i a).val < win12_3.index t a * S4000x64.size a + S4000x64.size a := by
  show i ∈ ((View.whole main_v114_0).slice (win12_3.rect t)).set ↔ _
  rw [View.set_slice_whole, Rect.mem_set_unit]
  exact Iff.rfl

theorem mem_blk4 (t : Fin cfg12.N) (i : S200000x64.Idx) :
    i ∈ ((cfg12.win 4).blk t).view.set ↔ ∀ a : Fin 2, win12_4.index t a * S4000x64.size a ≤ (i a).val ∧ (i a).val < win12_4.index t a * S4000x64.size a + S4000x64.size a := by
  show i ∈ ((View.whole main_v114_1).slice (win12_4.rect t)).set ↔ _
  rw [View.set_slice_whole, Rect.mem_set_unit]
  exact Iff.rfl

/-- Row r is covered by point r / 4000. -/
theorem cover3 (i : S200000x64.Idx) :
    ∃ t : Fin cfg12.N, (cfg12.win 3).flush t = true ∧ i ∈ ((cfg12.win 3).blk t).view.set := by
  have hi0 : (i 0).val < 200000 := (i 0).isLt
  have hi1 : (i 1).val < 64 := (i 1).isLt
  have hN : cfg12.N = 50 := N_12
  let t : Fin cfg12.N := ⟨(i 0).val / 4000, by rw [hN]; omega⟩
  have ht : t.val = (i 0).val / 4000 := rfl
  obtain ⟨-, -, -, -, e0, e1, -⟩ := idx_facts t
  refine ⟨t, flush12_3 t, ?_⟩
  rw [mem_blk3]
  intro a
  match a with
  | ⟨0, _⟩ => show win12_3.index t (0 : Fin 2) * 4000 ≤ (i 0).val ∧ (i 0).val < win12_3.index t (0 : Fin 2) * 4000 + 4000; rw [e0, ht]; omega
  | ⟨1, _⟩ => show win12_3.index t (1 : Fin 2) * 64 ≤ (i 1).val ∧ (i 1).val < win12_3.index t (1 : Fin 2) * 64 + 64; rw [e1]; omega

theorem cover4 (i : S200000x64.Idx) :
    ∃ t : Fin cfg12.N, (cfg12.win 4).flush t = true ∧ i ∈ ((cfg12.win 4).blk t).view.set := by
  have hi0 : (i 0).val < 200000 := (i 0).isLt
  have hi1 : (i 1).val < 64 := (i 1).isLt
  have hN : cfg12.N = 50 := N_12
  let t : Fin cfg12.N := ⟨(i 0).val / 4000, by rw [hN]; omega⟩
  have ht : t.val = (i 0).val / 4000 := rfl
  obtain ⟨-, -, -, -, -, -, e0, e1⟩ := idx_facts t
  refine ⟨t, flush12_4 t, ?_⟩
  rw [mem_blk4]
  intro a
  match a with
  | ⟨0, _⟩ => show win12_4.index t (0 : Fin 2) * 4000 ≤ (i 0).val ∧ (i 0).val < win12_4.index t (0 : Fin 2) * 4000 + 4000; rw [e0, ht]; omega
  | ⟨1, _⟩ => show win12_4.index t (1 : Fin 2) * 64 ≤ (i 1).val ∧ (i 1).val < win12_4.index t (1 : Fin 2) * 64 + 64; rw [e1]; omega

/-! ## The two output arrays after the region -/

/-- The normalized aggregate: every entry times the reciprocal of the norm. -/
theorem emb_raw (s : EReal) (hn : nrm V c = fun _ => s) :
    (dat12 (F := Ideal) V c).arrAt 3 cfg12.N = fun i => agg V c i * Ideal.div 1 s :=
  (dat12 (F := Ideal) V c).arrAt_eq_of_cover 3 (fun i => agg V c i * Ideal.div 1 s)
    (fun t _ => flushed3_eq V c s hn t) cover3

/-- The residual plus the normalized aggregate. -/
theorem res_raw (s : EReal) (hn : nrm V c = fun _ => s) :
    (dat12 (F := Ideal) V c).arrAt 4 cfg12.N = fun i => resid V c i + agg V c i * Ideal.div 1 s :=
  (dat12 (F := Ideal) V c).arrAt_eq_of_cover 4 (fun i => resid V c i + agg V c i * Ideal.div 1 s)
    (fun t _ => flushed4_eq V c s hn t) cover4

/-- For a nonzero norm the normalized aggregate is the quotient by the norm. -/
theorem emb (s : EReal) (hn : nrm V c = fun _ => s) (hs : s ≠ 0) :
    (dat12 (F := Ideal) V c).arrAt 3 cfg12.N = fun i => Ideal.div (agg V c i) s := by
  rw [emb_raw V c s hn]
  funext i
  exact (Cert.NormLaw.div_eq_mul_one_div hs _).symm

/-- For a nonzero norm the second output is the residual plus the quotient. -/
theorem res (s : EReal) (hn : nrm V c = fun _ => s) (hs : s ≠ 0) :
    (dat12 (F := Ideal) V c).arrAt 4 cfg12.N = fun i => resid V c i + Ideal.div (agg V c i) s := by
  rw [res_raw V c s hn]
  funext i
  exact congrArg (fun z => resid V c i + z) (Cert.NormLaw.div_eq_mul_one_div hs _).symm

end Cert.KernelIdeal.ValNorm12

end
-- ==== Proof.ValNorm13.lean ====
/-
  The normalize-and-add region over the 100000 x 64 aggregate (blocks of 4000 rows, 25 grid points).

  At every grid point the body reads a block x of the aggregate, the 1 x 1 norm n (the same whole array at every
  point) and the matching block r of the residual, and stores

      emb = x * (1 / n)        (the reciprocal of the norm, broadcast over the block, times the block)
      res = r + emb.

  Both outputs are pointwise in the row and the column, the output blocks have the same index map as the input
  blocks (row = 4000 * t + y at point t), and the 25 blocks tile the 100000 rows. So once the norm array is the
  constant s, the two output arrays after the region are, index by index,

      emb i = agg i * (1 / s),      res i = resid i + agg i * (1 / s).

  For s ≠ 0, x * (1 / s) = x / s at every extended real x (both are x * s⁻¹), which gives the quotient
  spelling  emb i = agg i / s,  res i = resid i + agg i / s.
-/
import proofs.«149916_j40106404610266_2_alg».proof.Proof.Gen.KernelIdeal.Frame
import proofs.«149916_j40106404610266_2_alg».proof.Proof.DivLaw
import Idealize.ShloMosaic.Lib.Pipeline.Value
import Idealize.ShloMosaic.Lib.ValueIdx
import Idealize.ShloMosaic.Lib.IdealHost

noncomputable section

namespace Cert.KernelIdeal.ValNorm13

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b)) (c : Dev nD)

/-- The aggregate, the 1 x 1 norm and the residual as the region finds them. -/
abbrev agg : S100000x64.Idx → EReal := V c main_v109
abbrev nrm : S1x1.Idx → EReal := V c main_v113
abbrev resid : S100000x64.Idx → EReal := V c main_v69_1

/-! ## The body's two stored values at an index -/

theorem hz : (![0, 0] : Fin 2 → Nat) = fun _ => 0 := funext fun a => by fin_cases a <;> rfl

/-- The first stored value: the block times the reciprocal of the (constant) norm. -/
theorem pay1_apply (n : Vec Ideal S1x1 .f32) (x : Vec Ideal S4000x64 .f32) (s : EReal) (hn : n = fun _ => s)
    (j : S4000x64.Idx) : k13_pay1 (F := Ideal) n x j = x j * Ideal.div 1 s := by
  subst hn
  unfold k13_pay1
  simp only [shapeCast_self]
  rw [← Ideal.ofBits_one_f32]
  rfl

/-- The second stored value: the residual block plus the first. -/
theorem pay2_apply (n : Vec Ideal S1x1 .f32) (x r : Vec Ideal S4000x64 .f32) (s : EReal) (hn : n = fun _ => s)
    (j : S4000x64.Idx) : k13_pay2 (F := Ideal) n x r j = r j + x j * Ideal.div 1 s := by
  unfold k13_pay2
  simp only [shapeCast_self]
  exact congrArg (fun z => r j + z) (pay1_apply n x s hn j)

/-! ## The blocks -/

/-- The index maps over the grid: the two 4000-row input windows move with the output windows, block t at rows
    4000 t …, all columns; the norm's window stays at its one block. -/
theorem idx_facts : ∀ t : Fin cfg13.N,
    win13_0.index t (0 : Fin 2) = t.val ∧ win13_0.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0 :=
  (by decide +kernel : ∀ t : Fin grid13.N, _)

/-- The norm's block at every point is the constant. -/
theorem iblk1_eq (s : EReal) (hn : nrm V c = fun _ => s) (t : Fin cfg13.N) :
    (iblk13 V c 1 t : Vec Ideal S1x1 .f32) = fun _ => s := by
  funext y
  unfold iblk13
  rw [View.read_apply]
  show nrm V c _ = s
  rw [hn]

/-- A 4000-row block of the aggregate at a point: row 4000 t + y. -/
theorem iblk0_apply (t : Fin cfg13.N) (y : S4000x64.Idx) (i : S100000x64.Idx)
    (h0 : (i 0).val = t.val * 4000 + (y 0).val) (h1 : (i 1).val = (y 1).val) :
    (iblk13 V c 0 t : Vec Ideal S4000x64 .f32) y = agg V c i := by
  obtain ⟨e0, e1, -⟩ := idx_facts t
  unfold iblk13
  rw [View.read_apply]
  show agg V c _ = agg V c i
  refine congrArg (agg V c) (funext fun a => Fin.ext ?_)
  match a with
  | ⟨0, _⟩ => show win13_0.index t (0 : Fin 2) * 4000 + 1 * (y 0).val = (i 0).val; rw [e0, h0]; omega
  | ⟨1, _⟩ => show win13_0.index t (1 : Fin 2) * 64 + 1 * (y 1).val = (i 1).val; rw [e1, h1]; omega

/-- A 4000-row block of the residual at a point: row 4000 t + y. -/
theorem iblk2_apply (t : Fin cfg13.N) (y : S4000x64.Idx) (i : S100000x64.Idx)
    (h0 : (i 0).val = t.val * 4000 + (y 0).val) (h1 : (i 1).val = (y 1).val) :
    (iblk13 V c 2 t : Vec Ideal S4000x64 .f32) y = resid V c i := by
  obtain ⟨-, -, e0, e1, -⟩ := idx_facts t
  unfold iblk13
  rw [View.read_apply]
  show resid V c _ = resid V c i
  refine congrArg (resid V c) (funext fun a => Fin.ext ?_)
  match a with
  | ⟨0, _⟩ => show win13_2.index t (0 : Fin 2) * 4000 + 1 * (y 0).val = (i 0).val; rw [e0, h0]; omega
  | ⟨1, _⟩ => show win13_2.index t (1 : Fin 2) * 64 + 1 * (y 1).val = (i 1).val; rw [e1, h1]; omega

/-! ## What a point writes back -/

/-- Point t writes back, into the first output, block t of the normalized aggregate. -/
theorem flushed3_eq (s : EReal) (hn : nrm V c = fun _ => s) (t : Fin cfg13.N) :
    (dat13 (F := Ideal) V c).flushed 3 t
      = ((cfg13.win 3).blk t).view.read (Elt Ideal) (fun i => agg V c i * Ideal.div 1 s) := by
  show (cfg13.win 3).cut (grid13.coords t) ((dat13 (F := Ideal) V c).after 3 t) = _
  rw [after13_3]
  unfold out13_3
  rw [View.canon_unit_zero hz]
  simp only [View.ld_unit_zero (S := S4000x64) hz, View.ld_unit_zero (S := S1x1) hz]
  obtain ⟨-, -, -, -, e0, e1, -⟩ := idx_facts t
  funext y
  rw [View.read_apply]
  refine (pay1_apply (iblk13 V c 1 t) (iblk13 V c 0 t) s (iblk1_eq V c s hn t) y).trans ?_
  refine congrArg (fun z => z * Ideal.div 1 s) (iblk0_apply V c t y _ ?_ ?_)
  · show win13_3.index t (0 : Fin 2) * 4000 + 1 * (y 0).val = t.val * 4000 + (y 0).val; rw [e0]; omega
  · show win13_3.index t (1 : Fin 2) * 64 + 1 * (y 1).val = (y 1).val; rw [e1]; omega

/-- Point t writes back, into the second output, block t of the residual plus the normalized aggregate. -/
theorem flushed4_eq (s : EReal) (hn : nrm V c = fun _ => s) (t : Fin cfg13.N) :
    (dat13 (F := Ideal) V c).flushed 4 t
      = ((cfg13.win 4).blk t).view.read (Elt Ideal) (fun i => resid V c i + agg V c i * Ideal.div 1 s) := by
  show (cfg13.win 4).cut (grid13.coords t) ((dat13 (F := Ideal) V c).after 4 t) = _
  rw [after13_4]
  unfold out13_4
  rw [View.canon_unit_zero hz]
  simp only [View.ld_unit_zero (S := S4000x64) hz, View.ld_unit_zero (S := S1x1) hz]
  obtain ⟨-, -, -, -, -, -, e0, e1⟩ := idx_facts t
  funext y
  rw [View.read_apply]
  refine (pay2_apply (iblk13 V c 1 t) (iblk13 V c 0 t) (iblk13 V c 2 t) s (iblk1_eq V c s hn t) y).trans ?_
  have h0 : ((((cfg13.win 4).blk t).view.emb y) 0).val = t.val * 4000 + (y 0).val := by
    show win13_4.index t (0 : Fin 2) * 4000 + 1 * (y 0).val = t.val * 4000 + (y 0).val; rw [e0]; omega
  have h1 : ((((cfg13.win 4).blk t).view.emb y) 1).val = (y 1).val := by
    show win13_4.index t (1 : Fin 2) * 64 + 1 * (y 1).val = (y 1).val; rw [e1]; omega
  rw [iblk2_apply V c t y _ h0 h1, iblk0_apply V c t y _ h0 h1]
  rfl

/-! ## The blocks tile the array -/

/-- A row is in point t's block of the first output iff it is one of rows 4000 t … 4000 t + 3999. -/
theorem mem_blk3 (t : Fin cfg13.N) (i : S100000x64.Idx) :
    i ∈ ((cfg13.win 3).blk t).view.set ↔ ∀ a : Fin 2, win13_3.index t a * S4000x64.size a ≤ (i a).val ∧ (i a).val < win13_3.index t a * S4000x64.size a + S4000x64.size a := by
  show i ∈ ((View.whole main_v115_0).slice (win13_3.rect t)).set ↔ _
  rw [View.set_slice_whole, Rect.mem_set_unit]
  exact Iff.rfl

theorem mem_blk4 (t : Fin cfg13.N) (i : S100000x64.Idx) :
    i ∈ ((cfg13.win 4).blk t).view.set ↔ ∀ a : Fin 2, win13_4.index t a * S4000x64.size a ≤ (i a).val ∧ (i a).val < win13_4.index t a * S4000x64.size a + S4000x64.size a := by
  show i ∈ ((View.whole main_v115_1).slice (win13_4.rect t)).set ↔ _
  rw [View.set_slice_whole, Rect.mem_set_unit]
  exact Iff.rfl

/-- Row r is covered by point r / 4000. -/
theorem cover3 (i : S100000x64.Idx) :
    ∃ t : Fin cfg13.N, (cfg13.win 3).flush t = true ∧ i ∈ ((cfg13.win 3).blk t).view.set := by
  have hi0 : (i 0).val < 100000 := (i 0).isLt
  have hi1 : (i 1).val < 64 := (i 1).isLt
  have hN : cfg13.N = 25 := N_13
  let t : Fin cfg13.N := ⟨(i 0).val / 4000, by rw [hN]; omega⟩
  have ht : t.val = (i 0).val / 4000 := rfl
  obtain ⟨-, -, -, -, e0, e1, -⟩ := idx_facts t
  refine ⟨t, flush13_3 t, ?_⟩
  rw [mem_blk3]
  intro a
  match a with
  | ⟨0, _⟩ => show win13_3.index t (0 : Fin 2) * 4000 ≤ (i 0).val ∧ (i 0).val < win13_3.index t (0 : Fin 2) * 4000 + 4000; rw [e0, ht]; omega
  | ⟨1, _⟩ => show win13_3.index t (1 : Fin 2) * 64 ≤ (i 1).val ∧ (i 1).val < win13_3.index t (1 : Fin 2) * 64 + 64; rw [e1]; omega

theorem cover4 (i : S100000x64.Idx) :
    ∃ t : Fin cfg13.N, (cfg13.win 4).flush t = true ∧ i ∈ ((cfg13.win 4).blk t).view.set := by
  have hi0 : (i 0).val < 100000 := (i 0).isLt
  have hi1 : (i 1).val < 64 := (i 1).isLt
  have hN : cfg13.N = 25 := N_13
  let t : Fin cfg13.N := ⟨(i 0).val / 4000, by rw [hN]; omega⟩
  have ht : t.val = (i 0).val / 4000 := rfl
  obtain ⟨-, -, -, -, -, -, e0, e1⟩ := idx_facts t
  refine ⟨t, flush13_4 t, ?_⟩
  rw [mem_blk4]
  intro a
  match a with
  | ⟨0, _⟩ => show win13_4.index t (0 : Fin 2) * 4000 ≤ (i 0).val ∧ (i 0).val < win13_4.index t (0 : Fin 2) * 4000 + 4000; rw [e0, ht]; omega
  | ⟨1, _⟩ => show win13_4.index t (1 : Fin 2) * 64 ≤ (i 1).val ∧ (i 1).val < win13_4.index t (1 : Fin 2) * 64 + 64; rw [e1]; omega

/-! ## The two output arrays after the region -/

/-- The normalized aggregate: every entry times the reciprocal of the norm. -/
theorem emb_raw (s : EReal) (hn : nrm V c = fun _ => s) :
    (dat13 (F := Ideal) V c).arrAt 3 cfg13.N = fun i => agg V c i * Ideal.div 1 s :=
  (dat13 (F := Ideal) V c).arrAt_eq_of_cover 3 (fun i => agg V c i * Ideal.div 1 s)
    (fun t _ => flushed3_eq V c s hn t) cover3

/-- The residual plus the normalized aggregate. -/
theorem res_raw (s : EReal) (hn : nrm V c = fun _ => s) :
    (dat13 (F := Ideal) V c).arrAt 4 cfg13.N = fun i => resid V c i + agg V c i * Ideal.div 1 s :=
  (dat13 (F := Ideal) V c).arrAt_eq_of_cover 4 (fun i => resid V c i + agg V c i * Ideal.div 1 s)
    (fun t _ => flushed4_eq V c s hn t) cover4

/-- For a nonzero norm the normalized aggregate is the quotient by the norm. -/
theorem emb (s : EReal) (hn : nrm V c = fun _ => s) (hs : s ≠ 0) :
    (dat13 (F := Ideal) V c).arrAt 3 cfg13.N = fun i => Ideal.div (agg V c i) s := by
  rw [emb_raw V c s hn]
  funext i
  exact (Cert.NormLaw.div_eq_mul_one_div hs _).symm

/-- For a nonzero norm the second output is the residual plus the quotient. -/
theorem res (s : EReal) (hn : nrm V c = fun _ => s) (hs : s ≠ 0) :
    (dat13 (F := Ideal) V c).arrAt 4 cfg13.N = fun i => resid V c i + Ideal.div (agg V c i) s := by
  rw [res_raw V c s hn]
  funext i
  exact congrArg (fun z => resid V c i + z) (Cert.NormLaw.div_eq_mul_one_div hs _).symm

end Cert.KernelIdeal.ValNorm13

end
-- ==== Proof.ChainB4.lean ====
/-
  The last two regions of the second hop: from the entry of the first normalize-and-add region to the
  program's results.

  At the entry the two aggregates, the two residual sums of the first hop and the two global norms (each the
  one entry of a 1 x 1 array) hold the reference's stages. Each normalize-and-add region multiplies every
  entry of its aggregate by the reciprocal of its norm and adds the residual; for a nonzero norm that is the
  residual plus the aggregate divided by the norm, entry by entry, which is how the reference spells its last
  two sums (it broadcasts the scalar norm over the array, divides, and adds). The first region does not touch
  the second region's three inputs, neither region touches the small normalized table, and the second region
  does not touch the first region's result; so the three results at the end are the reference's.
-/
import proofs.«149916_j40106404610266_2_alg».proof.Proof.ChainB0
import proofs.«149916_j40106404610266_2_alg».proof.Proof.ValNorm12
import proofs.«149916_j40106404610266_2_alg».proof.Proof.ValNorm13

set_option maxRecDepth 16384

noncomputable section

namespace Cert.ChainB

open Idealize.ShloMosaic Idealize.ShloMosaic.TcCoe Idealize.SL.Sem
open Cert.KernelIdeal

variable (m : (ℓ : Loc nD τ sig) → Buf (Elt Ideal) ℓ) (ρ : Dev nD → PrngReg) (c : Dev nD)

namespace S4

/-- A scalar has one index: the index a broadcast of a scalar reads is that one. -/
theorem scalar_idx (j : (⟨0, ![]⟩ : Shape).Idx) : j = ValueIdx.ix0 := funext fun a => a.elim0

/-- The item side: the first normalize-and-add region's second result is the reference's last item sum. -/
theorem item (h : At25 m ρ c)
    (hne2 : (Cert.ReferenceIdeal.Read.val_main_v149 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) ValueIdx.ix0 : EReal) ≠ 0) :
    Gen.W27 (F := Ideal) m ρ c (Proc.devRef .tc main_v114_1) = Cert.ReferenceIdeal.Read.val_main_v157 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) := by
  refine (Gen.W27_of_ne (F := Ideal) m ρ c main_v114_1 (by decide)).trans ?_
  refine (Gen.W26_arr (F := Ideal) m ρ c 4).trans ?_
  have e1 : Cert.KernelIdeal.ValNorm12.resid (Gen.V25 (F := Ideal) m ρ) c = Cert.ReferenceIdeal.Read.val_main_v89 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) := h.v68_1
  have e2 : Cert.KernelIdeal.ValNorm12.agg (Gen.V25 (F := Ideal) m ρ) c = Cert.ReferenceIdeal.Read.val_main_v117 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) := h.v96
  rw [Cert.KernelIdeal.ValNorm12.res (Gen.V25 (F := Ideal) m ρ) c _ h.v111 hne2, e1, e2]
  funext i
  rw [Cert.ReferenceIdeal.Read.val_main_v157_apply, Cert.ReferenceIdeal.Read.val_main_v151_apply, Cert.ReferenceIdeal.Read.val_main_v150_apply, scalar_idx (Cert.ReferenceIdeal.Read.idx_main_v150 i)]
  rfl

/-- The user side: the second normalize-and-add region's second result is the reference's last user sum. -/
theorem user (h : At25 m ρ c)
    (hnu2 : (Cert.ReferenceIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ValueIdx.ix0 : EReal) ≠ 0) :
    Gen.W27 (F := Ideal) m ρ c (Proc.devRef .tc main_v115_1) = Cert.ReferenceIdeal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (Gen.W27_arr (F := Ideal) m ρ c 4).trans ?_
  have e0 : Cert.KernelIdeal.ValNorm13.nrm (Gen.V26 (F := Ideal) m ρ) c = fun _ => (Cert.ReferenceIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ValueIdx.ix0 : EReal) :=
    (Gen.W26_of_ne (F := Ideal) m ρ c main_v113 (by decide)).trans h.v113
  have e1 : Cert.KernelIdeal.ValNorm13.resid (Gen.V26 (F := Ideal) m ρ) c = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) :=
    (Gen.W26_of_ne (F := Ideal) m ρ c main_v69_1 (by decide)).trans h.v69_1
  have e2 : Cert.KernelIdeal.ValNorm13.agg (Gen.V26 (F := Ideal) m ρ) c = Cert.ReferenceIdeal.Read.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    (Gen.W26_of_ne (F := Ideal) m ρ c main_v109 (by decide)).trans h.v109
  rw [Cert.KernelIdeal.ValNorm13.res (Gen.V26 (F := Ideal) m ρ) c _ e0 hnu2, e1, e2]
  funext i
  rw [Cert.ReferenceIdeal.Read.val_main_v158_apply, Cert.ReferenceIdeal.Read.val_main_v156_apply, Cert.ReferenceIdeal.Read.val_main_v155_apply, scalar_idx (Cert.ReferenceIdeal.Read.idx_main_v155 i)]
  rfl

/-- The small normalized table is touched by neither region. -/
theorem table (h : At25 m ρ c) :
    Gen.W27 (F := Ideal) m ρ c (Proc.devRef .tc main_v9) = Cert.ReferenceIdeal.Read.val_main_v9 (F := Ideal) (m ((c.tc : Thread nD τ).loc main_arg4)) :=
  (Gen.W27_of_ne (F := Ideal) m ρ c main_v9 (by decide)).trans
    ((Gen.W26_of_ne (F := Ideal) m ρ c main_v9 (by decide)).trans h.v9)

end S4

/-- From the entry of the first normalize-and-add region to the end: the kernel's three results hold the
    reference's three results, as functions of the launch arguments, when the two global norms are nonzero. -/
theorem fin (h : At25 m ρ c)
    (hne2 : (Cert.ReferenceIdeal.Read.val_main_v149 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) ValueIdx.ix0 : EReal) ≠ 0)
    (hnu2 : (Cert.ReferenceIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ValueIdx.ix0 : EReal) ≠ 0) :
    Gen.W27 (F := Ideal) m ρ c (Proc.devRef .tc main_v114_1) = Cert.ReferenceIdeal.Read.val_main_v157 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))
    ∧ Gen.W27 (F := Ideal) m ρ c (Proc.devRef .tc main_v115_1) = Cert.ReferenceIdeal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ Gen.W27 (F := Ideal) m ρ c (Proc.devRef .tc main_v9) = Cert.ReferenceIdeal.Read.val_main_v9 (F := Ideal) (m ((c.tc : Thread nD τ).loc main_arg4)) :=
  ⟨S4.item m ρ c h hne2, S4.user m ρ c h hnu2, S4.table m ρ c h⟩

end Cert.ChainB

end
-- ==== Proof.ChainB.lean ====
/-
  Hop 2 of the kernel's run read as values, whole: from the end of the first hop (boundary 15) to the three
  results at the last boundary.

  The hop is four legs laid end to end. The first leg gathers and multiplies the messages along the edges and
  averages them onto the users; the second weights and scatters the user rows onto the items and mixes them with
  the factor table by attention; the third takes the two global norms; the last divides each aggregate by its
  norm and adds it to the first hop's residual sum. Each leg hands the next the statement that every buffer still
  to be read holds the reference's stage of the launch arguments, so the composite says that the kernel's two
  residual sums and its factor similarity scalar are the reference's results. The two norms are assumed
  nonzero: dividing by a norm and multiplying by its reciprocal agree exactly then.
-/
import proofs.«149916_j40106404610266_2_alg».proof.Proof.ChainA0
import proofs.«149916_j40106404610266_2_alg».proof.Proof.ChainB0
import proofs.«149916_j40106404610266_2_alg».proof.Proof.ChainB1
import proofs.«149916_j40106404610266_2_alg».proof.Proof.ChainB2
import proofs.«149916_j40106404610266_2_alg».proof.Proof.ChainB3
import proofs.«149916_j40106404610266_2_alg».proof.Proof.ChainB4

set_option maxRecDepth 16384

noncomputable section

namespace Cert.ChainB

open Idealize.ShloMosaic Idealize.ShloMosaic.TcCoe Idealize.SL.Sem
open Cert.KernelIdeal

variable (m : (ℓ : Loc nD τ sig) → Buf (Elt Ideal) ℓ) (ρ : Dev nD → PrngReg) (c : Dev nD)

/-- From the end of the first hop to the results: the kernel's two residual sums and its factor similarity
    scalar are the reference's, when the hop's two global norms are nonzero. -/
theorem hop2 (h : Cert.ChainA.At15 m ρ c)
    (hne2 : (Cert.ReferenceIdeal.Read.val_main_v149 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) ValueIdx.ix0 : EReal) ≠ 0)
    (hnu2 : (Cert.ReferenceIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ValueIdx.ix0 : EReal) ≠ 0) :
    Gen.W27 (F := Ideal) m ρ c (Proc.devRef .tc main_v114_1) = Cert.ReferenceIdeal.Read.val_main_v157 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))
    ∧ Gen.W27 (F := Ideal) m ρ c (Proc.devRef .tc main_v115_1) = Cert.ReferenceIdeal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ Gen.W27 (F := Ideal) m ρ c (Proc.devRef .tc main_v9) = Cert.ReferenceIdeal.Read.val_main_v9 (F := Ideal) (m ((c.tc : Thread nD τ).loc main_arg4)) :=
  fin m ρ c (at25 m ρ c (at21 m ρ c (at18 m ρ c h))) hne2 hnu2

end Cert.ChainB

end
-- ==== Proof.Bridge.lean ====
/-
  The idealized kernel's three results as the reference's stages of the launch arguments.
  Under the precondition each of the four global norms the reference divides by (per hop: of the entity aggregate and of
  the user aggregate) is nonzero. Hop 1 then carries the launch memory through the first seven regions to the state in
  which the normalized embeddings and the residual sums hold the reference's values; hop 2 carries that state through
  the last seven regions to the results. The only place where the two programs compute differently is the
  normalization — the reference divides by the norm, the kernel multiplies by its reciprocal — and for a nonzero norm
  both are the product with the norm's inverse, at every extended real.
-/
import proofs.«149916_j40106404610266_2_alg».proof.Defs
import proofs.«149916_j40106404610266_2_alg».proof.Proof.Gen.KernelIdeal.Frame
import proofs.«149916_j40106404610266_2_alg».proof.Proof.Gen.ReferenceIdeal.Read
import proofs.«149916_j40106404610266_2_alg».proof.Proof.PreNorms
import proofs.«149916_j40106404610266_2_alg».proof.Proof.ChainA
import proofs.«149916_j40106404610266_2_alg».proof.Proof.ChainB

noncomputable section

namespace Cert.Bridge

open Idealize.ShloMosaic Idealize.SL.Sem

/-- Every device's result buffers after the kernel's run (the last boundary's contents) are the reference's result
    stages of the kernel's own argument arrays. -/
theorem results (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W27 (F := Ideal) m ρ c (Proc.devRef .tc Cert.KernelIdeal.main_v114_1)
        = Cert.ReferenceIdeal.Read.val_main_v157 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    ∧ Cert.KernelIdeal.Gen.W27 (F := Ideal) m ρ c (Proc.devRef .tc Cert.KernelIdeal.main_v115_1)
        = Cert.ReferenceIdeal.Read.val_main_v158 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    ∧ Cert.KernelIdeal.Gen.W27 (F := Ideal) m ρ c (Proc.devRef .tc Cert.KernelIdeal.main_v9)
        = Cert.ReferenceIdeal.Read.val_main_v9 (F := Ideal) (m ((c.tc : Thread Cert.KernelIdeal.nD Cert.KernelIdeal.τ).loc Cert.KernelIdeal.main_arg4)) := by
  obtain ⟨hne, hnu, hne2, hnu2⟩ := Cert.PreNorms.norms_ne m hpre c
  exact Cert.ChainB.hop2 (m := m) (ρ := ρ) (c := c) (Cert.ChainA.hop1 (m := m) (ρ := ρ) (c := c) hne hnu) hne2 hnu2

end Cert.Bridge

end
-- ==== Proof.lean ====
/-
  The proof of `Cert.Claim`: the three frames, `preserves` (the idealization rewrote nothing: `True`), and the
  algebraic claim between the idealized kernel and the idealized reference.
  The kernel is a two-hop graph message passing: per hop, gather–multiply–scatter-mean over the edges, a sparse
  user aggregation combined with a factor attention, the global L2 norm of each aggregate, normalization and a
  residual sum. Its fourteen regions compute, on the arguments' extended reals, what the reference's host operations
  compute: products block by block, the attention row by row, each sum of squares accumulated over row blocks (the
  same sum in another order), and the normalization as a product with the reciprocal of the norm, which equals the
  reference's quotient because the precondition keeps every norm away from zero.
  The kernel's run names its results at the last boundary's contents; the bridge identifies those with the
  reference's result stages of the same arguments; the reference's run states the same stages of its own arguments,
  which agree with the kernel's.
-/
import proofs.«149916_j40106404610266_2_alg».proof.Defs
import proofs.«149916_j40106404610266_2_alg».proof.Proof.Gen.Kernel
import proofs.«149916_j40106404610266_2_alg».proof.Proof.Gen.Kernel.Frame
import proofs.«149916_j40106404610266_2_alg».proof.Proof.Gen.KernelIdeal
import proofs.«149916_j40106404610266_2_alg».proof.Proof.Gen.KernelIdeal.Frame
import proofs.«149916_j40106404610266_2_alg».proof.Proof.Gen.ReferenceIdeal
import proofs.«149916_j40106404610266_2_alg».proof.Proof.Gen.Pre_finite_inputs
import proofs.«149916_j40106404610266_2_alg».proof.Proof.Gen.ReferenceIdeal.Run
import proofs.«149916_j40106404610266_2_alg».proof.Proof.Gen.ReferenceIdeal.Read
import proofs.«149916_j40106404610266_2_alg».proof.Proof.KRun
import proofs.«149916_j40106404610266_2_alg».proof.Proof.Bridge
import Idealize.ShloMosaic.Adequacy
import Idealize.ShloMosaic.Init

noncomputable section
namespace Cert.Proof
open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.ReferenceIdeal.Read.val_main_v157 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v158 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v9 (F := Ideal) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.results m ρ hpre c).1, (h c).2.1.trans (Cert.Bridge.results m ρ hpre c).2.1,
        (h c).2.2.1.trans (Cert.Bridge.results m ρ hpre c).2.2, (h c).2.2.2⟩)
      (Cert.KernelIdeal.KRun.run (F := Ideal) m ρ)
  · refine (θ_run Cert.ReferenceIdeal.defs _ _).mono (fun r h c => ?_) (Cert.ReferenceIdeal.Value.run (F := Ideal) m' ρ')
    obtain ⟨h0, h1, h2, hrest⟩ := h c
    obtain ⟨e0, e1, e2, e3, e4, e5, e6, e7, e8, e9, e10⟩ := hagree c
    refine ⟨?_, ?_, ?_, hrest⟩
    · rw [h0, Cert.ReferenceIdeal.Read.val_main_v157_eq, e1, e3, e6, e7, e8]
    · rw [h1, Cert.ReferenceIdeal.Read.val_main_v158_eq, e0, e1, e2, e3, e4, e5, e6, e7, e8, e9, e10]
    · rw [h2, e4]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
